-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1 : Shape := ⟨1, ![1]⟩
abbrev S384x128 : Shape := ⟨2, ![384, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S1 .f32) (main_arg15 : FVec F S384x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S384x128 .f32 := Host.absf main_arg15
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S1 .f32) (main_arg15 : FVec F S384x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S1 .f32) (main_arg15 : FVec F S384x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S40000x128 .f32) (main_arg1 : IVec S2x640000 32) (main_arg2 : FVec F S640000 .f32) (main_arg3 : IVec S2x640000 32) (main_arg4 : FVec F S640000 .f32) (main_arg5 : FVec F S128x128 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S1 .f32) (main_arg15 : FVec F S384x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000 .f32 := Host.absf main_arg4
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1 : Shape := ⟨1, ![1]⟩
abbrev S384x128 : Shape := ⟨2, ![384, 128]⟩
abbrev S128x384 : Shape := ⟨2, ![128, 384]⟩
abbrev S40000x384 : Shape := ⟨2, ![40000, 384]⟩
abbrev S2000x128 : Shape := ⟨2, ![2000, 128]⟩
abbrev S2000x384 : Shape := ⟨2, ![2000, 384]⟩
abbrev S_ : Shape := ⟨0, ![]⟩
abbrev S1x640000 : Shape := ⟨2, ![1, 640000]⟩
abbrev S640000x1 : Shape := ⟨2, ![640000, 1]⟩
abbrev S640000x128 : Shape := ⟨2, ![640000, 128]⟩
abbrev S384 : Shape := ⟨1, ![384]⟩
abbrev S1x384 : Shape := ⟨2, ![1, 384]⟩
abbrev S1x1 : Shape := ⟨2, ![1, 1]⟩
abbrev S2000 : Shape := ⟨1, ![2000]⟩
abbrev S2000x1 : Shape := ⟨2, ![2000, 1]⟩

abbrev nBuf : Space → Nat
  | .hbm => 178
  | .vmem => 15
  | .smem => 0
  | _ => 0

abbrev hbmTy0_0 (i : Nat) : BufTy := match i % 128 with
  | 0 => ⟨S40000x128, .f32⟩
  | 1 => ⟨S2x640000, .i32⟩
  | 2 => ⟨S640000, .f32⟩
  | 3 => ⟨S2x640000, .i32⟩
  | 4 => ⟨S640000, .f32⟩
  | 5 => ⟨S128x128, .f32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S1, .f32⟩
  | 15 => ⟨S384x128, .f32⟩
  | 16 => ⟨S128x384, .f32⟩
  | 17 => ⟨S40000x384, .f32⟩
  | 18 => ⟨S40000x128, .f32⟩
  | 19 => ⟨S40000x128, .f32⟩
  | 20 => ⟨S40000x128, .f32⟩
  | 21 => ⟨S_, .f32⟩
  | 22 => ⟨S40000x128, .f32⟩
  | 23 => ⟨S40000x128, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S640000x1, .f32⟩
  | 38 => ⟨S640000x128, .f32⟩
  | 39 => ⟨S640000x128, .f32⟩
  | 40 => ⟨S_, .f32⟩
  | 41 => ⟨S40000x128, .f32⟩
  | 42 => ⟨S640000x1, .i32⟩
  | 43 => ⟨S40000x128, .f32⟩
  | 44 => ⟨S_, .f32⟩
  | 45 => ⟨S40000x128, .f32⟩
  | 46 => ⟨S40000x128, .f32⟩
  | 47 => ⟨S40000x128, .f32⟩
  | 48 => ⟨S1x640000, .i32⟩
  | 49 => ⟨S640000, .i32⟩
  | 50 => ⟨S1x640000, .i32⟩
  | 51 => ⟨S640000, .i32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S640000x1, .f32⟩
  | 62 => ⟨S640000x128, .f32⟩
  | 63 => ⟨S640000x128, .f32⟩
  | 64 => ⟨S_, .f32⟩
  | 65 => ⟨S40000x128, .f32⟩
  | 66 => ⟨S640000x1, .i32⟩
  | 67 => ⟨S40000x128, .f32⟩
  | 68 => ⟨S_, .f32⟩
  | 69 => ⟨S40000x128, .f32⟩
  | 70 => ⟨S40000x128, .f32⟩
  | 71 => ⟨S_, .f32⟩
  | 72 => ⟨S40000x128, .f32⟩
  | 73 => ⟨S40000x128, .f32⟩
  | 74 => ⟨S40000x128, .f32⟩
  | 75 => ⟨S_, .f32⟩
  | 76 => ⟨S40000x128, .f32⟩
  | 77 => ⟨S40000x128, .f32⟩
  | 78 => ⟨S40000x128, .f32⟩
  | 79 => ⟨S_, .f32⟩
  | 80 => ⟨S40000x128, .f32⟩
  | 81 => ⟨S40000x128, .f32⟩
  | 82 => ⟨S1x640000, .i32⟩
  | 83 => ⟨S640000, .i32⟩
  | 84 => ⟨S1x640000, .i32⟩
  | 85 => ⟨S640000, .i32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S640000x1, .f32⟩
  | 96 => ⟨S640000x128, .f32⟩
  | 97 => ⟨S640000x128, .f32⟩
  | 98 => ⟨S_, .f32⟩
  | 99 => ⟨S40000x128, .f32⟩
  | 100 => ⟨S640000x1, .i32⟩
  | 101 => ⟨S40000x128, .f32⟩
  | 102 => ⟨S_, .f32⟩
  | 103 => ⟨S40000x128, .f32⟩
  | 104 => ⟨S40000x128, .f32⟩
  | 105 => ⟨S40000x128, .f32⟩
  | 106 => ⟨S1x640000, .i32⟩
  | 107 => ⟨S640000, .i32⟩
  | 108 => ⟨S1x640000, .i32⟩
  | 109 => ⟨S640000, .i32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x128, .f32⟩
  | 119 => ⟨S640000x1, .f32⟩
  | 120 => ⟨S640000x128, .f32⟩
  | 121 => ⟨S640000x128, .f32⟩
  | 122 => ⟨S_, .f32⟩
  | 123 => ⟨S40000x128, .f32⟩
  | 124 => ⟨S640000x1, .i32⟩
  | 125 => ⟨S40000x128, .f32⟩
  | 126 => ⟨S_, .f32⟩
  | 127 => ⟨S40000x128, .f32⟩
  | _ => ⟨S40000x128, .f32⟩

abbrev hbmTy0_1 (i : Nat) : BufTy := match i % 128 with
  | 0 => ⟨S40000x128, .f32⟩
  | 1 => ⟨S_, .f32⟩
  | 2 => ⟨S40000x128, .f32⟩
  | 3 => ⟨S40000x128, .f32⟩
  | 4 => ⟨S40000x128, .f32⟩
  | 5 => ⟨S_, .f32⟩
  | 6 => ⟨S40000x128, .f32⟩
  | 7 => ⟨S40000x128, .f32⟩
  | 8 => ⟨S40000x128, .f32⟩
  | 9 => ⟨S40000x384, .f32⟩
  | 10 => ⟨S_, .f32⟩
  | 11 => ⟨S384, .f32⟩
  | 12 => ⟨S1x384, .f32⟩
  | 13 => ⟨S_, .f32⟩
  | 14 => ⟨S1x384, .f32⟩
  | 15 => ⟨S1x384, .f32⟩
  | 16 => ⟨S_, .i32⟩
  | 17 => ⟨S_, .f32⟩
  | 18 => ⟨S384, .f32⟩
  | 19 => ⟨S1x384, .f32⟩
  | 20 => ⟨S_, .f32⟩
  | 21 => ⟨S1x384, .f32⟩
  | 22 => ⟨S1x384, .f32⟩
  | 23 => ⟨S40000x384, .f32⟩
  | 24 => ⟨S40000x384, .f32⟩
  | 25 => ⟨S40000x384, .f32⟩
  | 26 => ⟨S_, .f32⟩
  | 27 => ⟨S_, .f32⟩
  | 28 => ⟨S_, .f32⟩
  | 29 => ⟨S_, .f32⟩
  | 30 => ⟨S384, .f32⟩
  | 31 => ⟨S1x384, .f32⟩
  | 32 => ⟨S1x384, .f32⟩
  | 33 => ⟨S1x384, .f32⟩
  | 34 => ⟨S_, .f32⟩
  | 35 => ⟨S_, .i1⟩
  | 36 => ⟨S_, .f32⟩
  | 37 => ⟨S_, .f32⟩
  | 38 => ⟨S1x384, .f32⟩
  | 39 => ⟨S1x384, .f32⟩
  | 40 => ⟨S_, .f32⟩
  | 41 => ⟨S1x384, .f32⟩
  | 42 => ⟨S1x384, .f32⟩
  | 43 => ⟨S1x384, .f32⟩
  | 44 => ⟨S384, .f32⟩
  | 45 => ⟨S1x384, .f32⟩
  | 46 => ⟨S384, .f32⟩
  | 47 => ⟨S1x384, .f32⟩
  | 48 => ⟨S1x1, .f32⟩
  | 49 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S2000x384, .f32⟩
  | .local _ .vmem, ⟨4, _⟩ => ⟨S2000x384, .f32⟩
  | .local _ .vmem, ⟨5, _⟩ => ⟨S2000x384, .f32⟩
  | .local _ .vmem, ⟨6, _⟩ => ⟨S2000x384, .f32⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S1x384, .f32⟩
  | .local _ .vmem, ⟨11, _⟩ => ⟨S1x1, .f32⟩
  | .local _ .vmem, ⟨12, _⟩ => ⟨S384x128, .f32⟩
  | .local _ .vmem, ⟨13, _⟩ => ⟨S2000x128, .f32⟩
  | .local _ .vmem, ⟨14, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_20 : Ref sig .tc := ⟨.hbm, 138, rfl⟩
abbrev main_v100 : Ref sig .tc := ⟨.hbm, 139, rfl⟩
abbrev main_v101 : Ref sig .tc := ⟨.hbm, 140, rfl⟩
abbrev main_cst_21 : Ref sig .tc := ⟨.hbm, 141, rfl⟩
abbrev main_v102 : Ref sig .tc := ⟨.hbm, 142, rfl⟩
abbrev main_v103 : Ref sig .tc := ⟨.hbm, 143, rfl⟩
abbrev main_c_22 : Ref sig .tc := ⟨.hbm, 144, rfl⟩
abbrev main_call0_cst : Ref sig .tc := ⟨.hbm, 145, rfl⟩
abbrev main_call0_v0 : Ref sig .tc := ⟨.hbm, 146, rfl⟩
abbrev main_call0_v1 : Ref sig .tc := ⟨.hbm, 147, rfl⟩
abbrev main_call0_cst_0 : Ref sig .tc := ⟨.hbm, 148, rfl⟩
abbrev main_call0_v2 : Ref sig .tc := ⟨.hbm, 149, rfl⟩
abbrev main_call0_v3 : Ref sig .tc := ⟨.hbm, 150, rfl⟩
abbrev main_call0_v4 : Ref sig .tc := ⟨.hbm, 151, rfl⟩
abbrev main_call0_v5 : Ref sig .tc := ⟨.hbm, 152, rfl⟩
abbrev main_call0_v6 : Ref sig .tc := ⟨.hbm, 153, rfl⟩
abbrev main_call0_v7 : Ref sig .tc := ⟨.hbm, 154, rfl⟩
abbrev main_call0_cst_1 : Ref sig .tc := ⟨.hbm, 155, rfl⟩
abbrev main_call0_v8 : Ref sig .tc := ⟨.hbm, 156, rfl⟩
abbrev main_call0_cst_2 : Ref sig .tc := ⟨.hbm, 157, rfl⟩
abbrev main_call0_v9 : Ref sig .tc := ⟨.hbm, 158, rfl⟩
abbrev main_call0_v10 : Ref sig .tc := ⟨.hbm, 159, rfl⟩
abbrev main_call0_v11 : Ref sig .tc := ⟨.hbm, 160, rfl⟩
abbrev main_call0_v12 : Ref sig .tc := ⟨.hbm, 161, rfl⟩
abbrev main_call0_cst_3 : Ref sig .tc := ⟨.hbm, 162, rfl⟩
abbrev main_call0_v13 : Ref sig .tc := ⟨.hbm, 163, rfl⟩
abbrev main_call0_cst_4 : Ref sig .tc := ⟨.hbm, 164, rfl⟩
abbrev main_call0_call0_v0 : Ref sig .tc := ⟨.hbm, 165, rfl⟩
abbrev main_call0_call0_v1 : Ref sig .tc := ⟨.hbm, 166, rfl⟩
abbrev main_v104 : Ref sig .tc := ⟨.hbm, 167, rfl⟩
abbrev main_cst_23 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S128x128_S128x128_S128x128_S128x384_d1 : Shape.Concatenates [S128x128, S128x128, S128x128] S128x384 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  slices_S40000x384_S40000x128_0_0 : S40000x384.Slices ![0, 0] S40000x128
  slices_S40000x384_S40000x128_0_128 : S40000x384.Slices ![0, 128] S40000x128
  slices_S40000x384_S40000x128_0_256 : S40000x384.Slices ![0, 256] S40000x128
  bcast_S_S40000x128 : S_.BroadcastsInDim S40000x128 (![] : Fin 0 → Fin S40000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  concatenates_S40000x128_S40000x128_S40000x128_S40000x384_d1 : Shape.Concatenates [S40000x128, S40000x128, S40000x128] S40000x384 1
  reducesTo_S40000x384_S384_d0 : S40000x384.ReducesTo [0] S384
  h_S_ : 0 < S_.numel
  bcast_S384_S1x384_1 : S384.BroadcastsInDim S1x384 (![1] : Fin 1 → Fin S1x384.rank)
  bcast_S_S1x384 : S_.BroadcastsInDim S1x384 (![] : Fin 0 → Fin S1x384.rank)
  bcast_S1x384_S40000x384_0_1 : S1x384.BroadcastsInDim S40000x384 (![0, 1] : Fin 2 → Fin S40000x384.rank)
  concatenates_S128_S128_S128_S384_d0 : Shape.Concatenates [S128, S128, S128] S384 0
  shapeCasts_S384_S1x384 : S384.ShapeCasts S1x384
  shapeCasts_S1_S1x1 : S1.ShapeCasts S1x1
  shapeCasts_S2000x384_S2000x384 : S2000x384.ShapeCasts S2000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x384 : S1x1.Broadcasts S2000x384
  inb_S384x128_S384x128_0_0 : ∀ a, (![0, 0] : Fin 2 → Nat) a + S384x128.size a ≤ S384x128.size a
  h_S384x128 : 0 < S384x128.numel
  reduces_S2000x128_S2000 : S2000x128.Reduces [1] S2000
  shapeCasts_S2000_S2000x1 : S2000.ShapeCasts S2000x1
  broadcasts_S2000x1_S2000x128 : S2000x1.Broadcasts S2000x128
  dot_S2000x128_S128x384_S2000x384_1_0_0_1_n_n_wf : DotDims.WF S2000x128 S128x384 S2000x384 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S40000x384.size a
  hwx0_2 : ∀ i : grid0.Coords, EltTy.bits .f32 = 32 ∨ (Rect.block (s := S40000x384) S2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S40000x384.size a
  hwx1_0 : ∀ i : grid1.Coords, EltTy.bits .f32 = 32 ∨ (Rect.block (s := S40000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x384.size a ≤ S1x384.size a
  hwx1_1 : ∀ i : grid1.Coords, EltTy.bits .f32 = 32 ∨ (Rect.block (s := S1x384) S1x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384x128.size a ≤ S384x128.size a
  hwx1_6 : ∀ i : grid1.Coords, EltTy.bits .f32 = 32 ∨ (Rect.block (s := S384x128) S384x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S40000x128.size a
  hwx1_7 : ∀ i : grid1.Coords, EltTy.bits .f32 = 32 ∨ (Rect.block (s := S40000x128) S2000x128.size (cc1_transform_7 i) (hinb1_7 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v99) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v103) S1x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v107) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v109) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v111) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v112) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S384x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v113) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1 : Shape := ⟨1, ![1]⟩
abbrev S384x128 : Shape := ⟨2, ![384, 128]⟩
abbrev S_ : Shape := ⟨0, ![]⟩
abbrev S1x640000 : Shape := ⟨2, ![1, 640000]⟩
abbrev S640000x1 : Shape := ⟨2, ![640000, 1]⟩
abbrev S640000x128 : Shape := ⟨2, ![640000, 128]⟩
abbrev S1x128 : Shape := ⟨2, ![1, 128]⟩
abbrev S1x1 : Shape := ⟨2, ![1, 1]⟩
abbrev S40000x384 : Shape := ⟨2, ![40000, 384]⟩
abbrev S40000 : Shape := ⟨1, ![40000]⟩
abbrev S40000x1 : Shape := ⟨2, ![40000, 1]⟩

abbrev nBuf : Space → Nat
  | .hbm => 300
  | .vmem => 0
  | .smem => 0
  | _ => 0

abbrev hbmTy0_0 (i : Nat) : BufTy := match i % 128 with
  | 0 => ⟨S40000x128, .f32⟩
  | 1 => ⟨S2x640000, .i32⟩
  | 2 => ⟨S640000, .f32⟩
  | 3 => ⟨S2x640000, .i32⟩
  | 4 => ⟨S640000, .f32⟩
  | 5 => ⟨S128x128, .f32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S1, .f32⟩
  | 15 => ⟨S384x128, .f32⟩
  | 16 => ⟨S40000x128, .f32⟩
  | 17 => ⟨S40000x128, .f32⟩
  | 18 => ⟨S40000x128, .f32⟩
  | 19 => ⟨S_, .f32⟩
  | 20 => ⟨S40000x128, .f32⟩
  | 21 => ⟨S40000x128, .f32⟩
  | 22 => ⟨S1x640000, .i32⟩
  | 23 => ⟨S640000, .i32⟩
  | 24 => ⟨S1x640000, .i32⟩
  | 25 => ⟨S640000, .i32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x128, .f32⟩
  | 35 => ⟨S640000x1, .f32⟩
  | 36 => ⟨S640000x128, .f32⟩
  | 37 => ⟨S640000x128, .f32⟩
  | 38 => ⟨S_, .f32⟩
  | 39 => ⟨S40000x128, .f32⟩
  | 40 => ⟨S640000x1, .i32⟩
  | 41 => ⟨S40000x128, .f32⟩
  | 42 => ⟨S_, .f32⟩
  | 43 => ⟨S40000x128, .f32⟩
  | 44 => ⟨S40000x128, .f32⟩
  | 45 => ⟨S40000x128, .f32⟩
  | 46 => ⟨S1x640000, .i32⟩
  | 47 => ⟨S640000, .i32⟩
  | 48 => ⟨S1x640000, .i32⟩
  | 49 => ⟨S640000, .i32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S640000x1, .f32⟩
  | 60 => ⟨S640000x128, .f32⟩
  | 61 => ⟨S640000x128, .f32⟩
  | 62 => ⟨S_, .f32⟩
  | 63 => ⟨S40000x128, .f32⟩
  | 64 => ⟨S640000x1, .i32⟩
  | 65 => ⟨S40000x128, .f32⟩
  | 66 => ⟨S_, .f32⟩
  | 67 => ⟨S40000x128, .f32⟩
  | 68 => ⟨S40000x128, .f32⟩
  | 69 => ⟨S_, .f32⟩
  | 70 => ⟨S40000x128, .f32⟩
  | 71 => ⟨S40000x128, .f32⟩
  | 72 => ⟨S40000x128, .f32⟩
  | 73 => ⟨S_, .f32⟩
  | 74 => ⟨S40000x128, .f32⟩
  | 75 => ⟨S40000x128, .f32⟩
  | 76 => ⟨S40000x128, .f32⟩
  | 77 => ⟨S_, .f32⟩
  | 78 => ⟨S40000x128, .f32⟩
  | 79 => ⟨S40000x128, .f32⟩
  | 80 => ⟨S1x640000, .i32⟩
  | 81 => ⟨S640000, .i32⟩
  | 82 => ⟨S1x640000, .i32⟩
  | 83 => ⟨S640000, .i32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x128, .f32⟩
  | 93 => ⟨S640000x1, .f32⟩
  | 94 => ⟨S640000x128, .f32⟩
  | 95 => ⟨S640000x128, .f32⟩
  | 96 => ⟨S_, .f32⟩
  | 97 => ⟨S40000x128, .f32⟩
  | 98 => ⟨S640000x1, .i32⟩
  | 99 => ⟨S40000x128, .f32⟩
  | 100 => ⟨S_, .f32⟩
  | 101 => ⟨S40000x128, .f32⟩
  | 102 => ⟨S40000x128, .f32⟩
  | 103 => ⟨S40000x128, .f32⟩
  | 104 => ⟨S1x640000, .i32⟩
  | 105 => ⟨S640000, .i32⟩
  | 106 => ⟨S1x640000, .i32⟩
  | 107 => ⟨S640000, .i32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x128, .f32⟩
  | 117 => ⟨S640000x1, .f32⟩
  | 118 => ⟨S640000x128, .f32⟩
  | 119 => ⟨S640000x128, .f32⟩
  | 120 => ⟨S_, .f32⟩
  | 121 => ⟨S40000x128, .f32⟩
  | 122 => ⟨S640000x1, .i32⟩
  | 123 => ⟨S40000x128, .f32⟩
  | 124 => ⟨S_, .f32⟩
  | 125 => ⟨S40000x128, .f32⟩
  | 126 => ⟨S40000x128, .f32⟩
  | 127 => ⟨S_, .f32⟩
  | _ => ⟨S40000x128, .f32⟩

abbrev hbmTy0_1 (i : Nat) : BufTy := match i % 128 with
  | 0 => ⟨S40000x128, .f32⟩
  | 1 => ⟨S40000x128, .f32⟩
  | 2 => ⟨S40000x128, .f32⟩
  | 3 => ⟨S_, .f32⟩
  | 4 => ⟨S40000x128, .f32⟩
  | 5 => ⟨S40000x128, .f32⟩
  | 6 => ⟨S40000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S40000x128, .f32⟩
  | 20 => ⟨S40000x128, .f32⟩
  | 21 => ⟨S40000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S40000x128, .f32⟩
  | 37 => ⟨S40000x128, .f32⟩
  | 38 => ⟨S1x128, .f32⟩
  | 39 => ⟨S40000x128, .f32⟩
  | 40 => ⟨S40000x128, .f32⟩
  | 41 => ⟨S_, .f32⟩
  | 42 => ⟨S128, .f32⟩
  | 43 => ⟨S128, .f32⟩
  | 44 => ⟨S128, .f32⟩
  | 45 => ⟨S1x128, .f32⟩
  | 46 => ⟨S40000x128, .f32⟩
  | 47 => ⟨S40000x128, .f32⟩
  | 48 => ⟨S1x128, .f32⟩
  | 49 => ⟨S40000x128, .f32⟩
  | 50 => ⟨S40000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S40000x128, .f32⟩
  | 64 => ⟨S40000x128, .f32⟩
  | 65 => ⟨S40000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S40000x128, .f32⟩
  | 81 => ⟨S40000x128, .f32⟩
  | 82 => ⟨S1x128, .f32⟩
  | 83 => ⟨S40000x128, .f32⟩
  | 84 => ⟨S40000x128, .f32⟩
  | 85 => ⟨S_, .f32⟩
  | 86 => ⟨S128, .f32⟩
  | 87 => ⟨S128, .f32⟩
  | 88 => ⟨S128, .f32⟩
  | 89 => ⟨S1x128, .f32⟩
  | 90 => ⟨S40000x128, .f32⟩
  | 91 => ⟨S40000x128, .f32⟩
  | 92 => ⟨S1x128, .f32⟩
  | 93 => ⟨S40000x128, .f32⟩
  | 94 => ⟨S40000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S40000x128, .f32⟩
  | 108 => ⟨S40000x128, .f32⟩
  | 109 => ⟨S40000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S40000x128, .f32⟩
  | 125 => ⟨S40000x128, .f32⟩
  | 126 => ⟨S1x128, .f32⟩
  | 127 => ⟨S40000x128, .f32⟩
  | _ => ⟨S40000x128, .f32⟩

abbrev hbmTy0_2 (i : Nat) : BufTy := match i % 128 with
  | 0 => ⟨S40000x128, .f32⟩
  | 1 => ⟨S_, .f32⟩
  | 2 => ⟨S128, .f32⟩
  | 3 => ⟨S128, .f32⟩
  | 4 => ⟨S128, .f32⟩
  | 5 => ⟨S1x128, .f32⟩
  | 6 => ⟨S40000x128, .f32⟩
  | 7 => ⟨S40000x128, .f32⟩
  | 8 => ⟨S1x128, .f32⟩
  | 9 => ⟨S40000x128, .f32⟩
  | 10 => ⟨S40000x128, .f32⟩
  | 11 => ⟨S_, .f32⟩
  | 12 => ⟨S40000x128, .f32⟩
  | 13 => ⟨S40000x128, .i1⟩
  | 14 => ⟨S1x1, .f32⟩
  | 15 => ⟨S40000x128, .f32⟩
  | 16 => ⟨S40000x128, .f32⟩
  | 17 => ⟨S40000x128, .f32⟩
  | 18 => ⟨S_, .f32⟩
  | 19 => ⟨S40000x128, .f32⟩
  | 20 => ⟨S40000x128, .i1⟩
  | 21 => ⟨S1x1, .f32⟩
  | 22 => ⟨S40000x128, .f32⟩
  | 23 => ⟨S40000x128, .f32⟩
  | 24 => ⟨S40000x128, .f32⟩
  | 25 => ⟨S_, .f32⟩
  | 26 => ⟨S40000x128, .f32⟩
  | 27 => ⟨S40000x128, .i1⟩
  | 28 => ⟨S1x1, .f32⟩
  | 29 => ⟨S40000x128, .f32⟩
  | 30 => ⟨S40000x128, .f32⟩
  | 31 => ⟨S40000x128, .f32⟩
  | 32 => ⟨S40000x384, .f32⟩
  | 33 => ⟨S40000x128, .f32⟩
  | 34 => ⟨S40000x128, .f32⟩
  | 35 => ⟨S_, .f32⟩
  | 36 => ⟨S40000, .f32⟩
  | 37 => ⟨S40000x1, .f32⟩
  | 38 => ⟨S40000x1, .f32⟩
  | 39 => ⟨S_, .f32⟩
  | 40 => ⟨S40000x1, .f32⟩
  | 41 => ⟨S40000x1, .f32⟩
  | 42 => ⟨S40000x128, .f32⟩
  | 43 => ⟨S40000x128, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_20 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_v99 : Ref sig .tc := ⟨.hbm, 139, rfl⟩
abbrev main_c_22 : Ref sig .tc := ⟨.hbm, 140, rfl⟩
abbrev main_call0_cst : Ref sig .tc := ⟨.hbm, 141, rfl⟩
abbrev main_call0_v0 : Ref sig .tc := ⟨.hbm, 142, rfl⟩
abbrev main_call0_v1 : Ref sig .tc := ⟨.hbm, 143, rfl⟩
abbrev main_call0_cst_0 : Ref sig .tc := ⟨.hbm, 144, rfl⟩
abbrev main_call0_v2 : Ref sig .tc := ⟨.hbm, 145, rfl⟩
abbrev main_call0_v3 : Ref sig .tc := ⟨.hbm, 146, rfl⟩
abbrev main_call0_v4 : Ref sig .tc := ⟨.hbm, 147, rfl⟩
abbrev main_call0_v5 : Ref sig .tc := ⟨.hbm, 148, rfl⟩
abbrev main_call0_v6 : Ref sig .tc := ⟨.hbm, 149, rfl⟩
abbrev main_call0_v7 : Ref sig .tc := ⟨.hbm, 150, rfl⟩
abbrev main_call0_cst_1 : Ref sig .tc := ⟨.hbm, 151, rfl⟩
abbrev main_call0_v8 : Ref sig .tc := ⟨.hbm, 152, rfl⟩
abbrev main_call0_cst_2 : Ref sig .tc := ⟨.hbm, 153, rfl⟩
abbrev main_call0_v9 : Ref sig .tc := ⟨.hbm, 154, rfl⟩
abbrev main_call0_v10 : Ref sig .tc := ⟨.hbm, 155, rfl⟩
abbrev main_call0_v11 : Ref sig .tc := ⟨.hbm, 156, rfl⟩
abbrev main_call0_cst_3 : Ref sig .tc := ⟨.hbm, 157, rfl⟩
abbrev main_call0_v12 : Ref sig .tc := ⟨.hbm, 158, rfl⟩
abbrev main_call0_cst_4 : Ref sig .tc := ⟨.hbm, 159, rfl⟩
abbrev main_call0_call0_v0 : Ref sig .tc := ⟨.hbm, 160, rfl⟩
abbrev main_call0_call0_v1 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_23 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_24 : Ref sig .tc := ⟨.hbm, 179, rfl⟩
abbrev main_v116 : Ref sig .tc := ⟨.hbm, 180, rfl⟩
abbrev main_cst_25 : Ref sig .tc := ⟨.hbm, 181, rfl⟩
abbrev main_v117 : Ref sig .tc := ⟨.hbm, 182, rfl⟩
abbrev main_v118 : Ref sig .tc := ⟨.hbm, 183, rfl⟩
abbrev main_c_26 : Ref sig .tc := ⟨.hbm, 184, rfl⟩
abbrev main_call1_cst : Ref sig .tc := ⟨.hbm, 185, rfl⟩
abbrev main_call1_v0 : Ref sig .tc := ⟨.hbm, 186, rfl⟩
abbrev main_call1_v1 : Ref sig .tc := ⟨.hbm, 187, rfl⟩
abbrev main_call1_cst_0 : Ref sig .tc := ⟨.hbm, 188, rfl⟩
abbrev main_call1_v2 : Ref sig .tc := ⟨.hbm, 189, rfl⟩
abbrev main_call1_v3 : Ref sig .tc := ⟨.hbm, 190, rfl⟩
abbrev main_call1_v4 : Ref sig .tc := ⟨.hbm, 191, rfl⟩
abbrev main_call1_v5 : Ref sig .tc := ⟨.hbm, 192, rfl⟩
abbrev main_call1_v6 : Ref sig .tc := ⟨.hbm, 193, rfl⟩
abbrev main_call1_v7 : Ref sig .tc := ⟨.hbm, 194, rfl⟩
abbrev main_call1_cst_1 : Ref sig .tc := ⟨.hbm, 195, rfl⟩
abbrev main_call1_v8 : Ref sig .tc := ⟨.hbm, 196, rfl⟩
abbrev main_call1_cst_2 : Ref sig .tc := ⟨.hbm, 197, rfl⟩
abbrev main_call1_v9 : Ref sig .tc := ⟨.hbm, 198, rfl⟩
abbrev main_call1_v10 : Ref sig .tc := ⟨.hbm, 199, rfl⟩
abbrev main_call1_v11 : Ref sig .tc := ⟨.hbm, 200, rfl⟩
abbrev main_call1_cst_3 : Ref sig .tc := ⟨.hbm, 201, rfl⟩
abbrev main_call1_v12 : Ref sig .tc := ⟨.hbm, 202, rfl⟩
abbrev main_call1_cst_4 : Ref sig .tc := ⟨.hbm, 203, rfl⟩
abbrev main_call1_call0_v0 : Ref sig .tc := ⟨.hbm, 204, rfl⟩
abbrev main_call1_call0_v1 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_27 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_cst_28 : Ref sig .tc := ⟨.hbm, 223, rfl⟩
abbrev main_v135 : Ref sig .tc := ⟨.hbm, 224, rfl⟩
abbrev main_cst_29 : Ref sig .tc := ⟨.hbm, 225, rfl⟩
abbrev main_v136 : Ref sig .tc := ⟨.hbm, 226, rfl⟩
abbrev main_v137 : Ref sig .tc := ⟨.hbm, 227, rfl⟩
abbrev main_c_30 : Ref sig .tc := ⟨.hbm, 228, rfl⟩
abbrev main_call2_cst : Ref sig .tc := ⟨.hbm, 229, rfl⟩
abbrev main_call2_v0 : Ref sig .tc := ⟨.hbm, 230, rfl⟩
abbrev main_call2_v1 : Ref sig .tc := ⟨.hbm, 231, rfl⟩
abbrev main_call2_cst_0 : Ref sig .tc := ⟨.hbm, 232, rfl⟩
abbrev main_call2_v2 : Ref sig .tc := ⟨.hbm, 233, rfl⟩
abbrev main_call2_v3 : Ref sig .tc := ⟨.hbm, 234, rfl⟩
abbrev main_call2_v4 : Ref sig .tc := ⟨.hbm, 235, rfl⟩
abbrev main_call2_v5 : Ref sig .tc := ⟨.hbm, 236, rfl⟩
abbrev main_call2_v6 : Ref sig .tc := ⟨.hbm, 237, rfl⟩
abbrev main_call2_v7 : Ref sig .tc := ⟨.hbm, 238, rfl⟩
abbrev main_call2_cst_1 : Ref sig .tc := ⟨.hbm, 239, rfl⟩
abbrev main_call2_v8 : Ref sig .tc := ⟨.hbm, 240, rfl⟩
abbrev main_call2_cst_2 : Ref sig .tc := ⟨.hbm, 241, rfl⟩
abbrev main_call2_v9 : Ref sig .tc := ⟨.hbm, 242, rfl⟩
abbrev main_call2_v10 : Ref sig .tc := ⟨.hbm, 243, rfl⟩
abbrev main_call2_v11 : Ref sig .tc := ⟨.hbm, 244, rfl⟩
abbrev main_call2_cst_3 : Ref sig .tc := ⟨.hbm, 245, rfl⟩
abbrev main_call2_v12 : Ref sig .tc := ⟨.hbm, 246, rfl⟩
abbrev main_call2_cst_4 : Ref sig .tc := ⟨.hbm, 247, rfl⟩
abbrev main_call2_call0_v0 : Ref sig .tc := ⟨.hbm, 248, rfl⟩
abbrev main_call2_call0_v1 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_cst_31 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_cst_32 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_cst_33 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_cst_34 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_call6_v0 : Ref sig .tc := ⟨.hbm, 290, rfl⟩
abbrev main_call6_cst : Ref sig .tc := ⟨.hbm, 291, rfl⟩
abbrev main_call6_v1 : Ref sig .tc := ⟨.hbm, 292, rfl⟩
abbrev main_call6_v2 : Ref sig .tc := ⟨.hbm, 293, rfl⟩
abbrev main_v174 : Ref sig .tc := ⟨.hbm, 294, rfl⟩
abbrev main_cst_35 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩

abbrev nD : Nat := 1
abbrev τ : Topo := Topo.v7x

variable {F : FTy → Type} [FloatOps F]

class Facts₀ : Prop where
  bcast_S_S40000x128 : S_.BroadcastsInDim S40000x128 (![] : Fin 0 → Fin S40000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  reducesTo_S40000x128_S128_d0 : S40000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S40000x128_0_1 : S1x128.BroadcastsInDim S40000x128 (![0, 1] : Fin 2 → Fin S40000x128.rank)
  bcast_S1_S1x1_1 : S1.BroadcastsInDim S1x1 (![1] : Fin 1 → Fin S1x1.rank)
  bcast_S1x1_S40000x128_0_1 : S1x1.BroadcastsInDim S40000x128 (![0, 1] : Fin 2 → Fin S40000x128.rank)
  concatenates_S40000x128_S40000x128_S40000x128_S40000x384_d1 : Shape.Concatenates [S40000x128, S40000x128, S40000x128] S40000x384 1
  reducesTo_S40000x128_S40000_d1 : S40000x128.ReducesTo [1] S40000
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x384_S384x128_S40000x128_1_0_0_1_n_n_wf : DotDims.WF S40000x384 S384x128 S40000x128 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x384_S384x128_S40000x128_1_0_0_1_n_n : DotDims S40000x384 S384x128 S40000x128 where
  lhsContracting := [1]
  rhsContracting := [0]
  lhsNonContracting := [0]
  rhsNonContracting := [1]
  lhsBatch := []
  rhsBatch := []
  wf := dot_S40000x384_S384x128_S40000x128_1_0_0_1_n_n_wf

class Facts : Prop extends Facts₀ where

variable [Facts]
-- ==== Proof.KBody0.lean ====
/-
  The dense projection's region, at the buffer contents `V` it is entered from: one grid point takes a block of
  2000 rows of `x` and the whole 128 x 384 weight matrix and stores their matrix product into the matching
  block of 2000 rows of the result; it keeps nothing between points. This module names the blocks, what a
  point leaves in the result's staging buffer, the region's proof data, and the obligation that the body
  at every point does leave that.
-/
import proofs.«110036_j83382495085286_1_alg».proof.Proof.Gen.Kernel.Launch
import proofs.«110036_j83382495085286_1_alg».proof.Proof.Gen.Kernel.Skeleton
import proofs.«110036_j83382495085286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S2000x128 := Rect.unit (s := S2000x128) ![0, 0] S2000x128.size inb_S2000x128_S2000x128_0_0
abbrev r0_w : Rect S128x384 := Rect.unit (s := S128x384) ![0, 0] S128x384.size inb_S128x384_S128x384_0_0
abbrev r0_o : Rect S2000x384 := Rect.unit (s := S2000x384) ![0, 0] S2000x384.size inb_S2000x384_S2000x384_0_0

/-- What a point leaves in the result's staging buffer: the product of the row block and the weights,
    stored whole. -/
def out0_2 (x0 : Vec F S2000x128 .f32) (x1 : Vec F S128x384 .f32) : Vec F S2000x384 .f32 :=
  View.canon [⟨r0_o, k0_pay1 (View.ld x0 r0_x) (View.ld x1 r0_w)⟩]

/-- The one store covers the buffer. -/
theorem cover0_2 (p0 : Vec F S2000x384 .f32) (y : S2000x384.Idx) :
    ∃ pc ∈ ([⟨r0_o, p0⟩] : List (View.Piece (Elt F) S2000x384 .f32)), y ∈ pc.1.set :=
  View.cover_of_tiled [⟨r0_o, p0⟩] S2000x384.size (by rfl) y

/-- The region's proof data on core `c`: the arrays as the region finds them; after the body at point `t`
    each input's buffer still at its block and the result's at the product of the two blocks; nothing
    owed, full shares, and the invariant of a body that keeps nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- An input window's current staging buffer holds its block at every point, fetched there or not: where the
    pipeline did not fetch, the block index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

set_option maxHeartbeats 1000000 in
/-- The body on whole staging memrefs, the two inputs' at read contents `x0`, `x1` and the result's at anything:
    it loads the two inputs, loads the result's buffer (a value it never uses), stores the product over the whole
    of the result's buffer, and hands the continuation the inputs as they were and the result at `out0_2`. -/
theorem sound_kernel0 (c : Dev nD) (E : Set ℕ) (i : grid0.Coords)
    (arg1 : Memref sig .tc .vmem S2000x128 .f32) (harg1 : arg1.IsWhole)
    (arg2 : Memref sig .tc .vmem S128x384 .f32) (harg2 : arg2.IsWhole)
    (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__dense_proj_kernel i arg1 harg1 arg2 harg2 arg3 harg3) K := by
  simp only [cc0__dense_proj_kernel_eq_skeleton]; unfold cc0__dense_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body at every grid point takes the staging buffers from what the pipeline hands it to what the
    proof data say it leaves. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KBody1.lean ====
/-
  The second region — batch-norm affine, PReLU, the product with the 384 x 128 weight matrix and the row
  normalisation — at the buffer contents `V` it is entered from: one grid point takes a block of 2000 rows of
  the concatenated features, the four 1 x 384 rows (mean, inverse deviation, scale, shift), the 1 x 1 slope and
  the whole weight matrix, and stores a block of 2000 normalised rows; it keeps nothing between points. This
  module names the blocks, what a point leaves in the result's staging buffer, the region's proof data, and
  the obligation that the body at every point does leave that.
-/
import proofs.«110036_j83382495085286_1_alg».proof.Proof.Gen.Kernel.Launch
import proofs.«110036_j83382495085286_1_alg».proof.Proof.Gen.Kernel.Skeleton
import proofs.«110036_j83382495085286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S2000x384 := Rect.unit (s := S2000x384) ![0, 0] S2000x384.size inb_S2000x384_S2000x384_0_0
abbrev r1_v : Rect S1x384 := Rect.unit (s := S1x384) ![0, 0] S1x384.size inb_S1x384_S1x384_0_0
abbrev r1_s : Rect S1x1 := Rect.unit (s := S1x1) ![0, 0] S1x1.size inb_S1x1_S1x1_0_0
abbrev r1_m : Rect S384x128 := Rect.unit (s := S384x128) ![0, 0] S384x128.size inb_S384x128_S384x128_0_0
abbrev r1_o : Rect S2000x128 := Rect.unit (s := S2000x128) ![0, 0] S2000x128.size inb_S2000x128_S2000x128_0_0

/-- What a point leaves in the result's staging buffer, from the seven input blocks in window order
    (features, mean, inverse deviation, scale, shift, slope, weights): the body's one stored value, whole.
    (The body's value takes the scale before the mean and the inverse deviation: the order of its loads.) -/
def out1_7 (x0 : Vec F S2000x384 .f32) (x1 x2 x3 x4 : Vec F S1x384 .f32) (x5 : Vec F S1x1 .f32)
    (x6 : Vec F S384x128 .f32) : Vec F S2000x128 .f32 :=
  View.canon [⟨r1_o, k1_pay1 (View.ld x0 r1_x) (View.ld x3 r1_v) (View.ld x1 r1_v) (View.ld x2 r1_v)
    (View.ld x4 r1_v) (View.ld x5 r1_s) (View.ld x6 r1_m)⟩]

/-- The one store covers the buffer. -/
theorem cover1_7 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-- The region's proof data on core `c`: the arrays as the region finds them; after the body at point `t`
    each input's buffer still at its block and the result's at the body's value of the seven blocks; nothing
    owed, full shares, and the invariant of a body that keeps nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t)
        (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t)
      (iblk1 V c 4 t) (iblk1 V c 5 t) (iblk1 V c 6 t) := by dsimp only [dat1]

/-- An input window's current staging buffer holds its block at every point, fetched there or not: where the
    pipeline did not fetch, the block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

set_option maxHeartbeats 4000000 in
/-- The body on whole staging memrefs, the seven inputs' at read contents `x0` … `x6` and the result's at
    anything: it loads the seven inputs, loads the result's buffer (a value it never uses), stores its value over
    the whole of the result's buffer, and hands the continuation the inputs as they were and the result at
    `out1_7`. -/
theorem sound_kernel1 (c : Dev nD) (E : Set ℕ) (i : grid1.Coords)
    (arg1 : Memref sig .tc .vmem S2000x384 .f32) (harg1 : arg1.IsWhole)
    (arg2 : Memref sig .tc .vmem S1x384 .f32) (harg2 : arg2.IsWhole)
    (arg3 : Memref sig .tc .vmem S1x384 .f32) (harg3 : arg3.IsWhole)
    (arg4 : Memref sig .tc .vmem S1x384 .f32) (harg4 : arg4.IsWhole)
    (arg5 : Memref sig .tc .vmem S1x384 .f32) (harg5 : arg5.IsWhole)
    (arg6 : Memref sig .tc .vmem S1x1 .f32) (harg6 : arg6.IsWhole)
    (arg7 : Memref sig .tc .vmem S384x128 .f32) (harg7 : arg7.IsWhole)
    (arg8 : Memref sig .tc .vmem S2000x128 .f32) (harg8 : arg8.IsWhole)
    (x0 : Vec F S2000x384 .f32) (x1 : Vec F S1x384 .f32) (x2 : Vec F S1x384 .f32) (x3 : Vec F S1x384 .f32) (x4 : Vec F S1x384 .f32) (x5 : Vec F S1x1 .f32) (x6 : Vec F S384x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__bn_prelu_mlp_norm_kernel i arg1 harg1 arg2 harg2 arg3 harg3 arg4 harg4 arg5 harg5 arg6 harg6 arg7 harg7 arg8 harg8) K := by
  simp only [cc1__bn_prelu_mlp_norm_kernel_eq_skeleton]; unfold cc1__bn_prelu_mlp_norm_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at every grid point takes the staging buffers from what the pipeline hands it to what the
    proof data say it leaves. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.KRun.lean ====
/-
  The run of @main from the launch to the return, through both regions. @main is six segments: a stretch of
  one host operation (the three 128 x 128 weight blocks laid side by side), the dense projection's region, three
  stretches of host operations (127, 23 and 9 of them), and the second region. The buffer contents at every
  segment boundary are a fold from the launch memory: a stretch rewrites the buffers its operations write, a
  region leaves its arrays at what its write-backs fold to and every other buffer as entered. No operation
  and no region writes an argument array, so the fold at an argument walks back to the launch memory; the result
  array ends at what the second region's write-backs leave.
-/
import proofs.«110036_j83382495085286_1_alg».proof.Proof.KBody0
import proofs.«110036_j83382495085286_1_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the first region's entry). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first region's exit: its arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the first region's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the long stretch between the regions, -/
abbrev W3 : Dev nD → Valuation τ sig (Elt F) := fun c => StableHlo.after hostOps1 (W2 m ρ c)
/-- after the outlined function's stretch, -/
abbrev W4 : Dev nD → Valuation τ sig (Elt F) := fun c => StableHlo.after hostOps1_1 (W3 m ρ c)
/-- and after the last stretch (the second region's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second region's exit: its arrays at what the write-backs fold to, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## What the host stretches write -/

/-- A singleton of a reference the list names lies within the list's references. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- No operation of `hostOps0` allocates a buffer. -/
theorem hostOps0_fresh : (hostOps0 : List (HloOp τ sig (Elt F))).Forall fun op => op.fresh = ∅ :=
  rfl
/-- The references the operations of `hostOps0` write, in order. -/
abbrev hostOps0_W : List (Ref sig .tc) := [main_v0]
set_option maxHeartbeats 40000000 in
/-- Each operation of `hostOps0` writes its one result, which the list names. -/
theorem hostOps0_writes : (hostOps0 : List (HloOp τ sig (Elt F))).Forall fun op => op.writes ⊆ (hostOps0_W.map (Proc.devRef (τ := τ) .tc)).toFinset :=
  sub_of_mem (y := main_v0) (by decide)

/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references the operations of `hostOps1` write, in order. -/
abbrev hostOps1_W : List (Ref sig .tc) := [main_v2, main_v3, main_v4, main_cst, main_v5, main_v6, main_v7, main_v8, main_v9, main_v10, main_c, main_v11, main_v12, main_c_0, main_v13, main_v14, main_v15, main_v16, main_v17, main_v18, main_v19, main_v20, main_cst_1, main_v21, main_v22, main_v23, main_cst_2, main_v24, main_v25, main_v26, main_v27, main_v28, main_v29, main_v30, main_c_3, main_v31, main_v32, main_c_4, main_v33, main_v34, main_v35, main_v36, main_v37, main_v38, main_v39, main_v40, main_cst_5, main_v41, main_v42, main_v43, main_cst_6, main_v44, main_v45, main_cst_7, main_v46, main_v47, main_v48, main_cst_8, main_v49, main_v50, main_v51, main_cst_9, main_v52, main_v53, main_v54, main_v55, main_v56, main_v57, main_c_10, main_v58, main_v59, main_c_11, main_v60, main_v61, main_v62, main_v63, main_v64, main_v65, main_v66, main_v67, main_cst_12, main_v68, main_v69, main_v70, main_cst_13, main_v71, main_v72, main_v73, main_v74, main_v75, main_v76, main_v77, main_c_14, main_v78, main_v79, main_c_15, main_v80, main_v81, main_v82, main_v83, main_v84, main_v85, main_v86, main_v87, main_cst_16, main_v88, main_v89, main_v90, main_cst_17, main_v91, main_v92, main_cst_18, main_v93, main_v94, main_v95, main_cst_19, main_v96, main_v97, main_v98, main_v99, main_cst_20, main_v100, main_v101, main_cst_21, main_v102, main_v103, main_c_22]
set_option maxHeartbeats 40000000 in
/-- Each operation of `hostOps1` writes its one result, which the list names. -/
theorem hostOps1_writes : (hostOps1 : List (HloOp τ sig (Elt F))).Forall fun op => op.writes ⊆ (hostOps1_W.map (Proc.devRef (τ := τ) .tc)).toFinset :=
  ⟨sub_of_mem (y := main_v2) (by decide),
    sub_of_mem (y := main_v3) (by decide),
    sub_of_mem (y := main_v4) (by decide),
    sub_of_mem (y := main_cst) (by decide),
    sub_of_mem (y := main_v5) (by decide),
    sub_of_mem (y := main_v6) (by decide),
    sub_of_mem (y := main_v7) (by decide),
    sub_of_mem (y := main_v8) (by decide),
    sub_of_mem (y := main_v9) (by decide),
    sub_of_mem (y := main_v10) (by decide),
    sub_of_mem (y := main_c) (by decide),
    sub_of_mem (y := main_v11) (by decide),
    sub_of_mem (y := main_v12) (by decide),
    sub_of_mem (y := main_c_0) (by decide),
    sub_of_mem (y := main_v13) (by decide),
    sub_of_mem (y := main_v14) (by decide),
    sub_of_mem (y := main_v15) (by decide),
    sub_of_mem (y := main_v16) (by decide),
    sub_of_mem (y := main_v17) (by decide),
    sub_of_mem (y := main_v18) (by decide),
    sub_of_mem (y := main_v19) (by decide),
    sub_of_mem (y := main_v20) (by decide),
    sub_of_mem (y := main_cst_1) (by decide),
    sub_of_mem (y := main_v21) (by decide),
    sub_of_mem (y := main_v22) (by decide),
    sub_of_mem (y := main_v23) (by decide),
    sub_of_mem (y := main_cst_2) (by decide),
    sub_of_mem (y := main_v24) (by decide),
    sub_of_mem (y := main_v25) (by decide),
    sub_of_mem (y := main_v26) (by decide),
    sub_of_mem (y := main_v27) (by decide),
    sub_of_mem (y := main_v28) (by decide),
    sub_of_mem (y := main_v29) (by decide),
    sub_of_mem (y := main_v30) (by decide),
    sub_of_mem (y := main_c_3) (by decide),
    sub_of_mem (y := main_v31) (by decide),
    sub_of_mem (y := main_v32) (by decide),
    sub_of_mem (y := main_c_4) (by decide),
    sub_of_mem (y := main_v33) (by decide),
    sub_of_mem (y := main_v34) (by decide),
    sub_of_mem (y := main_v35) (by decide),
    sub_of_mem (y := main_v36) (by decide),
    sub_of_mem (y := main_v37) (by decide),
    sub_of_mem (y := main_v38) (by decide),
    sub_of_mem (y := main_v39) (by decide),
    sub_of_mem (y := main_v40) (by decide),
    sub_of_mem (y := main_cst_5) (by decide),
    sub_of_mem (y := main_v41) (by decide),
    sub_of_mem (y := main_v42) (by decide),
    sub_of_mem (y := main_v43) (by decide),
    sub_of_mem (y := main_cst_6) (by decide),
    sub_of_mem (y := main_v44) (by decide),
    sub_of_mem (y := main_v45) (by decide),
    sub_of_mem (y := main_cst_7) (by decide),
    sub_of_mem (y := main_v46) (by decide),
    sub_of_mem (y := main_v47) (by decide),
    sub_of_mem (y := main_v48) (by decide),
    sub_of_mem (y := main_cst_8) (by decide),
    sub_of_mem (y := main_v49) (by decide),
    sub_of_mem (y := main_v50) (by decide),
    sub_of_mem (y := main_v51) (by decide),
    sub_of_mem (y := main_cst_9) (by decide),
    sub_of_mem (y := main_v52) (by decide),
    sub_of_mem (y := main_v53) (by decide),
    sub_of_mem (y := main_v54) (by decide),
    sub_of_mem (y := main_v55) (by decide),
    sub_of_mem (y := main_v56) (by decide),
    sub_of_mem (y := main_v57) (by decide),
    sub_of_mem (y := main_c_10) (by decide),
    sub_of_mem (y := main_v58) (by decide),
    sub_of_mem (y := main_v59) (by decide),
    sub_of_mem (y := main_c_11) (by decide),
    sub_of_mem (y := main_v60) (by decide),
    sub_of_mem (y := main_v61) (by decide),
    sub_of_mem (y := main_v62) (by decide),
    sub_of_mem (y := main_v63) (by decide),
    sub_of_mem (y := main_v64) (by decide),
    sub_of_mem (y := main_v65) (by decide),
    sub_of_mem (y := main_v66) (by decide),
    sub_of_mem (y := main_v67) (by decide),
    sub_of_mem (y := main_cst_12) (by decide),
    sub_of_mem (y := main_v68) (by decide),
    sub_of_mem (y := main_v69) (by decide),
    sub_of_mem (y := main_v70) (by decide),
    sub_of_mem (y := main_cst_13) (by decide),
    sub_of_mem (y := main_v71) (by decide),
    sub_of_mem (y := main_v72) (by decide),
    sub_of_mem (y := main_v73) (by decide),
    sub_of_mem (y := main_v74) (by decide),
    sub_of_mem (y := main_v75) (by decide),
    sub_of_mem (y := main_v76) (by decide),
    sub_of_mem (y := main_v77) (by decide),
    sub_of_mem (y := main_c_14) (by decide),
    sub_of_mem (y := main_v78) (by decide),
    sub_of_mem (y := main_v79) (by decide),
    sub_of_mem (y := main_c_15) (by decide),
    sub_of_mem (y := main_v80) (by decide),
    sub_of_mem (y := main_v81) (by decide),
    sub_of_mem (y := main_v82) (by decide),
    sub_of_mem (y := main_v83) (by decide),
    sub_of_mem (y := main_v84) (by decide),
    sub_of_mem (y := main_v85) (by decide),
    sub_of_mem (y := main_v86) (by decide),
    sub_of_mem (y := main_v87) (by decide),
    sub_of_mem (y := main_cst_16) (by decide),
    sub_of_mem (y := main_v88) (by decide),
    sub_of_mem (y := main_v89) (by decide),
    sub_of_mem (y := main_v90) (by decide),
    sub_of_mem (y := main_cst_17) (by decide),
    sub_of_mem (y := main_v91) (by decide),
    sub_of_mem (y := main_v92) (by decide),
    sub_of_mem (y := main_cst_18) (by decide),
    sub_of_mem (y := main_v93) (by decide),
    sub_of_mem (y := main_v94) (by decide),
    sub_of_mem (y := main_v95) (by decide),
    sub_of_mem (y := main_cst_19) (by decide),
    sub_of_mem (y := main_v96) (by decide),
    sub_of_mem (y := main_v97) (by decide),
    sub_of_mem (y := main_v98) (by decide),
    sub_of_mem (y := main_v99) (by decide),
    sub_of_mem (y := main_cst_20) (by decide),
    sub_of_mem (y := main_v100) (by decide),
    sub_of_mem (y := main_v101) (by decide),
    sub_of_mem (y := main_cst_21) (by decide),
    sub_of_mem (y := main_v102) (by decide),
    sub_of_mem (y := main_v103) (by decide),
    sub_of_mem (y := main_c_22) (by decide)⟩

/-- No operation of `hostOps1_1` allocates a buffer. -/
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The references the operations of `hostOps1_1` write, in order. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v104]
set_option maxHeartbeats 40000000 in
/-- Each operation of `hostOps1_1` writes its one result, which the list names. -/
theorem hostOps1_1_writes : (hostOps1_1 : List (HloOp τ sig (Elt F))).Forall fun op => op.writes ⊆ (hostOps1_1_W.map (Proc.devRef (τ := τ) .tc)).toFinset :=
  ⟨sub_of_mem (y := main_call0_cst) (by decide),
    sub_of_mem (y := main_call0_v0) (by decide),
    sub_of_mem (y := main_call0_v1) (by decide),
    sub_of_mem (y := main_call0_cst_0) (by decide),
    sub_of_mem (y := main_call0_v2) (by decide),
    sub_of_mem (y := main_call0_v3) (by decide),
    sub_of_mem (y := main_call0_v4) (by decide),
    sub_of_mem (y := main_call0_v5) (by decide),
    sub_of_mem (y := main_call0_v6) (by decide),
    sub_of_mem (y := main_call0_v7) (by decide),
    sub_of_mem (y := main_call0_cst_1) (by decide),
    sub_of_mem (y := main_call0_v8) (by decide),
    sub_of_mem (y := main_call0_cst_2) (by decide),
    sub_of_mem (y := main_call0_v9) (by decide),
    sub_of_mem (y := main_call0_v10) (by decide),
    sub_of_mem (y := main_call0_v11) (by decide),
    sub_of_mem (y := main_call0_v12) (by decide),
    sub_of_mem (y := main_call0_cst_3) (by decide),
    sub_of_mem (y := main_call0_v13) (by decide),
    sub_of_mem (y := main_call0_cst_4) (by decide),
    sub_of_mem (y := main_call0_call0_v0) (by decide),
    sub_of_mem (y := main_call0_call0_v1) (by decide),
    sub_of_mem (y := main_v104) (by decide)⟩

/-- No operation of `hostOps1_2` allocates a buffer. -/
theorem hostOps1_2_fresh : (hostOps1_2 : List (HloOp τ sig (Elt F))).Forall fun op => op.fresh = ∅ :=
  ⟨rfl, rfl, rfl, rfl, rfl, rfl, rfl, rfl, rfl⟩
/-- The references the operations of `hostOps1_2` write, in order. -/
abbrev hostOps1_2_W : List (Ref sig .tc) := [main_cst_23, main_v105, main_v106, main_v107, main_v108, main_v109, main_v110, main_v111, main_v112]
set_option maxHeartbeats 40000000 in
/-- Each operation of `hostOps1_2` writes its one result, which the list names. -/
theorem hostOps1_2_writes : (hostOps1_2 : List (HloOp τ sig (Elt F))).Forall fun op => op.writes ⊆ (hostOps1_2_W.map (Proc.devRef (τ := τ) .tc)).toFinset :=
  ⟨sub_of_mem (y := main_cst_23) (by decide),
    sub_of_mem (y := main_v105) (by decide),
    sub_of_mem (y := main_v106) (by decide),
    sub_of_mem (y := main_v107) (by decide),
    sub_of_mem (y := main_v108) (by decide),
    sub_of_mem (y := main_v109) (by decide),
    sub_of_mem (y := main_v110) (by decide),
    sub_of_mem (y := main_v111) (by decide),
    sub_of_mem (y := main_v112) (by decide)⟩

/-! ## The arguments end as launched

No host operation writes an argument and no region may change one (a region reads it through an input window or
bypasses it), so the fold at an argument's buffer walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1_2 _ hostOps1_2_writes (by decide)
    _ = W3 m ρ c (Proc.devRef .tc main_arg11) := StableHlo.after_of_writes_sub hostOps1_1 _ hostOps1_1_writes (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps1_2 _ hostOps1_2_writes (by decide)
    _ = W3 m ρ c (Proc.devRef .tc main_arg12) := StableHlo.after_of_writes_sub hostOps1_1 _ hostOps1_1_writes (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps1_2 _ hostOps1_2_writes (by decide)
    _ = W3 m ρ c (Proc.devRef .tc main_arg13) := StableHlo.after_of_writes_sub hostOps1_1 _ hostOps1_1_writes (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps1_2 _ hostOps1_2_writes (by decide)
    _ = W3 m ρ c (Proc.devRef .tc main_arg14) := StableHlo.after_of_writes_sub hostOps1_1 _ hostOps1_1_writes (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := (W6_arr m ρ c 6).trans (((dat1 (V5 m ρ) c).arrAt_in 6 rfl _).trans (A_eq1 (V5 m ρ) c 6))
    _ = W4 m ρ c (Proc.devRef .tc main_arg15) := StableHlo.after_of_writes_sub hostOps1_2 _ hostOps1_2_writes (by decide)
    _ = W3 m ρ c (Proc.devRef .tc main_arg15) := StableHlo.after_of_writes_sub hostOps1_1 _ hostOps1_1_writes (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at the contents the stretch leaves. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W5`, left at `W6`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments: it is the chain of its items, and the segments' programs are those items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates,
    nothing faulting, and in every final state the result array holds what the second region's write-backs
    leave and the sixteen argument arrays are as launched: the launch over the segments, the last thread state
    read against the final state. -/
theorem run_main : θ_run defs (onTc (τ := τ) (main (F := F))) ⟨m, fun _ => 0, ρ⟩ (fun r => ∀ c : Dev nD,
      r.2.mem ((c.tc : Thread nD τ).loc main_v113) = (dat1 (V5 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v113 (by decide))).trans (W6_arr m ρ c 7),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

/-- The same run, keeping only that the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Cert.Kernel.Hand

end
-- ==== Proof.KIBody0.lean ====
/-
  The dense projection's region, at the buffer contents `V` it is entered from: one grid point takes a block of
  2000 rows of `x` and the whole 128 x 384 weight matrix and stores their matrix product into the matching
  block of 2000 rows of the result; it keeps nothing between points. This module names the blocks, what a
  point leaves in the result's staging buffer, the region's proof data, and the obligation that the body
  at every point does leave that.
-/
import proofs.«110036_j83382495085286_1_alg».proof.Proof.Gen.KernelIdeal.Launch
import proofs.«110036_j83382495085286_1_alg».proof.Proof.Gen.KernelIdeal.Skeleton
import proofs.«110036_j83382495085286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S2000x128 := Rect.unit (s := S2000x128) ![0, 0] S2000x128.size inb_S2000x128_S2000x128_0_0
abbrev r0_w : Rect S128x384 := Rect.unit (s := S128x384) ![0, 0] S128x384.size inb_S128x384_S128x384_0_0
abbrev r0_o : Rect S2000x384 := Rect.unit (s := S2000x384) ![0, 0] S2000x384.size inb_S2000x384_S2000x384_0_0

/-- What a point leaves in the result's staging buffer: the product of the row block and the weights,
    stored whole. -/
def out0_2 (x0 : Vec F S2000x128 .f32) (x1 : Vec F S128x384 .f32) : Vec F S2000x384 .f32 :=
  View.canon [⟨r0_o, k0_pay1 (View.ld x0 r0_x) (View.ld x1 r0_w)⟩]

/-- The one store covers the buffer. -/
theorem cover0_2 (p0 : Vec F S2000x384 .f32) (y : S2000x384.Idx) :
    ∃ pc ∈ ([⟨r0_o, p0⟩] : List (View.Piece (Elt F) S2000x384 .f32)), y ∈ pc.1.set :=
  View.cover_of_tiled [⟨r0_o, p0⟩] S2000x384.size (by rfl) y

/-- The region's proof data on core `c`: the arrays as the region finds them; after the body at point `t`
    each input's buffer still at its block and the result's at the product of the two blocks; nothing
    owed, full shares, and the invariant of a body that keeps nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- An input window's current staging buffer holds its block at every point, fetched there or not: where the
    pipeline did not fetch, the block index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

set_option maxHeartbeats 1000000 in
/-- The body on whole staging memrefs, the two inputs' at read contents `x0`, `x1` and the result's at anything:
    it loads the two inputs, loads the result's buffer (a value it never uses), stores the product over the whole
    of the result's buffer, and hands the continuation the inputs as they were and the result at `out0_2`. -/
theorem sound_kernel0 (c : Dev nD) (E : Set ℕ) (i : grid0.Coords)
    (arg1 : Memref sig .tc .vmem S2000x128 .f32) (harg1 : arg1.IsWhole)
    (arg2 : Memref sig .tc .vmem S128x384 .f32) (harg2 : arg2.IsWhole)
    (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__dense_proj_kernel i arg1 harg1 arg2 harg2 arg3 harg3) K := by
  simp only [cc0__dense_proj_kernel_eq_skeleton]; unfold cc0__dense_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body at every grid point takes the staging buffers from what the pipeline hands it to what the
    proof data say it leaves. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The second region — batch-norm affine, PReLU, the product with the 384 x 128 weight matrix and the row
  normalisation — at the buffer contents `V` it is entered from: one grid point takes a block of 2000 rows of
  the concatenated features, the four 1 x 384 rows (mean, inverse deviation, scale, shift), the 1 x 1 slope and
  the whole weight matrix, and stores a block of 2000 normalised rows; it keeps nothing between points. This
  module names the blocks, what a point leaves in the result's staging buffer, the region's proof data, and
  the obligation that the body at every point does leave that.
-/
import proofs.«110036_j83382495085286_1_alg».proof.Proof.Gen.KernelIdeal.Launch
import proofs.«110036_j83382495085286_1_alg».proof.Proof.Gen.KernelIdeal.Skeleton
import proofs.«110036_j83382495085286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S2000x384 := Rect.unit (s := S2000x384) ![0, 0] S2000x384.size inb_S2000x384_S2000x384_0_0
abbrev r1_v : Rect S1x384 := Rect.unit (s := S1x384) ![0, 0] S1x384.size inb_S1x384_S1x384_0_0
abbrev r1_s : Rect S1x1 := Rect.unit (s := S1x1) ![0, 0] S1x1.size inb_S1x1_S1x1_0_0
abbrev r1_m : Rect S384x128 := Rect.unit (s := S384x128) ![0, 0] S384x128.size inb_S384x128_S384x128_0_0
abbrev r1_o : Rect S2000x128 := Rect.unit (s := S2000x128) ![0, 0] S2000x128.size inb_S2000x128_S2000x128_0_0

/-- What a point leaves in the result's staging buffer, from the seven input blocks in window order
    (features, mean, inverse deviation, scale, shift, slope, weights): the body's one stored value, whole.
    (The body's value takes the scale before the mean and the inverse deviation: the order of its loads.) -/
def out1_7 (x0 : Vec F S2000x384 .f32) (x1 x2 x3 x4 : Vec F S1x384 .f32) (x5 : Vec F S1x1 .f32)
    (x6 : Vec F S384x128 .f32) : Vec F S2000x128 .f32 :=
  View.canon [⟨r1_o, k1_pay1 (View.ld x0 r1_x) (View.ld x3 r1_v) (View.ld x1 r1_v) (View.ld x2 r1_v)
    (View.ld x4 r1_v) (View.ld x5 r1_s) (View.ld x6 r1_m)⟩]

/-- The one store covers the buffer. -/
theorem cover1_7 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-- The region's proof data on core `c`: the arrays as the region finds them; after the body at point `t`
    each input's buffer still at its block and the result's at the body's value of the seven blocks; nothing
    owed, full shares, and the invariant of a body that keeps nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t)
        (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t)
      (iblk1 V c 4 t) (iblk1 V c 5 t) (iblk1 V c 6 t) := by dsimp only [dat1]

/-- An input window's current staging buffer holds its block at every point, fetched there or not: where the
    pipeline did not fetch, the block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

set_option maxHeartbeats 4000000 in
/-- The body on whole staging memrefs, the seven inputs' at read contents `x0` … `x6` and the result's at
    anything: it loads the seven inputs, loads the result's buffer (a value it never uses), stores its value over
    the whole of the result's buffer, and hands the continuation the inputs as they were and the result at
    `out1_7`. -/
theorem sound_kernel1 (c : Dev nD) (E : Set ℕ) (i : grid1.Coords)
    (arg1 : Memref sig .tc .vmem S2000x384 .f32) (harg1 : arg1.IsWhole)
    (arg2 : Memref sig .tc .vmem S1x384 .f32) (harg2 : arg2.IsWhole)
    (arg3 : Memref sig .tc .vmem S1x384 .f32) (harg3 : arg3.IsWhole)
    (arg4 : Memref sig .tc .vmem S1x384 .f32) (harg4 : arg4.IsWhole)
    (arg5 : Memref sig .tc .vmem S1x384 .f32) (harg5 : arg5.IsWhole)
    (arg6 : Memref sig .tc .vmem S1x1 .f32) (harg6 : arg6.IsWhole)
    (arg7 : Memref sig .tc .vmem S384x128 .f32) (harg7 : arg7.IsWhole)
    (arg8 : Memref sig .tc .vmem S2000x128 .f32) (harg8 : arg8.IsWhole)
    (x0 : Vec F S2000x384 .f32) (x1 : Vec F S1x384 .f32) (x2 : Vec F S1x384 .f32) (x3 : Vec F S1x384 .f32) (x4 : Vec F S1x384 .f32) (x5 : Vec F S1x1 .f32) (x6 : Vec F S384x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__bn_prelu_mlp_norm_kernel i arg1 harg1 arg2 harg2 arg3 harg3 arg4 harg4 arg5 harg5 arg6 harg6 arg7 harg7 arg8 harg8) K := by
  simp only [cc1__bn_prelu_mlp_norm_kernel_eq_skeleton]; unfold cc1__bn_prelu_mlp_norm_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at every grid point takes the staging buffers from what the pipeline hands it to what the
    proof data say it leaves. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of @main from the launch to the return, through both regions. @main is six segments: a stretch of
  one host operation (the three 128 x 128 weight blocks laid side by side), the dense projection's region, three
  stretches of host operations (127, 23 and 9 of them), and the second region. The buffer contents at every
  segment boundary are a fold from the launch memory: a stretch rewrites the buffers its operations write, a
  region leaves its arrays at what its write-backs fold to and every other buffer as entered. No operation
  and no region writes an argument array, so the fold at an argument walks back to the launch memory; the result
  array ends at what the second region's write-backs leave.
-/
import proofs.«110036_j83382495085286_1_alg».proof.Proof.KIBody0
import proofs.«110036_j83382495085286_1_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the first region's entry). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first region's exit: its arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the first region's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the long stretch between the regions, -/
abbrev W3 : Dev nD → Valuation τ sig (Elt F) := fun c => StableHlo.after hostOps1 (W2 m ρ c)
/-- after the outlined function's stretch, -/
abbrev W4 : Dev nD → Valuation τ sig (Elt F) := fun c => StableHlo.after hostOps1_1 (W3 m ρ c)
/-- and after the last stretch (the second region's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second region's exit: its arrays at what the write-backs fold to, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## What the host stretches write -/

/-- A singleton of a reference the list names lies within the list's references. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- No operation of `hostOps0` allocates a buffer. -/
theorem hostOps0_fresh : (hostOps0 : List (HloOp τ sig (Elt F))).Forall fun op => op.fresh = ∅ :=
  rfl
/-- The references the operations of `hostOps0` write, in order. -/
abbrev hostOps0_W : List (Ref sig .tc) := [main_v0]
set_option maxHeartbeats 40000000 in
/-- Each operation of `hostOps0` writes its one result, which the list names. -/
theorem hostOps0_writes : (hostOps0 : List (HloOp τ sig (Elt F))).Forall fun op => op.writes ⊆ (hostOps0_W.map (Proc.devRef (τ := τ) .tc)).toFinset :=
  sub_of_mem (y := main_v0) (by decide)

/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references the operations of `hostOps1` write, in order. -/
abbrev hostOps1_W : List (Ref sig .tc) := [main_v2, main_v3, main_v4, main_cst, main_v5, main_v6, main_v7, main_v8, main_v9, main_v10, main_c, main_v11, main_v12, main_c_0, main_v13, main_v14, main_v15, main_v16, main_v17, main_v18, main_v19, main_v20, main_cst_1, main_v21, main_v22, main_v23, main_cst_2, main_v24, main_v25, main_v26, main_v27, main_v28, main_v29, main_v30, main_c_3, main_v31, main_v32, main_c_4, main_v33, main_v34, main_v35, main_v36, main_v37, main_v38, main_v39, main_v40, main_cst_5, main_v41, main_v42, main_v43, main_cst_6, main_v44, main_v45, main_cst_7, main_v46, main_v47, main_v48, main_cst_8, main_v49, main_v50, main_v51, main_cst_9, main_v52, main_v53, main_v54, main_v55, main_v56, main_v57, main_c_10, main_v58, main_v59, main_c_11, main_v60, main_v61, main_v62, main_v63, main_v64, main_v65, main_v66, main_v67, main_cst_12, main_v68, main_v69, main_v70, main_cst_13, main_v71, main_v72, main_v73, main_v74, main_v75, main_v76, main_v77, main_c_14, main_v78, main_v79, main_c_15, main_v80, main_v81, main_v82, main_v83, main_v84, main_v85, main_v86, main_v87, main_cst_16, main_v88, main_v89, main_v90, main_cst_17, main_v91, main_v92, main_cst_18, main_v93, main_v94, main_v95, main_cst_19, main_v96, main_v97, main_v98, main_v99, main_cst_20, main_v100, main_v101, main_cst_21, main_v102, main_v103, main_c_22]
set_option maxHeartbeats 40000000 in
/-- Each operation of `hostOps1` writes its one result, which the list names. -/
theorem hostOps1_writes : (hostOps1 : List (HloOp τ sig (Elt F))).Forall fun op => op.writes ⊆ (hostOps1_W.map (Proc.devRef (τ := τ) .tc)).toFinset :=
  ⟨sub_of_mem (y := main_v2) (by decide),
    sub_of_mem (y := main_v3) (by decide),
    sub_of_mem (y := main_v4) (by decide),
    sub_of_mem (y := main_cst) (by decide),
    sub_of_mem (y := main_v5) (by decide),
    sub_of_mem (y := main_v6) (by decide),
    sub_of_mem (y := main_v7) (by decide),
    sub_of_mem (y := main_v8) (by decide),
    sub_of_mem (y := main_v9) (by decide),
    sub_of_mem (y := main_v10) (by decide),
    sub_of_mem (y := main_c) (by decide),
    sub_of_mem (y := main_v11) (by decide),
    sub_of_mem (y := main_v12) (by decide),
    sub_of_mem (y := main_c_0) (by decide),
    sub_of_mem (y := main_v13) (by decide),
    sub_of_mem (y := main_v14) (by decide),
    sub_of_mem (y := main_v15) (by decide),
    sub_of_mem (y := main_v16) (by decide),
    sub_of_mem (y := main_v17) (by decide),
    sub_of_mem (y := main_v18) (by decide),
    sub_of_mem (y := main_v19) (by decide),
    sub_of_mem (y := main_v20) (by decide),
    sub_of_mem (y := main_cst_1) (by decide),
    sub_of_mem (y := main_v21) (by decide),
    sub_of_mem (y := main_v22) (by decide),
    sub_of_mem (y := main_v23) (by decide),
    sub_of_mem (y := main_cst_2) (by decide),
    sub_of_mem (y := main_v24) (by decide),
    sub_of_mem (y := main_v25) (by decide),
    sub_of_mem (y := main_v26) (by decide),
    sub_of_mem (y := main_v27) (by decide),
    sub_of_mem (y := main_v28) (by decide),
    sub_of_mem (y := main_v29) (by decide),
    sub_of_mem (y := main_v30) (by decide),
    sub_of_mem (y := main_c_3) (by decide),
    sub_of_mem (y := main_v31) (by decide),
    sub_of_mem (y := main_v32) (by decide),
    sub_of_mem (y := main_c_4) (by decide),
    sub_of_mem (y := main_v33) (by decide),
    sub_of_mem (y := main_v34) (by decide),
    sub_of_mem (y := main_v35) (by decide),
    sub_of_mem (y := main_v36) (by decide),
    sub_of_mem (y := main_v37) (by decide),
    sub_of_mem (y := main_v38) (by decide),
    sub_of_mem (y := main_v39) (by decide),
    sub_of_mem (y := main_v40) (by decide),
    sub_of_mem (y := main_cst_5) (by decide),
    sub_of_mem (y := main_v41) (by decide),
    sub_of_mem (y := main_v42) (by decide),
    sub_of_mem (y := main_v43) (by decide),
    sub_of_mem (y := main_cst_6) (by decide),
    sub_of_mem (y := main_v44) (by decide),
    sub_of_mem (y := main_v45) (by decide),
    sub_of_mem (y := main_cst_7) (by decide),
    sub_of_mem (y := main_v46) (by decide),
    sub_of_mem (y := main_v47) (by decide),
    sub_of_mem (y := main_v48) (by decide),
    sub_of_mem (y := main_cst_8) (by decide),
    sub_of_mem (y := main_v49) (by decide),
    sub_of_mem (y := main_v50) (by decide),
    sub_of_mem (y := main_v51) (by decide),
    sub_of_mem (y := main_cst_9) (by decide),
    sub_of_mem (y := main_v52) (by decide),
    sub_of_mem (y := main_v53) (by decide),
    sub_of_mem (y := main_v54) (by decide),
    sub_of_mem (y := main_v55) (by decide),
    sub_of_mem (y := main_v56) (by decide),
    sub_of_mem (y := main_v57) (by decide),
    sub_of_mem (y := main_c_10) (by decide),
    sub_of_mem (y := main_v58) (by decide),
    sub_of_mem (y := main_v59) (by decide),
    sub_of_mem (y := main_c_11) (by decide),
    sub_of_mem (y := main_v60) (by decide),
    sub_of_mem (y := main_v61) (by decide),
    sub_of_mem (y := main_v62) (by decide),
    sub_of_mem (y := main_v63) (by decide),
    sub_of_mem (y := main_v64) (by decide),
    sub_of_mem (y := main_v65) (by decide),
    sub_of_mem (y := main_v66) (by decide),
    sub_of_mem (y := main_v67) (by decide),
    sub_of_mem (y := main_cst_12) (by decide),
    sub_of_mem (y := main_v68) (by decide),
    sub_of_mem (y := main_v69) (by decide),
    sub_of_mem (y := main_v70) (by decide),
    sub_of_mem (y := main_cst_13) (by decide),
    sub_of_mem (y := main_v71) (by decide),
    sub_of_mem (y := main_v72) (by decide),
    sub_of_mem (y := main_v73) (by decide),
    sub_of_mem (y := main_v74) (by decide),
    sub_of_mem (y := main_v75) (by decide),
    sub_of_mem (y := main_v76) (by decide),
    sub_of_mem (y := main_v77) (by decide),
    sub_of_mem (y := main_c_14) (by decide),
    sub_of_mem (y := main_v78) (by decide),
    sub_of_mem (y := main_v79) (by decide),
    sub_of_mem (y := main_c_15) (by decide),
    sub_of_mem (y := main_v80) (by decide),
    sub_of_mem (y := main_v81) (by decide),
    sub_of_mem (y := main_v82) (by decide),
    sub_of_mem (y := main_v83) (by decide),
    sub_of_mem (y := main_v84) (by decide),
    sub_of_mem (y := main_v85) (by decide),
    sub_of_mem (y := main_v86) (by decide),
    sub_of_mem (y := main_v87) (by decide),
    sub_of_mem (y := main_cst_16) (by decide),
    sub_of_mem (y := main_v88) (by decide),
    sub_of_mem (y := main_v89) (by decide),
    sub_of_mem (y := main_v90) (by decide),
    sub_of_mem (y := main_cst_17) (by decide),
    sub_of_mem (y := main_v91) (by decide),
    sub_of_mem (y := main_v92) (by decide),
    sub_of_mem (y := main_cst_18) (by decide),
    sub_of_mem (y := main_v93) (by decide),
    sub_of_mem (y := main_v94) (by decide),
    sub_of_mem (y := main_v95) (by decide),
    sub_of_mem (y := main_cst_19) (by decide),
    sub_of_mem (y := main_v96) (by decide),
    sub_of_mem (y := main_v97) (by decide),
    sub_of_mem (y := main_v98) (by decide),
    sub_of_mem (y := main_v99) (by decide),
    sub_of_mem (y := main_cst_20) (by decide),
    sub_of_mem (y := main_v100) (by decide),
    sub_of_mem (y := main_v101) (by decide),
    sub_of_mem (y := main_cst_21) (by decide),
    sub_of_mem (y := main_v102) (by decide),
    sub_of_mem (y := main_v103) (by decide),
    sub_of_mem (y := main_c_22) (by decide)⟩

/-- No operation of `hostOps1_1` allocates a buffer. -/
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The references the operations of `hostOps1_1` write, in order. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v104]
set_option maxHeartbeats 40000000 in
/-- Each operation of `hostOps1_1` writes its one result, which the list names. -/
theorem hostOps1_1_writes : (hostOps1_1 : List (HloOp τ sig (Elt F))).Forall fun op => op.writes ⊆ (hostOps1_1_W.map (Proc.devRef (τ := τ) .tc)).toFinset :=
  ⟨sub_of_mem (y := main_call0_cst) (by decide),
    sub_of_mem (y := main_call0_v0) (by decide),
    sub_of_mem (y := main_call0_v1) (by decide),
    sub_of_mem (y := main_call0_cst_0) (by decide),
    sub_of_mem (y := main_call0_v2) (by decide),
    sub_of_mem (y := main_call0_v3) (by decide),
    sub_of_mem (y := main_call0_v4) (by decide),
    sub_of_mem (y := main_call0_v5) (by decide),
    sub_of_mem (y := main_call0_v6) (by decide),
    sub_of_mem (y := main_call0_v7) (by decide),
    sub_of_mem (y := main_call0_cst_1) (by decide),
    sub_of_mem (y := main_call0_v8) (by decide),
    sub_of_mem (y := main_call0_cst_2) (by decide),
    sub_of_mem (y := main_call0_v9) (by decide),
    sub_of_mem (y := main_call0_v10) (by decide),
    sub_of_mem (y := main_call0_v11) (by decide),
    sub_of_mem (y := main_call0_v12) (by decide),
    sub_of_mem (y := main_call0_cst_3) (by decide),
    sub_of_mem (y := main_call0_v13) (by decide),
    sub_of_mem (y := main_call0_cst_4) (by decide),
    sub_of_mem (y := main_call0_call0_v0) (by decide),
    sub_of_mem (y := main_call0_call0_v1) (by decide),
    sub_of_mem (y := main_v104) (by decide)⟩

/-- No operation of `hostOps1_2` allocates a buffer. -/
theorem hostOps1_2_fresh : (hostOps1_2 : List (HloOp τ sig (Elt F))).Forall fun op => op.fresh = ∅ :=
  ⟨rfl, rfl, rfl, rfl, rfl, rfl, rfl, rfl, rfl⟩
/-- The references the operations of `hostOps1_2` write, in order. -/
abbrev hostOps1_2_W : List (Ref sig .tc) := [main_cst_23, main_v105, main_v106, main_v107, main_v108, main_v109, main_v110, main_v111, main_v112]
set_option maxHeartbeats 40000000 in
/-- Each operation of `hostOps1_2` writes its one result, which the list names. -/
theorem hostOps1_2_writes : (hostOps1_2 : List (HloOp τ sig (Elt F))).Forall fun op => op.writes ⊆ (hostOps1_2_W.map (Proc.devRef (τ := τ) .tc)).toFinset :=
  ⟨sub_of_mem (y := main_cst_23) (by decide),
    sub_of_mem (y := main_v105) (by decide),
    sub_of_mem (y := main_v106) (by decide),
    sub_of_mem (y := main_v107) (by decide),
    sub_of_mem (y := main_v108) (by decide),
    sub_of_mem (y := main_v109) (by decide),
    sub_of_mem (y := main_v110) (by decide),
    sub_of_mem (y := main_v111) (by decide),
    sub_of_mem (y := main_v112) (by decide)⟩

/-! ## The arguments end as launched

No host operation writes an argument and no region may change one (a region reads it through an input window or
bypasses it), so the fold at an argument's buffer walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1_2 _ hostOps1_2_writes (by decide)
    _ = W3 m ρ c (Proc.devRef .tc main_arg11) := StableHlo.after_of_writes_sub hostOps1_1 _ hostOps1_1_writes (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps1_2 _ hostOps1_2_writes (by decide)
    _ = W3 m ρ c (Proc.devRef .tc main_arg12) := StableHlo.after_of_writes_sub hostOps1_1 _ hostOps1_1_writes (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps1_2 _ hostOps1_2_writes (by decide)
    _ = W3 m ρ c (Proc.devRef .tc main_arg13) := StableHlo.after_of_writes_sub hostOps1_1 _ hostOps1_1_writes (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps1_2 _ hostOps1_2_writes (by decide)
    _ = W3 m ρ c (Proc.devRef .tc main_arg14) := StableHlo.after_of_writes_sub hostOps1_1 _ hostOps1_1_writes (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := (W6_arr m ρ c 6).trans (((dat1 (V5 m ρ) c).arrAt_in 6 rfl _).trans (A_eq1 (V5 m ρ) c 6))
    _ = W4 m ρ c (Proc.devRef .tc main_arg15) := StableHlo.after_of_writes_sub hostOps1_2 _ hostOps1_2_writes (by decide)
    _ = W3 m ρ c (Proc.devRef .tc main_arg15) := StableHlo.after_of_writes_sub hostOps1_1 _ hostOps1_1_writes (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at the contents the stretch leaves. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W5`, left at `W6`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments: it is the chain of its items, and the segments' programs are those items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates,
    nothing faulting, and in every final state the result array holds what the second region's write-backs
    leave and the sixteen argument arrays are as launched: the launch over the segments, the last thread state
    read against the final state. -/
theorem run_main : θ_run defs (onTc (τ := τ) (main (F := F))) ⟨m, fun _ => 0, ρ⟩ (fun r => ∀ c : Dev nD,
      r.2.mem ((c.tc : Thread nD τ).loc main_v113) = (dat1 (V5 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v113 (by decide))).trans (W6_arr m ρ c 7),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

/-- The same run, keeping only that the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Cert.KernelIdeal.Hand

end
-- ==== Proof.ValSpec.lean ====
/-
  The two whole-array functions the kernel's regions compute, on the extended reals.

  The first region multiplies the 40000 x 128 features by the 128 x 384 concatenated weights: entry (i, j) is the
  sum over k of x (i, k) * w (k, j).  The second takes the 40000 x 384 concatenated features X, the 1 x 384 rows
  mean, inv, g, b, the 1 x 1 slope a and the 384 x 128 weights W: with
      B (r, k) = g k * (X (r, k) - mean k) * inv k + b k          (batch-norm affine)
      Y (r, k) = B (r, k) if B (r, k) >= 0, else a * B (r, k)      (PReLU)
      E (r, j) = sum over k of Y (r, k) * W (k, j)
  its entry (r, j) is  E (r, j) / max (sqrt (sum over j' of E (r, j')^2)) c  with c the constant 1e-12 as a
  binary32 value.  Each depends on row r of X only, which is why a block of rows of the result is the same
  function of the block of rows.
-/
import Idealize.ShloMosaic.PureOps.Ideal.Laws
import Idealize.ShloMosaic.Lib.ValueIdx

noncomputable section

open scoped BigOperators

namespace Cert.Spec

open Idealize.ShloMosaic Idealize.ShloMosaic.ValueIdx

/-- An a x b array of extended reals. -/
abbrev M2 (a b : Nat) := (⟨2, ![a, b]⟩ : Shape).Idx → EReal

/-- The matrix product of an a x k by a k x b array. -/
def mm {a k b : Nat} (x : M2 a k) (w : M2 k b) : M2 a b :=
  fun i => ∑ q : Fin k, x (ix2 (⟨(i 0).val, (i 0).isLt⟩ : Fin a) q) * w (ix2 q (⟨(i 1).val, (i 1).isLt⟩ : Fin b))

theorem mm_apply {a k b : Nat} (x : M2 a k) (w : M2 k b) (p : Fin a) (q : Fin b) :
    mm x w (ix2 p q) = ∑ t : Fin k, x (ix2 p t) * w (ix2 t q) := rfl

/-- Batch-norm affine then PReLU, at row r and column k. -/
def act {n d : Nat} (X : M2 n d) (mean inv g b : M2 1 d) (a : M2 1 1) (r : Fin n) (k : Fin d) : EReal :=
  Scalar.select
    (FloatOps.cmpf (F := Ideal) (φ := .f32) .oge
      (g (ix2 0 k) * (X (ix2 r k) - mean (ix2 0 k)) * inv (ix2 0 k) + b (ix2 0 k)) (Ideal.ofBits .f32 0x00000000#32))
    (g (ix2 0 k) * (X (ix2 r k) - mean (ix2 0 k)) * inv (ix2 0 k) + b (ix2 0 k))
    (a (ix2 0 0) * (g (ix2 0 k) * (X (ix2 r k) - mean (ix2 0 k)) * inv (ix2 0 k) + b (ix2 0 k)))

/-- The activations times the weights, at row r and column j. -/
def emb {n d e : Nat} (X : M2 n d) (mean inv g b : M2 1 d) (a : M2 1 1) (W : M2 d e) (r : Fin n) (j : Fin e) : EReal :=
  ∑ k : Fin d, act X mean inv g b a r k * W (ix2 k j)

/-- The row-normalised result, at row r and column j. -/
def nrm {n d e : Nat} (X : M2 n d) (mean inv g b : M2 1 d) (a : M2 1 1) (W : M2 d e) (r : Fin n) (j : Fin e) : EReal :=
  Ideal.div (emb X mean inv g b a W r j)
    (max (Ideal.sqrt (∑ j' : Fin e, emb X mean inv g b a W r j' * emb X mean inv g b a W r j'))
      (Ideal.ofBits .f32 0x2B8CBCCC#32))

/-- The second region's whole-array function. -/
def G1 {n d e : Nat} (X : M2 n d) (mean inv g b : M2 1 d) (a : M2 1 1) (W : M2 d e) : M2 n e :=
  fun i => nrm X mean inv g b a W (⟨(i 0).val, (i 0).isLt⟩ : Fin n) (⟨(i 1).val, (i 1).isLt⟩ : Fin e)

theorem G1_apply {n d e : Nat} (X : M2 n d) (mean inv g b : M2 1 d) (a : M2 1 1) (W : M2 d e) (r : Fin n) (j : Fin e) :
    G1 X mean inv g b a W (ix2 r j) = nrm X mean inv g b a W r j := rfl

end Cert.Spec

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.KIVal0.lean ====
/-
  The dense projection's region as one function of its arrays: the result array ends holding the matrix
  product of the 40000 x 128 features by the 128 x 384 weights.

  A grid point stores the product of its block of 2000 rows of the features by the whole weight matrix. Entry
  (p, q) of that product is the sum over k of x (p, k) * w (k, q), which reads row p of the block only; row p of
  block t is row 2000 t + p of the features, so what point t writes back is block t of the whole product. The
  twenty blocks of 2000 rows tile the 40000 rows: row r lies in block r / 2000.
-/
import proofs.«110036_j83382495085286_1_alg».proof.Proof.KIBody0
import proofs.«110036_j83382495085286_1_alg».proof.Proof.ValSpec
import proofs.«110036_j83382495085286_1_alg».proof.Proof.LibPlainDot
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-buffer rectangle. -/
theorem hz0 : (![0, 0] : Fin 2 → Nat) = fun _ => 0 := funext fun a => by fin_cases a <;> rfl

/-- The body's payload at row p and column q: the sum over k of x (p, k) * w (k, q). Narrowing the operands'
    format changes nothing on the extended reals, and the accumulator starts from the zero array. -/
theorem pay0_apply (x0 : Vec Ideal S2000x128 .f32) (x1 : Vec Ideal S128x384 .f32) (p : Fin 2000) (q : Fin 384) :
    k0_pay1 (F := Ideal) x0 x1 (ix2 p q) = ∑ t : Fin 128, x0 (ix2 p t) * x1 (ix2 t q) := by
  unfold k0_pay1
  refine (PlainDot.matmul_zero_apply _ (PlainDot.eq_plain _ rfl rfl rfl rfl rfl rfl) none _ _ p q).trans ?_
  refine Finset.sum_congr rfl fun t _ => ?_
  rw [truncf_apply, truncf_apply, shapeCast_self]

variable (V : (c : Dev nD) → (b : Ref sig .tc) → Buf (Elt Ideal) ((c : Thread nD τ).loc b))

/-- The printed index maps over the grid: the features' and the result's row block moves with the point, the
    weights stay whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 2000 t + p of the features. -/
theorem iblk0_0_apply (c : Dev nD) (t : Fin cfg0.N) (x : S2000x128.Idx) (k : S40000x128.Idx)
    (hk0 : (k 0).val = 2000 * t.val + (x 0).val) (hk1 : (k 1).val = (x 1).val) :
    (iblk0 V c 0 t : Vec Ideal S2000x128 .f32) x = (V c main_arg0 : S40000x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The weights' block at every point is the weights. -/
theorem iblk0_1_apply (c : Dev nD) (t : Fin cfg0.N) (x : S128x384.Idx) :
    (iblk0 V c 1 t : Vec Ideal S128x384 .f32) x = (V c main_v0 : S128x384.Idx → EReal) x := by
  obtain ⟨-, -, e2, e3, -⟩ := idx_facts0 t
  unfold iblk0
  rw [View.read_apply]
  show V c main_v0 _ = V c main_v0 _
  congr 1
  funext a
  apply Fin.ext
  match a with
  | ⟨0, _⟩ => show win0_1.index t 0 * 128 + 1 * (x 0).val = (x 0).val; rw [e2]; omega
  | ⟨1, _⟩ => show win0_1.index t 1 * 384 + 1 * (x 1).val = (x 1).val; rw [e3]; omega

/-- The product of point t's blocks at (p, q) is the whole product at (2000 t + p, q). -/
theorem block0_eq (c : Dev nD) (t : Fin cfg0.N) (j : S2000x384.Idx) (i : S40000x384.Idx)
    (hi0 : (i 0).val = 2000 * t.val + (j 0).val) (hi1 : (i 1).val = (j 1).val) :
    k0_pay1 (F := Ideal) (iblk0 V c 0 t) (iblk0 V c 1 t) j = Cert.Spec.mm (V c main_arg0) (V c main_v0) i := by
  obtain ⟨p, q, rfl⟩ : ∃ (p : Fin 2000) (q : Fin 384), j = ix2 p q := ⟨j 0, j 1, eq_ix2 j⟩
  refine (pay0_apply (iblk0 V c 0 t) (iblk0 V c 1 t) p q).trans ?_
  refine Eq.trans ?_ (Cert.Spec.mm_apply (V c main_arg0) (V c main_v0) (⟨(i 0).val, (i 0).isLt⟩ : Fin 40000)
    (⟨(i 1).val, (i 1).isLt⟩ : Fin 384)).symm
  refine Finset.sum_congr rfl fun k _ => ?_
  have h1 : (iblk0 V c 0 t : Vec Ideal S2000x128 .f32) (ix2 p k)
      = (V c main_arg0 : S40000x128.Idx → EReal) (ix2 (⟨(i 0).val, (i 0).isLt⟩ : Fin 40000) k) :=
    iblk0_0_apply V c t _ _ hi0 rfl
  have h2 : (iblk0 V c 1 t : Vec Ideal S128x384 .f32) (ix2 k q)
      = (V c main_v0 : S128x384.Idx → EReal) (ix2 k (⟨(i 1).val, (i 1).isLt⟩ : Fin 384)) :=
    (iblk0_1_apply V c t _).trans (congrArg _ (by
      funext a
      apply Fin.ext
      match a with
      | ⟨0, _⟩ => rfl
      | ⟨1, _⟩ => exact hi1.symm))
  exact congrArg₂ (fun a b : EReal => a * b) h1 h2

/-- What point t writes back is block t of the whole product. -/
theorem flushed0_eq (c : Dev nD) (t : Fin cfg0.N) :
    (dat0 (F := Ideal) V c).flushed 2 t
      = ((cfg0.win 2).blk t).view.read (Elt Ideal) (Cert.Spec.mm (V c main_arg0) (V c main_v0)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x384) hz0]
  obtain ⟨-, -, -, -, e4, e5⟩ := idx_facts0 t
  funext j
  refine block0_eq V c t j _ ?_ ?_
  · show win0_2.index t 0 * 2000 + 1 * (j 0).val = _; rw [e4]; omega
  · show win0_2.index t 1 * 384 + 1 * (j 1).val = _; rw [e5]; omega

/-- An index of the result is in point t's block iff each coordinate is in the block's range on its axis. -/
theorem mem_blk0 (t : Fin cfg0.N) (i : S40000x384.Idx) :
    i ∈ ((cfg0.win 2).blk t).view.set ↔ ∀ a : Fin 2, win0_2.index t a * S2000x384.size a ≤ (i a).val
      ∧ (i a).val < win0_2.index t a * S2000x384.size a + S2000x384.size a := by
  show i ∈ ((View.whole main_v1).slice (win0_2.rect t)).set ↔ _
  rw [View.set_slice_whole, Rect.mem_set_unit]
  exact Iff.rfl

/-- Row r of the result lies in block r / 2000. -/
theorem cover0 (i : S40000x384.Idx) :
    ∃ t : Fin cfg0.N, (cfg0.win 2).flush t = true ∧ i ∈ ((cfg0.win 2).blk t).view.set := by
  have hi0 : (i 0).val < 40000 := (i 0).isLt
  have hi1 : (i 1).val < 384 := (i 1).isLt
  have hN : cfg0.N = 20 := N_0
  refine ⟨⟨(i 0).val / 2000, by rw [hN]; omega⟩, flush0_2 _, ?_⟩
  rw [mem_blk0]
  obtain ⟨-, -, -, -, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 384 ≤ (i 1).val ∧ (i 1).val < win0_2.index _ (1 : Fin 2) * 384 + 384
    rw [e5]; omega

/-- The result array after the region is the matrix product of the features by the weights. -/
theorem final0 (c : Dev nD) :
    (dat0 (F := Ideal) V c).arrAt 2 cfg0.N = Cert.Spec.mm (V c main_arg0) (V c main_v0) :=
  (dat0 (F := Ideal) V c).arrAt_eq_of_cover 2 (Cert.Spec.mm (V c main_arg0) (V c main_v0))
    (fun t _ => flushed0_eq V c t) cover0

end Cert.KernelIdeal.Hand

end
-- ==== Proof.LibRowSum.lean ====
/-
  A sum along the rows of a matrix, read at an index, on the extended reals.

  A sum of an [a, b] array over its axis 1, from the neutral accumulator, has at i the value ∑ k, x (i, k): the
  index the reduction inserts coordinate k into at position 1 is (i, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

/-- The reduced index `i` with column `k` put back is (i, k). -/
theorem lift_row {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows from the neutral accumulator, at row `i`: the sum of that row. -/
theorem rowSum_apply {a b : Nat} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] (⟨1, ![a]⟩ : Shape) src acc h hφ hacc (ix1 i) = ∑ k : Fin b, src (ix2 i k) := by
  refine (Ideal.multiReduction_add_single src acc h hφ hacc (ix1 i)).trans ?_
  show (∑ k : Fin b, src (h.lift (ix1 i) k)) = _
  exact Finset.sum_congr rfl fun k _ => congrArg src (lift_row h i k)

end Idealize.ShloMosaic.RowSum

end
-- ==== Proof.LibKeepdims.lean ====
/-
  A row sum kept as a column, read at an index.

  `jnp.sum(x, axis=-1, keepdims=True)` leaves an [a] vector cast to an [a, 1] column, and adding it to its own
  transpose broadcasts the column along the rows of an [a, b] matrix. Read at an index, the column at (i, u) is
  the vector at i, and the column broadcast along the rows at (p, c) is the column at (p, 0). (The companion
  forms — a row broadcast down the columns, the transpose of a matrix — are in the library's layout lemmas.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KIVal1.lean ====
/-
  The second region as one function of its arrays: the result array ends holding, at row r and column j, the
  normalised embedding  E (r, j) / max (sqrt (sum over j' of E (r, j')^2)) c  of the batch-norm affine map and
  PReLU of row r of the features times the weights.

  A grid point stores that function of its block of 2000 rows of the features and of the whole parameter rows,
  slope and weights. Every stage reads row p of the block only — the affine map and the PReLU are entrywise with
  the parameter rows broadcast down the columns, the product's entry (p, j) reads row p of the activations, and
  the norm is the sum along row p — and row p of block t is row 2000 t + p of the features, so what point t
  writes back is block t of the whole-array function. The twenty blocks of 2000 rows tile the 40000 rows: row r
  lies in block r / 2000.
-/
import proofs.«110036_j83382495085286_1_alg».proof.Proof.KIBody1
import proofs.«110036_j83382495085286_1_alg».proof.Proof.ValSpec
import proofs.«110036_j83382495085286_1_alg».proof.Proof.LibPlainDot
import proofs.«110036_j83382495085286_1_alg».proof.Proof.LibRowSum
import proofs.«110036_j83382495085286_1_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-buffer rectangle. -/
theorem hz1 : (![0, 0] : Fin 2 → Nat) = fun _ => 0 := funext fun a => by fin_cases a <;> rfl

/-! ## The body's value at an index, stage by stage -/

/-- A 1 x 1 array broadcast to a x b reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The batch-norm affine map as the body computes it: the scale, mean, inverse deviation and shift rows
    broadcast down the 2000 rows, then  g * (x - mean) * inv + b  entrywise. -/
def affv (x : Vec Ideal S2000x384 .f32) (g mean inv b : Vec Ideal S1x384 .f32) : FVec Ideal S2000x384 .f32 :=
  addf
    (mulf
      (mulf (broadcastTo S2000x384 (shapeCast S1x384 g shapeCasts_S1x384_S1x384) broadcasts_S1x384_S2000x384)
        (subf (shapeCast S2000x384 x shapeCasts_S2000x384_S2000x384)
          (broadcastTo S2000x384 (shapeCast S1x384 mean shapeCasts_S1x384_S1x384) broadcasts_S1x384_S2000x384)))
      (broadcastTo S2000x384 (shapeCast S1x384 inv shapeCasts_S1x384_S1x384) broadcasts_S1x384_S2000x384))
    (broadcastTo S2000x384 (shapeCast S1x384 b shapeCasts_S1x384_S1x384) broadcasts_S1x384_S2000x384)

/-- The PReLU of the affine map as the body computes it: where the entry is at least zero the entry, elsewhere
    the slope times the entry. -/
def actv (x : Vec Ideal S2000x384 .f32) (g mean inv b : Vec Ideal S1x384 .f32) (a : Vec Ideal S1x1 .f32) :
    FVec Ideal S2000x384 .f32 :=
  select (cmpf .oge (affv x g mean inv b) (broadcast S2000x384 (Scalar.ofBits (F := Ideal) .f32 0x00000000#32)))
    (affv x g mean inv b)
    (mulf (broadcastTo S2000x384 (shapeCast S1x1 a shapeCasts_S1x1_S1x1) broadcasts_S1x1_S2000x384)
      (affv x g mean inv b))

/-- The product of the activations by the weights as the body computes it, from the zero array. -/
def embv (y : FVec Ideal S2000x384 .f32) (W : Vec Ideal S384x128 .f32) : FVec Ideal S2000x128 .f32 :=
  matmul dot_S2000x384_S384x128_S2000x128_1_0_0_1_n_n none (truncf .bf16 y bitsLt_bf16_f32)
    (truncf .bf16 W bitsLt_bf16_f32) (constant (F := Ideal) S2000x128 .f32 0x00000000#32)

/-- The row normalisation as the body computes it: each row divided by the larger of its Euclidean norm and the
    constant. -/
def nrmv (E : FVec Ideal S2000x128 .f32) : FVec Ideal S2000x128 .f32 :=
  divf E
    (broadcastTo S2000x128
      (maximumf
        (sqrt (shapeCast S2000x1
          (multiReduction (F := Ideal) .add [1] S2000 (mulf E E) 0x00000000#32 reduces_S2000x128_S2000 (.inl rfl) rfl)
          shapeCasts_S2000_S2000x1))
        (broadcast S2000x1 (Scalar.ofBits (F := Ideal) .f32 0x2B8CBCCC#32)))
      broadcasts_S2000x1_S2000x128)

/-- The body's value is those four stages composed. -/
theorem pay1_stages (x : Vec Ideal S2000x384 .f32) (g mean inv b : Vec Ideal S1x384 .f32) (a : Vec Ideal S1x1 .f32)
    (W : Vec Ideal S384x128 .f32) :
    k1_pay1 (F := Ideal) x g mean inv b a W = nrmv (embv (actv x g mean inv b a) W) := rfl

/-- The affine map at row p and column k. -/
theorem affv_apply (x : Vec Ideal S2000x384 .f32) (g mean inv b : Vec Ideal S1x384 .f32) (p : Fin 2000) (k : Fin 384) :
    affv x g mean inv b (ix2 p k)
      = g (ix2 0 k) * (x (ix2 p k) - mean (ix2 0 k)) * inv (ix2 0 k) + b (ix2 0 k) := by
  unfold affv
  rw [addf_apply, mulf_apply, mulf_apply, subf_apply]
  rw [broadcastTo_1b_ab_apply, broadcastTo_1b_ab_apply, broadcastTo_1b_ab_apply, broadcastTo_1b_ab_apply]
  rw [shapeCast_self, shapeCast_self, shapeCast_self, shapeCast_self, shapeCast_self]

/-- The activations at row p and column k. -/
theorem actv_apply (x : Vec Ideal S2000x384 .f32) (g mean inv b : Vec Ideal S1x384 .f32) (a : Vec Ideal S1x1 .f32)
    (p : Fin 2000) (k : Fin 384) :
    actv x g mean inv b a (ix2 p k) = Cert.Spec.act x mean inv g b a p k := by
  unfold actv Cert.Spec.act
  rw [select_apply, cmpf_apply, mulf_apply, broadcast_apply, broadcastTo_11_ab_apply, shapeCast_self, affv_apply]
  rfl

/-- The product at row p and column q: the sum over k of y (p, k) * W (k, q). -/
theorem embv_apply (y : FVec Ideal S2000x384 .f32) (W : Vec Ideal S384x128 .f32) (p : Fin 2000) (q : Fin 128) :
    embv y W (ix2 p q) = ∑ k : Fin 384, y (ix2 p k) * W (ix2 k q) := by
  unfold embv
  refine (PlainDot.matmul_zero_apply _ (PlainDot.eq_plain _ rfl rfl rfl rfl rfl rfl) none _ _ p q).trans ?_
  refine Finset.sum_congr rfl fun t _ => ?_
  rw [truncf_apply, truncf_apply]

/-- The normalisation at row p and column q, of an array whose row p is e. -/
theorem nrmv_apply (E : FVec Ideal S2000x128 .f32) (e : Fin 128 → EReal) (p : Fin 2000)
    (hE : ∀ q' : Fin 128, E (ix2 p q') = e q') (q : Fin 128) :
    nrmv E (ix2 p q)
      = Ideal.div (e q) (max (Ideal.sqrt (∑ j' : Fin 128, e j' * e j')) (Ideal.ofBits .f32 0x2B8CBCCC#32)) := by
  unfold nrmv
  rw [divf_apply, hE q]
  refine congrArg (Ideal.div (e q)) ?_
  refine (Keepdims.broadcastTo_a1_ab_apply _ _ p q).trans ?_
  rw [maximumf_apply, broadcast_apply]
  refine congrArg₂ max ?_ rfl
  show Ideal.sqrt _ = Ideal.sqrt _
  refine congrArg Ideal.sqrt ?_
  refine (Keepdims.shapeCast_a_a1_apply _ _ p 0).trans ?_
  refine (RowSum.rowSum_apply _ _ _ _ _ p).trans ?_
  refine Finset.sum_congr rfl fun j' _ => ?_
  rw [mulf_apply, hE j']

/-- The body's value at row p and column q is the normalised embedding of row p. -/
theorem pay1_apply (x : Vec Ideal S2000x384 .f32) (g mean inv b : Vec Ideal S1x384 .f32) (a : Vec Ideal S1x1 .f32)
    (W : Vec Ideal S384x128 .f32) (p : Fin 2000) (q : Fin 128) :
    k1_pay1 (F := Ideal) x g mean inv b a W (ix2 p q) = Cert.Spec.nrm x mean inv g b a W p q := by
  rw [pay1_stages]
  unfold Cert.Spec.nrm
  refine nrmv_apply _ (fun q' => Cert.Spec.emb x mean inv g b a W p q') p (fun q' => ?_) q
  refine (embv_apply _ _ p q').trans ?_
  unfold Cert.Spec.emb
  refine Finset.sum_congr rfl fun k _ => ?_
  rw [actv_apply]

/-! ## From the blocks to the array -/

variable (V : (c : Dev nD) → (b : Ref sig .tc) → Buf (Elt Ideal) ((c : Thread nD τ).loc b))

/-- The printed index maps over the grid: the features' and the result's row block moves with the point; -/
theorem idx_rows1 : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

/-- the parameter rows, the slope and the weights stay whole. -/
theorem idx_whole1_1 : ∀ t : Fin cfg1.N, win1_1.index t (0 : Fin 2) = 0 ∧ win1_1.index t (1 : Fin 2) = 0 :=
  (by decide +kernel : ∀ t : Fin grid1.N, _)
theorem idx_whole1_2 : ∀ t : Fin cfg1.N, win1_2.index t (0 : Fin 2) = 0 ∧ win1_2.index t (1 : Fin 2) = 0 :=
  (by decide +kernel : ∀ t : Fin grid1.N, _)
theorem idx_whole1_3 : ∀ t : Fin cfg1.N, win1_3.index t (0 : Fin 2) = 0 ∧ win1_3.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_whole1_6 : ∀ t : Fin cfg1.N, win1_6.index t (0 : Fin 2) = 0 ∧ win1_6.index t (1 : Fin 2) = 0 :=
  (by decide +kernel : ∀ t : Fin grid1.N, _)

/-- Row p of the features' block at point t is row 2000 t + p of the features. -/
theorem iblk1_0_apply (c : Dev nD) (t : Fin cfg1.N) (x : S2000x384.Idx) (k : S40000x384.Idx)
    (hk0 : (k 0).val = 2000 * t.val + (x 0).val) (hk1 : (k 1).val = (x 1).val) :
    (iblk1 V c 0 t : Vec Ideal S2000x384 .f32) x = (V c main_v99 : S40000x384.Idx → EReal) k := by
  obtain ⟨e0, e1, -⟩ := idx_rows1 t
  unfold iblk1
  rw [View.read_apply]
  show V c main_v99 _ = V c main_v99 _
  congr 1
  funext a
  apply Fin.ext
  match a with
  | ⟨0, _⟩ => show win1_0.index t 0 * 2000 + 1 * (x 0).val = (k 0).val; rw [e0, hk0]; omega
  | ⟨1, _⟩ => show win1_0.index t 1 * 384 + 1 * (x 1).val = (k 1).val; rw [e1, hk1]; omega

/-- The mean row's block at every point is the mean row. -/
theorem iblk1_1_apply (c : Dev nD) (t : Fin cfg1.N) (x : S1x384.Idx) :
    (iblk1 V c 1 t : Vec Ideal S1x384 .f32) x = (V c main_v103 : S1x384.Idx → EReal) x := by
  obtain ⟨e0, e1⟩ := idx_whole1_1 t
  unfold iblk1
  rw [View.read_apply]
  show V c main_v103 _ = V c main_v103 _
  congr 1
  funext a
  apply Fin.ext
  match a with
  | ⟨0, _⟩ => show win1_1.index t 0 * 1 + 1 * (x 0).val = (x 0).val; rw [e0]; omega
  | ⟨1, _⟩ => show win1_1.index t 1 * 384 + 1 * (x 1).val = (x 1).val; rw [e1]; omega

/-- The inverse-deviation row's block at every point is that row. -/
theorem iblk1_2_apply (c : Dev nD) (t : Fin cfg1.N) (x : S1x384.Idx) :
    (iblk1 V c 2 t : Vec Ideal S1x384 .f32) x = (V c main_v107 : S1x384.Idx → EReal) x := by
  obtain ⟨e0, e1⟩ := idx_whole1_2 t
  unfold iblk1
  rw [View.read_apply]
  show V c main_v107 _ = V c main_v107 _
  congr 1
  funext a
  apply Fin.ext
  match a with
  | ⟨0, _⟩ => show win1_2.index t 0 * 1 + 1 * (x 0).val = (x 0).val; rw [e0]; omega
  | ⟨1, _⟩ => show win1_2.index t 1 * 384 + 1 * (x 1).val = (x 1).val; rw [e1]; omega

/-- The scale row's block at every point is the scale row. -/
theorem iblk1_3_apply (c : Dev nD) (t : Fin cfg1.N) (x : S1x384.Idx) :
    (iblk1 V c 3 t : Vec Ideal S1x384 .f32) x = (V c main_v109 : S1x384.Idx → EReal) x := by
  obtain ⟨e0, e1⟩ := idx_whole1_3 t
  unfold iblk1
  rw [View.read_apply]
  show V c main_v109 _ = V c main_v109 _
  congr 1
  funext a
  apply Fin.ext
  match a with
  | ⟨0, _⟩ => show win1_3.index t 0 * 1 + 1 * (x 0).val = (x 0).val; rw [e0]; omega
  | ⟨1, _⟩ => show win1_3.index t 1 * 384 + 1 * (x 1).val = (x 1).val; rw [e1]; omega

/-- The shift row's block at every point is the shift row. -/
theorem iblk1_4_apply (c : Dev nD) (t : Fin cfg1.N) (x : S1x384.Idx) :
    (iblk1 V c 4 t : Vec Ideal S1x384 .f32) x = (V c main_v111 : S1x384.Idx → EReal) x := by
  obtain ⟨e0, e1⟩ := idx_whole1_4 t
  unfold iblk1
  rw [View.read_apply]
  show V c main_v111 _ = V c main_v111 _
  congr 1
  funext a
  apply Fin.ext
  match a with
  | ⟨0, _⟩ => show win1_4.index t 0 * 1 + 1 * (x 0).val = (x 0).val; rw [e0]; omega
  | ⟨1, _⟩ => show win1_4.index t 1 * 384 + 1 * (x 1).val = (x 1).val; rw [e1]; omega

/-- The slope's block at every point is the slope. -/
theorem iblk1_5_apply (c : Dev nD) (t : Fin cfg1.N) (x : S1x1.Idx) :
    (iblk1 V c 5 t : Vec Ideal S1x1 .f32) x = (V c main_v112 : S1x1.Idx → EReal) x := by
  obtain ⟨e0, e1⟩ := idx_whole1_5 t
  unfold iblk1
  rw [View.read_apply]
  show V c main_v112 _ = V c main_v112 _
  congr 1
  funext a
  apply Fin.ext
  match a with
  | ⟨0, _⟩ => show win1_5.index t 0 * 1 + 1 * (x 0).val = (x 0).val; rw [e0]; omega
  | ⟨1, _⟩ => show win1_5.index t 1 * 1 + 1 * (x 1).val = (x 1).val; rw [e1]; omega

/-- The weights' block at every point is the weights. -/
theorem iblk1_6_apply (c : Dev nD) (t : Fin cfg1.N) (x : S384x128.Idx) :
    (iblk1 V c 6 t : Vec Ideal S384x128 .f32) x = (V c main_arg15 : S384x128.Idx → EReal) x := by
  obtain ⟨e0, e1⟩ := idx_whole1_6 t
  unfold iblk1
  rw [View.read_apply]
  show V c main_arg15 _ = V c main_arg15 _
  congr 1
  funext a
  apply Fin.ext
  match a with
  | ⟨0, _⟩ => show win1_6.index t 0 * 384 + 1 * (x 0).val = (x 0).val; rw [e0]; omega
  | ⟨1, _⟩ => show win1_6.index t 1 * 128 + 1 * (x 1).val = (x 1).val; rw [e1]; omega

/-- The normalised embedding reads its features through one row only: two feature arrays that agree on a row of
    each give the same value there, the parameters being equal. -/
theorem nrm_rows {n n' d e : Nat} (X : Cert.Spec.M2 n d) (X' : Cert.Spec.M2 n' d)
    (mean inv g b mean' inv' g' b' : Cert.Spec.M2 1 d) (a a' : Cert.Spec.M2 1 1) (W W' : Cert.Spec.M2 d e)
    (r : Fin n) (r' : Fin n') (hX : ∀ k : Fin d, X (ix2 r k) = X' (ix2 r' k))
    (hm : mean = mean') (hi : inv = inv') (hg : g = g') (hb : b = b') (ha : a = a') (hW : W = W') (j : Fin e) :
    Cert.Spec.nrm X mean inv g b a W r j = Cert.Spec.nrm X' mean' inv' g' b' a' W' r' j := by
  subst hm hi hg hb ha hW
  have hact : ∀ k : Fin d, Cert.Spec.act X mean inv g b a r k = Cert.Spec.act X' mean inv g b a r' k := fun k => by
    unfold Cert.Spec.act
    rw [hX k]
  have hemb : ∀ j : Fin e, Cert.Spec.emb X mean inv g b a W r j = Cert.Spec.emb X' mean inv g b a W r' j := fun j => by
    unfold Cert.Spec.emb
    exact Finset.sum_congr rfl fun k _ => by rw [hact k]
  unfold Cert.Spec.nrm
  rw [hemb j]
  refine congrArg (fun s => Ideal.div _ (max (Ideal.sqrt s) _)) ?_
  exact Finset.sum_congr rfl fun j' _ => by rw [hemb j']

/-- The body's value of point t's blocks at (p, q) is the whole-array function at (2000 t + p, q). -/
theorem block1_eq (c : Dev nD) (t : Fin cfg1.N) (j : S2000x128.Idx) (i : S40000x128.Idx)
    (hi0 : (i 0).val = 2000 * t.val + (j 0).val) (hi1 : (i 1).val = (j 1).val) :
    k1_pay1 (F := Ideal) (iblk1 V c 0 t) (iblk1 V c 3 t) (iblk1 V c 1 t) (iblk1 V c 2 t) (iblk1 V c 4 t)
        (iblk1 V c 5 t) (iblk1 V c 6 t) j
      = Cert.Spec.G1 (V c main_v99) (V c main_v103) (V c main_v107) (V c main_v109) (V c main_v111)
          (V c main_v112) (V c main_arg15) i := by
  obtain ⟨p, q, rfl⟩ : ∃ (p : Fin 2000) (q : Fin 128), j = ix2 p q := ⟨j 0, j 1, eq_ix2 j⟩
  refine (pay1_apply (iblk1 V c 0 t) (iblk1 V c 3 t) (iblk1 V c 1 t) (iblk1 V c 2 t) (iblk1 V c 4 t)
    (iblk1 V c 5 t) (iblk1 V c 6 t) p q).trans ?_
  have hq : q = (⟨(i 1).val, (i 1).isLt⟩ : Fin 128) := Fin.ext hi1.symm
  rw [hq]
  exact nrm_rows _ _ _ _ _ _ _ _ _ _ _ _ _ _ _ _
    (fun k => iblk1_0_apply V c t _ _ hi0 rfl)
    (funext fun x => iblk1_1_apply V c t x) (funext fun x => iblk1_2_apply V c t x)
    (funext fun x => iblk1_3_apply V c t x) (funext fun x => iblk1_4_apply V c t x)
    (funext fun x => iblk1_5_apply V c t x) (funext fun x => iblk1_6_apply V c t x) _

/-- What point t writes back is block t of the whole-array function. -/
theorem flushed1_eq (c : Dev nD) (t : Fin cfg1.N) :
    (dat1 (F := Ideal) V c).flushed 7 t
      = ((cfg1.win 7).blk t).view.read (Elt Ideal) (Cert.Spec.G1 (V c main_v99) (V c main_v103) (V c main_v107)
          (V c main_v109) (V c main_v111) (V c main_v112) (V c main_arg15)) := by
  show (cfg1.win 7).cut (grid1.coords t) ((dat1 V c).after 7 t) = _
  rw [after1_7]
  unfold out1_7
  rw [View.canon_unit_zero hz1]
  simp only [View.ld_unit_zero (S := S2000x384) hz1, View.ld_unit_zero (S := S1x384) hz1,
    View.ld_unit_zero (S := S1x1) hz1, View.ld_unit_zero (S := S384x128) hz1]
  obtain ⟨-, -, e2, e3⟩ := idx_rows1 t
  funext j
  refine block1_eq V c t j _ ?_ ?_
  · show win1_7.index t 0 * 2000 + 1 * (j 0).val = _; rw [e2]; omega
  · show win1_7.index t 1 * 128 + 1 * (j 1).val = _; rw [e3]; omega

/-- An index of the result is in point t's block iff each coordinate is in the block's range on its axis. -/
theorem mem_blk1 (t : Fin cfg1.N) (i : S40000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v113).slice (win1_7.rect t)).set ↔ _
  rw [View.set_slice_whole, Rect.mem_set_unit]
  exact Iff.rfl

/-- Row r of the result lies in block r / 2000. -/
theorem cover1 (i : S40000x128.Idx) :
    ∃ t : Fin cfg1.N, (cfg1.win 7).flush t = true ∧ i ∈ ((cfg1.win 7).blk t).view.set := by
  have hi0 : (i 0).val < 40000 := (i 0).isLt
  have hi1 : (i 1).val < 128 := (i 1).isLt
  have hN : cfg1.N = 20 := N_1
  refine ⟨⟨(i 0).val / 2000, by rw [hN]; omega⟩, flush1_7 _, ?_⟩
  rw [mem_blk1]
  obtain ⟨-, -, e2, e3⟩ := idx_rows1 ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [e2]; show (i 0).val / 2000 * 2000 ≤ (i 0).val ∧ (i 0).val < (i 0).val / 2000 * 2000 + 2000; omega
  | ⟨1, _⟩ =>
    show win1_7.index _ (1 : Fin 2) * 128 ≤ (i 1).val ∧ (i 1).val < win1_7.index _ (1 : Fin 2) * 128 + 128
    rw [e3]; omega

/-- The result array after the region is the whole-array function of the seven arrays it read. -/
theorem final1 (c : Dev nD) :
    (dat1 (F := Ideal) V c).arrAt 7 cfg1.N
      = Cert.Spec.G1 (V c main_v99) (V c main_v103) (V c main_v107) (V c main_v109) (V c main_v111)
          (V c main_v112) (V c main_arg15) :=
  (dat1 (F := Ideal) V c).arrAt_eq_of_cover 7
    (Cert.Spec.G1 (V c main_v99) (V c main_v103) (V c main_v107) (V c main_v109) (V c main_v111)
      (V c main_v112) (V c main_arg15))
    (fun t _ => flushed1_eq V c t) cover1

end Cert.KernelIdeal.Hand

end
-- ==== Proof.Bridge.lean ====
/-
  The second half of both programs as pure functions on the extended reals, and why they agree.

  Three n x 128 arrays X 0, X 1, X 2 laid side by side form an n x 384 array whose column k is column k % 128
  of X (k / 128); likewise three vectors of 128 form one of 384.  The batch statistics are taken column by
  column — the mean of a column is its sum over 40000 (as a binary32 constant), the variance the sum of squared
  deviations over the denominator dn, guarded by dn > 0, the inverse deviation rsqrt (variance + epsilon) — so the
  statistics of column k of the concatenation are those of column k % 128 of X (k / 128).  Hence batch-norm and
  PReLU applied to the concatenation with concatenated scale and shift is, entry by entry, the concatenation of
  batch-norm and PReLU applied to each X s with its own scale and shift: the two programs feed the same
  activations to the same weights.  The only other difference is that one row sum of squares starts from an
  explicit zero.
-/
import proofs.«110036_j83382495085286_1_alg».proof.Proof.ValSpec

noncomputable section

open scoped BigOperators

namespace Cert.Spec

open Idealize.ShloMosaic Idealize.ShloMosaic.ValueIdx

/-- A vector of a extended reals. -/
abbrev V1 (a : Nat) := (⟨1, ![a]⟩ : Shape).Idx → EReal

/-- Three n x 128 arrays side by side. -/
def catC {n : Nat} (X : Fin 3 → M2 n 128) : M2 n 384 := fun i =>
  X ⟨(i 1).val / 128, by have h : (i 1).val < 384 := (i 1).isLt; omega⟩
    (ix2 (⟨(i 0).val, (i 0).isLt⟩ : Fin n) (⟨(i 1).val % 128, Nat.mod_lt _ (by norm_num)⟩ : Fin 128))

/-- Three vectors of 128 end to end. -/
def catV (g : Fin 3 → V1 128) : V1 384 := fun i =>
  g ⟨(i 0).val / 128, by have h : (i 0).val < 384 := (i 0).isLt; omega⟩
    (ix1 (⟨(i 0).val % 128, Nat.mod_lt _ (by norm_num)⟩ : Fin 128))

/-- A function of the column as a 1 x d row. -/
def row {d : Nat} (f : Fin d → EReal) : M2 1 d := fun i => f ⟨(i 1).val, (i 1).isLt⟩

/-- A vector as a 1 x d row. -/
def rowV {d : Nat} (v : V1 d) : M2 1 d := fun i => v (ix1 (⟨(i 1).val, (i 1).isLt⟩ : Fin d))

/-- The mean of column k: the column's sum, started from zero, over 40000. -/
def colMean {n d : Nat} (X : M2 n d) (k : Fin d) : EReal :=
  Ideal.div (Ideal.ofBits .f32 0x00000000#32 + ∑ r : Fin n, X (ix2 r k)) (Ideal.ofBits .f32 0x471C4000#32)

/-- The variance of column k over the denominator dn, where dn > 0 (else the value nanv). -/
def colVar {n d : Nat} (X : M2 n d) (dn nanv : EReal) (k : Fin d) : EReal :=
  Scalar.select (FloatOps.cmpf (F := Ideal) (φ := .f32) .ogt dn (Ideal.ofBits .f32 0x00000000#32))
    (Ideal.div (Ideal.ofBits .f32 0x00000000#32
        + ∑ r : Fin n, (X (ix2 r k) - colMean X k) * (X (ix2 r k) - colMean X k)) dn)
    nanv

/-- The inverse deviation of column k. -/
def colInv {n d : Nat} (X : M2 n d) (dn nanv : EReal) (k : Fin d) : EReal :=
  Ideal.rsqrt (colVar X dn nanv k + Ideal.ofBits .f32 0x3727C5AC#32)

/-- Batch-norm and PReLU of one n x 128 array with its own statistics, scale and shift. -/
def branch {n : Nat} (X : M2 n 128) (g b : V1 128) (a : M2 1 1) (dn nanv : EReal) : M2 n 128 := fun i =>
  act X (row (colMean X)) (row (colInv X dn nanv)) (rowV g) (rowV b) a
    (⟨(i 0).val, (i 0).isLt⟩ : Fin n) (⟨(i 1).val, (i 1).isLt⟩ : Fin 128)

/-- The product of the three branches side by side with the weights, at row r and column j. -/
def refEmb {n : Nat} (X : Fin 3 → M2 n 128) (g b : Fin 3 → V1 128) (a : M2 1 1) (W : M2 384 128)
    (dn nanv : EReal) (r : Fin n) (j : Fin 128) : EReal :=
  ∑ k : Fin 384, catC (fun s => branch (X s) (g s) (b s) a dn nanv) (ix2 r k) * W (ix2 k j)

/-- The reference's result: the product's rows divided by their norm, the sum of squares started from zero. -/
def refTail {n : Nat} (X : Fin 3 → M2 n 128) (g b : Fin 3 → V1 128) (a : M2 1 1) (W : M2 384 128)
    (dn nanv : EReal) : M2 n 128 := fun i =>
  Ideal.div (refEmb X g b a W dn nanv ⟨(i 0).val, (i 0).isLt⟩ ⟨(i 1).val, (i 1).isLt⟩)
    (max (Ideal.sqrt (Ideal.ofBits .f32 0x00000000#32
        + ∑ j' : Fin 128, refEmb X g b a W dn nanv ⟨(i 0).val, (i 0).isLt⟩ j'
            * refEmb X g b a W dn nanv ⟨(i 0).val, (i 0).isLt⟩ j'))
      (Ideal.ofBits .f32 0x2B8CBCCC#32))

/-- Entry by entry, batch-norm and PReLU of the concatenation with the concatenation's own statistics and the
    concatenated scale and shift is the concatenation of the branches. -/
theorem act_cat {n : Nat} (X : Fin 3 → M2 n 128) (g b : Fin 3 → V1 128) (a : M2 1 1) (dn nanv : EReal)
    (r : Fin n) (k : Fin 384) :
    act (catC X) (row (colMean (catC X))) (row (colInv (catC X) dn nanv)) (rowV (catV g)) (rowV (catV b)) a r k
      = catC (fun s => branch (X s) (g s) (b s) a dn nanv) (ix2 r k) := rfl

/-- The second region's function on the concatenated data is the reference's tail. -/
theorem G1_cat {n : Nat} (X : Fin 3 → M2 n 128) (g b : Fin 3 → V1 128) (a : M2 1 1) (W : M2 384 128)
    (dn nanv : EReal) :
    G1 (catC X) (row (colMean (catC X))) (row (colInv (catC X) dn nanv)) (rowV (catV g)) (rowV (catV b)) a W
      = refTail X g b a W dn nanv := by
  funext i
  have hE : ∀ (r : Fin n) (j : Fin 128),
      emb (catC X) (row (colMean (catC X))) (row (colInv (catC X) dn nanv)) (rowV (catV g)) (rowV (catV b)) a W r j
        = refEmb X g b a W dn nanv r j := fun r j =>
    Finset.sum_congr rfl fun k _ => congrArg (· * W (ix2 k j)) (act_cat X g b a dn nanv r k)
  show nrm _ _ _ _ _ _ _ _ _ = _
  unfold nrm refTail
  simp only [hE]
  rw [Ideal.ofBits_zero_f32, zero_add]

end Cert.Spec

end
-- ==== Proof.CatRead.lean ====
/-
  Three arrays laid side by side, read at an index.

  A concatenation of three n x 128 arrays along the columns reads, at column k, array k / 128 at column k % 128;
  a concatenation of three vectors of 128 reads, at k, vector k / 128 at k % 128: the piece is the one whose span
  of 128 holds the coordinate, and the coordinate inside it is the remainder.
-/
import proofs.«110036_j83382495085286_1_alg».proof.Proof.Bridge
import Idealize.ShloMosaic.Lib.Pipeline.Value
import Idealize.ShloMosaic.Lib.ValueIdx

noncomputable section

namespace Cert.Spec

open Idealize.ShloMosaic Idealize.ShloMosaic.ValueIdx

/-- Three n x 128 arrays, given as a family, concatenated along the columns. -/
theorem cat3_cols {n : Nat} (f : Fin 3 → FVec Ideal ⟨2, ![n, 128]⟩ .f32)
    (h : Shape.Concatenates ((List.ofFn fun s : Fin 3 => (⟨(⟨2, ![n, 128]⟩ : Shape), f s⟩ : (s : Shape) × (s.Idx → Ideal .f32))).map (·.1))
      (⟨2, ![n, 384]⟩ : Shape) 1) :
    concatenate (⟨2, ![n, 384]⟩ : Shape) 1
      (List.ofFn fun s : Fin 3 => (⟨(⟨2, ![n, 128]⟩ : Shape), f s⟩ : (s : Shape) × (s.Idx → Ideal .f32))) h = catC f := by
  funext j
  have hlt : (j 1).val < 384 := (j 1).isLt
  exact concatenate_ofFn_apply (t := (⟨2, ![n, 384]⟩ : Shape)) (s₁ := (⟨2, ![n, 128]⟩ : Shape)) (1 : Fin 2) f h rfl 128 rfl j
    ⟨(j 1).val / 128, by omega⟩ rfl
    (ix2 (⟨(j 0).val, (j 0).isLt⟩ : Fin n) (⟨(j 1).val % 128, Nat.mod_lt _ (by norm_num)⟩ : Fin 128)) rfl
    (fun b hb => by
      match b with
      | ⟨0, _⟩ => rfl
      | ⟨1, _⟩ => exact absurd rfl hb)

/-- Three vectors of 128, given as a family, concatenated. -/
theorem cat3_vec (g : Fin 3 → FVec Ideal ⟨1, ![128]⟩ .f32)
    (h : Shape.Concatenates ((List.ofFn fun s : Fin 3 => (⟨(⟨1, ![128]⟩ : Shape), g s⟩ : (s : Shape) × (s.Idx → Ideal .f32))).map (·.1))
      (⟨1, ![384]⟩ : Shape) 0) :
    concatenate (⟨1, ![384]⟩ : Shape) 0
      (List.ofFn fun s : Fin 3 => (⟨(⟨1, ![128]⟩ : Shape), g s⟩ : (s : Shape) × (s.Idx → Ideal .f32))) h = catV g := by
  funext j
  have hlt : (j 0).val < 384 := (j 0).isLt
  exact concatenate_ofFn_apply (t := (⟨1, ![384]⟩ : Shape)) (s₁ := (⟨1, ![128]⟩ : Shape)) (0 : Fin 1) g h rfl 128 rfl j
    ⟨(j 0).val / 128, by omega⟩ rfl
    (ix1 (⟨(j 0).val % 128, Nat.mod_lt _ (by norm_num)⟩ : Fin 128)) rfl
    (fun b hb => by
      match b with
      | ⟨0, _⟩ => exact absurd rfl hb)

/-- Three n x 128 arrays concatenated along the columns are `catC` of the three. -/
theorem catC_read {n : Nat} (X0 X1 X2 : FVec Ideal ⟨2, ![n, 128]⟩ .f32)
    (h : Shape.Concatenates [(⟨2, ![n, 128]⟩ : Shape), ⟨2, ![n, 128]⟩, ⟨2, ![n, 128]⟩] ⟨2, ![n, 384]⟩ 1) :
    concatenate ⟨2, ![n, 384]⟩ 1 [⟨_, X0⟩, ⟨_, X1⟩, ⟨_, X2⟩] h = catC ![X0, X1, X2] :=
  cat3_cols ![X0, X1, X2] h

/-- Three vectors of 128 concatenated are `catV` of the three. -/
theorem catV_read (g0 g1 g2 : FVec Ideal ⟨1, ![128]⟩ .f32)
    (h : Shape.Concatenates [(⟨1, ![128]⟩ : Shape), ⟨1, ![128]⟩, ⟨1, ![128]⟩] ⟨1, ![384]⟩ 0) :
    concatenate ⟨1, ![384]⟩ 0 [⟨_, g0⟩, ⟨_, g1⟩, ⟨_, g2⟩] h = catV ![g0, g1, g2] :=
  cat3_vec ![g0, g1, g2] h

end Cert.Spec

end
-- ==== Proof.KIHostRead.lean ====
/-
  The kernel's host operations before and between its two regions, read as pure functions on the extended reals.

  Three arrays laid side by side along the columns read, at column k, array k / 128 at column k % 128, and three
  vectors end to end likewise; a cut of 128 columns out of a product with three weight matrices side by side is
  the product with one of them, since column 128 s + k' of the weights is column k' of matrix s.  The column mean
  is the column's sum from zero over the constant 40000; the variance is the sum of squared deviations from it
  over the denominator 40000 - 0, guarded by that denominator being positive; the inverse deviation is the
  reciprocal root of the variance plus epsilon.  Each is read at an index and compared with the named function.
-/
import proofs.«110036_j83382495085286_1_alg».proof.Proof.Gen.KernelIdeal.Launch
import proofs.«110036_j83382495085286_1_alg».proof.Proof.Bridge
import proofs.«110036_j83382495085286_1_alg».proof.Proof.CatRead
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.KernelIdeal.Hand

open Cert.KernelIdeal Cert.KernelIdeal.Gen Cert.Spec Idealize.ShloMosaic Idealize.ShloMosaic.ValueIdx

/-! ## Three pieces side by side -/

/-- The three feature blocks side by side. -/
theorem cat_features (X0 X1 X2 : FVec Ideal S40000x128 .f32) :
    concatenate S40000x384 1 [⟨S40000x128, X0⟩, ⟨S40000x128, X1⟩, ⟨S40000x128, X2⟩]
      concatenates_S40000x128_S40000x128_S40000x128_S40000x384_d1 = catC ![X0, X1, X2] :=
  catC_read (n := 40000) X0 X1 X2 concatenates_S40000x128_S40000x128_S40000x128_S40000x384_d1

/-- The three weight matrices side by side. -/
theorem cat_weights (W0 W1 W2 : FVec Ideal S128x128 .f32) :
    concatenate S128x384 1 [⟨S128x128, W0⟩, ⟨S128x128, W1⟩, ⟨S128x128, W2⟩]
      concatenates_S128x128_S128x128_S128x128_S128x384_d1 = catC (n := 128) ![W0, W1, W2] :=
  catC_read (n := 128) W0 W1 W2 concatenates_S128x128_S128x128_S128x128_S128x384_d1

/-- Three vectors end to end, as a 1 x 384 row. -/
theorem cat_row (g0 g1 g2 : FVec Ideal S128 .f32) :
    shapeCast S1x384 (concatenate S384 0 [⟨S128, g0⟩, ⟨S128, g1⟩, ⟨S128, g2⟩] concatenates_S128_S128_S128_S384_d0)
      shapeCasts_S384_S1x384 = rowV (catV ![g0, g1, g2]) := by
  funext j
  obtain ⟨u, k, rfl⟩ : ∃ (u : Fin 1) (k : Fin 384), j = ix2 u k := ⟨j 0, j 1, eq_ix2 j⟩
  rw [shapeCast_a_1a_apply, catV_read g0 g1 g2 concatenates_S128_S128_S128_S384_d0]
  rfl

/-- The slope, a vector of one entry, as a 1 x 1 array. -/
theorem slope_read (v : FVec Ideal S1 .f32) :
    shapeCast S1x1 v shapeCasts_S1_S1x1 (ix2 (0 : Fin 1) (0 : Fin 1)) = v (ix1 (0 : Fin 1)) :=
  shapeCast_a_1a_apply v shapeCasts_S1_S1x1 0 0

/-! ## A block of columns of a product -/

/-- Column 128 s + k' of three matrices side by side is column k' of matrix s. -/
theorem catC_block {n : Nat} (W : Fin 3 → M2 n 128) (s : Fin 3) (t : Fin n) (k' : Fin 128) (k : Fin 384)
    (hk : k.val = 128 * s.val + k'.val) : catC W (ix2 t k) = W s (ix2 t k') := by
  have hs : k.val / 128 = s.val := by have := k'.isLt; omega
  have hm : k.val % 128 = k'.val := by have := k'.isLt; omega
  have key : ∀ (a : Fin 3) (b : Fin 128), a.val = s.val → b.val = k'.val →
      W a (ix2 (⟨t.val, t.isLt⟩ : Fin n) b) = W s (ix2 t k') := by
    intro a b ha hb
    obtain rfl : a = s := Fin.ext ha
    obtain rfl : b = k' := Fin.ext hb
    rfl
  exact key _ _ hs hm

/-- 128 columns from column o = 128 s of the product with the three matrices side by side: the product with
    matrix s. -/
theorem slice_mm_gen (x : M2 40000 128) (W : Fin 3 → M2 128 128) (s : Fin 3) (o : Nat) (ho : o = 128 * s.val)
    (h : (⟨2, ![40000, 384]⟩ : Shape).Slices ![0, o] ⟨2, ![40000, 128]⟩) :
    extractStridedSlice (⟨2, ![40000, 128]⟩ : Shape) ![0, o] (mm x (catC W)) h = mm x (W s) := by
  funext j
  obtain ⟨r, q, rfl⟩ : ∃ (r : Fin 40000) (q : Fin 128), j = ix2 r q := ⟨j 0, j 1, eq_ix2 j⟩
  have hlt : q.val < 128 := q.isLt
  have hs : s.val < 3 := s.isLt
  rw [slice2_axis1_apply o (mm x (catC W)) h r q ⟨o + q.val, by omega⟩ rfl, mm_apply, mm_apply]
  exact Finset.sum_congr rfl fun t _ => congrArg (x (ix2 r t) * ·) (catC_block W s t q _ (by show o + q.val = 128 * s.val + q.val; omega))

theorem slice_mm_0 (x : FVec Ideal S40000x128 .f32) (W : Fin 3 → FVec Ideal S128x128 .f32) :
    extractStridedSlice S40000x128 ![0, 0] (mm x (catC W)) slices_S40000x384_S40000x128_0_0 = mm x (W 0) :=
  slice_mm_gen x W 0 0 rfl slices_S40000x384_S40000x128_0_0
theorem slice_mm_1 (x : FVec Ideal S40000x128 .f32) (W : Fin 3 → FVec Ideal S128x128 .f32) :
    extractStridedSlice S40000x128 ![0, 128] (mm x (catC W)) slices_S40000x384_S40000x128_0_128 = mm x (W 1) :=
  slice_mm_gen x W 1 128 rfl slices_S40000x384_S40000x128_0_128
theorem slice_mm_2 (x : FVec Ideal S40000x128 .f32) (W : Fin 3 → FVec Ideal S128x128 .f32) :
    extractStridedSlice S40000x128 ![0, 256] (mm x (catC W)) slices_S40000x384_S40000x128_0_256 = mm x (W 2) :=
  slice_mm_gen x W 2 256 rfl slices_S40000x384_S40000x128_0_256

/-! ## The column statistics -/

/-- The denominator of the variance: 40000 less the conversion of the integer zero. -/
def dnT : EReal := Ideal.ofBits .f32 0x471C4000#32 - FloatOps.sitofp (F := Ideal) .f32 (0#32 : BitVec 32)
/-- The value the variance takes where the denominator is not positive. -/
def nanT : EReal := Ideal.ofBits .f32 0x7FC00000#32

/-- A scalar broadcast to a 1 x 384 row reads the scalar. -/
theorem bS_apply {α : Type} (x : S_.Idx → α) (j : S1x384.Idx) :
    broadcastInDim S1x384 ![] bcast_S_S1x384 x j = x ix0 :=
  broadcastInDim_scalar_apply bcast_S_S1x384 x j

/-- A vector of 384 as a 1 x 384 row reads, at column k, the vector at k. -/
theorem bR_apply {α : Type} (v : S384.Idx → α) (u : Fin 1) (k : Fin 384) :
    broadcastInDim S1x384 ![1] bcast_S384_S1x384_1 v (ix2 u k) = v (ix1 k) :=
  broadcastInDim_apply ![1] bcast_S384_S1x384_1 v (ix2 u k) (ix1 k) fun a => by
    match a with
    | ⟨0, _⟩ => rfl

/-- The index a sum over the rows inserts row r into, at column k, is (r, k). -/
theorem lift_col {a b : Nat} (h : (⟨2, ![a, b]⟩ : Shape).Reduces [0] (⟨1, ![b]⟩ : Shape)) (k : Fin b)
    (r : Fin ((⟨2, ![a, b]⟩ : Shape).size 0)) : h.lift (ix1 k) r = ix2 (⟨r.val, r.isLt⟩ : Fin a) k := by
  funext c; apply Fin.ext
  fin_cases c <;> rfl

/-- The host's sum over the rows at column k: the initial value plus the column's sum. -/
theorem colSum_apply (Y : FVec Ideal S40000x384 .f32) (init : S_.Idx → Ideal .f32) (k : Fin 384) :
    Host.reduceAdd (F := Ideal) (φ := .f32) Y init reducesTo_S40000x384_S384_d0 h_S_ (ix1 k)
      = init ix0 + ∑ r : Fin 40000, Y (ix2 r k) := by
  have hR : S40000x384.Reduces [0] S384 := by decide
  rw [hostReduceAdd_apply, Ideal.hostReduceAdd_single reducesTo_S40000x384_S384_d0 hR, eq_ix0 (Shape.Idx.first h_S_)]
  show init ix0 + (∑ r : Fin 40000, Y (hR.lift (ix1 k) r)) = _
  exact congrArg (init ix0 + ·) (Finset.sum_congr rfl fun r _ => congrArg Y (lift_col hR k r))

/-- The mean row the host computes is the row of column means. -/
theorem mean_read (X : FVec Ideal S40000x384 .f32) :
    (Host.divf (F := Ideal) (φ := .f32) (broadcastInDim S1x384 ![1] bcast_S384_S1x384_1 (Host.reduceAdd (F := Ideal) (φ := .f32) X (constant (F := Ideal) S_ .f32 0x00000000#32) reducesTo_S40000x384_S384_d0 h_S_)) (broadcastInDim S1x384 ![] bcast_S_S1x384 (constant (F := Ideal) S_ .f32 0x471C4000#32))) = row (colMean X) := by
  funext j
  obtain ⟨u, k, rfl⟩ : ∃ (u : Fin 1) (k : Fin 384), j = ix2 u k := ⟨j 0, j 1, eq_ix2 j⟩
  rw [hostDivf_apply, bR_apply, bS_apply, colSum_apply]
  rfl

/-- The variance row as the host computes it from the features. -/
def varK (X : FVec Ideal S40000x384 .f32) : FVec Ideal S1x384 .f32 :=
  select (broadcastInDim S1x384 ![] bcast_S_S1x384 (cmpf (F := Ideal) (φ := .f32) .ogt (subf (F := Ideal) (φ := .f32) (constant (F := Ideal) S_ .f32 0x471C4000#32) (sitofp (F := Ideal) .f32 (constantI S_ 32 0#32))) (constant (F := Ideal) S_ .f32 0x00000000#32)))
    (Host.divf (F := Ideal) (φ := .f32) (broadcastInDim S1x384 ![1] bcast_S384_S1x384_1 (Host.reduceAdd (F := Ideal) (φ := .f32) (mulf (F := Ideal) (φ := .f32) (subf (F := Ideal) (φ := .f32) X (broadcastInDim S40000x384 ![0, 1] bcast_S1x384_S40000x384_0_1 (Host.divf (F := Ideal) (φ := .f32) (broadcastInDim S1x384 ![1] bcast_S384_S1x384_1 (Host.reduceAdd (F := Ideal) (φ := .f32) X (constant (F := Ideal) S_ .f32 0x00000000#32) reducesTo_S40000x384_S384_d0 h_S_)) (broadcastInDim S1x384 ![] bcast_S_S1x384 (constant (F := Ideal) S_ .f32 0x471C4000#32))))) (subf (F := Ideal) (φ := .f32) X (broadcastInDim S40000x384 ![0, 1] bcast_S1x384_S40000x384_0_1 (Host.divf (F := Ideal) (φ := .f32) (broadcastInDim S1x384 ![1] bcast_S384_S1x384_1 (Host.reduceAdd (F := Ideal) (φ := .f32) X (constant (F := Ideal) S_ .f32 0x00000000#32) reducesTo_S40000x384_S384_d0 h_S_)) (broadcastInDim S1x384 ![] bcast_S_S1x384 (constant (F := Ideal) S_ .f32 0x471C4000#32)))))) (constant (F := Ideal) S_ .f32 0x00000000#32) reducesTo_S40000x384_S384_d0 h_S_)) (broadcastInDim S1x384 ![] bcast_S_S1x384 (subf (F := Ideal) (φ := .f32) (constant (F := Ideal) S_ .f32 0x471C4000#32) (sitofp (F := Ideal) .f32 (constantI S_ 32 0#32)))))
    (broadcastInDim S1x384 ![] bcast_S_S1x384 (id (constant (F := Ideal) S_ .f32 0x7FC00000#32)))

/-- The variance row the host computes is the row of column variances. -/
theorem var_read (X : FVec Ideal S40000x384 .f32) : varK X = row (colVar X dnT nanT) := by
  funext j
  obtain ⟨u, k, rfl⟩ : ∃ (u : Fin 1) (k : Fin 384), j = ix2 u k := ⟨j 0, j 1, eq_ix2 j⟩
  unfold varK
  rw [mean_read X, select_apply, bS_apply, hostDivf_apply, bR_apply, bS_apply, bS_apply, colSum_apply]
  have hsq : ∀ r : Fin 40000,
      mulf (F := Ideal) (φ := .f32)
        (subf (F := Ideal) (φ := .f32) X (broadcastInDim S40000x384 ![0, 1] bcast_S1x384_S40000x384_0_1 (row (colMean X))))
        (subf (F := Ideal) (φ := .f32) X (broadcastInDim S40000x384 ![0, 1] bcast_S1x384_S40000x384_0_1 (row (colMean X))))
        (ix2 r k)
      = (X (ix2 r k) - colMean X k) * (X (ix2 r k) - colMean X k) := by
    intro r
    rw [mulf_apply, subf_apply, broadcastInDim_oneRow_apply]
    rfl
  simp only [hsq]
  rfl

/-- The inverse deviation row the host computes is the row of column inverse deviations. -/
theorem inv_read (X : FVec Ideal S40000x384 .f32) :
    Host.rsqrt (F := Ideal) (φ := .f32) (addf (F := Ideal) (φ := .f32) (row (colVar X dnT nanT)) (broadcastInDim S1x384 ![] bcast_S_S1x384 (constant (F := Ideal) S_ .f32 0x3727C5AC#32)))
      = row (colInv X dnT nanT) := by
  funext j
  show Ideal.rsqrt (row (colVar X dnT nanT) j + broadcastInDim S1x384 ![] bcast_S_S1x384 (constant (F := Ideal) S_ .f32 0x3727C5AC#32) j) = _
  rw [bS_apply]
  rfl

end Cert.KernelIdeal.Hand

end
-- ==== Proof.KIHostEval.lean ====
/-
  The host operations before and between the two regions, evaluated. The stretch before the first region lays the
  three 128 x 128 weight blocks side by side. The long stretch after it cuts the projection into three blocks
  of 128 columns, keeps the first, and runs on each of the other two the same two steps of a three-term
  recurrence over the sparse product with the edge list (gather the source rows, scale by the edge weights, add
  into the destination rows), then lays the three blocks side by side again; what follows computes the column
  means, the column variances and their reciprocal roots, and lays the scale, shift and slope vectors out as
  rows. The long stretch is cut into six segments, each evaluated from any contents of the buffers it reads; a
  buffer a segment does not write passes through it unchanged.
-/
import proofs.«110036_j83382495085286_1_alg».proof.Proof.KIRun
import proofs.«110036_j83382495085286_1_alg».proof.Proof.KIHostRead

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The destination rows (row 0 of the edge list) and the source rows (row 1), as vectors. -/
def rowsOf (idx : IVec S2x640000 32) : IVec S640000 32 :=
  shapeCast S640000 (extractStridedSlice S1x640000 ![0, 0] idx slices_S2x640000_S1x640000_0_0) shapeCasts_S1x640000_S640000
def colsOf (idx : IVec S2x640000 32) : IVec S640000 32 :=
  shapeCast S640000 (extractStridedSlice S1x640000 ![1, 0] idx slices_S2x640000_S1x640000_1_0) shapeCasts_S1x640000_S640000
/-- A negative index counted from the end. -/
def wrapIdx (c : IVec S640000 32) : IVec S640000 32 :=
  select (cmpi .slt c (broadcastInDim S640000 ![] bcast_S_S640000 (constantI S_ 32 0#32)))
    (addi c (broadcastInDim S640000 ![] bcast_S_S640000 (constantI S_ 32 40000#32))) c
/-- The sparse product: gather the source rows, scale each by its edge weight, add into the destination rows. -/
def spmm (x : FVec F S40000x128 .f32) (idx : IVec S2x640000 32) (wt : FVec F S640000 .f32) : FVec F S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 (rowsOf idx))
    (mulf
      (Host.gather gather_S40000x128_S640000x1_S640000x128_1_0_n_n_0_1_1128 x
        (broadcastInDim S640000x1 ![0] bcast_S640000_S640000x1_0 (wrapIdx (colsOf idx))))
      (broadcastInDim S640000x128 ![0, 1] bcast_S640000x1_S640000x128_0_1
        (broadcastInDim S640000x1 ![0] bcast_S640000_S640000x1_0 wt)))
/-- The first step of the recurrence: 0 * x + 2 * spmm x. -/
def jac1 (x : FVec F S40000x128 .f32) (idx : IVec S2x640000 32) (wt : FVec F S640000 .f32) : FVec F S40000x128 .f32 :=
  addf (mulf (broadcastInDim S40000x128 ![] bcast_S_S40000x128 (constant S_ .f32 0x00000000#32)) x)
    (mulf (broadcastInDim S40000x128 ![] bcast_S_S40000x128 (constant S_ .f32 0x40000000#32)) (spmm x idx wt))
/-- The second step: 1.875 * spmm x1 + 0 * x1 - 1.6875 * x0. -/
def jac2 (x1 x0 : FVec F S40000x128 .f32) (idx : IVec S2x640000 32) (wt : FVec F S640000 .f32) : FVec F S40000x128 .f32 :=
  subf
    (addf (mulf (broadcastInDim S40000x128 ![] bcast_S_S40000x128 (constant S_ .f32 0x3FF00000#32)) (spmm x1 idx wt))
      (mulf (broadcastInDim S40000x128 ![] bcast_S_S40000x128 (constant S_ .f32 0x00000000#32)) x1))
    (mulf (broadcastInDim S40000x128 ![] bcast_S_S40000x128 (constant S_ .f32 0x3FD80000#32)) x0)

/-! ## A three-operand operation's result -/

section Nary3
variable {x a b y : Ref sig .tc}
/-- The result of an operation over a literal family of three references, each operand's contents at its own
    reference. -/
theorem nary3_result
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
theorem nary3_result'
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G
end Nary3

/-- Evaluate the contents of one buffer after a literal list of operations: each operation's result at its own
    buffer is its function's value, at any other buffer what was there. -/
local macro "host_eval" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-! ## The long stretch in six segments -/

/-- Operations 0 … 2 of the long stretch. -/
abbrev hs0 : List (HloOp τ sig (Elt F)) :=
  [
    StableHlo.unary main_v1 main_v2 ((extractStridedSlice S40000x128 ![0, 0] · slices_S40000x384_S40000x128_0_0) : (⟨S40000x384, .f32⟩ : BufTy).Contents (Elt F) → (⟨S40000x128, .f32⟩ : BufTy).Contents (Elt F)),
    StableHlo.unary main_v1 main_v3 ((extractStridedSlice S40000x128 ![0, 128] · slices_S40000x384_S40000x128_0_128) : (⟨S40000x384, .f32⟩ : BufTy).Contents (Elt F) → (⟨S40000x128, .f32⟩ : BufTy).Contents (Elt F)),
    StableHlo.unary main_v1 main_v4 ((extractStridedSlice S40000x128 ![0, 256] · slices_S40000x384_S40000x128_0_256) : (⟨S40000x384, .f32⟩ : BufTy).Contents (Elt F) → (⟨S40000x128, .f32⟩ : BufTy).Contents (Elt F)) ]
/-- The references they write, in order. -/
abbrev hs0_W : List (Ref sig .tc) := [main_v2, main_v3, main_v4]
set_option maxHeartbeats 4000000 in
theorem hs0_writes : (hs0 : List (HloOp τ sig (Elt F))).Forall fun op => op.writes ⊆ (hs0_W.map (Proc.devRef (τ := τ) .tc)).toFinset :=
  ⟨sub_of_mem (y := main_v2) (by decide),
    sub_of_mem (y := main_v3) (by decide),
    sub_of_mem (y := main_v4) (by decide)⟩
/-- A reference they do not write keeps its contents. -/
theorem hs0_keep (V : Valuation τ sig (Elt F)) (r : Ref sig .tc) (h : r ∉ hs0_W) :
    after hs0 V (Proc.devRef .tc r) = V (Proc.devRef .tc r) :=
  after_of_writes_sub hs0 V hs0_writes h

/-- Operations 3 … 29 of the long stretch. -/
abbrev hs1 : List (HloOp τ sig (Elt F)) :=
  [
    StableHlo.nullary main_cst (constant S_ .f32 0x00000000#32),
    StableHlo.unary main_cst main_v5 (broadcastInDim S40000x128 ![] bcast_S_S40000x128 : (⟨S_, .f32⟩ : BufTy).Contents (Elt F) → (⟨S40000x128, .f32⟩ : BufTy).Contents (Elt F)),
    StableHlo.binary main_v5 main_v3 main_v6 (mulf : (⟨S40000x128, .f32⟩ : BufTy).Contents (Elt F) → (⟨S40000x128, .f32⟩ : BufTy).Contents (Elt F) → (⟨S40000x128, .f32⟩ : BufTy).Contents (Elt F)),
    StableHlo.unary main_arg1 main_v7 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v7 main_v8 rfl shapeCasts_S1x640000_S640000,
    StableHlo.unary main_arg1 main_v9 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v9 main_v10 rfl shapeCasts_S1x640000_S640000,
    StableHlo.nullary main_c (constantI S_ 32 0#32),
    StableHlo.unary main_c main_v11 (broadcastInDim S640000 ![] bcast_S_S640000 : (⟨S_, .i32⟩ : BufTy).Contents (Elt F) → (⟨S640000, .i32⟩ : BufTy).Contents (Elt F)),
    StableHlo.binary main_v10 main_v11 main_v12 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 40000#32),
    StableHlo.unary main_c_0 main_v13 (broadcastInDim S640000 ![] bcast_S_S640000 : (⟨S_, .i32⟩ : BufTy).Contents (Elt F) → (⟨S640000, .i32⟩ : BufTy).Contents (Elt F)),
    StableHlo.binary main_v10 main_v13 main_v14 (addi : (⟨S640000, .i32⟩ : BufTy).Contents (Elt F) → (⟨S640000, .i32⟩ : BufTy).Contents (Elt F) → (⟨S640000, .i32⟩ : BufTy).Contents (Elt F)),
    StableHlo.ternary main_v12 main_v14 main_v10 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v15 main_v16 (broadcastInDim S640000x1 ![0] bcast_S640000_S640000x1_0 : (⟨S640000, .i32⟩ : BufTy).Contents (Elt F) → (⟨S640000x1, .i32⟩ : BufTy).Contents (Elt F)),
    StableHlo.binary main_v3 main_v16 main_v17 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_arg2 main_v18 (broadcastInDim S640000x1 ![0] bcast_S640000_S640000x1_0 : (⟨S640000, .f32⟩ : BufTy).Contents (Elt F) → (⟨S640000x1, .f32⟩ : BufTy).Contents (Elt F)),
    StableHlo.unary main_v18 main_v19 (broadcastInDim S640000x128 ![0, 1] bcast_S640000x1_S640000x128_0_1 : (⟨S640000x1, .f32⟩ : BufTy).Contents (Elt F) → (⟨S640000x128, .f32⟩ : BufTy).Contents (Elt F)),
    StableHlo.binary main_v17 main_v19 main_v20 (mulf : (⟨S640000x128, .f32⟩ : BufTy).Contents (Elt F) → (⟨S640000x128, .f32⟩ : BufTy).Contents (Elt F) → (⟨S640000x128, .f32⟩ : BufTy).Contents (Elt F)),
    StableHlo.nullary main_cst_1 (constant S_ .f32 0x00000000#32),
    StableHlo.unary main_cst_1 main_v21 (broadcastInDim S40000x128 ![] bcast_S_S40000x128 : (⟨S_, .f32⟩ : BufTy).Contents (Elt F) → (⟨S40000x128, .f32⟩ : BufTy).Contents (Elt F)),
    StableHlo.unary main_v8 main_v22 (broadcastInDim S640000x1 ![0] bcast_S640000_S640000x1_0 : (⟨S640000, .i32⟩ : BufTy).Contents (Elt F) → (⟨S640000x1, .i32⟩ : BufTy).Contents (Elt F)),
    StableHlo.ternary main_v21 main_v22 main_v20 main_v23 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_2 (constant S_ .f32 0x40000000#32),
    StableHlo.unary main_cst_2 main_v24 (broadcastInDim S40000x128 ![] bcast_S_S40000x128 : (⟨S_, .f32⟩ : BufTy).Contents (Elt F) → (⟨S40000x128, .f32⟩ : BufTy).Contents (Elt F)),
    StableHlo.binary main_v24 main_v23 main_v25 (mulf : (⟨S40000x128, .f32⟩ : BufTy).Contents (Elt F) → (⟨S40000x128, .f32⟩ : BufTy).Contents (Elt F) → (⟨S40000x128, .f32⟩ : BufTy).Contents (Elt F)),
    StableHlo.binary main_v6 main_v25 main_v26 (addf : (⟨S40000x128, .f32⟩ : BufTy).Contents (Elt F) → (⟨S40000x128, .f32⟩ : BufTy).Contents (Elt F) → (⟨S40000x128, .f32⟩ : BufTy).Contents (Elt F)) ]
/-- The references they write, in order. -/
abbrev hs1_W : List (Ref sig .tc) := [main_cst, main_v5, main_v6, main_v7, main_v8, main_v9, main_v10, main_c, main_v11, main_v12, main_c_0, main_v13, main_v14, main_v15, main_v16, main_v17, main_v18, main_v19, main_v20, main_cst_1, main_v21, main_v22, main_v23, main_cst_2, main_v24, main_v25, main_v26]
set_option maxHeartbeats 4000000 in
theorem hs1_writes : (hs1 : List (HloOp τ sig (Elt F))).Forall fun op => op.writes ⊆ (hs1_W.map (Proc.devRef (τ := τ) .tc)).toFinset :=
  ⟨sub_of_mem (y := main_cst) (by decide),
    sub_of_mem (y := main_v5) (by decide),
    sub_of_mem (y := main_v6) (by decide),
    sub_of_mem (y := main_v7) (by decide),
    sub_of_mem (y := main_v8) (by decide),
    sub_of_mem (y := main_v9) (by decide),
    sub_of_mem (y := main_v10) (by decide),
    sub_of_mem (y := main_c) (by decide),
    sub_of_mem (y := main_v11) (by decide),
    sub_of_mem (y := main_v12) (by decide),
    sub_of_mem (y := main_c_0) (by decide),
    sub_of_mem (y := main_v13) (by decide),
    sub_of_mem (y := main_v14) (by decide),
    sub_of_mem (y := main_v15) (by decide),
    sub_of_mem (y := main_v16) (by decide),
    sub_of_mem (y := main_v17) (by decide),
    sub_of_mem (y := main_v18) (by decide),
    sub_of_mem (y := main_v19) (by decide),
    sub_of_mem (y := main_v20) (by decide),
    sub_of_mem (y := main_cst_1) (by decide),
    sub_of_mem (y := main_v21) (by decide),
    sub_of_mem (y := main_v22) (by decide),
    sub_of_mem (y := main_v23) (by decide),
    sub_of_mem (y := main_cst_2) (by decide),
    sub_of_mem (y := main_v24) (by decide),
    sub_of_mem (y := main_v25) (by decide),
    sub_of_mem (y := main_v26) (by decide)⟩
/-- A reference they do not write keeps its contents. -/
theorem hs1_keep (V : Valuation τ sig (Elt F)) (r : Ref sig .tc) (h : r ∉ hs1_W) :
    after hs1 V (Proc.devRef .tc r) = V (Proc.devRef .tc r) :=
  after_of_writes_sub hs1 V hs1_writes h

/-- Operations 30 … 60 of the long stretch. -/
abbrev hs2 : List (HloOp τ sig (Elt F)) :=
  [
    StableHlo.unary main_arg1 main_v27 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v27 main_v28 rfl shapeCasts_S1x640000_S640000,
    StableHlo.unary main_arg1 main_v29 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v29 main_v30 rfl shapeCasts_S1x640000_S640000,
    StableHlo.nullary main_c_3 (constantI S_ 32 0#32),
    StableHlo.unary main_c_3 main_v31 (broadcastInDim S640000 ![] bcast_S_S640000 : (⟨S_, .i32⟩ : BufTy).Contents (Elt F) → (⟨S640000, .i32⟩ : BufTy).Contents (Elt F)),
    StableHlo.binary main_v30 main_v31 main_v32 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 40000#32),
    StableHlo.unary main_c_4 main_v33 (broadcastInDim S640000 ![] bcast_S_S640000 : (⟨S_, .i32⟩ : BufTy).Contents (Elt F) → (⟨S640000, .i32⟩ : BufTy).Contents (Elt F)),
    StableHlo.binary main_v30 main_v33 main_v34 (addi : (⟨S640000, .i32⟩ : BufTy).Contents (Elt F) → (⟨S640000, .i32⟩ : BufTy).Contents (Elt F) → (⟨S640000, .i32⟩ : BufTy).Contents (Elt F)),
    StableHlo.ternary main_v32 main_v34 main_v30 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v35 main_v36 (broadcastInDim S640000x1 ![0] bcast_S640000_S640000x1_0 : (⟨S640000, .i32⟩ : BufTy).Contents (Elt F) → (⟨S640000x1, .i32⟩ : BufTy).Contents (Elt F)),
    StableHlo.binary main_v26 main_v36 main_v37 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_arg2 main_v38 (broadcastInDim S640000x1 ![0] bcast_S640000_S640000x1_0 : (⟨S640000, .f32⟩ : BufTy).Contents (Elt F) → (⟨S640000x1, .f32⟩ : BufTy).Contents (Elt F)),
    StableHlo.unary main_v38 main_v39 (broadcastInDim S640000x128 ![0, 1] bcast_S640000x1_S640000x128_0_1 : (⟨S640000x1, .f32⟩ : BufTy).Contents (Elt F) → (⟨S640000x128, .f32⟩ : BufTy).Contents (Elt F)),
    StableHlo.binary main_v37 main_v39 main_v40 (mulf : (⟨S640000x128, .f32⟩ : BufTy).Contents (Elt F) → (⟨S640000x128, .f32⟩ : BufTy).Contents (Elt F) → (⟨S640000x128, .f32⟩ : BufTy).Contents (Elt F)),
    StableHlo.nullary main_cst_5 (constant S_ .f32 0x00000000#32),
    StableHlo.unary main_cst_5 main_v41 (broadcastInDim S40000x128 ![] bcast_S_S40000x128 : (⟨S_, .f32⟩ : BufTy).Contents (Elt F) → (⟨S40000x128, .f32⟩ : BufTy).Contents (Elt F)),
    StableHlo.unary main_v28 main_v42 (broadcastInDim S640000x1 ![0] bcast_S640000_S640000x1_0 : (⟨S640000, .i32⟩ : BufTy).Contents (Elt F) → (⟨S640000x1, .i32⟩ : BufTy).Contents (Elt F)),
    StableHlo.ternary main_v41 main_v42 main_v40 main_v43 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_6 (constant S_ .f32 0x3FF00000#32),
    StableHlo.unary main_cst_6 main_v44 (broadcastInDim S40000x128 ![] bcast_S_S40000x128 : (⟨S_, .f32⟩ : BufTy).Contents (Elt F) → (⟨S40000x128, .f32⟩ : BufTy).Contents (Elt F)),
    StableHlo.binary main_v44 main_v43 main_v45 (mulf : (⟨S40000x128, .f32⟩ : BufTy).Contents (Elt F) → (⟨S40000x128, .f32⟩ : BufTy).Contents (Elt F) → (⟨S40000x128, .f32⟩ : BufTy).Contents (Elt F)),
    StableHlo.nullary main_cst_7 (constant S_ .f32 0x00000000#32),
    StableHlo.unary main_cst_7 main_v46 (broadcastInDim S40000x128 ![] bcast_S_S40000x128 : (⟨S_, .f32⟩ : BufTy).Contents (Elt F) → (⟨S40000x128, .f32⟩ : BufTy).Contents (Elt F)),
    StableHlo.binary main_v46 main_v26 main_v47 (mulf : (⟨S40000x128, .f32⟩ : BufTy).Contents (Elt F) → (⟨S40000x128, .f32⟩ : BufTy).Contents (Elt F) → (⟨S40000x128, .f32⟩ : BufTy).Contents (Elt F)),
    StableHlo.binary main_v45 main_v47 main_v48 (addf : (⟨S40000x128, .f32⟩ : BufTy).Contents (Elt F) → (⟨S40000x128, .f32⟩ : BufTy).Contents (Elt F) → (⟨S40000x128, .f32⟩ : BufTy).Contents (Elt F)),
    StableHlo.nullary main_cst_8 (constant S_ .f32 0x3FD80000#32),
    StableHlo.unary main_cst_8 main_v49 (broadcastInDim S40000x128 ![] bcast_S_S40000x128 : (⟨S_, .f32⟩ : BufTy).Contents (Elt F) → (⟨S40000x128, .f32⟩ : BufTy).Contents (Elt F)),
    StableHlo.binary main_v49 main_v3 main_v50 (mulf : (⟨S40000x128, .f32⟩ : BufTy).Contents (Elt F) → (⟨S40000x128, .f32⟩ : BufTy).Contents (Elt F) → (⟨S40000x128, .f32⟩ : BufTy).Contents (Elt F)),
    StableHlo.binary main_v48 main_v50 main_v51 (subf : (⟨S40000x128, .f32⟩ : BufTy).Contents (Elt F) → (⟨S40000x128, .f32⟩ : BufTy).Contents (Elt F) → (⟨S40000x128, .f32⟩ : BufTy).Contents (Elt F)) ]
/-- The references they write, in order. -/
abbrev hs2_W : List (Ref sig .tc) := [main_v27, main_v28, main_v29, main_v30, main_c_3, main_v31, main_v32, main_c_4, main_v33, main_v34, main_v35, main_v36, main_v37, main_v38, main_v39, main_v40, main_cst_5, main_v41, main_v42, main_v43, main_cst_6, main_v44, main_v45, main_cst_7, main_v46, main_v47, main_v48, main_cst_8, main_v49, main_v50, main_v51]
set_option maxHeartbeats 4000000 in
theorem hs2_writes : (hs2 : List (HloOp τ sig (Elt F))).Forall fun op => op.writes ⊆ (hs2_W.map (Proc.devRef (τ := τ) .tc)).toFinset :=
  ⟨sub_of_mem (y := main_v27) (by decide),
    sub_of_mem (y := main_v28) (by decide),
    sub_of_mem (y := main_v29) (by decide),
    sub_of_mem (y := main_v30) (by decide),
    sub_of_mem (y := main_c_3) (by decide),
    sub_of_mem (y := main_v31) (by decide),
    sub_of_mem (y := main_v32) (by decide),
    sub_of_mem (y := main_c_4) (by decide),
    sub_of_mem (y := main_v33) (by decide),
    sub_of_mem (y := main_v34) (by decide),
    sub_of_mem (y := main_v35) (by decide),
    sub_of_mem (y := main_v36) (by decide),
    sub_of_mem (y := main_v37) (by decide),
    sub_of_mem (y := main_v38) (by decide),
    sub_of_mem (y := main_v39) (by decide),
    sub_of_mem (y := main_v40) (by decide),
    sub_of_mem (y := main_cst_5) (by decide),
    sub_of_mem (y := main_v41) (by decide),
    sub_of_mem (y := main_v42) (by decide),
    sub_of_mem (y := main_v43) (by decide),
    sub_of_mem (y := main_cst_6) (by decide),
    sub_of_mem (y := main_v44) (by decide),
    sub_of_mem (y := main_v45) (by decide),
    sub_of_mem (y := main_cst_7) (by decide),
    sub_of_mem (y := main_v46) (by decide),
    sub_of_mem (y := main_v47) (by decide),
    sub_of_mem (y := main_v48) (by decide),
    sub_of_mem (y := main_cst_8) (by decide),
    sub_of_mem (y := main_v49) (by decide),
    sub_of_mem (y := main_v50) (by decide),
    sub_of_mem (y := main_v51) (by decide)⟩
/-- A reference they do not write keeps its contents. -/
theorem hs2_keep (V : Valuation τ sig (Elt F)) (r : Ref sig .tc) (h : r ∉ hs2_W) :
    after hs2 V (Proc.devRef .tc r) = V (Proc.devRef .tc r) :=
  after_of_writes_sub hs2 V hs2_writes h

/-- Operations 61 … 87 of the long stretch. -/
abbrev hs3 : List (HloOp τ sig (Elt F)) :=
  [
    StableHlo.nullary main_cst_9 (constant S_ .f32 0x00000000#32),
    StableHlo.unary main_cst_9 main_v52 (broadcastInDim S40000x128 ![] bcast_S_S40000x128 : (⟨S_, .f32⟩ : BufTy).Contents (Elt F) → (⟨S40000x128, .f32⟩ : BufTy).Contents (Elt F)),
    StableHlo.binary main_v52 main_v4 main_v53 (mulf : (⟨S40000x128, .f32⟩ : BufTy).Contents (Elt F) → (⟨S40000x128, .f32⟩ : BufTy).Contents (Elt F) → (⟨S40000x128, .f32⟩ : BufTy).Contents (Elt F)),
    StableHlo.unary main_arg3 main_v54 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v54 main_v55 rfl shapeCasts_S1x640000_S640000,
    StableHlo.unary main_arg3 main_v56 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v56 main_v57 rfl shapeCasts_S1x640000_S640000,
    StableHlo.nullary main_c_10 (constantI S_ 32 0#32),
    StableHlo.unary main_c_10 main_v58 (broadcastInDim S640000 ![] bcast_S_S640000 : (⟨S_, .i32⟩ : BufTy).Contents (Elt F) → (⟨S640000, .i32⟩ : BufTy).Contents (Elt F)),
    StableHlo.binary main_v57 main_v58 main_v59 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 40000#32),
    StableHlo.unary main_c_11 main_v60 (broadcastInDim S640000 ![] bcast_S_S640000 : (⟨S_, .i32⟩ : BufTy).Contents (Elt F) → (⟨S640000, .i32⟩ : BufTy).Contents (Elt F)),
    StableHlo.binary main_v57 main_v60 main_v61 (addi : (⟨S640000, .i32⟩ : BufTy).Contents (Elt F) → (⟨S640000, .i32⟩ : BufTy).Contents (Elt F) → (⟨S640000, .i32⟩ : BufTy).Contents (Elt F)),
    StableHlo.ternary main_v59 main_v61 main_v57 main_v62 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v62 main_v63 (broadcastInDim S640000x1 ![0] bcast_S640000_S640000x1_0 : (⟨S640000, .i32⟩ : BufTy).Contents (Elt F) → (⟨S640000x1, .i32⟩ : BufTy).Contents (Elt F)),
    StableHlo.binary main_v4 main_v63 main_v64 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_arg4 main_v65 (broadcastInDim S640000x1 ![0] bcast_S640000_S640000x1_0 : (⟨S640000, .f32⟩ : BufTy).Contents (Elt F) → (⟨S640000x1, .f32⟩ : BufTy).Contents (Elt F)),
    StableHlo.unary main_v65 main_v66 (broadcastInDim S640000x128 ![0, 1] bcast_S640000x1_S640000x128_0_1 : (⟨S640000x1, .f32⟩ : BufTy).Contents (Elt F) → (⟨S640000x128, .f32⟩ : BufTy).Contents (Elt F)),
    StableHlo.binary main_v64 main_v66 main_v67 (mulf : (⟨S640000x128, .f32⟩ : BufTy).Contents (Elt F) → (⟨S640000x128, .f32⟩ : BufTy).Contents (Elt F) → (⟨S640000x128, .f32⟩ : BufTy).Contents (Elt F)),
    StableHlo.nullary main_cst_12 (constant S_ .f32 0x00000000#32),
    StableHlo.unary main_cst_12 main_v68 (broadcastInDim S40000x128 ![] bcast_S_S40000x128 : (⟨S_, .f32⟩ : BufTy).Contents (Elt F) → (⟨S40000x128, .f32⟩ : BufTy).Contents (Elt F)),
    StableHlo.unary main_v55 main_v69 (broadcastInDim S640000x1 ![0] bcast_S640000_S640000x1_0 : (⟨S640000, .i32⟩ : BufTy).Contents (Elt F) → (⟨S640000x1, .i32⟩ : BufTy).Contents (Elt F)),
    StableHlo.ternary main_v68 main_v69 main_v67 main_v70 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_13 (constant S_ .f32 0x40000000#32),
    StableHlo.unary main_cst_13 main_v71 (broadcastInDim S40000x128 ![] bcast_S_S40000x128 : (⟨S_, .f32⟩ : BufTy).Contents (Elt F) → (⟨S40000x128, .f32⟩ : BufTy).Contents (Elt F)),
    StableHlo.binary main_v71 main_v70 main_v72 (mulf : (⟨S40000x128, .f32⟩ : BufTy).Contents (Elt F) → (⟨S40000x128, .f32⟩ : BufTy).Contents (Elt F) → (⟨S40000x128, .f32⟩ : BufTy).Contents (Elt F)),
    StableHlo.binary main_v53 main_v72 main_v73 (addf : (⟨S40000x128, .f32⟩ : BufTy).Contents (Elt F) → (⟨S40000x128, .f32⟩ : BufTy).Contents (Elt F) → (⟨S40000x128, .f32⟩ : BufTy).Contents (Elt F)) ]
/-- The references they write, in order. -/
abbrev hs3_W : List (Ref sig .tc) := [main_cst_9, main_v52, main_v53, main_v54, main_v55, main_v56, main_v57, main_c_10, main_v58, main_v59, main_c_11, main_v60, main_v61, main_v62, main_v63, main_v64, main_v65, main_v66, main_v67, main_cst_12, main_v68, main_v69, main_v70, main_cst_13, main_v71, main_v72, main_v73]
set_option maxHeartbeats 4000000 in
theorem hs3_writes : (hs3 : List (HloOp τ sig (Elt F))).Forall fun op => op.writes ⊆ (hs3_W.map (Proc.devRef (τ := τ) .tc)).toFinset :=
  ⟨sub_of_mem (y := main_cst_9) (by decide),
    sub_of_mem (y := main_v52) (by decide),
    sub_of_mem (y := main_v53) (by decide),
    sub_of_mem (y := main_v54) (by decide),
    sub_of_mem (y := main_v55) (by decide),
    sub_of_mem (y := main_v56) (by decide),
    sub_of_mem (y := main_v57) (by decide),
    sub_of_mem (y := main_c_10) (by decide),
    sub_of_mem (y := main_v58) (by decide),
    sub_of_mem (y := main_v59) (by decide),
    sub_of_mem (y := main_c_11) (by decide),
    sub_of_mem (y := main_v60) (by decide),
    sub_of_mem (y := main_v61) (by decide),
    sub_of_mem (y := main_v62) (by decide),
    sub_of_mem (y := main_v63) (by decide),
    sub_of_mem (y := main_v64) (by decide),
    sub_of_mem (y := main_v65) (by decide),
    sub_of_mem (y := main_v66) (by decide),
    sub_of_mem (y := main_v67) (by decide),
    sub_of_mem (y := main_cst_12) (by decide),
    sub_of_mem (y := main_v68) (by decide),
    sub_of_mem (y := main_v69) (by decide),
    sub_of_mem (y := main_v70) (by decide),
    sub_of_mem (y := main_cst_13) (by decide),
    sub_of_mem (y := main_v71) (by decide),
    sub_of_mem (y := main_v72) (by decide),
    sub_of_mem (y := main_v73) (by decide)⟩
/-- A reference they do not write keeps its contents. -/
theorem hs3_keep (V : Valuation τ sig (Elt F)) (r : Ref sig .tc) (h : r ∉ hs3_W) :
    after hs3 V (Proc.devRef .tc r) = V (Proc.devRef .tc r) :=
  after_of_writes_sub hs3 V hs3_writes h

/-- Operations 88 … 118 of the long stretch. -/
abbrev hs4 : List (HloOp τ sig (Elt F)) :=
  [
    StableHlo.unary main_arg3 main_v74 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v74 main_v75 rfl shapeCasts_S1x640000_S640000,
    StableHlo.unary main_arg3 main_v76 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v76 main_v77 rfl shapeCasts_S1x640000_S640000,
    StableHlo.nullary main_c_14 (constantI S_ 32 0#32),
    StableHlo.unary main_c_14 main_v78 (broadcastInDim S640000 ![] bcast_S_S640000 : (⟨S_, .i32⟩ : BufTy).Contents (Elt F) → (⟨S640000, .i32⟩ : BufTy).Contents (Elt F)),
    StableHlo.binary main_v77 main_v78 main_v79 (cmpi .slt : (⟨S640000, .i32⟩ : BufTy).Contents (Elt F) → (⟨S640000, .i32⟩ : BufTy).Contents (Elt F) → (⟨S640000, .i1⟩ : BufTy).Contents (Elt F)),
    StableHlo.nullary main_c_15 (constantI S_ 32 40000#32),
    StableHlo.unary main_c_15 main_v80 (broadcastInDim S640000 ![] bcast_S_S640000 : (⟨S_, .i32⟩ : BufTy).Contents (Elt F) → (⟨S640000, .i32⟩ : BufTy).Contents (Elt F)),
    StableHlo.binary main_v77 main_v80 main_v81 (addi : (⟨S640000, .i32⟩ : BufTy).Contents (Elt F) → (⟨S640000, .i32⟩ : BufTy).Contents (Elt F) → (⟨S640000, .i32⟩ : BufTy).Contents (Elt F)),
    StableHlo.ternary main_v79 main_v81 main_v77 main_v82 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v82 main_v83 (broadcastInDim S640000x1 ![0] bcast_S640000_S640000x1_0 : (⟨S640000, .i32⟩ : BufTy).Contents (Elt F) → (⟨S640000x1, .i32⟩ : BufTy).Contents (Elt F)),
    StableHlo.binary main_v73 main_v83 main_v84 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_arg4 main_v85 (broadcastInDim S640000x1 ![0] bcast_S640000_S640000x1_0 : (⟨S640000, .f32⟩ : BufTy).Contents (Elt F) → (⟨S640000x1, .f32⟩ : BufTy).Contents (Elt F)),
    StableHlo.unary main_v85 main_v86 (broadcastInDim S640000x128 ![0, 1] bcast_S640000x1_S640000x128_0_1 : (⟨S640000x1, .f32⟩ : BufTy).Contents (Elt F) → (⟨S640000x128, .f32⟩ : BufTy).Contents (Elt F)),
    StableHlo.binary main_v84 main_v86 main_v87 (mulf : (⟨S640000x128, .f32⟩ : BufTy).Contents (Elt F) → (⟨S640000x128, .f32⟩ : BufTy).Contents (Elt F) → (⟨S640000x128, .f32⟩ : BufTy).Contents (Elt F)),
    StableHlo.nullary main_cst_16 (constant S_ .f32 0x00000000#32),
    StableHlo.unary main_cst_16 main_v88 (broadcastInDim S40000x128 ![] bcast_S_S40000x128 : (⟨S_, .f32⟩ : BufTy).Contents (Elt F) → (⟨S40000x128, .f32⟩ : BufTy).Contents (Elt F)),
    StableHlo.unary main_v75 main_v89 (broadcastInDim S640000x1 ![0] bcast_S640000_S640000x1_0 : (⟨S640000, .i32⟩ : BufTy).Contents (Elt F) → (⟨S640000x1, .i32⟩ : BufTy).Contents (Elt F)),
    StableHlo.ternary main_v88 main_v89 main_v87 main_v90 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_17 (constant S_ .f32 0x3FF00000#32),
    StableHlo.unary main_cst_17 main_v91 (broadcastInDim S40000x128 ![] bcast_S_S40000x128 : (⟨S_, .f32⟩ : BufTy).Contents (Elt F) → (⟨S40000x128, .f32⟩ : BufTy).Contents (Elt F)),
    StableHlo.binary main_v91 main_v90 main_v92 (mulf : (⟨S40000x128, .f32⟩ : BufTy).Contents (Elt F) → (⟨S40000x128, .f32⟩ : BufTy).Contents (Elt F) → (⟨S40000x128, .f32⟩ : BufTy).Contents (Elt F)),
    StableHlo.nullary main_cst_18 (constant S_ .f32 0x00000000#32),
    StableHlo.unary main_cst_18 main_v93 (broadcastInDim S40000x128 ![] bcast_S_S40000x128 : (⟨S_, .f32⟩ : BufTy).Contents (Elt F) → (⟨S40000x128, .f32⟩ : BufTy).Contents (Elt F)),
    StableHlo.binary main_v93 main_v73 main_v94 (mulf : (⟨S40000x128, .f32⟩ : BufTy).Contents (Elt F) → (⟨S40000x128, .f32⟩ : BufTy).Contents (Elt F) → (⟨S40000x128, .f32⟩ : BufTy).Contents (Elt F)),
    StableHlo.binary main_v92 main_v94 main_v95 (addf : (⟨S40000x128, .f32⟩ : BufTy).Contents (Elt F) → (⟨S40000x128, .f32⟩ : BufTy).Contents (Elt F) → (⟨S40000x128, .f32⟩ : BufTy).Contents (Elt F)),
    StableHlo.nullary main_cst_19 (constant S_ .f32 0x3FD80000#32),
    StableHlo.unary main_cst_19 main_v96 (broadcastInDim S40000x128 ![] bcast_S_S40000x128 : (⟨S_, .f32⟩ : BufTy).Contents (Elt F) → (⟨S40000x128, .f32⟩ : BufTy).Contents (Elt F)),
    StableHlo.binary main_v96 main_v4 main_v97 (mulf : (⟨S40000x128, .f32⟩ : BufTy).Contents (Elt F) → (⟨S40000x128, .f32⟩ : BufTy).Contents (Elt F) → (⟨S40000x128, .f32⟩ : BufTy).Contents (Elt F)),
    StableHlo.binary main_v95 main_v97 main_v98 (subf : (⟨S40000x128, .f32⟩ : BufTy).Contents (Elt F) → (⟨S40000x128, .f32⟩ : BufTy).Contents (Elt F) → (⟨S40000x128, .f32⟩ : BufTy).Contents (Elt F)) ]
/-- The references they write, in order. -/
abbrev hs4_W : List (Ref sig .tc) := [main_v74, main_v75, main_v76, main_v77, main_c_14, main_v78, main_v79, main_c_15, main_v80, main_v81, main_v82, main_v83, main_v84, main_v85, main_v86, main_v87, main_cst_16, main_v88, main_v89, main_v90, main_cst_17, main_v91, main_v92, main_cst_18, main_v93, main_v94, main_v95, main_cst_19, main_v96, main_v97, main_v98]
set_option maxHeartbeats 4000000 in
theorem hs4_writes : (hs4 : List (HloOp τ sig (Elt F))).Forall fun op => op.writes ⊆ (hs4_W.map (Proc.devRef (τ := τ) .tc)).toFinset :=
  ⟨sub_of_mem (y := main_v74) (by decide),
    sub_of_mem (y := main_v75) (by decide),
    sub_of_mem (y := main_v76) (by decide),
    sub_of_mem (y := main_v77) (by decide),
    sub_of_mem (y := main_c_14) (by decide),
    sub_of_mem (y := main_v78) (by decide),
    sub_of_mem (y := main_v79) (by decide),
    sub_of_mem (y := main_c_15) (by decide),
    sub_of_mem (y := main_v80) (by decide),
    sub_of_mem (y := main_v81) (by decide),
    sub_of_mem (y := main_v82) (by decide),
    sub_of_mem (y := main_v83) (by decide),
    sub_of_mem (y := main_v84) (by decide),
    sub_of_mem (y := main_v85) (by decide),
    sub_of_mem (y := main_v86) (by decide),
    sub_of_mem (y := main_v87) (by decide),
    sub_of_mem (y := main_cst_16) (by decide),
    sub_of_mem (y := main_v88) (by decide),
    sub_of_mem (y := main_v89) (by decide),
    sub_of_mem (y := main_v90) (by decide),
    sub_of_mem (y := main_cst_17) (by decide),
    sub_of_mem (y := main_v91) (by decide),
    sub_of_mem (y := main_v92) (by decide),
    sub_of_mem (y := main_cst_18) (by decide),
    sub_of_mem (y := main_v93) (by decide),
    sub_of_mem (y := main_v94) (by decide),
    sub_of_mem (y := main_v95) (by decide),
    sub_of_mem (y := main_cst_19) (by decide),
    sub_of_mem (y := main_v96) (by decide),
    sub_of_mem (y := main_v97) (by decide),
    sub_of_mem (y := main_v98) (by decide)⟩
/-- A reference they do not write keeps its contents. -/
theorem hs4_keep (V : Valuation τ sig (Elt F)) (r : Ref sig .tc) (h : r ∉ hs4_W) :
    after hs4 V (Proc.devRef .tc r) = V (Proc.devRef .tc r) :=
  after_of_writes_sub hs4 V hs4_writes h

/-- Operations 119 … 126 of the long stretch. -/
abbrev hs5 : List (HloOp τ sig (Elt F)) :=
  [
    StableHlo.nary ![main_v2, main_v51, main_v98] main_v99 (fun u => concatenate S40000x384 1 [⟨S40000x128, u 0⟩, ⟨S40000x128, u 1⟩, ⟨S40000x128, u 2⟩] concatenates_S40000x128_S40000x128_S40000x128_S40000x384_d1),
    StableHlo.nullary main_cst_20 (constant S_ .f32 0x00000000#32),
    StableHlo.binary main_v99 main_cst_20 main_v100 ((fun x v => Host.reduceAdd x v reducesTo_S40000x384_S384_d0 h_S_) : (⟨S40000x384, .f32⟩ : BufTy).Contents (Elt F) → (⟨S_, .f32⟩ : BufTy).Contents (Elt F) → (⟨S384, .f32⟩ : BufTy).Contents (Elt F)),
    StableHlo.unary main_v100 main_v101 (broadcastInDim S1x384 ![1] bcast_S384_S1x384_1 : (⟨S384, .f32⟩ : BufTy).Contents (Elt F) → (⟨S1x384, .f32⟩ : BufTy).Contents (Elt F)),
    StableHlo.nullary main_cst_21 (constant S_ .f32 0x471C4000#32),
    StableHlo.unary main_cst_21 main_v102 (broadcastInDim S1x384 ![] bcast_S_S1x384 : (⟨S_, .f32⟩ : BufTy).Contents (Elt F) → (⟨S1x384, .f32⟩ : BufTy).Contents (Elt F)),
    StableHlo.binary main_v101 main_v102 main_v103 (Host.divf : (⟨S1x384, .f32⟩ : BufTy).Contents (Elt F) → (⟨S1x384, .f32⟩ : BufTy).Contents (Elt F) → (⟨S1x384, .f32⟩ : BufTy).Contents (Elt F)),
    StableHlo.nullary main_c_22 (constantI S_ 32 0#32) ]
/-- The references they write, in order. -/
abbrev hs5_W : List (Ref sig .tc) := [main_v99, main_cst_20, main_v100, main_v101, main_cst_21, main_v102, main_v103, main_c_22]
set_option maxHeartbeats 4000000 in
theorem hs5_writes : (hs5 : List (HloOp τ sig (Elt F))).Forall fun op => op.writes ⊆ (hs5_W.map (Proc.devRef (τ := τ) .tc)).toFinset :=
  ⟨sub_of_mem (y := main_v99) (by decide),
    sub_of_mem (y := main_cst_20) (by decide),
    sub_of_mem (y := main_v100) (by decide),
    sub_of_mem (y := main_v101) (by decide),
    sub_of_mem (y := main_cst_21) (by decide),
    sub_of_mem (y := main_v102) (by decide),
    sub_of_mem (y := main_v103) (by decide),
    sub_of_mem (y := main_c_22) (by decide)⟩
/-- A reference they do not write keeps its contents. -/
theorem hs5_keep (V : Valuation τ sig (Elt F)) (r : Ref sig .tc) (h : r ∉ hs5_W) :
    after hs5 V (Proc.devRef .tc r) = V (Proc.devRef .tc r) :=
  after_of_writes_sub hs5 V hs5_writes h

/-- The long stretch is its six segments in order. -/
theorem hostOps1_split : (hostOps1 : List (HloOp τ sig (Elt F))) = hs0 ++ (hs1 ++ (hs2 ++ (hs3 ++ (hs4 ++ hs5)))) := by
  chain_rfl

/-! ## Each segment evaluated, from any contents -/

section Stages
variable (V : Valuation τ sig (Elt F))

theorem hs0_v2 : after hs0 V (Proc.devRef .tc main_v2) = extractStridedSlice S40000x128 ![0, 0] (V (Proc.devRef .tc main_v1)) slices_S40000x384_S40000x128_0_0 := by
  host_eval
theorem hs0_v3 : after hs0 V (Proc.devRef .tc main_v3) = extractStridedSlice S40000x128 ![0, 128] (V (Proc.devRef .tc main_v1)) slices_S40000x384_S40000x128_0_128 := by
  host_eval
theorem hs0_v4 : after hs0 V (Proc.devRef .tc main_v4) = extractStridedSlice S40000x128 ![0, 256] (V (Proc.devRef .tc main_v1)) slices_S40000x384_S40000x128_0_256 := by
  host_eval
set_option maxHeartbeats 4000000 in
/-- The first step on the second block. -/
theorem hs1_v26 : after hs1 V (Proc.devRef .tc main_v26) = jac1 (V (Proc.devRef .tc main_v3)) (V (Proc.devRef .tc main_arg1)) (V (Proc.devRef .tc main_arg2)) := by
  host_eval
  rfl
set_option maxHeartbeats 4000000 in
/-- The second step on the second block. -/
theorem hs2_v51 : after hs2 V (Proc.devRef .tc main_v51) = jac2 (V (Proc.devRef .tc main_v26)) (V (Proc.devRef .tc main_v3)) (V (Proc.devRef .tc main_arg1)) (V (Proc.devRef .tc main_arg2)) := by
  host_eval
  rfl
set_option maxHeartbeats 4000000 in
/-- The first step on the third block. -/
theorem hs3_v73 : after hs3 V (Proc.devRef .tc main_v73) = jac1 (V (Proc.devRef .tc main_v4)) (V (Proc.devRef .tc main_arg3)) (V (Proc.devRef .tc main_arg4)) := by
  host_eval
  rfl
set_option maxHeartbeats 4000000 in
/-- The second step on the third block. -/
theorem hs4_v98 : after hs4 V (Proc.devRef .tc main_v98) = jac2 (V (Proc.devRef .tc main_v73)) (V (Proc.devRef .tc main_v4)) (V (Proc.devRef .tc main_arg3)) (V (Proc.devRef .tc main_arg4)) := by
  host_eval
  rfl
/-- The three blocks side by side. -/
theorem hs5_v99 : after hs5 V (Proc.devRef .tc main_v99) = concatenate S40000x384 1 [⟨S40000x128, (V (Proc.devRef .tc main_v2))⟩, ⟨S40000x128, (V (Proc.devRef .tc main_v51))⟩, ⟨S40000x128, (V (Proc.devRef .tc main_v98))⟩] concatenates_S40000x128_S40000x128_S40000x128_S40000x384_d1 := by
  host_eval
  rfl
/-- The column means of what the segment leaves side by side. -/
theorem hs5_v103 : after hs5 V (Proc.devRef .tc main_v103) = Host.divf (broadcastInDim S1x384 ![1] bcast_S384_S1x384_1 (Host.reduceAdd (after hs5 V (Proc.devRef .tc main_v99)) (constant S_ .f32 0x00000000#32) reducesTo_S40000x384_S384_d0 h_S_)) (broadcastInDim S1x384 ![] bcast_S_S1x384 (constant S_ .f32 0x471C4000#32)) := by
  host_eval
theorem hs5_c22 : after hs5 V (Proc.devRef .tc main_c_22) = constantI S_ 32 0#32 := by
  host_eval
end Stages

/-! ## The folds read at the buffers the regions take -/

section Folds
variable (m : (ℓ : Loc nD τ sig) → Buf (Elt F) ℓ) (ρ : Dev nD → PrngReg) (c : Dev nD)

/-- A buffer that neither the first stretch nor the first region writes holds its launch contents at the first
    region's exit. -/
theorem W2_keep (r : Ref sig .tc) (h2 : ∀ w, Pipeline.arrRef spec0 w ≠ r) (h0 : r ∉ hostOps0_W) :
    W2 m ρ c (Proc.devRef .tc r) = m ((c.tc : Thread nD τ).loc r) :=
  (W2_of_ne m ρ c r h2).trans ((after_of_writes_sub hostOps0 _ hostOps0_writes h0).trans rfl)
/-- A buffer that the first stretch, the first region and the long stretch all leave alone holds its launch
    contents after the long stretch. -/
theorem W3_keep (r : Ref sig .tc) (h1 : r ∉ hostOps1_W) (h2 : ∀ w, Pipeline.arrRef spec0 w ≠ r) (h0 : r ∉ hostOps0_W) :
    W3 m ρ c (Proc.devRef .tc r) = m ((c.tc : Thread nD τ).loc r) :=
  (after_of_writes_sub hostOps1 _ hostOps1_writes h1).trans (W2_keep m ρ c r h2 h0)
/-- A buffer the two short stretches do not write holds at the second region's entry what the long stretch left
    in it. -/
theorem W5_of_W3 (r : Ref sig .tc) (h12 : r ∉ hostOps1_2_W) (h11 : r ∉ hostOps1_1_W) :
    W5 m ρ c (Proc.devRef .tc r) = W3 m ρ c (Proc.devRef .tc r) :=
  (after_of_writes_sub hostOps1_2 _ hostOps1_2_writes h12).trans (after_of_writes_sub hostOps1_1 _ hostOps1_1_writes h11)
/-- A buffer the outlined function's stretch does not write holds after it what the long stretch left in it. -/
theorem W4_of_W3 (r : Ref sig .tc) (h11 : r ∉ hostOps1_1_W) :
    W4 m ρ c (Proc.devRef .tc r) = W3 m ρ c (Proc.devRef .tc r) :=
  after_of_writes_sub hostOps1_1 _ hostOps1_1_writes h11

/-! ### The first region's entry -/

/-- The weights the first region takes: the three blocks side by side. -/
theorem V1_main_v0 : V1 m ρ c main_v0 = concatenate S128x384 1 [⟨S128x128, m ((c.tc : Thread nD τ).loc main_arg5)⟩, ⟨S128x128, m ((c.tc : Thread nD τ).loc main_arg6)⟩, ⟨S128x128, m ((c.tc : Thread nD τ).loc main_arg7)⟩] concatenates_S128x128_S128x128_S128x128_S128x384_d1 := by
  show after hostOps0 (W0 m ρ c) (Proc.devRef .tc main_v0) = _
  host_eval
  rfl
/-- The rows it takes: the first argument. -/
theorem V1_main_arg0 : V1 m ρ c main_arg0 = m ((c.tc : Thread nD τ).loc main_arg0) :=
  (after_of_writes_sub hostOps0 _ hostOps0_writes (by decide)).trans rfl

/-! ### The features the second region takes -/

set_option maxHeartbeats 4000000 in
/-- After the long stretch: the projection's first block of columns, and the recurrence's second step on each of
    the other two, side by side — over the buffers as the first region leaves them. -/
theorem W3_main_v99 : W3 m ρ c (Proc.devRef .tc main_v99) = concatenate S40000x384 1 [⟨S40000x128, (extractStridedSlice S40000x128 ![0, 0] (W2 m ρ c (Proc.devRef .tc main_v1)) slices_S40000x384_S40000x128_0_0)⟩, ⟨S40000x128, jac2 (jac1 (extractStridedSlice S40000x128 ![0, 128] (W2 m ρ c (Proc.devRef .tc main_v1)) slices_S40000x384_S40000x128_0_128) (W2 m ρ c (Proc.devRef .tc main_arg1)) (W2 m ρ c (Proc.devRef .tc main_arg2))) (extractStridedSlice S40000x128 ![0, 128] (W2 m ρ c (Proc.devRef .tc main_v1)) slices_S40000x384_S40000x128_0_128) (W2 m ρ c (Proc.devRef .tc main_arg1)) (W2 m ρ c (Proc.devRef .tc main_arg2))⟩, ⟨S40000x128, jac2 (jac1 (extractStridedSlice S40000x128 ![0, 256] (W2 m ρ c (Proc.devRef .tc main_v1)) slices_S40000x384_S40000x128_0_256) (W2 m ρ c (Proc.devRef .tc main_arg3)) (W2 m ρ c (Proc.devRef .tc main_arg4))) (extractStridedSlice S40000x128 ![0, 256] (W2 m ρ c (Proc.devRef .tc main_v1)) slices_S40000x384_S40000x128_0_256) (W2 m ρ c (Proc.devRef .tc main_arg3)) (W2 m ρ c (Proc.devRef .tc main_arg4))⟩] concatenates_S40000x128_S40000x128_S40000x128_S40000x384_d1 := by
  show after hostOps1 (W2 m ρ c) (Proc.devRef .tc main_v99) = _
  rw [hostOps1_split]
  simp only [after_append]
  rw [hs5_v99]
  rw [hs4_v98]; repeat (rw [hs4_keep]; rotate_left; decide)
  rw [hs3_v73]; repeat (rw [hs3_keep]; rotate_left; decide)
  rw [hs2_v51]; repeat (rw [hs2_keep]; rotate_left; decide)
  rw [hs1_v26]; repeat (rw [hs1_keep]; rotate_left; decide)
  rw [hs0_v2, hs0_v3, hs0_v4]; repeat (rw [hs0_keep]; rotate_left; decide)

/-- The same at the second region's entry, the edge lists and weights at their launch contents. -/
theorem V5_main_v99 : V5 m ρ c main_v99 = concatenate S40000x384 1 [⟨S40000x128, (extractStridedSlice S40000x128 ![0, 0] (W2 m ρ c (Proc.devRef .tc main_v1)) slices_S40000x384_S40000x128_0_0)⟩, ⟨S40000x128, jac2 (jac1 (extractStridedSlice S40000x128 ![0, 128] (W2 m ρ c (Proc.devRef .tc main_v1)) slices_S40000x384_S40000x128_0_128) (m ((c.tc : Thread nD τ).loc main_arg1)) (m ((c.tc : Thread nD τ).loc main_arg2))) (extractStridedSlice S40000x128 ![0, 128] (W2 m ρ c (Proc.devRef .tc main_v1)) slices_S40000x384_S40000x128_0_128) (m ((c.tc : Thread nD τ).loc main_arg1)) (m ((c.tc : Thread nD τ).loc main_arg2))⟩, ⟨S40000x128, jac2 (jac1 (extractStridedSlice S40000x128 ![0, 256] (W2 m ρ c (Proc.devRef .tc main_v1)) slices_S40000x384_S40000x128_0_256) (m ((c.tc : Thread nD τ).loc main_arg3)) (m ((c.tc : Thread nD τ).loc main_arg4))) (extractStridedSlice S40000x128 ![0, 256] (W2 m ρ c (Proc.devRef .tc main_v1)) slices_S40000x384_S40000x128_0_256) (m ((c.tc : Thread nD τ).loc main_arg3)) (m ((c.tc : Thread nD τ).loc main_arg4))⟩] concatenates_S40000x128_S40000x128_S40000x128_S40000x384_d1 := by
  show W5 m ρ c (Proc.devRef .tc main_v99) = _
  rw [W5_of_W3 m ρ c main_v99 (by decide) (by decide), W3_main_v99,
    W2_keep m ρ c main_arg1 (by decide) (by decide), W2_keep m ρ c main_arg2 (by decide) (by decide),
    W2_keep m ρ c main_arg3 (by decide) (by decide), W2_keep m ρ c main_arg4 (by decide) (by decide)]

/-! ### The statistics and the rows the second region takes -/

/-- The last short stretch evaluated, from any contents. -/
theorem ho2_v107 (V : Valuation τ sig (Elt F)) : after hostOps1_2 V (Proc.devRef .tc main_v107) = Host.rsqrt (addf (V (Proc.devRef .tc main_v104)) (broadcastInDim S1x384 ![] bcast_S_S1x384 (constant S_ .f32 0x3727C5AC#32))) := by
  host_eval
theorem ho2_v109 (V : Valuation τ sig (Elt F)) : after hostOps1_2 V (Proc.devRef .tc main_v109) = shapeCast S1x384 (concatenate S384 0 [⟨S128, (V (Proc.devRef .tc main_arg8))⟩, ⟨S128, (V (Proc.devRef .tc main_arg10))⟩, ⟨S128, (V (Proc.devRef .tc main_arg12))⟩] concatenates_S128_S128_S128_S384_d0) shapeCasts_S384_S1x384 := by
  host_eval
  rfl
theorem ho2_v111 (V : Valuation τ sig (Elt F)) : after hostOps1_2 V (Proc.devRef .tc main_v111) = shapeCast S1x384 (concatenate S384 0 [⟨S128, (V (Proc.devRef .tc main_arg9))⟩, ⟨S128, (V (Proc.devRef .tc main_arg11))⟩, ⟨S128, (V (Proc.devRef .tc main_arg13))⟩] concatenates_S128_S128_S128_S384_d0) shapeCasts_S384_S1x384 := by
  host_eval
  rfl
theorem ho2_v112 (V : Valuation τ sig (Elt F)) : after hostOps1_2 V (Proc.devRef .tc main_v112) = shapeCast S1x1 (V (Proc.devRef .tc main_arg14)) shapeCasts_S1_S1x1 := by
  host_eval
  rfl

/-- The long stretch ends by writing the integer zero the variance's denominator subtracts. -/
theorem W3_main_c_22 : W3 m ρ c (Proc.devRef .tc main_c_22) = constantI S_ 32 0#32 := by
  show after hostOps1 (W2 m ρ c) (Proc.devRef .tc main_c_22) = _
  rw [hostOps1_split]
  simp only [after_append]
  exact hs5_c22 _

/-- The column means: of the features the second region takes. -/
theorem V5_main_v103 : V5 m ρ c main_v103 = Host.divf (broadcastInDim S1x384 ![1] bcast_S384_S1x384_1 (Host.reduceAdd (V5 m ρ c main_v99) (constant S_ .f32 0x00000000#32) reducesTo_S40000x384_S384_d0 h_S_)) (broadcastInDim S1x384 ![] bcast_S_S1x384 (constant S_ .f32 0x471C4000#32)) := by
  show W5 m ρ c (Proc.devRef .tc main_v103) = Host.divf (broadcastInDim S1x384 ![1] bcast_S384_S1x384_1 (Host.reduceAdd (W5 m ρ c (Proc.devRef .tc main_v99)) (constant S_ .f32 0x00000000#32) reducesTo_S40000x384_S384_d0 h_S_)) (broadcastInDim S1x384 ![] bcast_S_S1x384 (constant S_ .f32 0x471C4000#32))
  rw [W5_of_W3 m ρ c main_v103 (by decide) (by decide), W5_of_W3 m ρ c main_v99 (by decide) (by decide)]
  show after hostOps1 (W2 m ρ c) (Proc.devRef .tc main_v103) = Host.divf (broadcastInDim S1x384 ![1] bcast_S384_S1x384_1 (Host.reduceAdd (after hostOps1 (W2 m ρ c) (Proc.devRef .tc main_v99)) (constant S_ .f32 0x00000000#32) reducesTo_S40000x384_S384_d0 h_S_)) (broadcastInDim S1x384 ![] bcast_S_S1x384 (constant S_ .f32 0x471C4000#32))
  rw [hostOps1_split]
  simp only [after_append]
  exact hs5_v103 _

/-- The scale and shift rows: three argument vectors end to end, as a row. -/
theorem V5_main_v109 : V5 m ρ c main_v109 = shapeCast S1x384 (concatenate S384 0 [⟨S128, m ((c.tc : Thread nD τ).loc main_arg8)⟩, ⟨S128, m ((c.tc : Thread nD τ).loc main_arg10)⟩, ⟨S128, m ((c.tc : Thread nD τ).loc main_arg12)⟩] concatenates_S128_S128_S128_S384_d0) shapeCasts_S384_S1x384 := by
  show after hostOps1_2 (W4 m ρ c) (Proc.devRef .tc main_v109) = _
  rw [ho2_v109, W4_of_W3 m ρ c main_arg8 (by decide), W3_keep m ρ c main_arg8 (by decide) (by decide) (by decide), W4_of_W3 m ρ c main_arg10 (by decide), W3_keep m ρ c main_arg10 (by decide) (by decide) (by decide), W4_of_W3 m ρ c main_arg12 (by decide), W3_keep m ρ c main_arg12 (by decide) (by decide) (by decide)]
theorem V5_main_v111 : V5 m ρ c main_v111 = shapeCast S1x384 (concatenate S384 0 [⟨S128, m ((c.tc : Thread nD τ).loc main_arg9)⟩, ⟨S128, m ((c.tc : Thread nD τ).loc main_arg11)⟩, ⟨S128, m ((c.tc : Thread nD τ).loc main_arg13)⟩] concatenates_S128_S128_S128_S384_d0) shapeCasts_S384_S1x384 := by
  show after hostOps1_2 (W4 m ρ c) (Proc.devRef .tc main_v111) = _
  rw [ho2_v111, W4_of_W3 m ρ c main_arg9 (by decide), W3_keep m ρ c main_arg9 (by decide) (by decide) (by decide), W4_of_W3 m ρ c main_arg11 (by decide), W3_keep m ρ c main_arg11 (by decide) (by decide) (by decide), W4_of_W3 m ρ c main_arg13 (by decide), W3_keep m ρ c main_arg13 (by decide) (by decide) (by decide)]
/-- The slope, as a 1 x 1 array. -/
theorem V5_main_v112 : V5 m ρ c main_v112 = shapeCast S1x1 (m ((c.tc : Thread nD τ).loc main_arg14)) shapeCasts_S1_S1x1 := by
  show after hostOps1_2 (W4 m ρ c) (Proc.devRef .tc main_v112) = _
  rw [ho2_v112, W4_of_W3 m ρ c main_arg14 (by decide), W3_keep m ρ c main_arg14 (by decide) (by decide) (by decide)]
/-- The second weight matrix: the last argument. -/
theorem V5_main_arg15 : V5 m ρ c main_arg15 = m ((c.tc : Thread nD τ).loc main_arg15) :=
  (W5_of_W3 m ρ c main_arg15 (by decide) (by decide)).trans (W3_keep m ρ c main_arg15 (by decide) (by decide) (by decide))

end Folds

/-! ### The inverse deviations, on the extended reals -/

section Variance
variable (m : (ℓ : Loc nD τ sig) → Buf (Elt Ideal) ℓ) (ρ : Dev nD → PrngReg) (c : Dev nD)

set_option maxHeartbeats 4000000 in
/-- The outlined function's stretch evaluated, from any contents whose zero constant is zero: the column variances
    of the features it reads. -/
theorem ho1_v104 (V : Valuation τ sig (Elt Ideal)) (hz : V (Proc.devRef .tc main_c_22) = constantI S_ 32 0#32) :
    after hostOps1_1 V (Proc.devRef .tc main_v104) = varK (V (Proc.devRef .tc main_v99)) := by
  host_eval
  rw [hz]
  rfl

/-- The column variances after the outlined function's stretch: of the features the long stretch left. -/
theorem W4_main_v104 : W4 m ρ c (Proc.devRef .tc main_v104) = varK (W3 m ρ c (Proc.devRef .tc main_v99)) :=
  ho1_v104 (W3 m ρ c) (W3_main_c_22 m ρ c)

/-- The inverse deviations: the reciprocal root of the column variances, of the features the second region takes,
    plus epsilon. -/
theorem V5_main_v107 : V5 m ρ c main_v107 = Host.rsqrt (addf (varK (V5 m ρ c main_v99)) (broadcastInDim S1x384 ![] bcast_S_S1x384 (constant S_ .f32 0x3727C5AC#32))) := by
  show after hostOps1_2 (W4 m ρ c) (Proc.devRef .tc main_v107) = Host.rsqrt (addf (varK (W5 m ρ c (Proc.devRef .tc main_v99))) _)
  rw [ho2_v107, W5_of_W3 m ρ c main_v99 (by decide) (by decide), W4_main_v104]

end Variance

end Cert.KernelIdeal.Hand

end
-- ==== Proof.Slope.lean ====
/-
  The PReLU slope: a one-element vector used as a 1 x 1 array.  The kernel's side reshapes the vector to 1 x 1; the
  reference spreads it over the whole array.  Either way every use reads the vector's one entry.
-/
import proofs.«110036_j83382495085286_1_alg».proof.Proof.Bridge
import proofs.«110036_j83382495085286_1_alg».proof.Proof.LibKeepdims

noncomputable section

namespace Cert.Spec

open Idealize.ShloMosaic Idealize.ShloMosaic.ValueIdx

/-- The 1 x 1 array holding the vector's entry. -/
def slope (v : FVec Ideal ⟨1, ![1]⟩ .f32) : M2 1 1 := fun _ => v (ix1 (0 : Fin 1))

theorem slope_apply (v : FVec Ideal ⟨1, ![1]⟩ .f32) : slope v (ix2 0 0) = v (ix1 (0 : Fin 1)) := rfl

/-- A one-element vector reshaped to 1 x 1 is that array. -/
theorem shapeCast_eq_slope (v : FVec Ideal ⟨1, ![1]⟩ .f32) (h : (⟨1, ![1]⟩ : Shape).ShapeCasts ⟨2, ![1, 1]⟩) :
    shapeCast ⟨2, ![1, 1]⟩ v h = slope v := by
  funext i
  obtain ⟨p, q, rfl⟩ : ∃ (p : Fin 1) (q : Fin 1), i = ix2 p q := ⟨i 0, i 1, eq_ix2 i⟩
  have hp : p = 0 := Subsingleton.elim _ _
  subst hp
  exact Keepdims.shapeCast_a_a1_apply v h 0 q

end Cert.Spec

end
-- ==== Proof.KIOut.lean ====
/-
  The kernel's result as a pure function of the launch arrays, on the extended reals.

  The second region leaves, in its result array, the whole-array function of the seven arrays it read.  Those
  seven are what the host stretches before it computed: the three feature blocks side by side — the first a block
  of columns of the first region's product, the other two the two-step recurrence applied to the other two blocks
  of columns —, the row of column means and the row of column inverse deviations of that array, the three scale
  vectors and the three shift vectors end to end as rows, the slope, and the weights.  The first region's product
  is the features times the three weight matrices side by side, so each block of its columns is the product with
  one matrix.  Batch-norm and PReLU of the concatenation with its own statistics is the concatenation of the
  branches, which makes the whole the reference's tail applied to the three branches.
-/
import proofs.«110036_j83382495085286_1_alg».proof.Proof.KIRun
import proofs.«110036_j83382495085286_1_alg».proof.Proof.KIVal0
import proofs.«110036_j83382495085286_1_alg».proof.Proof.KIVal1
import proofs.«110036_j83382495085286_1_alg».proof.Proof.KIHostRead
import proofs.«110036_j83382495085286_1_alg».proof.Proof.KIHostEval
import proofs.«110036_j83382495085286_1_alg».proof.Proof.Slope

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The first region's result array: the features times the three weight matrices side by side. -/
theorem prod_eq :
    W2 m ρ c (Proc.devRef .tc main_v1) = mm (m ((c.tc : Thread nD τ).loc main_arg0)) (catC ![(m ((c.tc : Thread nD τ).loc main_arg5)), (m ((c.tc : Thread nD τ).loc main_arg6)), (m ((c.tc : Thread nD τ).loc main_arg7))]) := by
  refine (W2_arr m ρ c 2).trans ?_
  rw [final0 (V1 m ρ) c, V1_main_v0, V1_main_arg0, cat_weights]

/-- The kernel's result array is the reference's tail of the three branches: the first block of columns of the
    product, and the recurrence applied to the second and to the third. -/
theorem kOut_eq :
    (dat1 (F := Ideal) (V5 m ρ) c).arrAt 7 cfg1.N
      = Cert.Spec.refTail
        ![mm (m ((c.tc : Thread nD τ).loc main_arg0)) (m ((c.tc : Thread nD τ).loc main_arg5)),
          jac2 (F := Ideal) (jac1 (F := Ideal) (mm (m ((c.tc : Thread nD τ).loc main_arg0)) (m ((c.tc : Thread nD τ).loc main_arg6))) (m ((c.tc : Thread nD τ).loc main_arg1)) (m ((c.tc : Thread nD τ).loc main_arg2))) (mm (m ((c.tc : Thread nD τ).loc main_arg0)) (m ((c.tc : Thread nD τ).loc main_arg6))) (m ((c.tc : Thread nD τ).loc main_arg1)) (m ((c.tc : Thread nD τ).loc main_arg2)),
          jac2 (F := Ideal) (jac1 (F := Ideal) (mm (m ((c.tc : Thread nD τ).loc main_arg0)) (m ((c.tc : Thread nD τ).loc main_arg7))) (m ((c.tc : Thread nD τ).loc main_arg3)) (m ((c.tc : Thread nD τ).loc main_arg4))) (mm (m ((c.tc : Thread nD τ).loc main_arg0)) (m ((c.tc : Thread nD τ).loc main_arg7))) (m ((c.tc : Thread nD τ).loc main_arg3)) (m ((c.tc : Thread nD τ).loc main_arg4))]
        ![(m ((c.tc : Thread nD τ).loc main_arg8)), (m ((c.tc : Thread nD τ).loc main_arg10)), (m ((c.tc : Thread nD τ).loc main_arg12))] ![(m ((c.tc : Thread nD τ).loc main_arg9)), (m ((c.tc : Thread nD τ).loc main_arg11)), (m ((c.tc : Thread nD τ).loc main_arg13))]
        (slope (m ((c.tc : Thread nD τ).loc main_arg14))) (m ((c.tc : Thread nD τ).loc main_arg15)) dnT nanT := by
  rw [final1 (V5 m ρ) c, V5_main_v103, V5_main_v107, V5_main_v109, V5_main_v111, V5_main_v112, V5_main_arg15,
    mean_read, var_read, inv_read, cat_row, cat_row, shapeCast_eq_slope, V5_main_v99, prod_eq,
    slice_mm_0, slice_mm_1, slice_mm_2, cat_features]
  exact G1_cat _ _ _ _ _ _ _

end Cert.KernelIdeal.Hand

end
-- ==== Proof.RefOps.lean ====
/- The reference program's @main as lists of its host operations, one list per window of sixty statements, in order:
   each line of a window is one operation, and a call of a module-local function is that function's operations
   listed in its place over the buffers of that call (the callee's arguments are the caller's buffers, its values
   the call's own record). Beside each list: the list of the
   buffers the window writes (each operation writes exactly one: the list is the operations' result column). -/
import proofs.«110036_j83382495085286_1_alg».proof.Proof.Gen.ReferenceIdeal
import Idealize.ShloMosaic.Lib.StableHlo.Run

-- a list of 123 operations written with `::` and the decided memberships in it recurse past the default depth
set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main, in order (60). -/
abbrev ops_part0 : List (HloOp τ sig (Elt F)) :=
  ( StableHlo.binary main_arg0 main_arg5 main_v0 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F))
  :: StableHlo.binary main_arg0 main_arg6 main_v1 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F))
  :: StableHlo.binary main_arg0 main_arg7 main_v2 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F))
  :: StableHlo.nullary main_cst (constant S_ .f32 0x00000000#32)
  :: StableHlo.unary main_cst main_v3 (broadcastInDim S40000x128 ![] bcast_S_S40000x128 : (⟨S_, .f32⟩ : BufTy).Contents (Elt F) → (⟨S40000x128, .f32⟩ : BufTy).Contents (Elt F))
  :: StableHlo.binary main_v3 main_v1 main_v4 (mulf : (⟨S40000x128, .f32⟩ : BufTy).Contents (Elt F) → (⟨S40000x128, .f32⟩ : BufTy).Contents (Elt F) → (⟨S40000x128, .f32⟩ : BufTy).Contents (Elt F))
  :: StableHlo.unary main_arg1 main_v5 ((extractStridedSlice S1x640000 ![0, 0] · slices_S2x640000_S1x640000_0_0) : (⟨S2x640000, .i32⟩ : BufTy).Contents (Elt F) → (⟨S1x640000, .i32⟩ : BufTy).Contents (Elt F))
  :: StableHlo.reshape main_v5 main_v6 rfl shapeCasts_S1x640000_S640000
  :: StableHlo.unary main_arg1 main_v7 ((extractStridedSlice S1x640000 ![1, 0] · slices_S2x640000_S1x640000_1_0) : (⟨S2x640000, .i32⟩ : BufTy).Contents (Elt F) → (⟨S1x640000, .i32⟩ : BufTy).Contents (Elt F))
  :: StableHlo.reshape main_v7 main_v8 rfl shapeCasts_S1x640000_S640000
  :: StableHlo.nullary main_c (constantI S_ 32 0#32)
  :: StableHlo.unary main_c main_v9 (broadcastInDim S640000 ![] bcast_S_S640000 : (⟨S_, .i32⟩ : BufTy).Contents (Elt F) → (⟨S640000, .i32⟩ : BufTy).Contents (Elt F))
  :: StableHlo.binary main_v8 main_v9 main_v10 (cmpi .slt : (⟨S640000, .i32⟩ : BufTy).Contents (Elt F) → (⟨S640000, .i32⟩ : BufTy).Contents (Elt F) → (⟨S640000, .i1⟩ : BufTy).Contents (Elt F))
  :: StableHlo.nullary main_c_0 (constantI S_ 32 40000#32)
  :: StableHlo.unary main_c_0 main_v11 (broadcastInDim S640000 ![] bcast_S_S640000 : (⟨S_, .i32⟩ : BufTy).Contents (Elt F) → (⟨S640000, .i32⟩ : BufTy).Contents (Elt F))
  :: StableHlo.binary main_v8 main_v11 main_v12 (addi : (⟨S640000, .i32⟩ : BufTy).Contents (Elt F) → (⟨S640000, .i32⟩ : BufTy).Contents (Elt F) → (⟨S640000, .i32⟩ : BufTy).Contents (Elt F))
  :: StableHlo.ternary main_v10 main_v12 main_v8 main_v13 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: StableHlo.unary main_v13 main_v14 (broadcastInDim S640000x1 ![0] bcast_S640000_S640000x1_0 : (⟨S640000, .i32⟩ : BufTy).Contents (Elt F) → (⟨S640000x1, .i32⟩ : BufTy).Contents (Elt F))
  :: StableHlo.binary main_v1 main_v14 main_v15 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F))
  :: StableHlo.unary main_arg2 main_v16 (broadcastInDim S640000x1 ![0] bcast_S640000_S640000x1_0 : (⟨S640000, .f32⟩ : BufTy).Contents (Elt F) → (⟨S640000x1, .f32⟩ : BufTy).Contents (Elt F))
  :: StableHlo.unary main_v16 main_v17 (broadcastInDim S640000x128 ![0, 1] bcast_S640000x1_S640000x128_0_1 : (⟨S640000x1, .f32⟩ : BufTy).Contents (Elt F) → (⟨S640000x128, .f32⟩ : BufTy).Contents (Elt F))
  :: StableHlo.binary main_v15 main_v17 main_v18 (mulf : (⟨S640000x128, .f32⟩ : BufTy).Contents (Elt F) → (⟨S640000x128, .f32⟩ : BufTy).Contents (Elt F) → (⟨S640000x128, .f32⟩ : BufTy).Contents (Elt F))
  :: StableHlo.nullary main_cst_1 (constant S_ .f32 0x00000000#32)
  :: StableHlo.unary main_cst_1 main_v19 (broadcastInDim S40000x128 ![] bcast_S_S40000x128 : (⟨S_, .f32⟩ : BufTy).Contents (Elt F) → (⟨S40000x128, .f32⟩ : BufTy).Contents (Elt F))
  :: StableHlo.unary main_v6 main_v20 (broadcastInDim S640000x1 ![0] bcast_S640000_S640000x1_0 : (⟨S640000, .i32⟩ : BufTy).Contents (Elt F) → (⟨S640000x1, .i32⟩ : BufTy).Contents (Elt F))
  :: StableHlo.ternary main_v19 main_v20 main_v18 main_v21 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F))
  :: StableHlo.nullary main_cst_2 (constant S_ .f32 0x40000000#32)
  :: StableHlo.unary main_cst_2 main_v22 (broadcastInDim S40000x128 ![] bcast_S_S40000x128 : (⟨S_, .f32⟩ : BufTy).Contents (Elt F) → (⟨S40000x128, .f32⟩ : BufTy).Contents (Elt F))
  :: StableHlo.binary main_v22 main_v21 main_v23 (mulf : (⟨S40000x128, .f32⟩ : BufTy).Contents (Elt F) → (⟨S40000x128, .f32⟩ : BufTy).Contents (Elt F) → (⟨S40000x128, .f32⟩ : BufTy).Contents (Elt F))
  :: StableHlo.binary main_v4 main_v23 main_v24 (addf : (⟨S40000x128, .f32⟩ : BufTy).Contents (Elt F) → (⟨S40000x128, .f32⟩ : BufTy).Contents (Elt F) → (⟨S40000x128, .f32⟩ : BufTy).Contents (Elt F))
  :: StableHlo.unary main_arg1 main_v25 ((extractStridedSlice S1x640000 ![0, 0] · slices_S2x640000_S1x640000_0_0) : (⟨S2x640000, .i32⟩ : BufTy).Contents (Elt F) → (⟨S1x640000, .i32⟩ : BufTy).Contents (Elt F))
  :: StableHlo.reshape main_v25 main_v26 rfl shapeCasts_S1x640000_S640000
  :: StableHlo.unary main_arg1 main_v27 ((extractStridedSlice S1x640000 ![1, 0] · slices_S2x640000_S1x640000_1_0) : (⟨S2x640000, .i32⟩ : BufTy).Contents (Elt F) → (⟨S1x640000, .i32⟩ : BufTy).Contents (Elt F))
  :: StableHlo.reshape main_v27 main_v28 rfl shapeCasts_S1x640000_S640000
  :: StableHlo.nullary main_c_3 (constantI S_ 32 0#32)
  :: StableHlo.unary main_c_3 main_v29 (broadcastInDim S640000 ![] bcast_S_S640000 : (⟨S_, .i32⟩ : BufTy).Contents (Elt F) → (⟨S640000, .i32⟩ : BufTy).Contents (Elt F))
  :: StableHlo.binary main_v28 main_v29 main_v30 (cmpi .slt : (⟨S640000, .i32⟩ : BufTy).Contents (Elt F) → (⟨S640000, .i32⟩ : BufTy).Contents (Elt F) → (⟨S640000, .i1⟩ : BufTy).Contents (Elt F))
  :: StableHlo.nullary main_c_4 (constantI S_ 32 40000#32)
  :: StableHlo.unary main_c_4 main_v31 (broadcastInDim S640000 ![] bcast_S_S640000 : (⟨S_, .i32⟩ : BufTy).Contents (Elt F) → (⟨S640000, .i32⟩ : BufTy).Contents (Elt F))
  :: StableHlo.binary main_v28 main_v31 main_v32 (addi : (⟨S640000, .i32⟩ : BufTy).Contents (Elt F) → (⟨S640000, .i32⟩ : BufTy).Contents (Elt F) → (⟨S640000, .i32⟩ : BufTy).Contents (Elt F))
  :: StableHlo.ternary main_v30 main_v32 main_v28 main_v33 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: StableHlo.unary main_v33 main_v34 (broadcastInDim S640000x1 ![0] bcast_S640000_S640000x1_0 : (⟨S640000, .i32⟩ : BufTy).Contents (Elt F) → (⟨S640000x1, .i32⟩ : BufTy).Contents (Elt F))
  :: StableHlo.binary main_v24 main_v34 main_v35 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F))
  :: StableHlo.unary main_arg2 main_v36 (broadcastInDim S640000x1 ![0] bcast_S640000_S640000x1_0 : (⟨S640000, .f32⟩ : BufTy).Contents (Elt F) → (⟨S640000x1, .f32⟩ : BufTy).Contents (Elt F))
  :: StableHlo.unary main_v36 main_v37 (broadcastInDim S640000x128 ![0, 1] bcast_S640000x1_S640000x128_0_1 : (⟨S640000x1, .f32⟩ : BufTy).Contents (Elt F) → (⟨S640000x128, .f32⟩ : BufTy).Contents (Elt F))
  :: StableHlo.binary main_v35 main_v37 main_v38 (mulf : (⟨S640000x128, .f32⟩ : BufTy).Contents (Elt F) → (⟨S640000x128, .f32⟩ : BufTy).Contents (Elt F) → (⟨S640000x128, .f32⟩ : BufTy).Contents (Elt F))
  :: StableHlo.nullary main_cst_5 (constant S_ .f32 0x00000000#32)
  :: StableHlo.unary main_cst_5 main_v39 (broadcastInDim S40000x128 ![] bcast_S_S40000x128 : (⟨S_, .f32⟩ : BufTy).Contents (Elt F) → (⟨S40000x128, .f32⟩ : BufTy).Contents (Elt F))
  :: StableHlo.unary main_v26 main_v40 (broadcastInDim S640000x1 ![0] bcast_S640000_S640000x1_0 : (⟨S640000, .i32⟩ : BufTy).Contents (Elt F) → (⟨S640000x1, .i32⟩ : BufTy).Contents (Elt F))
  :: StableHlo.ternary main_v39 main_v40 main_v38 main_v41 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F))
  :: StableHlo.nullary main_cst_6 (constant S_ .f32 0x3FF00000#32)
  :: StableHlo.unary main_cst_6 main_v42 (broadcastInDim S40000x128 ![] bcast_S_S40000x128 : (⟨S_, .f32⟩ : BufTy).Contents (Elt F) → (⟨S40000x128, .f32⟩ : BufTy).Contents (Elt F))
  :: StableHlo.binary main_v42 main_v41 main_v43 (mulf : (⟨S40000x128, .f32⟩ : BufTy).Contents (Elt F) → (⟨S40000x128, .f32⟩ : BufTy).Contents (Elt F) → (⟨S40000x128, .f32⟩ : BufTy).Contents (Elt F))
  :: StableHlo.nullary main_cst_7 (constant S_ .f32 0x00000000#32)
  :: StableHlo.unary main_cst_7 main_v44 (broadcastInDim S40000x128 ![] bcast_S_S40000x128 : (⟨S_, .f32⟩ : BufTy).Contents (Elt F) → (⟨S40000x128, .f32⟩ : BufTy).Contents (Elt F))
  :: StableHlo.binary main_v44 main_v24 main_v45 (mulf : (⟨S40000x128, .f32⟩ : BufTy).Contents (Elt F) → (⟨S40000x128, .f32⟩ : BufTy).Contents (Elt F) → (⟨S40000x128, .f32⟩ : BufTy).Contents (Elt F))
  :: StableHlo.binary main_v43 main_v45 main_v46 (addf : (⟨S40000x128, .f32⟩ : BufTy).Contents (Elt F) → (⟨S40000x128, .f32⟩ : BufTy).Contents (Elt F) → (⟨S40000x128, .f32⟩ : BufTy).Contents (Elt F))
  :: StableHlo.nullary main_cst_8 (constant S_ .f32 0x3FD80000#32)
  :: StableHlo.unary main_cst_8 main_v47 (broadcastInDim S40000x128 ![] bcast_S_S40000x128 : (⟨S_, .f32⟩ : BufTy).Contents (Elt F) → (⟨S40000x128, .f32⟩ : BufTy).Contents (Elt F))
  :: StableHlo.binary main_v47 main_v1 main_v48 (mulf : (⟨S40000x128, .f32⟩ : BufTy).Contents (Elt F) → (⟨S40000x128, .f32⟩ : BufTy).Contents (Elt F) → (⟨S40000x128, .f32⟩ : BufTy).Contents (Elt F))
  :: [] )

/-- The buffers window 0 writes, in order. -/
abbrev ops_part0_W : List (Ref sig .tc) :=
  [main_v0, main_v1, main_v2, main_cst, main_v3, main_v4, main_v5, main_v6, main_v7, main_v8, main_c, main_v9, main_v10, main_c_0, main_v11, main_v12, main_v13, main_v14, main_v15, main_v16, main_v17, main_v18, main_cst_1, main_v19, main_v20, main_v21, main_cst_2, main_v22, main_v23, main_v24, main_v25, main_v26, main_v27, main_v28, main_c_3, main_v29, main_v30, main_c_4, main_v31, main_v32, main_v33, main_v34, main_v35, main_v36, main_v37, main_v38, main_cst_5, main_v39, main_v40, main_v41, main_cst_6, main_v42, main_v43, main_cst_7, main_v44, main_v45, main_v46, main_cst_8, main_v47, main_v48]

/-- The operations of window 1 of @main, in order (60). -/
abbrev ops_part1 : List (HloOp τ sig (Elt F)) :=
  ( StableHlo.binary main_v46 main_v48 main_v49 (subf : (⟨S40000x128, .f32⟩ : BufTy).Contents (Elt F) → (⟨S40000x128, .f32⟩ : BufTy).Contents (Elt F) → (⟨S40000x128, .f32⟩ : BufTy).Contents (Elt F))
  :: StableHlo.nullary main_cst_9 (constant S_ .f32 0x00000000#32)
  :: StableHlo.unary main_cst_9 main_v50 (broadcastInDim S40000x128 ![] bcast_S_S40000x128 : (⟨S_, .f32⟩ : BufTy).Contents (Elt F) → (⟨S40000x128, .f32⟩ : BufTy).Contents (Elt F))
  :: StableHlo.binary main_v50 main_v2 main_v51 (mulf : (⟨S40000x128, .f32⟩ : BufTy).Contents (Elt F) → (⟨S40000x128, .f32⟩ : BufTy).Contents (Elt F) → (⟨S40000x128, .f32⟩ : BufTy).Contents (Elt F))
  :: StableHlo.unary main_arg3 main_v52 ((extractStridedSlice S1x640000 ![0, 0] · slices_S2x640000_S1x640000_0_0) : (⟨S2x640000, .i32⟩ : BufTy).Contents (Elt F) → (⟨S1x640000, .i32⟩ : BufTy).Contents (Elt F))
  :: StableHlo.reshape main_v52 main_v53 rfl shapeCasts_S1x640000_S640000
  :: StableHlo.unary main_arg3 main_v54 ((extractStridedSlice S1x640000 ![1, 0] · slices_S2x640000_S1x640000_1_0) : (⟨S2x640000, .i32⟩ : BufTy).Contents (Elt F) → (⟨S1x640000, .i32⟩ : BufTy).Contents (Elt F))
  :: StableHlo.reshape main_v54 main_v55 rfl shapeCasts_S1x640000_S640000
  :: StableHlo.nullary main_c_10 (constantI S_ 32 0#32)
  :: StableHlo.unary main_c_10 main_v56 (broadcastInDim S640000 ![] bcast_S_S640000 : (⟨S_, .i32⟩ : BufTy).Contents (Elt F) → (⟨S640000, .i32⟩ : BufTy).Contents (Elt F))
  :: StableHlo.binary main_v55 main_v56 main_v57 (cmpi .slt : (⟨S640000, .i32⟩ : BufTy).Contents (Elt F) → (⟨S640000, .i32⟩ : BufTy).Contents (Elt F) → (⟨S640000, .i1⟩ : BufTy).Contents (Elt F))
  :: StableHlo.nullary main_c_11 (constantI S_ 32 40000#32)
  :: StableHlo.unary main_c_11 main_v58 (broadcastInDim S640000 ![] bcast_S_S640000 : (⟨S_, .i32⟩ : BufTy).Contents (Elt F) → (⟨S640000, .i32⟩ : BufTy).Contents (Elt F))
  :: StableHlo.binary main_v55 main_v58 main_v59 (addi : (⟨S640000, .i32⟩ : BufTy).Contents (Elt F) → (⟨S640000, .i32⟩ : BufTy).Contents (Elt F) → (⟨S640000, .i32⟩ : BufTy).Contents (Elt F))
  :: StableHlo.ternary main_v57 main_v59 main_v55 main_v60 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: StableHlo.unary main_v60 main_v61 (broadcastInDim S640000x1 ![0] bcast_S640000_S640000x1_0 : (⟨S640000, .i32⟩ : BufTy).Contents (Elt F) → (⟨S640000x1, .i32⟩ : BufTy).Contents (Elt F))
  :: StableHlo.binary main_v2 main_v61 main_v62 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F))
  :: StableHlo.unary main_arg4 main_v63 (broadcastInDim S640000x1 ![0] bcast_S640000_S640000x1_0 : (⟨S640000, .f32⟩ : BufTy).Contents (Elt F) → (⟨S640000x1, .f32⟩ : BufTy).Contents (Elt F))
  :: StableHlo.unary main_v63 main_v64 (broadcastInDim S640000x128 ![0, 1] bcast_S640000x1_S640000x128_0_1 : (⟨S640000x1, .f32⟩ : BufTy).Contents (Elt F) → (⟨S640000x128, .f32⟩ : BufTy).Contents (Elt F))
  :: StableHlo.binary main_v62 main_v64 main_v65 (mulf : (⟨S640000x128, .f32⟩ : BufTy).Contents (Elt F) → (⟨S640000x128, .f32⟩ : BufTy).Contents (Elt F) → (⟨S640000x128, .f32⟩ : BufTy).Contents (Elt F))
  :: StableHlo.nullary main_cst_12 (constant S_ .f32 0x00000000#32)
  :: StableHlo.unary main_cst_12 main_v66 (broadcastInDim S40000x128 ![] bcast_S_S40000x128 : (⟨S_, .f32⟩ : BufTy).Contents (Elt F) → (⟨S40000x128, .f32⟩ : BufTy).Contents (Elt F))
  :: StableHlo.unary main_v53 main_v67 (broadcastInDim S640000x1 ![0] bcast_S640000_S640000x1_0 : (⟨S640000, .i32⟩ : BufTy).Contents (Elt F) → (⟨S640000x1, .i32⟩ : BufTy).Contents (Elt F))
  :: StableHlo.ternary main_v66 main_v67 main_v65 main_v68 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F))
  :: StableHlo.nullary main_cst_13 (constant S_ .f32 0x40000000#32)
  :: StableHlo.unary main_cst_13 main_v69 (broadcastInDim S40000x128 ![] bcast_S_S40000x128 : (⟨S_, .f32⟩ : BufTy).Contents (Elt F) → (⟨S40000x128, .f32⟩ : BufTy).Contents (Elt F))
  :: StableHlo.binary main_v69 main_v68 main_v70 (mulf : (⟨S40000x128, .f32⟩ : BufTy).Contents (Elt F) → (⟨S40000x128, .f32⟩ : BufTy).Contents (Elt F) → (⟨S40000x128, .f32⟩ : BufTy).Contents (Elt F))
  :: StableHlo.binary main_v51 main_v70 main_v71 (addf : (⟨S40000x128, .f32⟩ : BufTy).Contents (Elt F) → (⟨S40000x128, .f32⟩ : BufTy).Contents (Elt F) → (⟨S40000x128, .f32⟩ : BufTy).Contents (Elt F))
  :: StableHlo.unary main_arg3 main_v72 ((extractStridedSlice S1x640000 ![0, 0] · slices_S2x640000_S1x640000_0_0) : (⟨S2x640000, .i32⟩ : BufTy).Contents (Elt F) → (⟨S1x640000, .i32⟩ : BufTy).Contents (Elt F))
  :: StableHlo.reshape main_v72 main_v73 rfl shapeCasts_S1x640000_S640000
  :: StableHlo.unary main_arg3 main_v74 ((extractStridedSlice S1x640000 ![1, 0] · slices_S2x640000_S1x640000_1_0) : (⟨S2x640000, .i32⟩ : BufTy).Contents (Elt F) → (⟨S1x640000, .i32⟩ : BufTy).Contents (Elt F))
  :: StableHlo.reshape main_v74 main_v75 rfl shapeCasts_S1x640000_S640000
  :: StableHlo.nullary main_c_14 (constantI S_ 32 0#32)
  :: StableHlo.unary main_c_14 main_v76 (broadcastInDim S640000 ![] bcast_S_S640000 : (⟨S_, .i32⟩ : BufTy).Contents (Elt F) → (⟨S640000, .i32⟩ : BufTy).Contents (Elt F))
  :: StableHlo.binary main_v75 main_v76 main_v77 (cmpi .slt : (⟨S640000, .i32⟩ : BufTy).Contents (Elt F) → (⟨S640000, .i32⟩ : BufTy).Contents (Elt F) → (⟨S640000, .i1⟩ : BufTy).Contents (Elt F))
  :: StableHlo.nullary main_c_15 (constantI S_ 32 40000#32)
  :: StableHlo.unary main_c_15 main_v78 (broadcastInDim S640000 ![] bcast_S_S640000 : (⟨S_, .i32⟩ : BufTy).Contents (Elt F) → (⟨S640000, .i32⟩ : BufTy).Contents (Elt F))
  :: StableHlo.binary main_v75 main_v78 main_v79 (addi : (⟨S640000, .i32⟩ : BufTy).Contents (Elt F) → (⟨S640000, .i32⟩ : BufTy).Contents (Elt F) → (⟨S640000, .i32⟩ : BufTy).Contents (Elt F))
  :: StableHlo.ternary main_v77 main_v79 main_v75 main_v80 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: StableHlo.unary main_v80 main_v81 (broadcastInDim S640000x1 ![0] bcast_S640000_S640000x1_0 : (⟨S640000, .i32⟩ : BufTy).Contents (Elt F) → (⟨S640000x1, .i32⟩ : BufTy).Contents (Elt F))
  :: StableHlo.binary main_v71 main_v81 main_v82 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F))
  :: StableHlo.unary main_arg4 main_v83 (broadcastInDim S640000x1 ![0] bcast_S640000_S640000x1_0 : (⟨S640000, .f32⟩ : BufTy).Contents (Elt F) → (⟨S640000x1, .f32⟩ : BufTy).Contents (Elt F))
  :: StableHlo.unary main_v83 main_v84 (broadcastInDim S640000x128 ![0, 1] bcast_S640000x1_S640000x128_0_1 : (⟨S640000x1, .f32⟩ : BufTy).Contents (Elt F) → (⟨S640000x128, .f32⟩ : BufTy).Contents (Elt F))
  :: StableHlo.binary main_v82 main_v84 main_v85 (mulf : (⟨S640000x128, .f32⟩ : BufTy).Contents (Elt F) → (⟨S640000x128, .f32⟩ : BufTy).Contents (Elt F) → (⟨S640000x128, .f32⟩ : BufTy).Contents (Elt F))
  :: StableHlo.nullary main_cst_16 (constant S_ .f32 0x00000000#32)
  :: StableHlo.unary main_cst_16 main_v86 (broadcastInDim S40000x128 ![] bcast_S_S40000x128 : (⟨S_, .f32⟩ : BufTy).Contents (Elt F) → (⟨S40000x128, .f32⟩ : BufTy).Contents (Elt F))
  :: StableHlo.unary main_v73 main_v87 (broadcastInDim S640000x1 ![0] bcast_S640000_S640000x1_0 : (⟨S640000, .i32⟩ : BufTy).Contents (Elt F) → (⟨S640000x1, .i32⟩ : BufTy).Contents (Elt F))
  :: StableHlo.ternary main_v86 main_v87 main_v85 main_v88 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F))
  :: StableHlo.nullary main_cst_17 (constant S_ .f32 0x3FF00000#32)
  :: StableHlo.unary main_cst_17 main_v89 (broadcastInDim S40000x128 ![] bcast_S_S40000x128 : (⟨S_, .f32⟩ : BufTy).Contents (Elt F) → (⟨S40000x128, .f32⟩ : BufTy).Contents (Elt F))
  :: StableHlo.binary main_v89 main_v88 main_v90 (mulf : (⟨S40000x128, .f32⟩ : BufTy).Contents (Elt F) → (⟨S40000x128, .f32⟩ : BufTy).Contents (Elt F) → (⟨S40000x128, .f32⟩ : BufTy).Contents (Elt F))
  :: StableHlo.nullary main_cst_18 (constant S_ .f32 0x00000000#32)
  :: StableHlo.unary main_cst_18 main_v91 (broadcastInDim S40000x128 ![] bcast_S_S40000x128 : (⟨S_, .f32⟩ : BufTy).Contents (Elt F) → (⟨S40000x128, .f32⟩ : BufTy).Contents (Elt F))
  :: StableHlo.binary main_v91 main_v71 main_v92 (mulf : (⟨S40000x128, .f32⟩ : BufTy).Contents (Elt F) → (⟨S40000x128, .f32⟩ : BufTy).Contents (Elt F) → (⟨S40000x128, .f32⟩ : BufTy).Contents (Elt F))
  :: StableHlo.binary main_v90 main_v92 main_v93 (addf : (⟨S40000x128, .f32⟩ : BufTy).Contents (Elt F) → (⟨S40000x128, .f32⟩ : BufTy).Contents (Elt F) → (⟨S40000x128, .f32⟩ : BufTy).Contents (Elt F))
  :: StableHlo.nullary main_cst_19 (constant S_ .f32 0x3FD80000#32)
  :: StableHlo.unary main_cst_19 main_v94 (broadcastInDim S40000x128 ![] bcast_S_S40000x128 : (⟨S_, .f32⟩ : BufTy).Contents (Elt F) → (⟨S40000x128, .f32⟩ : BufTy).Contents (Elt F))
  :: StableHlo.binary main_v94 main_v2 main_v95 (mulf : (⟨S40000x128, .f32⟩ : BufTy).Contents (Elt F) → (⟨S40000x128, .f32⟩ : BufTy).Contents (Elt F) → (⟨S40000x128, .f32⟩ : BufTy).Contents (Elt F))
  :: StableHlo.binary main_v93 main_v95 main_v96 (subf : (⟨S40000x128, .f32⟩ : BufTy).Contents (Elt F) → (⟨S40000x128, .f32⟩ : BufTy).Contents (Elt F) → (⟨S40000x128, .f32⟩ : BufTy).Contents (Elt F))
  :: StableHlo.nullary main_cst_20 (constant S_ .f32 0x00000000#32)
  :: [] )

/-- The buffers window 1 writes, in order. -/
abbrev ops_part1_W : List (Ref sig .tc) :=
  [main_v49, main_cst_9, main_v50, main_v51, main_v52, main_v53, main_v54, main_v55, main_c_10, main_v56, main_v57, main_c_11, main_v58, main_v59, main_v60, main_v61, main_v62, main_v63, main_v64, main_v65, main_cst_12, main_v66, main_v67, main_v68, main_cst_13, main_v69, main_v70, main_v71, main_v72, main_v73, main_v74, main_v75, main_c_14, main_v76, main_v77, main_c_15, main_v78, main_v79, main_v80, main_v81, main_v82, main_v83, main_v84, main_v85, main_cst_16, main_v86, main_v87, main_v88, main_cst_17, main_v89, main_v90, main_cst_18, main_v91, main_v92, main_v93, main_cst_19, main_v94, main_v95, main_v96, main_cst_20]

/-- The operations of window 2 of @main, in order (123). -/
abbrev ops_part2 : List (HloOp τ sig (Elt F)) :=
  ( StableHlo.binary main_v0 main_cst_20 main_v97 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F))
  :: StableHlo.nullary main_cst_21 (constant S_ .f32 0x471C4000#32)
  :: StableHlo.unary main_cst_21 main_v98 (broadcastInDim S128 ![] bcast_S_S128 : (⟨S_, .f32⟩ : BufTy).Contents (Elt F) → (⟨S128, .f32⟩ : BufTy).Contents (Elt F))
  :: StableHlo.binary main_v97 main_v98 main_v99 (Host.divf : (⟨S128, .f32⟩ : BufTy).Contents (Elt F) → (⟨S128, .f32⟩ : BufTy).Contents (Elt F) → (⟨S128, .f32⟩ : BufTy).Contents (Elt F))
  :: StableHlo.nullary main_c_22 (constantI S_ 32 0#32)
  :: StableHlo.TRef.nullary main_call0.cst (constant S_ .f32 0x00000000#32)
  :: StableHlo.TRef.binary (.of main_v0 : StableHlo.TRef sig ⟨S40000x128, .f32⟩) main_call0.cst main_call0.v0 (fun x v => Host.reduceAdd x v reducesTo_S40000x128_S128_d0 h_S_)
  :: StableHlo.TRef.unary main_call0.v0 main_call0.v1 (broadcastInDim S1x128 ![1] bcast_S128_S1x128_1)
  :: StableHlo.TRef.nullary main_call0.cst_0 (constant S_ .f32 0x471C4000#32)
  :: StableHlo.TRef.unary main_call0.cst_0 main_call0.v2 (broadcastInDim S1x128 ![] bcast_S_S1x128)
  :: StableHlo.TRef.binary main_call0.v1 main_call0.v2 main_call0.v3 Host.divf
  :: StableHlo.TRef.unary main_call0.v3 main_call0.v4 (broadcastInDim S40000x128 ![0, 1] bcast_S1x128_S40000x128_0_1)
  :: StableHlo.TRef.binary (.of main_v0 : StableHlo.TRef sig ⟨S40000x128, .f32⟩) main_call0.v4 main_call0.v5 subf
  :: StableHlo.TRef.binary main_call0.v5 main_call0.v5 main_call0.v6 mulf
  :: StableHlo.TRef.unary (.of main_c_22 : StableHlo.TRef sig ⟨S_, .i32⟩) main_call0.v7 (sitofp .f32)
  :: StableHlo.TRef.nullary main_call0.cst_1 (constant S_ .f32 0x471C4000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S40000x128_S128_d0 h_S_)
  :: StableHlo.TRef.unary main_call0.v8 main_call0.v10 (broadcastInDim S128 ![] bcast_S_S128)
  :: StableHlo.TRef.binary main_call0.v9 main_call0.v10 main_call0.v11 Host.divf
  :: StableHlo.TRef.nullary main_call0.cst_3 (constant S_ .f32 0x00000000#32)
  :: StableHlo.TRef.binary main_call0.v8 main_call0.cst_3 main_call0.v12 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S128 ![] bcast_S_S128)
  :: StableHlo.TRef.ternary main_call0.v12 main_call0.v11 main_call0.call0.v1 main_call0.call0.v2 (fun p a b => select (broadcastInDim S128 ![] bcast_S_S128 p) a b)
  :: StableHlo.unary main_v99 main_v101 (broadcastInDim S1x128 ![1] bcast_S128_S1x128_1 : (⟨S128, .f32⟩ : BufTy).Contents (Elt F) → (⟨S1x128, .f32⟩ : BufTy).Contents (Elt F))
  :: StableHlo.unary main_v101 main_v102 (broadcastInDim S40000x128 ![0, 1] bcast_S1x128_S40000x128_0_1 : (⟨S1x128, .f32⟩ : BufTy).Contents (Elt F) → (⟨S40000x128, .f32⟩ : BufTy).Contents (Elt F))
  :: StableHlo.binary main_v0 main_v102 main_v103 (subf : (⟨S40000x128, .f32⟩ : BufTy).Contents (Elt F) → (⟨S40000x128, .f32⟩ : BufTy).Contents (Elt F) → (⟨S40000x128, .f32⟩ : BufTy).Contents (Elt F))
  :: StableHlo.unary main_arg8 main_v104 (broadcastInDim S1x128 ![1] bcast_S128_S1x128_1 : (⟨S128, .f32⟩ : BufTy).Contents (Elt F) → (⟨S1x128, .f32⟩ : BufTy).Contents (Elt F))
  :: StableHlo.unary main_v104 main_v105 (broadcastInDim S40000x128 ![0, 1] bcast_S1x128_S40000x128_0_1 : (⟨S1x128, .f32⟩ : BufTy).Contents (Elt F) → (⟨S40000x128, .f32⟩ : BufTy).Contents (Elt F))
  :: StableHlo.binary main_v105 main_v103 main_v106 (mulf : (⟨S40000x128, .f32⟩ : BufTy).Contents (Elt F) → (⟨S40000x128, .f32⟩ : BufTy).Contents (Elt F) → (⟨S40000x128, .f32⟩ : BufTy).Contents (Elt F))
  :: StableHlo.nullary main_cst_23 (constant S_ .f32 0x3727C5AC#32)
  :: StableHlo.unary main_cst_23 main_v107 (broadcastInDim S128 ![] bcast_S_S128 : (⟨S_, .f32⟩ : BufTy).Contents (Elt F) → (⟨S128, .f32⟩ : BufTy).Contents (Elt F))
  :: StableHlo.binary main_v100 main_v107 main_v108 (addf : (⟨S128, .f32⟩ : BufTy).Contents (Elt F) → (⟨S128, .f32⟩ : BufTy).Contents (Elt F) → (⟨S128, .f32⟩ : BufTy).Contents (Elt F))
  :: StableHlo.unary main_v108 main_v109 (Host.rsqrt : (⟨S128, .f32⟩ : BufTy).Contents (Elt F) → (⟨S128, .f32⟩ : BufTy).Contents (Elt F))
  :: StableHlo.unary main_v109 main_v110 (broadcastInDim S1x128 ![1] bcast_S128_S1x128_1 : (⟨S128, .f32⟩ : BufTy).Contents (Elt F) → (⟨S1x128, .f32⟩ : BufTy).Contents (Elt F))
  :: StableHlo.unary main_v110 main_v111 (broadcastInDim S40000x128 ![0, 1] bcast_S1x128_S40000x128_0_1 : (⟨S1x128, .f32⟩ : BufTy).Contents (Elt F) → (⟨S40000x128, .f32⟩ : BufTy).Contents (Elt F))
  :: StableHlo.binary main_v106 main_v111 main_v112 (mulf : (⟨S40000x128, .f32⟩ : BufTy).Contents (Elt F) → (⟨S40000x128, .f32⟩ : BufTy).Contents (Elt F) → (⟨S40000x128, .f32⟩ : BufTy).Contents (Elt F))
  :: StableHlo.unary main_arg9 main_v113 (broadcastInDim S1x128 ![1] bcast_S128_S1x128_1 : (⟨S128, .f32⟩ : BufTy).Contents (Elt F) → (⟨S1x128, .f32⟩ : BufTy).Contents (Elt F))
  :: StableHlo.unary main_v113 main_v114 (broadcastInDim S40000x128 ![0, 1] bcast_S1x128_S40000x128_0_1 : (⟨S1x128, .f32⟩ : BufTy).Contents (Elt F) → (⟨S40000x128, .f32⟩ : BufTy).Contents (Elt F))
  :: StableHlo.binary main_v112 main_v114 main_v115 (addf : (⟨S40000x128, .f32⟩ : BufTy).Contents (Elt F) → (⟨S40000x128, .f32⟩ : BufTy).Contents (Elt F) → (⟨S40000x128, .f32⟩ : BufTy).Contents (Elt F))
  :: StableHlo.nullary main_cst_24 (constant S_ .f32 0x00000000#32)
  :: StableHlo.binary main_v49 main_cst_24 main_v116 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F))
  :: StableHlo.nullary main_cst_25 (constant S_ .f32 0x471C4000#32)
  :: StableHlo.unary main_cst_25 main_v117 (broadcastInDim S128 ![] bcast_S_S128 : (⟨S_, .f32⟩ : BufTy).Contents (Elt F) → (⟨S128, .f32⟩ : BufTy).Contents (Elt F))
  :: StableHlo.binary main_v116 main_v117 main_v118 (Host.divf : (⟨S128, .f32⟩ : BufTy).Contents (Elt F) → (⟨S128, .f32⟩ : BufTy).Contents (Elt F) → (⟨S128, .f32⟩ : BufTy).Contents (Elt F))
  :: StableHlo.nullary main_c_26 (constantI S_ 32 0#32)
  :: StableHlo.TRef.nullary main_call1.cst (constant S_ .f32 0x00000000#32)
  :: StableHlo.TRef.binary (.of main_v49 : StableHlo.TRef sig ⟨S40000x128, .f32⟩) main_call1.cst main_call1.v0 (fun x v => Host.reduceAdd x v reducesTo_S40000x128_S128_d0 h_S_)
  :: StableHlo.TRef.unary main_call1.v0 main_call1.v1 (broadcastInDim S1x128 ![1] bcast_S128_S1x128_1)
  :: StableHlo.TRef.nullary main_call1.cst_0 (constant S_ .f32 0x471C4000#32)
  :: StableHlo.TRef.unary main_call1.cst_0 main_call1.v2 (broadcastInDim S1x128 ![] bcast_S_S1x128)
  :: StableHlo.TRef.binary main_call1.v1 main_call1.v2 main_call1.v3 Host.divf
  :: StableHlo.TRef.unary main_call1.v3 main_call1.v4 (broadcastInDim S40000x128 ![0, 1] bcast_S1x128_S40000x128_0_1)
  :: StableHlo.TRef.binary (.of main_v49 : StableHlo.TRef sig ⟨S40000x128, .f32⟩) main_call1.v4 main_call1.v5 subf
  :: StableHlo.TRef.binary main_call1.v5 main_call1.v5 main_call1.v6 mulf
  :: StableHlo.TRef.unary (.of main_c_26 : StableHlo.TRef sig ⟨S_, .i32⟩) main_call1.v7 (sitofp .f32)
  :: StableHlo.TRef.nullary main_call1.cst_1 (constant S_ .f32 0x471C4000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S40000x128_S128_d0 h_S_)
  :: StableHlo.TRef.unary main_call1.v8 main_call1.v10 (broadcastInDim S128 ![] bcast_S_S128)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S128 ![] bcast_S_S128)
  :: StableHlo.TRef.ternary main_call1.v12 main_call1.v11 main_call1.call0.v1 main_call1.call0.v2 (fun p a b => select (broadcastInDim S128 ![] bcast_S_S128 p) a b)
  :: StableHlo.unary main_v118 main_v120 (broadcastInDim S1x128 ![1] bcast_S128_S1x128_1 : (⟨S128, .f32⟩ : BufTy).Contents (Elt F) → (⟨S1x128, .f32⟩ : BufTy).Contents (Elt F))
  :: StableHlo.unary main_v120 main_v121 (broadcastInDim S40000x128 ![0, 1] bcast_S1x128_S40000x128_0_1 : (⟨S1x128, .f32⟩ : BufTy).Contents (Elt F) → (⟨S40000x128, .f32⟩ : BufTy).Contents (Elt F))
  :: StableHlo.binary main_v49 main_v121 main_v122 (subf : (⟨S40000x128, .f32⟩ : BufTy).Contents (Elt F) → (⟨S40000x128, .f32⟩ : BufTy).Contents (Elt F) → (⟨S40000x128, .f32⟩ : BufTy).Contents (Elt F))
  :: StableHlo.unary main_arg10 main_v123 (broadcastInDim S1x128 ![1] bcast_S128_S1x128_1 : (⟨S128, .f32⟩ : BufTy).Contents (Elt F) → (⟨S1x128, .f32⟩ : BufTy).Contents (Elt F))
  :: StableHlo.unary main_v123 main_v124 (broadcastInDim S40000x128 ![0, 1] bcast_S1x128_S40000x128_0_1 : (⟨S1x128, .f32⟩ : BufTy).Contents (Elt F) → (⟨S40000x128, .f32⟩ : BufTy).Contents (Elt F))
  :: StableHlo.binary main_v124 main_v122 main_v125 (mulf : (⟨S40000x128, .f32⟩ : BufTy).Contents (Elt F) → (⟨S40000x128, .f32⟩ : BufTy).Contents (Elt F) → (⟨S40000x128, .f32⟩ : BufTy).Contents (Elt F))
  :: StableHlo.nullary main_cst_27 (constant S_ .f32 0x3727C5AC#32)
  :: StableHlo.unary main_cst_27 main_v126 (broadcastInDim S128 ![] bcast_S_S128 : (⟨S_, .f32⟩ : BufTy).Contents (Elt F) → (⟨S128, .f32⟩ : BufTy).Contents (Elt F))
  :: StableHlo.binary main_v119 main_v126 main_v127 (addf : (⟨S128, .f32⟩ : BufTy).Contents (Elt F) → (⟨S128, .f32⟩ : BufTy).Contents (Elt F) → (⟨S128, .f32⟩ : BufTy).Contents (Elt F))
  :: StableHlo.unary main_v127 main_v128 (Host.rsqrt : (⟨S128, .f32⟩ : BufTy).Contents (Elt F) → (⟨S128, .f32⟩ : BufTy).Contents (Elt F))
  :: StableHlo.unary main_v128 main_v129 (broadcastInDim S1x128 ![1] bcast_S128_S1x128_1 : (⟨S128, .f32⟩ : BufTy).Contents (Elt F) → (⟨S1x128, .f32⟩ : BufTy).Contents (Elt F))
  :: StableHlo.unary main_v129 main_v130 (broadcastInDim S40000x128 ![0, 1] bcast_S1x128_S40000x128_0_1 : (⟨S1x128, .f32⟩ : BufTy).Contents (Elt F) → (⟨S40000x128, .f32⟩ : BufTy).Contents (Elt F))
  :: StableHlo.binary main_v125 main_v130 main_v131 (mulf : (⟨S40000x128, .f32⟩ : BufTy).Contents (Elt F) → (⟨S40000x128, .f32⟩ : BufTy).Contents (Elt F) → (⟨S40000x128, .f32⟩ : BufTy).Contents (Elt F))
  :: StableHlo.unary main_arg11 main_v132 (broadcastInDim S1x128 ![1] bcast_S128_S1x128_1 : (⟨S128, .f32⟩ : BufTy).Contents (Elt F) → (⟨S1x128, .f32⟩ : BufTy).Contents (Elt F))
  :: StableHlo.unary main_v132 main_v133 (broadcastInDim S40000x128 ![0, 1] bcast_S1x128_S40000x128_0_1 : (⟨S1x128, .f32⟩ : BufTy).Contents (Elt F) → (⟨S40000x128, .f32⟩ : BufTy).Contents (Elt F))
  :: StableHlo.binary main_v131 main_v133 main_v134 (addf : (⟨S40000x128, .f32⟩ : BufTy).Contents (Elt F) → (⟨S40000x128, .f32⟩ : BufTy).Contents (Elt F) → (⟨S40000x128, .f32⟩ : BufTy).Contents (Elt F))
  :: StableHlo.nullary main_cst_28 (constant S_ .f32 0x00000000#32)
  :: StableHlo.binary main_v96 main_cst_28 main_v135 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F))
  :: StableHlo.nullary main_cst_29 (constant S_ .f32 0x471C4000#32)
  :: StableHlo.unary main_cst_29 main_v136 (broadcastInDim S128 ![] bcast_S_S128 : (⟨S_, .f32⟩ : BufTy).Contents (Elt F) → (⟨S128, .f32⟩ : BufTy).Contents (Elt F))
  :: StableHlo.binary main_v135 main_v136 main_v137 (Host.divf : (⟨S128, .f32⟩ : BufTy).Contents (Elt F) → (⟨S128, .f32⟩ : BufTy).Contents (Elt F) → (⟨S128, .f32⟩ : BufTy).Contents (Elt F))
  :: StableHlo.nullary main_c_30 (constantI S_ 32 0#32)
  :: StableHlo.TRef.nullary main_call2.cst (constant S_ .f32 0x00000000#32)
  :: StableHlo.TRef.binary (.of main_v96 : StableHlo.TRef sig ⟨S40000x128, .f32⟩) main_call2.cst main_call2.v0 (fun x v => Host.reduceAdd x v reducesTo_S40000x128_S128_d0 h_S_)
  :: StableHlo.TRef.unary main_call2.v0 main_call2.v1 (broadcastInDim S1x128 ![1] bcast_S128_S1x128_1)
  :: StableHlo.TRef.nullary main_call2.cst_0 (constant S_ .f32 0x471C4000#32)
  :: StableHlo.TRef.unary main_call2.cst_0 main_call2.v2 (broadcastInDim S1x128 ![] bcast_S_S1x128)
  :: StableHlo.TRef.binary main_call2.v1 main_call2.v2 main_call2.v3 Host.divf
  :: StableHlo.TRef.unary main_call2.v3 main_call2.v4 (broadcastInDim S40000x128 ![0, 1] bcast_S1x128_S40000x128_0_1)
  :: StableHlo.TRef.binary (.of main_v96 : StableHlo.TRef sig ⟨S40000x128, .f32⟩) main_call2.v4 main_call2.v5 subf
  :: StableHlo.TRef.binary main_call2.v5 main_call2.v5 main_call2.v6 mulf
  :: StableHlo.TRef.unary (.of main_c_30 : StableHlo.TRef sig ⟨S_, .i32⟩) main_call2.v7 (sitofp .f32)
  :: StableHlo.TRef.nullary main_call2.cst_1 (constant S_ .f32 0x471C4000#32)
  :: StableHlo.TRef.binary main_call2.cst_1 main_call2.v7 main_call2.v8 subf
  :: StableHlo.TRef.nullary main_call2.cst_2 (constant S_ .f32 0x00000000#32)
  :: StableHlo.TRef.binary main_call2.v6 main_call2.cst_2 main_call2.v9 (fun x v => Host.reduceAdd x v reducesTo_S40000x128_S128_d0 h_S_)
  :: StableHlo.TRef.unary main_call2.v8 main_call2.v10 (broadcastInDim S128 ![] bcast_S_S128)
  :: StableHlo.TRef.binary main_call2.v9 main_call2.v10 main_call2.v11 Host.divf
  :: StableHlo.TRef.nullary main_call2.cst_3 (constant S_ .f32 0x00000000#32)
  :: StableHlo.TRef.binary main_call2.v8 main_call2.cst_3 main_call2.v12 (cmpf .ogt)
  :: StableHlo.TRef.nullary main_call2.cst_4 (constant S_ .f32 0x7FC00000#32)
  :: StableHlo.TRef.unary main_call2.cst_4 main_call2.call0.v0 id
  :: StableHlo.TRef.unary main_call2.call0.v0 main_call2.call0.v1 (broadcastInDim S128 ![] bcast_S_S128)
  :: StableHlo.TRef.ternary main_call2.v12 main_call2.v11 main_call2.call0.v1 main_call2.call0.v2 (fun p a b => select (broadcastInDim S128 ![] bcast_S_S128 p) a b)
  :: StableHlo.unary main_v137 main_v139 (broadcastInDim S1x128 ![1] bcast_S128_S1x128_1 : (⟨S128, .f32⟩ : BufTy).Contents (Elt F) → (⟨S1x128, .f32⟩ : BufTy).Contents (Elt F))
  :: StableHlo.unary main_v139 main_v140 (broadcastInDim S40000x128 ![0, 1] bcast_S1x128_S40000x128_0_1 : (⟨S1x128, .f32⟩ : BufTy).Contents (Elt F) → (⟨S40000x128, .f32⟩ : BufTy).Contents (Elt F))
  :: StableHlo.binary main_v96 main_v140 main_v141 (subf : (⟨S40000x128, .f32⟩ : BufTy).Contents (Elt F) → (⟨S40000x128, .f32⟩ : BufTy).Contents (Elt F) → (⟨S40000x128, .f32⟩ : BufTy).Contents (Elt F))
  :: StableHlo.unary main_arg12 main_v142 (broadcastInDim S1x128 ![1] bcast_S128_S1x128_1 : (⟨S128, .f32⟩ : BufTy).Contents (Elt F) → (⟨S1x128, .f32⟩ : BufTy).Contents (Elt F))
  :: StableHlo.unary main_v142 main_v143 (broadcastInDim S40000x128 ![0, 1] bcast_S1x128_S40000x128_0_1 : (⟨S1x128, .f32⟩ : BufTy).Contents (Elt F) → (⟨S40000x128, .f32⟩ : BufTy).Contents (Elt F))
  :: StableHlo.binary main_v143 main_v141 main_v144 (mulf : (⟨S40000x128, .f32⟩ : BufTy).Contents (Elt F) → (⟨S40000x128, .f32⟩ : BufTy).Contents (Elt F) → (⟨S40000x128, .f32⟩ : BufTy).Contents (Elt F))
  :: StableHlo.nullary main_cst_31 (constant S_ .f32 0x3727C5AC#32)
  :: StableHlo.unary main_cst_31 main_v145 (broadcastInDim S128 ![] bcast_S_S128 : (⟨S_, .f32⟩ : BufTy).Contents (Elt F) → (⟨S128, .f32⟩ : BufTy).Contents (Elt F))
  :: [] )

/-- The buffers window 2 writes, in order. -/
abbrev ops_part2_W : List (Ref sig .tc) :=
  [main_v97, main_cst_21, main_v98, main_v99, main_c_22, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v101, main_v102, main_v103, main_v104, main_v105, main_v106, main_cst_23, main_v107, main_v108, main_v109, main_v110, main_v111, main_v112, main_v113, main_v114, main_v115, main_cst_24, main_v116, main_cst_25, main_v117, main_v118, main_c_26, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v120, main_v121, main_v122, main_v123, main_v124, main_v125, main_cst_27, main_v126, main_v127, main_v128, main_v129, main_v130, main_v131, main_v132, main_v133, main_v134, main_cst_28, main_v135, main_cst_29, main_v136, main_v137, main_c_30, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v139, main_v140, main_v141, main_v142, main_v143, main_v144, main_cst_31, main_v145]

/-- The operations of window 3 of @main, in order (41). -/
abbrev ops_part3 : List (HloOp τ sig (Elt F)) :=
  ( StableHlo.binary main_v138 main_v145 main_v146 (addf : (⟨S128, .f32⟩ : BufTy).Contents (Elt F) → (⟨S128, .f32⟩ : BufTy).Contents (Elt F) → (⟨S128, .f32⟩ : BufTy).Contents (Elt F))
  :: StableHlo.unary main_v146 main_v147 (Host.rsqrt : (⟨S128, .f32⟩ : BufTy).Contents (Elt F) → (⟨S128, .f32⟩ : BufTy).Contents (Elt F))
  :: StableHlo.unary main_v147 main_v148 (broadcastInDim S1x128 ![1] bcast_S128_S1x128_1 : (⟨S128, .f32⟩ : BufTy).Contents (Elt F) → (⟨S1x128, .f32⟩ : BufTy).Contents (Elt F))
  :: StableHlo.unary main_v148 main_v149 (broadcastInDim S40000x128 ![0, 1] bcast_S1x128_S40000x128_0_1 : (⟨S1x128, .f32⟩ : BufTy).Contents (Elt F) → (⟨S40000x128, .f32⟩ : BufTy).Contents (Elt F))
  :: StableHlo.binary main_v144 main_v149 main_v150 (mulf : (⟨S40000x128, .f32⟩ : BufTy).Contents (Elt F) → (⟨S40000x128, .f32⟩ : BufTy).Contents (Elt F) → (⟨S40000x128, .f32⟩ : BufTy).Contents (Elt F))
  :: StableHlo.unary main_arg13 main_v151 (broadcastInDim S1x128 ![1] bcast_S128_S1x128_1 : (⟨S128, .f32⟩ : BufTy).Contents (Elt F) → (⟨S1x128, .f32⟩ : BufTy).Contents (Elt F))
  :: StableHlo.unary main_v151 main_v152 (broadcastInDim S40000x128 ![0, 1] bcast_S1x128_S40000x128_0_1 : (⟨S1x128, .f32⟩ : BufTy).Contents (Elt F) → (⟨S40000x128, .f32⟩ : BufTy).Contents (Elt F))
  :: StableHlo.binary main_v150 main_v152 main_v153 (addf : (⟨S40000x128, .f32⟩ : BufTy).Contents (Elt F) → (⟨S40000x128, .f32⟩ : BufTy).Contents (Elt F) → (⟨S40000x128, .f32⟩ : BufTy).Contents (Elt F))
  :: StableHlo.nullary main_cst_32 (constant S_ .f32 0x00000000#32)
  :: StableHlo.unary main_cst_32 main_v154 (broadcastInDim S40000x128 ![] bcast_S_S40000x128 : (⟨S_, .f32⟩ : BufTy).Contents (Elt F) → (⟨S40000x128, .f32⟩ : BufTy).Contents (Elt F))
  :: StableHlo.binary main_v115 main_v154 main_v155 (cmpf .oge : (⟨S40000x128, .f32⟩ : BufTy).Contents (Elt F) → (⟨S40000x128, .f32⟩ : BufTy).Contents (Elt F) → (⟨S40000x128, .i1⟩ : BufTy).Contents (Elt F))
  :: StableHlo.unary main_arg14 main_v156 (broadcastInDim S1x1 ![1] bcast_S1_S1x1_1 : (⟨S1, .f32⟩ : BufTy).Contents (Elt F) → (⟨S1x1, .f32⟩ : BufTy).Contents (Elt F))
  :: StableHlo.unary main_v156 main_v157 (broadcastInDim S40000x128 ![0, 1] bcast_S1x1_S40000x128_0_1 : (⟨S1x1, .f32⟩ : BufTy).Contents (Elt F) → (⟨S40000x128, .f32⟩ : BufTy).Contents (Elt F))
  :: StableHlo.binary main_v157 main_v115 main_v158 (mulf : (⟨S40000x128, .f32⟩ : BufTy).Contents (Elt F) → (⟨S40000x128, .f32⟩ : BufTy).Contents (Elt F) → (⟨S40000x128, .f32⟩ : BufTy).Contents (Elt F))
  :: StableHlo.TRef.ternary (.of main_v155 : StableHlo.TRef sig ⟨S40000x128, .i1⟩) (.of main_v115 : StableHlo.TRef sig ⟨S40000x128, .f32⟩) (.of main_v158 : StableHlo.TRef sig ⟨S40000x128, .f32⟩) main_call3.v0 select
  :: StableHlo.nullary main_cst_33 (constant S_ .f32 0x00000000#32)
  :: StableHlo.unary main_cst_33 main_v160 (broadcastInDim S40000x128 ![] bcast_S_S40000x128 : (⟨S_, .f32⟩ : BufTy).Contents (Elt F) → (⟨S40000x128, .f32⟩ : BufTy).Contents (Elt F))
  :: StableHlo.binary main_v134 main_v160 main_v161 (cmpf .oge : (⟨S40000x128, .f32⟩ : BufTy).Contents (Elt F) → (⟨S40000x128, .f32⟩ : BufTy).Contents (Elt F) → (⟨S40000x128, .i1⟩ : BufTy).Contents (Elt F))
  :: StableHlo.unary main_arg14 main_v162 (broadcastInDim S1x1 ![1] bcast_S1_S1x1_1 : (⟨S1, .f32⟩ : BufTy).Contents (Elt F) → (⟨S1x1, .f32⟩ : BufTy).Contents (Elt F))
  :: StableHlo.unary main_v162 main_v163 (broadcastInDim S40000x128 ![0, 1] bcast_S1x1_S40000x128_0_1 : (⟨S1x1, .f32⟩ : BufTy).Contents (Elt F) → (⟨S40000x128, .f32⟩ : BufTy).Contents (Elt F))
  :: StableHlo.binary main_v163 main_v134 main_v164 (mulf : (⟨S40000x128, .f32⟩ : BufTy).Contents (Elt F) → (⟨S40000x128, .f32⟩ : BufTy).Contents (Elt F) → (⟨S40000x128, .f32⟩ : BufTy).Contents (Elt F))
  :: StableHlo.TRef.ternary (.of main_v161 : StableHlo.TRef sig ⟨S40000x128, .i1⟩) (.of main_v134 : StableHlo.TRef sig ⟨S40000x128, .f32⟩) (.of main_v164 : StableHlo.TRef sig ⟨S40000x128, .f32⟩) main_call4.v0 select
  :: StableHlo.nullary main_cst_34 (constant S_ .f32 0x00000000#32)
  :: StableHlo.unary main_cst_34 main_v166 (broadcastInDim S40000x128 ![] bcast_S_S40000x128 : (⟨S_, .f32⟩ : BufTy).Contents (Elt F) → (⟨S40000x128, .f32⟩ : BufTy).Contents (Elt F))
  :: StableHlo.binary main_v153 main_v166 main_v167 (cmpf .oge : (⟨S40000x128, .f32⟩ : BufTy).Contents (Elt F) → (⟨S40000x128, .f32⟩ : BufTy).Contents (Elt F) → (⟨S40000x128, .i1⟩ : BufTy).Contents (Elt F))
  :: StableHlo.unary main_arg14 main_v168 (broadcastInDim S1x1 ![1] bcast_S1_S1x1_1 : (⟨S1, .f32⟩ : BufTy).Contents (Elt F) → (⟨S1x1, .f32⟩ : BufTy).Contents (Elt F))
  :: StableHlo.unary main_v168 main_v169 (broadcastInDim S40000x128 ![0, 1] bcast_S1x1_S40000x128_0_1 : (⟨S1x1, .f32⟩ : BufTy).Contents (Elt F) → (⟨S40000x128, .f32⟩ : BufTy).Contents (Elt F))
  :: StableHlo.binary main_v169 main_v153 main_v170 (mulf : (⟨S40000x128, .f32⟩ : BufTy).Contents (Elt F) → (⟨S40000x128, .f32⟩ : BufTy).Contents (Elt F) → (⟨S40000x128, .f32⟩ : BufTy).Contents (Elt F))
  :: StableHlo.TRef.ternary (.of main_v167 : StableHlo.TRef sig ⟨S40000x128, .i1⟩) (.of main_v153 : StableHlo.TRef sig ⟨S40000x128, .f32⟩) (.of main_v170 : StableHlo.TRef sig ⟨S40000x128, .f32⟩) main_call5.v0 select
  :: StableHlo.nary ![main_v159, main_v165, main_v171] main_v172 (fun u => concatenate S40000x384 1 [⟨S40000x128, u 0⟩, ⟨S40000x128, u 1⟩, ⟨S40000x128, u 2⟩] concatenates_S40000x128_S40000x128_S40000x128_S40000x384_d1)
  :: StableHlo.binary main_v172 main_arg15 main_v173 ((fun l r => Host.dotGeneral dot_S40000x384_S384x128_S40000x128_1_0_0_1_n_n none l r) : (⟨S40000x384, .f32⟩ : BufTy).Contents (Elt F) → (⟨S384x128, .f32⟩ : BufTy).Contents (Elt F) → (⟨S40000x128, .f32⟩ : BufTy).Contents (Elt F))
  :: StableHlo.TRef.binary (.of main_v173 : StableHlo.TRef sig ⟨S40000x128, .f32⟩) (.of main_v173 : StableHlo.TRef sig ⟨S40000x128, .f32⟩) main_call6.v0 mulf
  :: StableHlo.TRef.nullary main_call6.cst (constant S_ .f32 0x00000000#32)
  :: StableHlo.TRef.binary main_call6.v0 main_call6.cst main_call6.v1 (fun x v => Host.reduceAdd x v reducesTo_S40000x128_S40000_d1 h_S_)
  :: StableHlo.TRef.unary main_call6.v1 main_call6.v2 (broadcastInDim S40000x1 ![0] bcast_S40000_S40000x1_0)
  :: StableHlo.TRef.unary main_call6.v2 main_call6.v3 Host.sqrt
  :: StableHlo.nullary main_cst_35 (constant S_ .f32 0x2B8CBCCC#32)
  :: StableHlo.unary main_cst_35 main_v175 (broadcastInDim S40000x1 ![] bcast_S_S40000x1 : (⟨S_, .f32⟩ : BufTy).Contents (Elt F) → (⟨S40000x1, .f32⟩ : BufTy).Contents (Elt F))
  :: StableHlo.binary main_v174 main_v175 main_v176 (maximumf : (⟨S40000x1, .f32⟩ : BufTy).Contents (Elt F) → (⟨S40000x1, .f32⟩ : BufTy).Contents (Elt F) → (⟨S40000x1, .f32⟩ : BufTy).Contents (Elt F))
  :: StableHlo.unary main_v176 main_v177 (broadcastInDim S40000x128 ![0, 1] bcast_S40000x1_S40000x128_0_1 : (⟨S40000x1, .f32⟩ : BufTy).Contents (Elt F) → (⟨S40000x128, .f32⟩ : BufTy).Contents (Elt F))
  :: StableHlo.binary main_v173 main_v177 main_v178 (Host.divf : (⟨S40000x128, .f32⟩ : BufTy).Contents (Elt F) → (⟨S40000x128, .f32⟩ : BufTy).Contents (Elt F) → (⟨S40000x128, .f32⟩ : BufTy).Contents (Elt F))
  :: [] )

/-- The buffers window 3 writes, in order. -/
abbrev ops_part3_W : List (Ref sig .tc) :=
  [main_v146, main_v147, main_v148, main_v149, main_v150, main_v151, main_v152, main_v153, main_cst_32, main_v154, main_v155, main_v156, main_v157, main_v158, main_call3.v0.ref, main_cst_33, main_v160, main_v161, main_v162, main_v163, main_v164, main_call4.v0.ref, main_cst_34, main_v166, main_v167, main_v168, main_v169, main_v170, main_call5.v0.ref, main_v172, main_v173, main_call6.v0.ref, main_call6.cst.ref, main_call6.v1.ref, main_call6.v2.ref, main_call6.v3.ref, main_cst_35, main_v175, main_v176, main_v177, main_v178]

end Cert.ReferenceIdeal.Hand

end
-- ==== Proof.RefRun.lean ====
/- The run of the reference program, read back.
   @main is a straight line of 284 host operations (its four windows in order, a call of a module-local function being
   that function's operations over the call's own buffers). Such a line runs to completion from any memory, and leaves
   every TensorCore buffer at the fold of the operations' result functions over the launch contents
   (`StableHlo.after`). No operation writes an argument buffer — each writes exactly one buffer, a value of @main or
   of a call — so the sixteen arguments end as they started. -/
import proofs.«110036_j83382495085286_1_alg».proof.Proof.RefOps
import Idealize.ShloMosaic.Lib.Pipeline.Frame

-- lists of up to 123 operations: unfolding one, and deciding memberships in it, recurses past the default depth
set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 284 operations, in order: the four windows' lists one after the other. -/
abbrev ops : List (HloOp τ sig (Elt F)) :=
  ops_part0 ++ (ops_part1 ++ (ops_part2 ++ ops_part3))

/-! ## @main is that line

A window without a call is its list read as a program, by computation. In a window with calls the callee's body is
unfolded at the call (its own `pure` at the end and the sequencing re-associated), and then it is too. -/

theorem main_part0_eq (c : Dev nD) : main_part0 (F := F) c = seq ops_part0 := rfl

theorem main_part1_eq (c : Dev nD) : main_part1 (F := F) c = seq ops_part1 := rfl

set_option maxHeartbeats 4000000 in
theorem main_part2_eq (c : Dev nD) : main_part2 (F := F) c = seq ops_part2 := by
  simp only [main_part2, fn_var.body, fn_where.body, seq, bind_assoc, pure_bind]
  rfl

set_option maxHeartbeats 4000000 in
theorem main_part3_eq (c : Dev nD) : main_part3 (F := F) c = seq ops_part3 := by
  simp only [main_part3, fn_where_0.body, fn_norm.body, seq, bind_assoc, pure_bind]

theorem main_eq (c : Dev nD) : main (F := F) c = seq ops := by
  simp only [ops, seq_append, ← main_part0_eq c, ← main_part1_eq c, ← main_part2_eq c, ← main_part3_eq c]
  rfl

/-! ## The side conditions of the run -/

/-- No TensorCore buffer of this program is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of a window touches TensorCore buffers only: each builder does. -/
theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem ops_part2_sub : (ops_part2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem ops_part3_sub : (ops_part3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- A property of every operation of each window is one of every operation of the line. -/
theorem forall_ops {P : HloOp τ sig (Elt F) → Prop} (h0 : ∀ op ∈ ops_part0, P op) (h1 : ∀ op ∈ ops_part1, P op)
    (h2 : ∀ op ∈ ops_part2, P op) (h3 : ∀ op ∈ ops_part3, P op) : ∀ op ∈ (ops : List (HloOp τ sig (Elt F))), P op := by
  intro op h
  simp only [ops, List.mem_append] at h
  rcases h with h | h | h | h
  exacts [h0 op h, h1 op h, h2 op h, h3 op h]

theorem ops_sub : (ops : List (HloOp τ sig (Elt F))).Forall fun op => op.bufs ⊆ tcRefs τ sig :=
  List.forall_iff_forall_mem.mpr (forall_ops (List.forall_iff_forall_mem.mp ops_part0_sub) (List.forall_iff_forall_mem.mp ops_part1_sub)
    (List.forall_iff_forall_mem.mp ops_part2_sub) (List.forall_iff_forall_mem.mp ops_part3_sub))

/-- Every operation determines its result (none allocates a buffer of unspecified contents): by cases on the literal list. -/
theorem ops_part0_fresh : ∀ op ∈ (ops_part0 : List (HloOp τ sig (Elt F))), op.fresh = ∅ := by
  intro _ h; (repeat (cases h with | head => rfl | tail _ h => ?_)); exact nomatch h
theorem ops_part1_fresh : ∀ op ∈ (ops_part1 : List (HloOp τ sig (Elt F))), op.fresh = ∅ := by
  intro _ h; (repeat (cases h with | head => rfl | tail _ h => ?_)); exact nomatch h
theorem ops_part2_fresh : ∀ op ∈ (ops_part2 : List (HloOp τ sig (Elt F))), op.fresh = ∅ := by
  intro _ h; (repeat (cases h with | head => rfl | tail _ h => ?_)); exact nomatch h
theorem ops_part3_fresh : ∀ op ∈ (ops_part3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  forall_ops ops_part0_fresh ops_part1_fresh ops_part2_fresh ops_part3_fresh

/-! ## The run -/

/-- On the device, for any float values, from any memory with zero counters: every weakly fair execution of @main
    terminates, and every final state has each TensorCore buffer at the fold of the 284 operations over the launch
    contents. -/
theorem run_all (m : (ℓ : Loc nD τ sig) → Buf (Elt F) ℓ) (ρ : Dev nD → PrngReg) :
    θ_run defs (onTc (τ := τ) (main (F := F))) ⟨m, fun _ => 0, ρ⟩ (fun r =>
      ∀ (c : Dev nD) (b : Ref sig .tc), r.2.mem ((c.tc : Thread nD τ).loc b) = after ops (launchContents m c) (Proc.devRef .tc b)) :=
  run_seq scopedRefs_eq scopedSems_eq defs main (fun _ => ops) main_eq (fun _ => ops_sub) m ρ (fun _ => ops_fresh)

/-! ## The arguments are left alone

Each operation writes exactly its result buffer; a window's list of those buffers holds what the window writes, and a
buffer in none of the four lists keeps its contents through the whole line. -/

/-- The results of a literal list of operations are each in the list of buffers beside it. -/
local macro "writes_in_list" : tactic =>
  `(tactic| (simp only [List.Forall, nullary_writes, unary_writes, binary_writes, ternary_writes, reshape_writes, nary_writes,
      Finset.singleton_subset_iff, List.mem_toFinset]
             repeat' apply And.intro
             all_goals exact List.mem_map_of_mem (by decide)))

set_option maxHeartbeats 4000000 in
theorem ops_part0_writes : (ops_part0 : List (HloOp τ sig (Elt F))).Forall fun op => op.writes ⊆ (ops_part0_W.map (Proc.devRef (τ := τ) .tc)).toFinset := by
  writes_in_list
set_option maxHeartbeats 4000000 in
theorem ops_part1_writes : (ops_part1 : List (HloOp τ sig (Elt F))).Forall fun op => op.writes ⊆ (ops_part1_W.map (Proc.devRef (τ := τ) .tc)).toFinset := by
  writes_in_list
set_option maxHeartbeats 8000000 in
theorem ops_part2_writes : (ops_part2 : List (HloOp τ sig (Elt F))).Forall fun op => op.writes ⊆ (ops_part2_W.map (Proc.devRef (τ := τ) .tc)).toFinset := by
  writes_in_list
set_option maxHeartbeats 4000000 in
theorem ops_part3_writes : (ops_part3 : List (HloOp τ sig (Elt F))).Forall fun op => op.writes ⊆ (ops_part3_W.map (Proc.devRef (τ := τ) .tc)).toFinset := by
  writes_in_list

/-- A buffer that no window writes keeps its contents through the line. -/
theorem after_ops_keep (V : Valuation τ sig (Elt F)) (r : Ref sig .tc) (h0 : r ∉ ops_part0_W) (h1 : r ∉ ops_part1_W)
    (h2 : r ∉ ops_part2_W) (h3 : r ∉ ops_part3_W) : after ops V (Proc.devRef .tc r) = V (Proc.devRef .tc r) := by
  simp only [ops, after_append]
  rw [after_of_writes_sub ops_part3 _ ops_part3_writes h3, after_of_writes_sub ops_part2 _ ops_part2_writes h2,
    after_of_writes_sub ops_part1 _ ops_part1_writes h1, after_of_writes_sub ops_part0 _ ops_part0_writes h0]

/-- The reference program runs (terminates, without fault) and its sixteen argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c main_arg0).trans (after_ops_keep _ main_arg0 (by decide) (by decide) (by decide) (by decide)),
     (h c main_arg1).trans (after_ops_keep _ main_arg1 (by decide) (by decide) (by decide) (by decide)),
     (h c main_arg2).trans (after_ops_keep _ main_arg2 (by decide) (by decide) (by decide) (by decide)),
     (h c main_arg3).trans (after_ops_keep _ main_arg3 (by decide) (by decide) (by decide) (by decide)),
     (h c main_arg4).trans (after_ops_keep _ main_arg4 (by decide) (by decide) (by decide) (by decide)),
     (h c main_arg5).trans (after_ops_keep _ main_arg5 (by decide) (by decide) (by decide) (by decide)),
     (h c main_arg6).trans (after_ops_keep _ main_arg6 (by decide) (by decide) (by decide) (by decide)),
     (h c main_arg7).trans (after_ops_keep _ main_arg7 (by decide) (by decide) (by decide) (by decide)),
     (h c main_arg8).trans (after_ops_keep _ main_arg8 (by decide) (by decide) (by decide) (by decide)),
     (h c main_arg9).trans (after_ops_keep _ main_arg9 (by decide) (by decide) (by decide) (by decide)),
     (h c main_arg10).trans (after_ops_keep _ main_arg10 (by decide) (by decide) (by decide) (by decide)),
     (h c main_arg11).trans (after_ops_keep _ main_arg11 (by decide) (by decide) (by decide) (by decide)),
     (h c main_arg12).trans (after_ops_keep _ main_arg12 (by decide) (by decide) (by decide) (by decide)),
     (h c main_arg13).trans (after_ops_keep _ main_arg13 (by decide) (by decide) (by decide) (by decide)),
     (h c main_arg14).trans (after_ops_keep _ main_arg14 (by decide) (by decide) (by decide) (by decide)),
     (h c main_arg15).trans (after_ops_keep _ main_arg15 (by decide) (by decide) (by decide) (by decide))⟩)
    (run_all m ρ)

/-- The same run with the result buffer read too: it ends at the fold of the operations over the launch contents, and
    the sixteen argument arrays end unchanged. -/
theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v178) = after ops (launchContents m c) (Proc.devRef .tc main_v178)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨h c main_v178,
     (h c main_arg0).trans (after_ops_keep _ main_arg0 (by decide) (by decide) (by decide) (by decide)),
     (h c main_arg1).trans (after_ops_keep _ main_arg1 (by decide) (by decide) (by decide) (by decide)),
     (h c main_arg2).trans (after_ops_keep _ main_arg2 (by decide) (by decide) (by decide) (by decide)),
     (h c main_arg3).trans (after_ops_keep _ main_arg3 (by decide) (by decide) (by decide) (by decide)),
     (h c main_arg4).trans (after_ops_keep _ main_arg4 (by decide) (by decide) (by decide) (by decide)),
     (h c main_arg5).trans (after_ops_keep _ main_arg5 (by decide) (by decide) (by decide) (by decide)),
     (h c main_arg6).trans (after_ops_keep _ main_arg6 (by decide) (by decide) (by decide) (by decide)),
     (h c main_arg7).trans (after_ops_keep _ main_arg7 (by decide) (by decide) (by decide) (by decide)),
     (h c main_arg8).trans (after_ops_keep _ main_arg8 (by decide) (by decide) (by decide) (by decide)),
     (h c main_arg9).trans (after_ops_keep _ main_arg9 (by decide) (by decide) (by decide) (by decide)),
     (h c main_arg10).trans (after_ops_keep _ main_arg10 (by decide) (by decide) (by decide) (by decide)),
     (h c main_arg11).trans (after_ops_keep _ main_arg11 (by decide) (by decide) (by decide) (by decide)),
     (h c main_arg12).trans (after_ops_keep _ main_arg12 (by decide) (by decide) (by decide) (by decide)),
     (h c main_arg13).trans (after_ops_keep _ main_arg13 (by decide) (by decide) (by decide) (by decide)),
     (h c main_arg14).trans (after_ops_keep _ main_arg14 (by decide) (by decide) (by decide) (by decide)),
     (h c main_arg15).trans (after_ops_keep _ main_arg15 (by decide) (by decide) (by decide) (by decide))⟩)
    (run_all m ρ)

end Cert.ReferenceIdeal.Hand

end
-- ==== Proof.RefEvalA.lean ====
/- The reference program's result, stage by stage: the recurrence and the first two windows.
   The line of 284 operations computes, in order: three projections of the features; on the second and the third a
   two-step sparse recurrence (each step gathers source rows, scales them by the edge weights and adds them into the
   destination rows); per branch the column mean and variance, the affine normalisation built from them and a
   PReLU; the three branches side by side times the output weights; and the quotient of each row by its Euclidean
   norm. Each stage is read off the fold of the operations at its buffer, as a function of the argument contents
   and of the earlier stages' buffers. -/
import proofs.«110036_j83382495085286_1_alg».proof.Proof.RefRun

-- lists of up to 123 operations: unfolding one, and deciding memberships in it, recurses past the default depth
set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The sparse recurrence -/

/-- The destination rows (row 0 of the edge list) and the source rows (row 1), as vectors. -/
def rowsOf (idx : IVec S2x640000 32) : IVec S640000 32 :=
  shapeCast S640000 (extractStridedSlice S1x640000 ![0, 0] idx slices_S2x640000_S1x640000_0_0) shapeCasts_S1x640000_S640000
def colsOf (idx : IVec S2x640000 32) : IVec S640000 32 :=
  shapeCast S640000 (extractStridedSlice S1x640000 ![1, 0] idx slices_S2x640000_S1x640000_1_0) shapeCasts_S1x640000_S640000
/-- A negative index counted from the end. -/
def wrapIdx (c : IVec S640000 32) : IVec S640000 32 :=
  select (cmpi .slt c (broadcastInDim S640000 ![] bcast_S_S640000 (constantI S_ 32 0#32)))
    (addi c (broadcastInDim S640000 ![] bcast_S_S640000 (constantI S_ 32 40000#32))) c
/-- The sparse product: gather the source rows, scale each by its edge weight, add into the destination rows. -/
def spmm (x : FVec F S40000x128 .f32) (idx : IVec S2x640000 32) (wt : FVec F S640000 .f32) : FVec F S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 (rowsOf idx))
    (mulf
      (Host.gather gather_S40000x128_S640000x1_S640000x128_1_0_n_n_0_1_1128 x
        (broadcastInDim S640000x1 ![0] bcast_S640000_S640000x1_0 (wrapIdx (colsOf idx))))
      (broadcastInDim S640000x128 ![0, 1] bcast_S640000x1_S640000x128_0_1
        (broadcastInDim S640000x1 ![0] bcast_S640000_S640000x1_0 wt)))
/-- The first step of the recurrence: 0 * x + 2 * spmm x. -/
def jac1 (x : FVec F S40000x128 .f32) (idx : IVec S2x640000 32) (wt : FVec F S640000 .f32) : FVec F S40000x128 .f32 :=
  addf (mulf (broadcastInDim S40000x128 ![] bcast_S_S40000x128 (constant S_ .f32 0x00000000#32)) x)
    (mulf (broadcastInDim S40000x128 ![] bcast_S_S40000x128 (constant S_ .f32 0x40000000#32)) (spmm x idx wt))
/-- The second step: 1.875 * spmm x1 + 0 * x1 - 1.6875 * x0. -/
def jac2 (x1 x0 : FVec F S40000x128 .f32) (idx : IVec S2x640000 32) (wt : FVec F S640000 .f32) : FVec F S40000x128 .f32 :=
  subf
    (addf (mulf (broadcastInDim S40000x128 ![] bcast_S_S40000x128 (constant S_ .f32 0x3FF00000#32)) (spmm x1 idx wt))
      (mulf (broadcastInDim S40000x128 ![] bcast_S_S40000x128 (constant S_ .f32 0x00000000#32)) x1))
    (mulf (broadcastInDim S40000x128 ![] bcast_S_S40000x128 (constant S_ .f32 0x3FD80000#32)) x0)

/-! ## The buffer contents after each window

The line is its four windows one after the other, so the fold over it is the four windows' folds composed. A buffer
a window does not write keeps its contents through it. -/

/-- The buffer contents after @main's first window, from contents `W`. -/
def val1 (W : Valuation τ sig (Elt F)) : Valuation τ sig (Elt F) := after ops_part0 W
/-- After the first two windows. -/
def val2 (W : Valuation τ sig (Elt F)) : Valuation τ sig (Elt F) := after ops_part1 (val1 W)
/-- After the first three. -/
def val3 (W : Valuation τ sig (Elt F)) : Valuation τ sig (Elt F) := after ops_part2 (val2 W)
/-- After all four. -/
def val4 (W : Valuation τ sig (Elt F)) : Valuation τ sig (Elt F) := after ops_part3 (val3 W)

theorem after_ops (W : Valuation τ sig (Elt F)) : after ops W = val4 W := by
  simp only [ops, after_append]
  rfl

theorem val1_keep (W : Valuation τ sig (Elt F)) (r : Ref sig .tc) (h : r ∉ ops_part0_W) :
    val1 W (Proc.devRef .tc r) = W (Proc.devRef .tc r) := after_of_writes_sub ops_part0 _ ops_part0_writes h
theorem val2_keep (W : Valuation τ sig (Elt F)) (r : Ref sig .tc) (h : r ∉ ops_part1_W) :
    val2 W (Proc.devRef .tc r) = val1 W (Proc.devRef .tc r) := after_of_writes_sub ops_part1 _ ops_part1_writes h
theorem val3_keep (W : Valuation τ sig (Elt F)) (r : Ref sig .tc) (h : r ∉ ops_part2_W) :
    val3 W (Proc.devRef .tc r) = val2 W (Proc.devRef .tc r) := after_of_writes_sub ops_part2 _ ops_part2_writes h
theorem val4_keep (W : Valuation τ sig (Elt F)) (r : Ref sig .tc) (h : r ∉ ops_part3_W) :
    val4 W (Proc.devRef .tc r) = val3 W (Proc.devRef .tc r) := after_of_writes_sub ops_part3 _ ops_part3_writes h

/-- A buffer of the first window that no later window writes is, at the end, as the first window left it. -/
theorem after_ops_eq1 (W : Valuation τ sig (Elt F)) (r : Ref sig .tc) (h1 : r ∉ ops_part1_W) (h2 : r ∉ ops_part2_W)
    (h3 : r ∉ ops_part3_W) : after ops W (Proc.devRef .tc r) = val1 W (Proc.devRef .tc r) := by
  rw [after_ops, val4_keep W r h3, val3_keep W r h2, val2_keep W r h1]
theorem after_ops_eq2 (W : Valuation τ sig (Elt F)) (r : Ref sig .tc) (h2 : r ∉ ops_part2_W) (h3 : r ∉ ops_part3_W) :
    after ops W (Proc.devRef .tc r) = val2 W (Proc.devRef .tc r) := by
  rw [after_ops, val4_keep W r h3, val3_keep W r h2]
theorem after_ops_eq3 (W : Valuation τ sig (Elt F)) (r : Ref sig .tc) (h3 : r ∉ ops_part3_W) :
    after ops W (Proc.devRef .tc r) = val3 W (Proc.devRef .tc r) := by
  rw [after_ops, val4_keep W r h3]
theorem after_ops_eq4 (W : Valuation τ sig (Elt F)) (r : Ref sig .tc) :
    after ops W (Proc.devRef .tc r) = val4 W (Proc.devRef .tc r) := by
  rw [after_ops]

/-! ## The windows, read

One pass over a window's operations rewrites each buffer read to the function of the operation that wrote it, down to
the contents the window started from; what is left is the stage's function by definition. -/

set_option maxHeartbeats 8000000 in
/-- The first window: the three projections, the first step of the recurrence on the second projection, and the two
    terms of its second step. -/
theorem val1_stages (W : Valuation τ sig (Elt F)) :
    (val1 W (Proc.devRef .tc main_v0) : FVec F S40000x128 .f32) = Host.dotGeneral dot_S40000x128_S128x128_S40000x128_1_0_0_1_n_n none (W (Proc.devRef .tc main_arg0) : FVec F S40000x128 .f32) (W (Proc.devRef .tc main_arg5) : FVec F S128x128 .f32)
    ∧ (val1 W (Proc.devRef .tc main_v1) : FVec F S40000x128 .f32) = Host.dotGeneral dot_S40000x128_S128x128_S40000x128_1_0_0_1_n_n none (W (Proc.devRef .tc main_arg0) : FVec F S40000x128 .f32) (W (Proc.devRef .tc main_arg6) : FVec F S128x128 .f32)
    ∧ (val1 W (Proc.devRef .tc main_v2) : FVec F S40000x128 .f32) = Host.dotGeneral dot_S40000x128_S128x128_S40000x128_1_0_0_1_n_n none (W (Proc.devRef .tc main_arg0) : FVec F S40000x128 .f32) (W (Proc.devRef .tc main_arg7) : FVec F S128x128 .f32)
    ∧ (val1 W (Proc.devRef .tc main_v24) : FVec F S40000x128 .f32) = jac1 (val1 W (Proc.devRef .tc main_v1) : FVec F S40000x128 .f32) (W (Proc.devRef .tc main_arg1) : IVec S2x640000 32) (W (Proc.devRef .tc main_arg2) : FVec F S640000 .f32)
    ∧ (val1 W (Proc.devRef .tc main_v46) : FVec F S40000x128 .f32) = addf (mulf (broadcastInDim S40000x128 ![] bcast_S_S40000x128 (constant S_ .f32 0x3FF00000#32)) (spmm (val1 W (Proc.devRef .tc main_v24) : FVec F S40000x128 .f32) (W (Proc.devRef .tc main_arg1) : IVec S2x640000 32) (W (Proc.devRef .tc main_arg2) : FVec F S640000 .f32))) (mulf (broadcastInDim S40000x128 ![] bcast_S_S40000x128 (constant S_ .f32 0x00000000#32)) (val1 W (Proc.devRef .tc main_v24) : FVec F S40000x128 .f32))
    ∧ (val1 W (Proc.devRef .tc main_v48) : FVec F S40000x128 .f32) = mulf (broadcastInDim S40000x128 ![] bcast_S_S40000x128 (constant S_ .f32 0x3FD80000#32)) (val1 W (Proc.devRef .tc main_v1) : FVec F S40000x128 .f32) := by
  unfold val1
  simp only [ops_part0]
  after_results_simp
  refine ⟨?_, ?_, ?_, ?_, ?_, ?_⟩ <;> first | trivial | rfl

set_option maxHeartbeats 8000000 in
/-- The second window: the second step on the second projection, both steps on the third, and the zero the column
    sums of the next window start from. -/
theorem val2_stages (W : Valuation τ sig (Elt F)) :
    (val2 W (Proc.devRef .tc main_v49) : FVec F S40000x128 .f32) = jac2 (val1 W (Proc.devRef .tc main_v24) : FVec F S40000x128 .f32) (val1 W (Proc.devRef .tc main_v1) : FVec F S40000x128 .f32) (W (Proc.devRef .tc main_arg1) : IVec S2x640000 32) (W (Proc.devRef .tc main_arg2) : FVec F S640000 .f32)
    ∧ (val2 W (Proc.devRef .tc main_v71) : FVec F S40000x128 .f32) = jac1 (val1 W (Proc.devRef .tc main_v2) : FVec F S40000x128 .f32) (W (Proc.devRef .tc main_arg3) : IVec S2x640000 32) (W (Proc.devRef .tc main_arg4) : FVec F S640000 .f32)
    ∧ (val2 W (Proc.devRef .tc main_v96) : FVec F S40000x128 .f32) = jac2 (val2 W (Proc.devRef .tc main_v71) : FVec F S40000x128 .f32) (val1 W (Proc.devRef .tc main_v2) : FVec F S40000x128 .f32) (W (Proc.devRef .tc main_arg3) : IVec S2x640000 32) (W (Proc.devRef .tc main_arg4) : FVec F S640000 .f32)
    ∧ (val2 W (Proc.devRef .tc main_cst_20) : FVec F S_ .f32) = constant S_ .f32 0x00000000#32 := by
  unfold val2
  simp only [ops_part1]
  after_results_simp
  simp only [(val1_stages W).2.2.2.2.1, (val1_stages W).2.2.2.2.2, val1_keep W main_arg3 (by decide), val1_keep W main_arg4 (by decide)]
  refine ⟨?_, ?_, ?_, ?_⟩ <;> first | trivial | rfl

end Cert.ReferenceIdeal.Hand

end
-- ==== Proof.RefRead.lean ====
/-
  The reference's batch-norm and PReLU of one 40000 x 128 array, and its tail, read as pure functions.

  Every operation here acts entry by entry except three kinds: a vector of 128 spread over the rows (entry (r, k)
  of the spread array is entry k of the vector), a scalar spread over an array, and a column sum (entry k is the
  initial value plus the sum over the 40000 rows of column k).  Reading each at an index turns the printed
  chain into the column mean, the column variance, the inverse deviation, and the affine map and PReLU built
  from them.
-/
import proofs.«110036_j83382495085286_1_alg».proof.Proof.Gen.ReferenceIdeal
import proofs.«110036_j83382495085286_1_alg».proof.Proof.Bridge
import proofs.«110036_j83382495085286_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 8192

noncomputable section

open scoped BigOperators

namespace Cert.ReferenceIdeal.Hand

open Cert.ReferenceIdeal Cert.ReferenceIdeal.Facts₀ Cert.ReferenceIdeal.Facts Cert.Spec
open Idealize.ShloMosaic Idealize.ShloMosaic.ValueIdx

/-- The denominator the variance divides by, and the value it takes where that is not positive. -/
abbrev dnT : EReal := Ideal.ofBits .f32 0x471C4000#32 - FloatOps.sitofp (F := Ideal) .f32 (0#32 : BitVec 32)
abbrev nanT : EReal := Ideal.ofBits .f32 0x7FC00000#32

/-- A vector of 128 made a 1 x 128 row: entry (0, k) is entry k. -/
theorem rowOf_apply (u : FVec Ideal S128 .f32) (k : Fin 128) :
    broadcastInDim S1x128 ![1] bcast_S128_S1x128_1 u (ix2 (0 : Fin 1) k) = u (ix1 k) := by
  refine broadcastInDim_apply ![1] bcast_S128_S1x128_1 u (ix2 (0 : Fin 1) k) (ix1 k) fun a => ?_
  match a with
  | ⟨0, _⟩ => rfl

/-- A vector of 128 spread over the 40000 rows. -/
def spread (u : FVec Ideal S128 .f32) : FVec Ideal S40000x128 .f32 :=
  broadcastInDim S40000x128 ![0, 1] bcast_S1x128_S40000x128_0_1 (broadcastInDim S1x128 ![1] bcast_S128_S1x128_1 u)

/-- Entry (r, k) of it is entry k of the vector. -/
theorem spread_apply (u : FVec Ideal S128 .f32) (r : Fin 40000) (k : Fin 128) : spread u (ix2 r k) = u (ix1 k) := by
  unfold spread
  rw [broadcastInDim_oneRow_apply, rowOf_apply]

/-- A scalar constant spread over any shape reads the constant's value. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- The reduced index k with row r put back is (r, k). -/
theorem lift_col (h : S40000x128.Reduces [0] S128) (k : Fin 128) (r : Fin (S40000x128.size 0)) :
    h.lift (ix1 k) r = ix2 (⟨r.val, r.isLt⟩ : Fin 40000) k := by
  funext c; apply Fin.ext
  fin_cases c <;> rfl

/-- A column sum started from a scalar constant: that constant plus the sum of the column. -/
theorem colsum_apply (X : FVec Ideal S40000x128 .f32) (w : BitVec 32) (k : Fin 128) :
    Host.reduceAdd (F := Ideal) X (constant S_ .f32 w) reducesTo_S40000x128_S128_d0 h_S_ (ix1 k)
      = Ideal.ofBits .f32 w + ∑ r : Fin 40000, X (ix2 r k) := by
  have h : S40000x128.Reduces [0] S128 := by decide
  rw [hostReduceAdd_apply]
  refine (Ideal.hostReduceAdd_single reducesTo_S40000x128_S128_d0 h X _ (ix1 k)).trans ?_
  refine congrArg₂ (· + ·) rfl ?_
  show (∑ r : Fin 40000, X (h.lift (ix1 k) r)) = _
  exact Finset.sum_congr rfl fun r _ => congrArg X (lift_col h k r)

/-- The mean of each column, as the reference computes it. -/
def meanR (X : FVec Ideal S40000x128 .f32) : FVec Ideal S128 .f32 :=
  Host.divf (Host.reduceAdd (F := Ideal) X (constant S_ .f32 0x00000000#32) reducesTo_S40000x128_S128_d0 h_S_)
    (broadcastInDim S128 ![] bcast_S_S128 (constant S_ .f32 0x471C4000#32))

theorem meanR_apply (X : FVec Ideal S40000x128 .f32) (k : Fin 128) : meanR X (ix1 k) = colMean X k := by
  unfold meanR
  rw [hostDivf_apply, colsum_apply, splat_apply]
  rfl

/-- The mean row inside the variance, spread over the rows. -/
def innerMeanR (X : FVec Ideal S40000x128 .f32) : FVec Ideal S40000x128 .f32 :=
  broadcastInDim S40000x128 ![0, 1] bcast_S1x128_S40000x128_0_1
    (Host.divf
      (broadcastInDim S1x128 ![1] bcast_S128_S1x128_1
        (Host.reduceAdd (F := Ideal) X (constant S_ .f32 0x00000000#32) reducesTo_S40000x128_S128_d0 h_S_))
      (broadcastInDim S1x128 ![] bcast_S_S1x128 (constant S_ .f32 0x471C4000#32)))

/-- Entry (r, k) of it is the mean of column k. -/
theorem innerMeanR_apply (X : FVec Ideal S40000x128 .f32) (r : Fin 40000) (k : Fin 128) :
    innerMeanR X (ix2 r k) = colMean X k := by
  unfold innerMeanR
  rw [broadcastInDim_oneRow_apply, hostDivf_apply, splat_apply, rowOf_apply, colsum_apply]
  rfl

/-- The denominator of the variance as the reference computes it: a scalar array. -/
def dnR : FVec Ideal S_ .f32 :=
  subf (constant (F := Ideal) S_ .f32 0x471C4000#32) (sitofp .f32 (constantI S_ 32 0#32))

/-- The variance of each column as the reference computes it: the operations of its variance function in order. -/
def varR (X : FVec Ideal S40000x128 .f32) : FVec Ideal S128 .f32 :=
  select
    (broadcastInDim S128 ![] bcast_S_S128 (cmpf .ogt dnR (constant (F := Ideal) S_ .f32 0x00000000#32)))
    (Host.divf
      (Host.reduceAdd (F := Ideal) (mulf (subf X (innerMeanR X)) (subf X (innerMeanR X)))
        (constant S_ .f32 0x00000000#32) reducesTo_S40000x128_S128_d0 h_S_)
      (broadcastInDim S128 ![] bcast_S_S128 dnR))
    (broadcastInDim S128 ![] bcast_S_S128 (id (constant (F := Ideal) S_ .f32 0x7FC00000#32)))

theorem varR_apply (X : FVec Ideal S40000x128 .f32) (k : Fin 128) : varR X (ix1 k) = colVar X dnT nanT k := by
  unfold varR colVar
  rw [select_apply, hostDivf_apply, colsum_apply]
  simp only [broadcastInDim_scalar_apply]
  refine congrArg₂ (fun u v => Scalar.select (FloatOps.cmpf (F := Ideal) (φ := .f32) .ogt dnT (Ideal.ofBits .f32 0x00000000#32)) u v) ?_ rfl
  refine congrArg₂ Ideal.div (congrArg₂ (· + ·) rfl (Finset.sum_congr rfl fun r _ => ?_)) rfl
  show (X (ix2 r k) - innerMeanR X (ix2 r k)) * (X (ix2 r k) - innerMeanR X (ix2 r k)) = _
  rw [innerMeanR_apply]

/-- The inverse deviation of each column, as the reference computes it. -/
def invR (X : FVec Ideal S40000x128 .f32) : FVec Ideal S128 .f32 :=
  Host.rsqrt (addf (varR X) (broadcastInDim S128 ![] bcast_S_S128 (constant (F := Ideal) S_ .f32 0x3727C5AC#32)))

theorem invR_apply (X : FVec Ideal S40000x128 .f32) (k : Fin 128) : invR X (ix1 k) = colInv X dnT nanT k := by
  unfold invR
  show FloatOps.hostUnary .rsqrt (varR X (ix1 k) + broadcastInDim S128 ![] bcast_S_S128 (constant (F := Ideal) S_ .f32 0x3727C5AC#32) (ix1 k)) = _
  rw [varR_apply, splat_apply, Ideal.hostUnary_rsqrt_def]
  rfl

/-- Batch-norm affine of one array, as the reference computes it. -/
def bnR (X : FVec Ideal S40000x128 .f32) (g b : FVec Ideal S128 .f32) : FVec Ideal S40000x128 .f32 :=
  addf (mulf (mulf (spread g) (subf X (spread (meanR X)))) (spread (invR X))) (spread b)

theorem bnR_apply (X : FVec Ideal S40000x128 .f32) (g b : FVec Ideal S128 .f32) (r : Fin 40000) (k : Fin 128) :
    bnR X g b (ix2 r k)
      = g (ix1 k) * (X (ix2 r k) - colMean X k) * colInv X dnT nanT k + b (ix1 k) := by
  unfold bnR
  rw [addf_apply, mulf_apply, mulf_apply, subf_apply, spread_apply, spread_apply, spread_apply, spread_apply,
    invR_apply, meanR_apply]

/-- PReLU with the slope a one-element vector, as the reference computes it. -/
def preluR (Y : FVec Ideal S40000x128 .f32) (v : FVec Ideal S1 .f32) : FVec Ideal S40000x128 .f32 :=
  select
    (cmpf .oge Y (broadcastInDim S40000x128 ![] bcast_S_S40000x128 (constant (F := Ideal) S_ .f32 0x00000000#32)))
    Y
    (mulf (broadcastInDim S40000x128 ![0, 1] bcast_S1x1_S40000x128_0_1 (broadcastInDim S1x1 ![1] bcast_S1_S1x1_1 v)) Y)

/-- The slope spread over the array reads the vector's one entry. -/
theorem slope_apply (v : FVec Ideal S1 .f32) (r : Fin 40000) (k : Fin 128) :
    broadcastInDim S40000x128 ![0, 1] bcast_S1x1_S40000x128_0_1 (broadcastInDim S1x1 ![1] bcast_S1_S1x1_1 v) (ix2 r k)
      = v (ix1 (0 : Fin 1)) := by
  have e1 : broadcastInDim S40000x128 ![0, 1] bcast_S1x1_S40000x128_0_1 (broadcastInDim S1x1 ![1] bcast_S1_S1x1_1 v) (ix2 r k)
      = broadcastInDim S1x1 ![1] bcast_S1_S1x1_1 v (ix2 (0 : Fin 1) (0 : Fin 1)) := by
    refine broadcastInDim_apply ![0, 1] bcast_S1x1_S40000x128_0_1 _ (ix2 r k) (ix2 (0 : Fin 1) (0 : Fin 1)) fun a => ?_
    match a with
    | ⟨0, _⟩ => rfl
    | ⟨1, _⟩ => rfl
  rw [e1]
  refine broadcastInDim_apply ![1] bcast_S1_S1x1_1 v (ix2 (0 : Fin 1) (0 : Fin 1)) (ix1 (0 : Fin 1)) fun a => ?_
  match a with
  | ⟨0, _⟩ => rfl

/-- One branch of the reference — batch-norm affine then PReLU — is the pure branch, for any 1 x 1 slope array
    holding the vector's entry. -/
theorem branch_eq (X : FVec Ideal S40000x128 .f32) (g b : FVec Ideal S128 .f32) (v : FVec Ideal S1 .f32) (a : M2 1 1)
    (ha : a (ix2 0 0) = v (ix1 (0 : Fin 1))) :
    preluR (bnR X g b) v = branch X g b a dnT nanT := by
  funext i
  obtain ⟨r, k, rfl⟩ : ∃ (r : Fin 40000) (k : Fin 128), i = ix2 r k := ⟨i 0, i 1, eq_ix2 i⟩
  unfold preluR
  rw [select_apply, cmpf_apply, mulf_apply, slope_apply, splat_apply, bnR_apply]
  show _ = act X (row (colMean X)) (row (colInv X dnT nanT)) (rowV g) (rowV b) a r k
  unfold act
  rw [ha]
  rfl

end Cert.ReferenceIdeal.Hand

end
-- ==== Proof.RefEval3.lean ====
/- The third window of the reference's line, read.
   The window's 123 operations are three runs of the same text, one per branch: the column means of the branch's
   array, its column variances (the variance function's operations, over buffers of that call's own), and from
   them the affine normalisation — complete for the first two branches, up to the centred and scaled array for the
   third. Each run is evaluated from any contents of the buffers it reads; a buffer a run does not write passes
   through it unchanged. -/
import proofs.«110036_j83382495085286_1_alg».proof.Proof.RefEvalA
import proofs.«110036_j83382495085286_1_alg».proof.Proof.RefRead

set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- A singleton of a reference the list names lies within the list's references. -/
theorem one_in_list {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The window in three runs -/

/-- Operations 0 … 42 of the window. -/
abbrev p2a : List (HloOp τ sig (Elt F)) :=
  [
    StableHlo.binary main_v0 main_cst_20 main_v97 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_21 (constant S_ .f32 0x471C4000#32),
    StableHlo.unary main_cst_21 main_v98 (broadcastInDim S128 ![] bcast_S_S128 : (⟨S_, .f32⟩ : BufTy).Contents (Elt F) → (⟨S128, .f32⟩ : BufTy).Contents (Elt F)),
    StableHlo.binary main_v97 main_v98 main_v99 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call0.cst (constant S_ .f32 0x00000000#32),
    StableHlo.TRef.binary (.of main_v0 : StableHlo.TRef sig ⟨S40000x128, .f32⟩) main_call0.cst main_call0.v0 (fun x v => Host.reduceAdd x v reducesTo_S40000x128_S128_d0 h_S_),
    StableHlo.TRef.unary main_call0.v0 main_call0.v1 (broadcastInDim S1x128 ![1] bcast_S128_S1x128_1),
    StableHlo.TRef.nullary main_call0.cst_0 (constant S_ .f32 0x471C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S40000x128 ![0, 1] bcast_S1x128_S40000x128_0_1),
    StableHlo.TRef.binary (.of main_v0 : StableHlo.TRef sig ⟨S40000x128, .f32⟩) main_call0.v4 main_call0.v5 subf,
    StableHlo.TRef.binary main_call0.v5 main_call0.v5 main_call0.v6 mulf,
    StableHlo.TRef.unary (.of main_c_22 : StableHlo.TRef sig ⟨S_, .i32⟩) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v99 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S40000x128 ![0, 1] bcast_S1x128_S40000x128_0_1 : (⟨S1x128, .f32⟩ : BufTy).Contents (Elt F) → (⟨S40000x128, .f32⟩ : BufTy).Contents (Elt F)),
    StableHlo.binary main_v0 main_v102 main_v103 (subf : (⟨S40000x128, .f32⟩ : BufTy).Contents (Elt F) → (⟨S40000x128, .f32⟩ : BufTy).Contents (Elt F) → (⟨S40000x128, .f32⟩ : BufTy).Contents (Elt F)),
    StableHlo.unary main_arg8 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S40000x128 ![0, 1] bcast_S1x128_S40000x128_0_1 : (⟨S1x128, .f32⟩ : BufTy).Contents (Elt F) → (⟨S40000x128, .f32⟩ : BufTy).Contents (Elt F)),
    StableHlo.binary main_v105 main_v103 main_v106 (mulf : (⟨S40000x128, .f32⟩ : BufTy).Contents (Elt F) → (⟨S40000x128, .f32⟩ : BufTy).Contents (Elt F) → (⟨S40000x128, .f32⟩ : BufTy).Contents (Elt F)),
    StableHlo.nullary main_cst_23 (constant S_ .f32 0x3727C5AC#32),
    StableHlo.unary main_cst_23 main_v107 (broadcastInDim S128 ![] bcast_S_S128 : (⟨S_, .f32⟩ : BufTy).Contents (Elt F) → (⟨S128, .f32⟩ : BufTy).Contents (Elt F)),
    StableHlo.binary main_v100 main_v107 main_v108 (addf : (⟨S128, .f32⟩ : BufTy).Contents (Elt F) → (⟨S128, .f32⟩ : BufTy).Contents (Elt F) → (⟨S128, .f32⟩ : BufTy).Contents (Elt F)),
    StableHlo.unary main_v108 main_v109 (Host.rsqrt : (⟨S128, .f32⟩ : BufTy).Contents (Elt F) → (⟨S128, .f32⟩ : BufTy).Contents (Elt F)),
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S40000x128 ![0, 1] bcast_S1x128_S40000x128_0_1 : (⟨S1x128, .f32⟩ : BufTy).Contents (Elt F) → (⟨S40000x128, .f32⟩ : BufTy).Contents (Elt F)),
    StableHlo.binary main_v106 main_v111 main_v112 (mulf : (⟨S40000x128, .f32⟩ : BufTy).Contents (Elt F) → (⟨S40000x128, .f32⟩ : BufTy).Contents (Elt F) → (⟨S40000x128, .f32⟩ : BufTy).Contents (Elt F)),
    StableHlo.unary main_arg9 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S40000x128 ![0, 1] bcast_S1x128_S40000x128_0_1 : (⟨S1x128, .f32⟩ : BufTy).Contents (Elt F) → (⟨S40000x128, .f32⟩ : BufTy).Contents (Elt F)),
    StableHlo.binary main_v112 main_v114 main_v115 (addf : (⟨S40000x128, .f32⟩ : BufTy).Contents (Elt F) → (⟨S40000x128, .f32⟩ : BufTy).Contents (Elt F) → (⟨S40000x128, .f32⟩ : BufTy).Contents (Elt F)) ]
/-- The buffers they write, in order. -/
abbrev p2a_W : List (Ref sig .tc) := [main_v97, main_cst_21, main_v98, main_v99, main_c_22, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v101, main_v102, main_v103, main_v104, main_v105, main_v106, main_cst_23, main_v107, main_v108, main_v109, main_v110, main_v111, main_v112, main_v113, main_v114, main_v115]
set_option maxHeartbeats 4000000 in
theorem p2a_writes : (p2a : List (HloOp τ sig (Elt F))).Forall fun op => op.writes ⊆ (p2a_W.map (Proc.devRef (τ := τ) .tc)).toFinset :=
  ⟨one_in_list (y := main_v97) (by decide),
    one_in_list (y := main_cst_21) (by decide),
    one_in_list (y := main_v98) (by decide),
    one_in_list (y := main_v99) (by decide),
    one_in_list (y := main_c_22) (by decide),
    one_in_list (y := main_call0.cst.ref) (by decide),
    one_in_list (y := main_call0.v0.ref) (by decide),
    one_in_list (y := main_call0.v1.ref) (by decide),
    one_in_list (y := main_call0.cst_0.ref) (by decide),
    one_in_list (y := main_call0.v2.ref) (by decide),
    one_in_list (y := main_call0.v3.ref) (by decide),
    one_in_list (y := main_call0.v4.ref) (by decide),
    one_in_list (y := main_call0.v5.ref) (by decide),
    one_in_list (y := main_call0.v6.ref) (by decide),
    one_in_list (y := main_call0.v7.ref) (by decide),
    one_in_list (y := main_call0.cst_1.ref) (by decide),
    one_in_list (y := main_call0.v8.ref) (by decide),
    one_in_list (y := main_call0.cst_2.ref) (by decide),
    one_in_list (y := main_call0.v9.ref) (by decide),
    one_in_list (y := main_call0.v10.ref) (by decide),
    one_in_list (y := main_call0.v11.ref) (by decide),
    one_in_list (y := main_call0.cst_3.ref) (by decide),
    one_in_list (y := main_call0.v12.ref) (by decide),
    one_in_list (y := main_call0.cst_4.ref) (by decide),
    one_in_list (y := main_call0.call0.v0.ref) (by decide),
    one_in_list (y := main_call0.call0.v1.ref) (by decide),
    one_in_list (y := main_call0.call0.v2.ref) (by decide),
    one_in_list (y := main_v101) (by decide),
    one_in_list (y := main_v102) (by decide),
    one_in_list (y := main_v103) (by decide),
    one_in_list (y := main_v104) (by decide),
    one_in_list (y := main_v105) (by decide),
    one_in_list (y := main_v106) (by decide),
    one_in_list (y := main_cst_23) (by decide),
    one_in_list (y := main_v107) (by decide),
    one_in_list (y := main_v108) (by decide),
    one_in_list (y := main_v109) (by decide),
    one_in_list (y := main_v110) (by decide),
    one_in_list (y := main_v111) (by decide),
    one_in_list (y := main_v112) (by decide),
    one_in_list (y := main_v113) (by decide),
    one_in_list (y := main_v114) (by decide),
    one_in_list (y := main_v115) (by decide)⟩
/-- A buffer they do not write keeps its contents. -/
theorem p2a_keep (V : Valuation τ sig (Elt F)) (r : Ref sig .tc) (h : r ∉ p2a_W) :
    after p2a V (Proc.devRef .tc r) = V (Proc.devRef .tc r) :=
  after_of_writes_sub p2a V p2a_writes h

/-- Operations 43 … 86 of the window. -/
abbrev p2b : List (HloOp τ sig (Elt F)) :=
  [
    StableHlo.nullary main_cst_24 (constant S_ .f32 0x00000000#32),
    StableHlo.binary main_v49 main_cst_24 main_v116 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_25 (constant S_ .f32 0x471C4000#32),
    StableHlo.unary main_cst_25 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call1.cst (constant S_ .f32 0x00000000#32),
    StableHlo.TRef.binary (.of main_v49 : StableHlo.TRef sig ⟨S40000x128, .f32⟩) main_call1.cst main_call1.v0 (fun x v => Host.reduceAdd x v reducesTo_S40000x128_S128_d0 h_S_),
    StableHlo.TRef.unary main_call1.v0 main_call1.v1 (broadcastInDim S1x128 ![1] bcast_S128_S1x128_1),
    StableHlo.TRef.nullary main_call1.cst_0 (constant S_ .f32 0x471C4000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S40000x128 ![0, 1] bcast_S1x128_S40000x128_0_1),
    StableHlo.TRef.binary (.of main_v49 : StableHlo.TRef sig ⟨S40000x128, .f32⟩) main_call1.v4 main_call1.v5 subf,
    StableHlo.TRef.binary main_call1.v5 main_call1.v5 main_call1.v6 mulf,
    StableHlo.TRef.unary (.of main_c_26 : StableHlo.TRef sig ⟨S_, .i32⟩) main_call1.v7 (sitofp .f32),
    StableHlo.TRef.nullary main_call1.cst_1 (constant S_ .f32 0x471C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S40000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v118 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S40000x128 ![0, 1] bcast_S1x128_S40000x128_0_1 : (⟨S1x128, .f32⟩ : BufTy).Contents (Elt F) → (⟨S40000x128, .f32⟩ : BufTy).Contents (Elt F)),
    StableHlo.binary main_v49 main_v121 main_v122 (subf : (⟨S40000x128, .f32⟩ : BufTy).Contents (Elt F) → (⟨S40000x128, .f32⟩ : BufTy).Contents (Elt F) → (⟨S40000x128, .f32⟩ : BufTy).Contents (Elt F)),
    StableHlo.unary main_arg10 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S40000x128 ![0, 1] bcast_S1x128_S40000x128_0_1 : (⟨S1x128, .f32⟩ : BufTy).Contents (Elt F) → (⟨S40000x128, .f32⟩ : BufTy).Contents (Elt F)),
    StableHlo.binary main_v124 main_v122 main_v125 (mulf : (⟨S40000x128, .f32⟩ : BufTy).Contents (Elt F) → (⟨S40000x128, .f32⟩ : BufTy).Contents (Elt F) → (⟨S40000x128, .f32⟩ : BufTy).Contents (Elt F)),
    StableHlo.nullary main_cst_27 (constant S_ .f32 0x3727C5AC#32),
    StableHlo.unary main_cst_27 main_v126 (broadcastInDim S128 ![] bcast_S_S128 : (⟨S_, .f32⟩ : BufTy).Contents (Elt F) → (⟨S128, .f32⟩ : BufTy).Contents (Elt F)),
    StableHlo.binary main_v119 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S40000x128 ![0, 1] bcast_S1x128_S40000x128_0_1 : (⟨S1x128, .f32⟩ : BufTy).Contents (Elt F) → (⟨S40000x128, .f32⟩ : BufTy).Contents (Elt F)),
    StableHlo.binary main_v125 main_v130 main_v131 (mulf : (⟨S40000x128, .f32⟩ : BufTy).Contents (Elt F) → (⟨S40000x128, .f32⟩ : BufTy).Contents (Elt F) → (⟨S40000x128, .f32⟩ : BufTy).Contents (Elt F)),
    StableHlo.unary main_arg11 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S40000x128 ![0, 1] bcast_S1x128_S40000x128_0_1 : (⟨S1x128, .f32⟩ : BufTy).Contents (Elt F) → (⟨S40000x128, .f32⟩ : BufTy).Contents (Elt F)),
    StableHlo.binary main_v131 main_v133 main_v134 (addf : (⟨S40000x128, .f32⟩ : BufTy).Contents (Elt F) → (⟨S40000x128, .f32⟩ : BufTy).Contents (Elt F) → (⟨S40000x128, .f32⟩ : BufTy).Contents (Elt F)) ]
/-- The buffers they write, in order. -/
abbrev p2b_W : List (Ref sig .tc) := [main_cst_24, main_v116, main_cst_25, main_v117, main_v118, main_c_26, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v120, main_v121, main_v122, main_v123, main_v124, main_v125, main_cst_27, main_v126, main_v127, main_v128, main_v129, main_v130, main_v131, main_v132, main_v133, main_v134]
set_option maxHeartbeats 4000000 in
theorem p2b_writes : (p2b : List (HloOp τ sig (Elt F))).Forall fun op => op.writes ⊆ (p2b_W.map (Proc.devRef (τ := τ) .tc)).toFinset :=
  ⟨one_in_list (y := main_cst_24) (by decide),
    one_in_list (y := main_v116) (by decide),
    one_in_list (y := main_cst_25) (by decide),
    one_in_list (y := main_v117) (by decide),
    one_in_list (y := main_v118) (by decide),
    one_in_list (y := main_c_26) (by decide),
    one_in_list (y := main_call1.cst.ref) (by decide),
    one_in_list (y := main_call1.v0.ref) (by decide),
    one_in_list (y := main_call1.v1.ref) (by decide),
    one_in_list (y := main_call1.cst_0.ref) (by decide),
    one_in_list (y := main_call1.v2.ref) (by decide),
    one_in_list (y := main_call1.v3.ref) (by decide),
    one_in_list (y := main_call1.v4.ref) (by decide),
    one_in_list (y := main_call1.v5.ref) (by decide),
    one_in_list (y := main_call1.v6.ref) (by decide),
    one_in_list (y := main_call1.v7.ref) (by decide),
    one_in_list (y := main_call1.cst_1.ref) (by decide),
    one_in_list (y := main_call1.v8.ref) (by decide),
    one_in_list (y := main_call1.cst_2.ref) (by decide),
    one_in_list (y := main_call1.v9.ref) (by decide),
    one_in_list (y := main_call1.v10.ref) (by decide),
    one_in_list (y := main_call1.v11.ref) (by decide),
    one_in_list (y := main_call1.cst_3.ref) (by decide),
    one_in_list (y := main_call1.v12.ref) (by decide),
    one_in_list (y := main_call1.cst_4.ref) (by decide),
    one_in_list (y := main_call1.call0.v0.ref) (by decide),
    one_in_list (y := main_call1.call0.v1.ref) (by decide),
    one_in_list (y := main_call1.call0.v2.ref) (by decide),
    one_in_list (y := main_v120) (by decide),
    one_in_list (y := main_v121) (by decide),
    one_in_list (y := main_v122) (by decide),
    one_in_list (y := main_v123) (by decide),
    one_in_list (y := main_v124) (by decide),
    one_in_list (y := main_v125) (by decide),
    one_in_list (y := main_cst_27) (by decide),
    one_in_list (y := main_v126) (by decide),
    one_in_list (y := main_v127) (by decide),
    one_in_list (y := main_v128) (by decide),
    one_in_list (y := main_v129) (by decide),
    one_in_list (y := main_v130) (by decide),
    one_in_list (y := main_v131) (by decide),
    one_in_list (y := main_v132) (by decide),
    one_in_list (y := main_v133) (by decide),
    one_in_list (y := main_v134) (by decide)⟩
/-- A buffer they do not write keeps its contents. -/
theorem p2b_keep (V : Valuation τ sig (Elt F)) (r : Ref sig .tc) (h : r ∉ p2b_W) :
    after p2b V (Proc.devRef .tc r) = V (Proc.devRef .tc r) :=
  after_of_writes_sub p2b V p2b_writes h

/-- Operations 87 … 122 of the window. -/
abbrev p2c : List (HloOp τ sig (Elt F)) :=
  [
    StableHlo.nullary main_cst_28 (constant S_ .f32 0x00000000#32),
    StableHlo.binary main_v96 main_cst_28 main_v135 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_29 (constant S_ .f32 0x471C4000#32),
    StableHlo.unary main_cst_29 main_v136 (broadcastInDim S128 ![] bcast_S_S128 : (⟨S_, .f32⟩ : BufTy).Contents (Elt F) → (⟨S128, .f32⟩ : BufTy).Contents (Elt F)),
    StableHlo.binary main_v135 main_v136 main_v137 (Host.divf : (⟨S128, .f32⟩ : BufTy).Contents (Elt F) → (⟨S128, .f32⟩ : BufTy).Contents (Elt F) → (⟨S128, .f32⟩ : BufTy).Contents (Elt F)),
    StableHlo.nullary main_c_30 (constantI S_ 32 0#32),
    StableHlo.TRef.nullary main_call2.cst (constant S_ .f32 0x00000000#32),
    StableHlo.TRef.binary (.of main_v96 : StableHlo.TRef sig ⟨S40000x128, .f32⟩) main_call2.cst main_call2.v0 (fun x v => Host.reduceAdd x v reducesTo_S40000x128_S128_d0 h_S_),
    StableHlo.TRef.unary main_call2.v0 main_call2.v1 (broadcastInDim S1x128 ![1] bcast_S128_S1x128_1),
    StableHlo.TRef.nullary main_call2.cst_0 (constant S_ .f32 0x471C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S40000x128 ![0, 1] bcast_S1x128_S40000x128_0_1),
    StableHlo.TRef.binary (.of main_v96 : StableHlo.TRef sig ⟨S40000x128, .f32⟩) main_call2.v4 main_call2.v5 subf,
    StableHlo.TRef.binary main_call2.v5 main_call2.v5 main_call2.v6 mulf,
    StableHlo.TRef.unary (.of main_c_30 : StableHlo.TRef sig ⟨S_, .i32⟩) main_call2.v7 (sitofp .f32),
    StableHlo.TRef.nullary main_call2.cst_1 (constant S_ .f32 0x471C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S40000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v137 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S40000x128 ![0, 1] bcast_S1x128_S40000x128_0_1 : (⟨S1x128, .f32⟩ : BufTy).Contents (Elt F) → (⟨S40000x128, .f32⟩ : BufTy).Contents (Elt F)),
    StableHlo.binary main_v96 main_v140 main_v141 (subf : (⟨S40000x128, .f32⟩ : BufTy).Contents (Elt F) → (⟨S40000x128, .f32⟩ : BufTy).Contents (Elt F) → (⟨S40000x128, .f32⟩ : BufTy).Contents (Elt F)),
    StableHlo.unary main_arg12 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S40000x128 ![0, 1] bcast_S1x128_S40000x128_0_1 : (⟨S1x128, .f32⟩ : BufTy).Contents (Elt F) → (⟨S40000x128, .f32⟩ : BufTy).Contents (Elt F)),
    StableHlo.binary main_v143 main_v141 main_v144 (mulf : (⟨S40000x128, .f32⟩ : BufTy).Contents (Elt F) → (⟨S40000x128, .f32⟩ : BufTy).Contents (Elt F) → (⟨S40000x128, .f32⟩ : BufTy).Contents (Elt F)),
    StableHlo.nullary main_cst_31 (constant S_ .f32 0x3727C5AC#32),
    StableHlo.unary main_cst_31 main_v145 (broadcastInDim S128 ![] bcast_S_S128 : (⟨S_, .f32⟩ : BufTy).Contents (Elt F) → (⟨S128, .f32⟩ : BufTy).Contents (Elt F)) ]
/-- The buffers they write, in order. -/
abbrev p2c_W : List (Ref sig .tc) := [main_cst_28, main_v135, main_cst_29, main_v136, main_v137, main_c_30, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v139, main_v140, main_v141, main_v142, main_v143, main_v144, main_cst_31, main_v145]
set_option maxHeartbeats 4000000 in
theorem p2c_writes : (p2c : List (HloOp τ sig (Elt F))).Forall fun op => op.writes ⊆ (p2c_W.map (Proc.devRef (τ := τ) .tc)).toFinset :=
  ⟨one_in_list (y := main_cst_28) (by decide),
    one_in_list (y := main_v135) (by decide),
    one_in_list (y := main_cst_29) (by decide),
    one_in_list (y := main_v136) (by decide),
    one_in_list (y := main_v137) (by decide),
    one_in_list (y := main_c_30) (by decide),
    one_in_list (y := main_call2.cst.ref) (by decide),
    one_in_list (y := main_call2.v0.ref) (by decide),
    one_in_list (y := main_call2.v1.ref) (by decide),
    one_in_list (y := main_call2.cst_0.ref) (by decide),
    one_in_list (y := main_call2.v2.ref) (by decide),
    one_in_list (y := main_call2.v3.ref) (by decide),
    one_in_list (y := main_call2.v4.ref) (by decide),
    one_in_list (y := main_call2.v5.ref) (by decide),
    one_in_list (y := main_call2.v6.ref) (by decide),
    one_in_list (y := main_call2.v7.ref) (by decide),
    one_in_list (y := main_call2.cst_1.ref) (by decide),
    one_in_list (y := main_call2.v8.ref) (by decide),
    one_in_list (y := main_call2.cst_2.ref) (by decide),
    one_in_list (y := main_call2.v9.ref) (by decide),
    one_in_list (y := main_call2.v10.ref) (by decide),
    one_in_list (y := main_call2.v11.ref) (by decide),
    one_in_list (y := main_call2.cst_3.ref) (by decide),
    one_in_list (y := main_call2.v12.ref) (by decide),
    one_in_list (y := main_call2.cst_4.ref) (by decide),
    one_in_list (y := main_call2.call0.v0.ref) (by decide),
    one_in_list (y := main_call2.call0.v1.ref) (by decide),
    one_in_list (y := main_call2.call0.v2.ref) (by decide),
    one_in_list (y := main_v139) (by decide),
    one_in_list (y := main_v140) (by decide),
    one_in_list (y := main_v141) (by decide),
    one_in_list (y := main_v142) (by decide),
    one_in_list (y := main_v143) (by decide),
    one_in_list (y := main_v144) (by decide),
    one_in_list (y := main_cst_31) (by decide),
    one_in_list (y := main_v145) (by decide)⟩
/-- A buffer they do not write keeps its contents. -/
theorem p2c_keep (V : Valuation τ sig (Elt F)) (r : Ref sig .tc) (h : r ∉ p2c_W) :
    after p2c V (Proc.devRef .tc r) = V (Proc.devRef .tc r) :=
  after_of_writes_sub p2c V p2c_writes h

/-- The window is its three runs in order. -/
theorem ops_part2_split : (ops_part2 : List (HloOp τ sig (Elt F))) = p2a ++ (p2b ++ p2c) := by
  chain_rfl

/-! ## Each run evaluated, from any contents -/

section Runs
variable (V : Valuation τ sig (Elt Ideal))

set_option maxHeartbeats 16000000 in
/-- The first branch normalised, when the buffer its column sums start from holds zero. -/
theorem p2a_v115 (hz : (V (Proc.devRef .tc main_cst_20) : FVec Ideal S_ .f32) = (constant S_ .f32 0x00000000#32 : FVec Ideal S_ .f32)) :
    (after p2a V (Proc.devRef .tc main_v115) : FVec Ideal S40000x128 .f32) = bnR (V (Proc.devRef .tc main_v0) : FVec Ideal S40000x128 .f32) (V (Proc.devRef .tc main_arg8) : FVec Ideal S128 .f32) (V (Proc.devRef .tc main_arg9) : FVec Ideal S128 .f32) := by
  after_results_simp
  simp only [hz]
  rfl
set_option maxHeartbeats 16000000 in
/-- The second branch normalised. -/
theorem p2b_v134 :
    (after p2b V (Proc.devRef .tc main_v134) : FVec Ideal S40000x128 .f32) = bnR (V (Proc.devRef .tc main_v49) : FVec Ideal S40000x128 .f32) (V (Proc.devRef .tc main_arg10) : FVec Ideal S128 .f32) (V (Proc.devRef .tc main_arg11) : FVec Ideal S128 .f32) := by
  after_results_simp
  rfl
set_option maxHeartbeats 16000000 in
/-- The third branch centred and scaled. -/
theorem p2c_v144 :
    (after p2c V (Proc.devRef .tc main_v144) : FVec Ideal S40000x128 .f32) = mulf (spread (V (Proc.devRef .tc main_arg12) : FVec Ideal S128 .f32)) (subf (V (Proc.devRef .tc main_v96) : FVec Ideal S40000x128 .f32) (spread (meanR (V (Proc.devRef .tc main_v96) : FVec Ideal S40000x128 .f32)))) := by
  after_results_simp
  rfl
set_option maxHeartbeats 16000000 in
/-- Its column variances. -/
theorem p2c_v138 :
    (after p2c V (Proc.devRef .tc main_v138) : FVec Ideal S128 .f32) = varR (V (Proc.devRef .tc main_v96) : FVec Ideal S40000x128 .f32) := by
  after_results_simp
  rfl
/-- The constant added to them. -/
theorem p2c_v145 :
    (after p2c V (Proc.devRef .tc main_v145) : FVec Ideal S128 .f32) = (broadcastInDim S128 ![] bcast_S_S128 (constant S_ .f32 0x3727C5AC#32) : FVec Ideal S128 .f32) := by
  after_results_simp
end Runs

/-! ## The window's stages -/

set_option maxHeartbeats 4000000 in
/-- The third window: the normalised first and second branches, and of the third branch the centred and scaled array,
    the variance, and the constant added to it. -/
theorem val3_stages (W : Valuation τ sig (Elt Ideal)) :
    (val3 W (Proc.devRef .tc main_v115) : FVec Ideal S40000x128 .f32) = bnR (val1 W (Proc.devRef .tc main_v0) : FVec Ideal S40000x128 .f32) (W (Proc.devRef .tc main_arg8) : FVec Ideal S128 .f32) (W (Proc.devRef .tc main_arg9) : FVec Ideal S128 .f32)
    ∧ (val3 W (Proc.devRef .tc main_v134) : FVec Ideal S40000x128 .f32) = bnR (val2 W (Proc.devRef .tc main_v49) : FVec Ideal S40000x128 .f32) (W (Proc.devRef .tc main_arg10) : FVec Ideal S128 .f32) (W (Proc.devRef .tc main_arg11) : FVec Ideal S128 .f32)
    ∧ (val3 W (Proc.devRef .tc main_v144) : FVec Ideal S40000x128 .f32) = mulf (spread (W (Proc.devRef .tc main_arg12) : FVec Ideal S128 .f32)) (subf (val2 W (Proc.devRef .tc main_v96) : FVec Ideal S40000x128 .f32) (spread (meanR (val2 W (Proc.devRef .tc main_v96) : FVec Ideal S40000x128 .f32))))
    ∧ (val3 W (Proc.devRef .tc main_v138) : FVec Ideal S128 .f32) = varR (val2 W (Proc.devRef .tc main_v96) : FVec Ideal S40000x128 .f32)
    ∧ (val3 W (Proc.devRef .tc main_v145) : FVec Ideal S128 .f32) = (broadcastInDim S128 ![] bcast_S_S128 (constant S_ .f32 0x3727C5AC#32) : FVec Ideal S128 .f32) := by
  have hz := (val2_stages W).2.2.2
  have e : val3 W = after p2c (after p2b (after p2a (val2 W))) := by
    unfold val3
    rw [ops_part2_split]
    simp only [after_append]
  rw [e]
  refine ⟨?_, ?_, ?_, ?_, ?_⟩
  · rw [p2c_keep _ main_v115 (by decide), p2b_keep _ main_v115 (by decide), p2a_v115 _ hz,
      val2_keep W main_v0 (by decide),
      val2_keep W main_arg8 (by decide), val1_keep W main_arg8 (by decide),
      val2_keep W main_arg9 (by decide), val1_keep W main_arg9 (by decide)]
  · rw [p2c_keep _ main_v134 (by decide), p2b_v134,
      p2a_keep _ main_v49 (by decide), p2a_keep _ main_arg10 (by decide), p2a_keep _ main_arg11 (by decide),
      val2_keep W main_arg10 (by decide), val1_keep W main_arg10 (by decide),
      val2_keep W main_arg11 (by decide), val1_keep W main_arg11 (by decide)]
  · rw [p2c_v144,
      p2b_keep _ main_arg12 (by decide), p2a_keep _ main_arg12 (by decide),
      p2b_keep _ main_v96 (by decide), p2a_keep _ main_v96 (by decide),
      val2_keep W main_arg12 (by decide), val1_keep W main_arg12 (by decide)]
  · rw [p2c_v138, p2b_keep _ main_v96 (by decide), p2a_keep _ main_v96 (by decide)]
  · rw [p2c_v145]

end Cert.ReferenceIdeal.Hand

end
-- ==== Proof.RefTail.lean ====
/-
  The reference's projections and its tail, read as pure functions.

  A projection is a plain matrix product. The tail takes three 40000 x 128 arrays side by side, multiplies the
  40000 x 384 array they form by the 384 x 128 weights, and divides each row of the product by the larger of its
  Euclidean norm and a constant; the norm is the square root of the row's sum of squares started from a zero
  constant. Entry (r, j) of the product is the sum over k of the concatenation at (r, k) times the weights at
  (k, j); the row sum reads row r; the norm column spread over the 128 columns reads its entry of row r.
-/
import proofs.«110036_j83382495085286_1_alg».proof.Proof.RefRead
import proofs.«110036_j83382495085286_1_alg».proof.Proof.CatRead
import proofs.«110036_j83382495085286_1_alg».proof.Proof.LibPlainDot
import proofs.«110036_j83382495085286_1_alg».proof.Proof.LibRowSum
import Idealize.ShloMosaic.Lib.Pipeline.Value
import Idealize.ShloMosaic.Lib.ValueIdx
import Idealize.ShloMosaic.Lib.IdealHost
import Idealize.ShloMosaic.PureOps.Ideal.Laws

set_option maxRecDepth 8192

noncomputable section

open scoped BigOperators

namespace Cert.ReferenceIdeal.Hand

open Cert.ReferenceIdeal Cert.ReferenceIdeal.Facts₀ Cert.ReferenceIdeal.Facts Cert.Spec
open Idealize.ShloMosaic Idealize.ShloMosaic.ValueIdx

/-! ## The projections -/

/-- A projection of the features is their matrix product with the 128 x 128 weights. -/
theorem proj_eq (x : FVec Ideal S40000x128 .f32) (w : FVec Ideal S128x128 .f32) :
    Host.dotGeneral dot_S40000x128_S128x128_S40000x128_1_0_0_1_n_n none x w = Cert.Spec.mm x w := by
  funext i
  obtain ⟨p, q, rfl⟩ : ∃ (p : Fin 40000) (q : Fin 128), i = ix2 p q := ⟨i 0, i 1, eq_ix2 i⟩
  exact (PlainDot.dotGeneral_apply _ (PlainDot.eq_plain _ rfl rfl rfl rfl rfl rfl) none .single x w p q).trans
    (mm_apply x w p q).symm

/-! ## The tail -/

/-- The product of an n x 384 array with the 384 x 128 weights, at row r and column j. -/
def tailE {n : Nat} (C : M2 n 384) (W : M2 384 128) (r : Fin n) (j : Fin 128) : EReal :=
  ∑ k : Fin 384, C (ix2 r k) * W (ix2 k j)

/-- The rows of that product divided by the larger of their norm and the constant, the sum of squares started
    from zero. -/
def tailP {n : Nat} (C : M2 n 384) (W : M2 384 128) : M2 n 128 := fun i =>
  Ideal.div (tailE C W ⟨(i 0).val, (i 0).isLt⟩ ⟨(i 1).val, (i 1).isLt⟩)
    (max (Ideal.sqrt (Ideal.ofBits .f32 0x00000000#32
        + ∑ j' : Fin 128, tailE C W ⟨(i 0).val, (i 0).isLt⟩ j' * tailE C W ⟨(i 0).val, (i 0).isLt⟩ j'))
      (Ideal.ofBits .f32 0x2B8CBCCC#32))

theorem tailP_apply {n : Nat} (C : M2 n 384) (W : M2 384 128) (r : Fin n) (j : Fin 128) :
    tailP C W (ix2 r j)
      = Ideal.div (tailE C W r j)
          (max (Ideal.sqrt (Ideal.ofBits .f32 0x00000000#32 + ∑ j' : Fin 128, tailE C W r j' * tailE C W r j'))
            (Ideal.ofBits .f32 0x2B8CBCCC#32)) := rfl

/-- The reference's result is that function of its three branches side by side. -/
theorem refTail_eq_tailP {n : Nat} (X : Fin 3 → M2 n 128) (g b : Fin 3 → V1 128) (a : M2 1 1) (W : M2 384 128)
    (dn nanv : EReal) :
    refTail X g b a W dn nanv = tailP (catC fun s => branch (X s) (g s) (b s) a dn nanv) W := rfl

/-- The product of the three arrays side by side with the weights, as the reference computes it. -/
def embR (P0 P1 P2 : FVec Ideal S40000x128 .f32) (W : FVec Ideal S384x128 .f32) : FVec Ideal S40000x128 .f32 :=
  Host.dotGeneral dot_S40000x384_S384x128_S40000x128_1_0_0_1_n_n none
    (concatenate S40000x384 1 [⟨S40000x128, P0⟩, ⟨S40000x128, P1⟩, ⟨S40000x128, P2⟩]
      concatenates_S40000x128_S40000x128_S40000x128_S40000x384_d1) W

/-- Entry (r, j) of it: the sum over k of the concatenation at (r, k) times the weights at (k, j). -/
theorem embR_apply (P0 P1 P2 : FVec Ideal S40000x128 .f32) (W : FVec Ideal S384x128 .f32) (r : Fin 40000)
    (j : Fin 128) : embR P0 P1 P2 W (ix2 r j) = tailE (catC ![P0, P1, P2]) W r j := by
  unfold embR tailE
  refine (PlainDot.dotGeneral_apply _ (PlainDot.eq_plain _ rfl rfl rfl rfl rfl rfl) none .single _ W r j).trans ?_
  rw [catC_read P0 P1 P2 concatenates_S40000x128_S40000x128_S40000x128_S40000x384_d1]

/-- The row normalisation as the reference computes it: the product squared, summed along each row from a zero
    constant, made a column, its square root, the larger of that and the constant, spread over the 128 columns,
    and the product divided by it. -/
def normR (E : FVec Ideal S40000x128 .f32) : FVec Ideal S40000x128 .f32 :=
  Host.divf E
    (broadcastInDim S40000x128 ![0, 1] bcast_S40000x1_S40000x128_0_1
      (maximumf
        (Host.sqrt (broadcastInDim S40000x1 ![0] bcast_S40000_S40000x1_0
          (Host.reduceAdd (F := Ideal) (mulf E E) (constant S_ .f32 0x00000000#32) reducesTo_S40000x128_S40000_d1 h_S_)))
        (broadcastInDim S40000x1 ![] bcast_S_S40000x1 (constant S_ .f32 0x2B8CBCCC#32))))

/-- A row sum started from a scalar constant: that constant plus the sum of the row. -/
theorem rowsum_apply (X : FVec Ideal S40000x128 .f32) (w : BitVec 32) (r : Fin 40000) :
    Host.reduceAdd (F := Ideal) X (constant S_ .f32 w) reducesTo_S40000x128_S40000_d1 h_S_ (ix1 r)
      = Ideal.ofBits .f32 w + ∑ j' : Fin 128, X (ix2 r j') := by
  have h : S40000x128.Reduces [1] S40000 := by decide
  rw [hostReduceAdd_apply]
  refine (Ideal.hostReduceAdd_single reducesTo_S40000x128_S40000_d1 h X _ (ix1 r)).trans ?_
  refine congrArg₂ (· + ·) rfl ?_
  show (∑ j' : Fin 128, X (h.lift (ix1 r) j')) = _
  exact Finset.sum_congr rfl fun j' _ => congrArg X (RowSum.lift_row h r j')

/-- A vector of 40000 made a column: entry (r, 0) is entry r. -/
theorem colOf_apply (u : FVec Ideal S40000 .f32) (r : Fin 40000) :
    broadcastInDim S40000x1 ![0] bcast_S40000_S40000x1_0 u (ix2 r (0 : Fin 1)) = u (ix1 r) := by
  refine broadcastInDim_apply ![0] bcast_S40000_S40000x1_0 u (ix2 r (0 : Fin 1)) (ix1 r) fun a => ?_
  match a with
  | ⟨0, _⟩ => rfl

/-- A column spread over the 128 columns: entry (r, j) is the column's entry of row r. -/
theorem spreadCol_apply (v : FVec Ideal S40000x1 .f32) (r : Fin 40000) (j : Fin 128) :
    broadcastInDim S40000x128 ![0, 1] bcast_S40000x1_S40000x128_0_1 v (ix2 r j) = v (ix2 r (0 : Fin 1)) := by
  refine broadcastInDim_apply ![0, 1] bcast_S40000x1_S40000x128_0_1 v (ix2 r j) (ix2 r (0 : Fin 1)) fun a => ?_
  match a with
  | ⟨0, _⟩ => rfl
  | ⟨1, _⟩ => rfl

/-- The host's square root at an index is the square root of the entry. -/
theorem hostSqrt_apply {s : Shape} (x : FVec Ideal s .f32) (i : s.Idx) : Host.sqrt x i = Ideal.sqrt (x i) := rfl

/-- The normalisation at row r and column j, of an array whose row r is e. -/
theorem normR_apply (E : FVec Ideal S40000x128 .f32) (e : Fin 128 → EReal) (r : Fin 40000)
    (hE : ∀ j' : Fin 128, E (ix2 r j') = e j') (j : Fin 128) :
    normR E (ix2 r j)
      = Ideal.div (e j)
          (max (Ideal.sqrt (Ideal.ofBits .f32 0x00000000#32 + ∑ j' : Fin 128, e j' * e j'))
            (Ideal.ofBits .f32 0x2B8CBCCC#32)) := by
  unfold normR
  rw [hostDivf_apply, hE j, spreadCol_apply, maximumf_apply, splat_apply]
  refine congrArg (fun s => Ideal.div (e j) (max s (Ideal.ofBits .f32 0x2B8CBCCC#32))) ?_
  rw [hostSqrt_apply, colOf_apply, rowsum_apply]
  refine congrArg (fun s => Ideal.sqrt (Ideal.ofBits .f32 0x00000000#32 + s)) ?_
  refine Finset.sum_congr rfl fun j' _ => ?_
  rw [mulf_apply, hE j']

/-- The reference's tail of three arrays is the pure tail of the three side by side. -/
theorem tailR_eq (P0 P1 P2 : FVec Ideal S40000x128 .f32) (W : FVec Ideal S384x128 .f32) :
    normR (embR P0 P1 P2 W) = tailP (catC ![P0, P1, P2]) W := by
  funext i
  obtain ⟨r, j, rfl⟩ : ∃ (r : Fin 40000) (j : Fin 128), i = ix2 r j := ⟨i 0, i 1, eq_ix2 i⟩
  rw [tailP_apply]
  exact normR_apply _ (fun j' => tailE (catC ![P0, P1, P2]) W r j') r (fun j' => embR_apply P0 P1 P2 W r j') j

/-- The same with the reference's operations written out. -/
theorem tail_eq (P0 P1 P2 : FVec Ideal S40000x128 .f32) (W : FVec Ideal S384x128 .f32) :
    Host.divf
        (Host.dotGeneral dot_S40000x384_S384x128_S40000x128_1_0_0_1_n_n none
          (concatenate S40000x384 1 [⟨S40000x128, P0⟩, ⟨S40000x128, P1⟩, ⟨S40000x128, P2⟩]
            concatenates_S40000x128_S40000x128_S40000x128_S40000x384_d1) W)
        (broadcastInDim S40000x128 ![0, 1] bcast_S40000x1_S40000x128_0_1
          (maximumf
            (Host.sqrt (broadcastInDim S40000x1 ![0] bcast_S40000_S40000x1_0
              (Host.reduceAdd (F := Ideal)
                (mulf
                  (Host.dotGeneral dot_S40000x384_S384x128_S40000x128_1_0_0_1_n_n none
                    (concatenate S40000x384 1 [⟨S40000x128, P0⟩, ⟨S40000x128, P1⟩, ⟨S40000x128, P2⟩]
                      concatenates_S40000x128_S40000x128_S40000x128_S40000x384_d1) W)
                  (Host.dotGeneral dot_S40000x384_S384x128_S40000x128_1_0_0_1_n_n none
                    (concatenate S40000x384 1 [⟨S40000x128, P0⟩, ⟨S40000x128, P1⟩, ⟨S40000x128, P2⟩]
                      concatenates_S40000x128_S40000x128_S40000x128_S40000x384_d1) W))
                (constant S_ .f32 0x00000000#32) reducesTo_S40000x128_S40000_d1 h_S_)))
            (broadcastInDim S40000x1 ![] bcast_S_S40000x1 (constant S_ .f32 0x2B8CBCCC#32))))
      = tailP (catC ![P0, P1, P2]) W :=
  tailR_eq P0 P1 P2 W

end Cert.ReferenceIdeal.Hand

end
-- ==== Proof.RefEval4.lean ====
/- The fourth window of the reference's line, read.
   Its 41 operations finish the third branch's normalisation from the centred and scaled array, the variance and
   the constant the third window left; pass each of the three normalised branches through PReLU; lay the three side
   by side and multiply by the output weights; take the rows' Euclidean norms; and divide each row of the product
   by the larger of its norm and a constant. The window is cut at those seven steps; each is evaluated from any
   contents of the buffers it reads, and a buffer a step does not write passes through it unchanged. -/
import proofs.«110036_j83382495085286_1_alg».proof.Proof.RefEval3
import proofs.«110036_j83382495085286_1_alg».proof.Proof.RefTail

set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## A three-operand operation's result -/

section Nary3
variable {x a b y : Ref sig .tc}
/-- The result of an operation over a literal family of three references, each operand's contents at its own
    reference. -/
theorem nary3_result
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
theorem nary3_result'
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G
end Nary3

/-- Evaluate the contents of one buffer after a literal list of operations: each operation's result at its own
    buffer is its function's value, at any other buffer what was there. -/
local macro "host_eval" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-! ## The window in seven steps -/

/-- Operations 0 … 7 of the window. -/
abbrev q0 : List (HloOp τ sig (Elt F)) :=
  [
    StableHlo.binary main_v138 main_v145 main_v146 (addf : (⟨S128, .f32⟩ : BufTy).Contents (Elt F) → (⟨S128, .f32⟩ : BufTy).Contents (Elt F) → (⟨S128, .f32⟩ : BufTy).Contents (Elt F)),
    StableHlo.unary main_v146 main_v147 (Host.rsqrt : (⟨S128, .f32⟩ : BufTy).Contents (Elt F) → (⟨S128, .f32⟩ : BufTy).Contents (Elt F)),
    StableHlo.unary main_v147 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S40000x128 ![0, 1] bcast_S1x128_S40000x128_0_1 : (⟨S1x128, .f32⟩ : BufTy).Contents (Elt F) → (⟨S40000x128, .f32⟩ : BufTy).Contents (Elt F)),
    StableHlo.binary main_v144 main_v149 main_v150 (mulf : (⟨S40000x128, .f32⟩ : BufTy).Contents (Elt F) → (⟨S40000x128, .f32⟩ : BufTy).Contents (Elt F) → (⟨S40000x128, .f32⟩ : BufTy).Contents (Elt F)),
    StableHlo.unary main_arg13 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S40000x128 ![0, 1] bcast_S1x128_S40000x128_0_1 : (⟨S1x128, .f32⟩ : BufTy).Contents (Elt F) → (⟨S40000x128, .f32⟩ : BufTy).Contents (Elt F)),
    StableHlo.binary main_v150 main_v152 main_v153 (addf : (⟨S40000x128, .f32⟩ : BufTy).Contents (Elt F) → (⟨S40000x128, .f32⟩ : BufTy).Contents (Elt F) → (⟨S40000x128, .f32⟩ : BufTy).Contents (Elt F)) ]
/-- The buffers they write, in order. -/
abbrev q0_W : List (Ref sig .tc) := [main_v146, main_v147, main_v148, main_v149, main_v150, main_v151, main_v152, main_v153]
theorem q0_writes : (q0 : List (HloOp τ sig (Elt F))).Forall fun op => op.writes ⊆ (q0_W.map (Proc.devRef (τ := τ) .tc)).toFinset :=
  ⟨one_in_list (y := main_v146) (by decide),
    one_in_list (y := main_v147) (by decide),
    one_in_list (y := main_v148) (by decide),
    one_in_list (y := main_v149) (by decide),
    one_in_list (y := main_v150) (by decide),
    one_in_list (y := main_v151) (by decide),
    one_in_list (y := main_v152) (by decide),
    one_in_list (y := main_v153) (by decide)⟩
/-- A buffer they do not write keeps its contents. -/
theorem q0_keep (V : Valuation τ sig (Elt F)) (r : Ref sig .tc) (h : r ∉ q0_W) :
    after q0 V (Proc.devRef .tc r) = V (Proc.devRef .tc r) :=
  after_of_writes_sub q0 V q0_writes h

/-- Operations 8 … 14 of the window. -/
abbrev q1 : List (HloOp τ sig (Elt F)) :=
  [
    StableHlo.nullary main_cst_32 (constant S_ .f32 0x00000000#32),
    StableHlo.unary main_cst_32 main_v154 (broadcastInDim S40000x128 ![] bcast_S_S40000x128 : (⟨S_, .f32⟩ : BufTy).Contents (Elt F) → (⟨S40000x128, .f32⟩ : BufTy).Contents (Elt F)),
    StableHlo.binary main_v115 main_v154 main_v155 (cmpf .oge : (⟨S40000x128, .f32⟩ : BufTy).Contents (Elt F) → (⟨S40000x128, .f32⟩ : BufTy).Contents (Elt F) → (⟨S40000x128, .i1⟩ : BufTy).Contents (Elt F)),
    StableHlo.unary main_arg14 main_v156 (broadcastInDim S1x1 ![1] bcast_S1_S1x1_1 : (⟨S1, .f32⟩ : BufTy).Contents (Elt F) → (⟨S1x1, .f32⟩ : BufTy).Contents (Elt F)),
    StableHlo.unary main_v156 main_v157 (broadcastInDim S40000x128 ![0, 1] bcast_S1x1_S40000x128_0_1 : (⟨S1x1, .f32⟩ : BufTy).Contents (Elt F) → (⟨S40000x128, .f32⟩ : BufTy).Contents (Elt F)),
    StableHlo.binary main_v157 main_v115 main_v158 (mulf : (⟨S40000x128, .f32⟩ : BufTy).Contents (Elt F) → (⟨S40000x128, .f32⟩ : BufTy).Contents (Elt F) → (⟨S40000x128, .f32⟩ : BufTy).Contents (Elt F)),
    StableHlo.TRef.ternary (.of main_v155 : StableHlo.TRef sig ⟨S40000x128, .i1⟩) (.of main_v115 : StableHlo.TRef sig ⟨S40000x128, .f32⟩) (.of main_v158 : StableHlo.TRef sig ⟨S40000x128, .f32⟩) main_call3.v0 select ]
/-- The buffers they write, in order. -/
abbrev q1_W : List (Ref sig .tc) := [main_cst_32, main_v154, main_v155, main_v156, main_v157, main_v158, main_call3.v0.ref]
theorem q1_writes : (q1 : List (HloOp τ sig (Elt F))).Forall fun op => op.writes ⊆ (q1_W.map (Proc.devRef (τ := τ) .tc)).toFinset :=
  ⟨one_in_list (y := main_cst_32) (by decide),
    one_in_list (y := main_v154) (by decide),
    one_in_list (y := main_v155) (by decide),
    one_in_list (y := main_v156) (by decide),
    one_in_list (y := main_v157) (by decide),
    one_in_list (y := main_v158) (by decide),
    one_in_list (y := main_call3.v0.ref) (by decide)⟩
/-- A buffer they do not write keeps its contents. -/
theorem q1_keep (V : Valuation τ sig (Elt F)) (r : Ref sig .tc) (h : r ∉ q1_W) :
    after q1 V (Proc.devRef .tc r) = V (Proc.devRef .tc r) :=
  after_of_writes_sub q1 V q1_writes h

/-- Operations 15 … 21 of the window. -/
abbrev q2 : List (HloOp τ sig (Elt F)) :=
  [
    StableHlo.nullary main_cst_33 (constant S_ .f32 0x00000000#32),
    StableHlo.unary main_cst_33 main_v160 (broadcastInDim S40000x128 ![] bcast_S_S40000x128 : (⟨S_, .f32⟩ : BufTy).Contents (Elt F) → (⟨S40000x128, .f32⟩ : BufTy).Contents (Elt F)),
    StableHlo.binary main_v134 main_v160 main_v161 (cmpf .oge : (⟨S40000x128, .f32⟩ : BufTy).Contents (Elt F) → (⟨S40000x128, .f32⟩ : BufTy).Contents (Elt F) → (⟨S40000x128, .i1⟩ : BufTy).Contents (Elt F)),
    StableHlo.unary main_arg14 main_v162 (broadcastInDim S1x1 ![1] bcast_S1_S1x1_1 : (⟨S1, .f32⟩ : BufTy).Contents (Elt F) → (⟨S1x1, .f32⟩ : BufTy).Contents (Elt F)),
    StableHlo.unary main_v162 main_v163 (broadcastInDim S40000x128 ![0, 1] bcast_S1x1_S40000x128_0_1 : (⟨S1x1, .f32⟩ : BufTy).Contents (Elt F) → (⟨S40000x128, .f32⟩ : BufTy).Contents (Elt F)),
    StableHlo.binary main_v163 main_v134 main_v164 (mulf : (⟨S40000x128, .f32⟩ : BufTy).Contents (Elt F) → (⟨S40000x128, .f32⟩ : BufTy).Contents (Elt F) → (⟨S40000x128, .f32⟩ : BufTy).Contents (Elt F)),
    StableHlo.TRef.ternary (.of main_v161 : StableHlo.TRef sig ⟨S40000x128, .i1⟩) (.of main_v134 : StableHlo.TRef sig ⟨S40000x128, .f32⟩) (.of main_v164 : StableHlo.TRef sig ⟨S40000x128, .f32⟩) main_call4.v0 select ]
/-- The buffers they write, in order. -/
abbrev q2_W : List (Ref sig .tc) := [main_cst_33, main_v160, main_v161, main_v162, main_v163, main_v164, main_call4.v0.ref]
theorem q2_writes : (q2 : List (HloOp τ sig (Elt F))).Forall fun op => op.writes ⊆ (q2_W.map (Proc.devRef (τ := τ) .tc)).toFinset :=
  ⟨one_in_list (y := main_cst_33) (by decide),
    one_in_list (y := main_v160) (by decide),
    one_in_list (y := main_v161) (by decide),
    one_in_list (y := main_v162) (by decide),
    one_in_list (y := main_v163) (by decide),
    one_in_list (y := main_v164) (by decide),
    one_in_list (y := main_call4.v0.ref) (by decide)⟩
/-- A buffer they do not write keeps its contents. -/
theorem q2_keep (V : Valuation τ sig (Elt F)) (r : Ref sig .tc) (h : r ∉ q2_W) :
    after q2 V (Proc.devRef .tc r) = V (Proc.devRef .tc r) :=
  after_of_writes_sub q2 V q2_writes h

/-- Operations 22 … 28 of the window. -/
abbrev q3 : List (HloOp τ sig (Elt F)) :=
  [
    StableHlo.nullary main_cst_34 (constant S_ .f32 0x00000000#32),
    StableHlo.unary main_cst_34 main_v166 (broadcastInDim S40000x128 ![] bcast_S_S40000x128 : (⟨S_, .f32⟩ : BufTy).Contents (Elt F) → (⟨S40000x128, .f32⟩ : BufTy).Contents (Elt F)),
    StableHlo.binary main_v153 main_v166 main_v167 (cmpf .oge : (⟨S40000x128, .f32⟩ : BufTy).Contents (Elt F) → (⟨S40000x128, .f32⟩ : BufTy).Contents (Elt F) → (⟨S40000x128, .i1⟩ : BufTy).Contents (Elt F)),
    StableHlo.unary main_arg14 main_v168 (broadcastInDim S1x1 ![1] bcast_S1_S1x1_1 : (⟨S1, .f32⟩ : BufTy).Contents (Elt F) → (⟨S1x1, .f32⟩ : BufTy).Contents (Elt F)),
    StableHlo.unary main_v168 main_v169 (broadcastInDim S40000x128 ![0, 1] bcast_S1x1_S40000x128_0_1 : (⟨S1x1, .f32⟩ : BufTy).Contents (Elt F) → (⟨S40000x128, .f32⟩ : BufTy).Contents (Elt F)),
    StableHlo.binary main_v169 main_v153 main_v170 (mulf : (⟨S40000x128, .f32⟩ : BufTy).Contents (Elt F) → (⟨S40000x128, .f32⟩ : BufTy).Contents (Elt F) → (⟨S40000x128, .f32⟩ : BufTy).Contents (Elt F)),
    StableHlo.TRef.ternary (.of main_v167 : StableHlo.TRef sig ⟨S40000x128, .i1⟩) (.of main_v153 : StableHlo.TRef sig ⟨S40000x128, .f32⟩) (.of main_v170 : StableHlo.TRef sig ⟨S40000x128, .f32⟩) main_call5.v0 select ]
/-- The buffers they write, in order. -/
abbrev q3_W : List (Ref sig .tc) := [main_cst_34, main_v166, main_v167, main_v168, main_v169, main_v170, main_call5.v0.ref]
theorem q3_writes : (q3 : List (HloOp τ sig (Elt F))).Forall fun op => op.writes ⊆ (q3_W.map (Proc.devRef (τ := τ) .tc)).toFinset :=
  ⟨one_in_list (y := main_cst_34) (by decide),
    one_in_list (y := main_v166) (by decide),
    one_in_list (y := main_v167) (by decide),
    one_in_list (y := main_v168) (by decide),
    one_in_list (y := main_v169) (by decide),
    one_in_list (y := main_v170) (by decide),
    one_in_list (y := main_call5.v0.ref) (by decide)⟩
/-- A buffer they do not write keeps its contents. -/
theorem q3_keep (V : Valuation τ sig (Elt F)) (r : Ref sig .tc) (h : r ∉ q3_W) :
    after q3 V (Proc.devRef .tc r) = V (Proc.devRef .tc r) :=
  after_of_writes_sub q3 V q3_writes h

/-- Operations 29 … 30 of the window. -/
abbrev q4 : List (HloOp τ sig (Elt F)) :=
  [
    StableHlo.nary ![main_v159, main_v165, main_v171] main_v172 (fun u => concatenate S40000x384 1 [⟨S40000x128, u 0⟩, ⟨S40000x128, u 1⟩, ⟨S40000x128, u 2⟩] concatenates_S40000x128_S40000x128_S40000x128_S40000x384_d1),
    StableHlo.binary main_v172 main_arg15 main_v173 ((fun l r => Host.dotGeneral dot_S40000x384_S384x128_S40000x128_1_0_0_1_n_n none l r) : (⟨S40000x384, .f32⟩ : BufTy).Contents (Elt F) → (⟨S384x128, .f32⟩ : BufTy).Contents (Elt F) → (⟨S40000x128, .f32⟩ : BufTy).Contents (Elt F)) ]
/-- The buffers they write, in order. -/
abbrev q4_W : List (Ref sig .tc) := [main_v172, main_v173]
theorem q4_writes : (q4 : List (HloOp τ sig (Elt F))).Forall fun op => op.writes ⊆ (q4_W.map (Proc.devRef (τ := τ) .tc)).toFinset :=
  ⟨one_in_list (y := main_v172) (by decide),
    one_in_list (y := main_v173) (by decide)⟩
/-- A buffer they do not write keeps its contents. -/
theorem q4_keep (V : Valuation τ sig (Elt F)) (r : Ref sig .tc) (h : r ∉ q4_W) :
    after q4 V (Proc.devRef .tc r) = V (Proc.devRef .tc r) :=
  after_of_writes_sub q4 V q4_writes h

/-- Operations 31 … 35 of the window. -/
abbrev q5 : List (HloOp τ sig (Elt F)) :=
  [
    StableHlo.TRef.binary (.of main_v173 : StableHlo.TRef sig ⟨S40000x128, .f32⟩) (.of main_v173 : StableHlo.TRef sig ⟨S40000x128, .f32⟩) main_call6.v0 mulf,
    StableHlo.TRef.nullary main_call6.cst (constant S_ .f32 0x00000000#32),
    StableHlo.TRef.binary main_call6.v0 main_call6.cst main_call6.v1 (fun x v => Host.reduceAdd x v reducesTo_S40000x128_S40000_d1 h_S_),
    StableHlo.TRef.unary main_call6.v1 main_call6.v2 (broadcastInDim S40000x1 ![0] bcast_S40000_S40000x1_0),
    StableHlo.TRef.unary main_call6.v2 main_call6.v3 Host.sqrt ]
/-- The buffers they write, in order. -/
abbrev q5_W : List (Ref sig .tc) := [main_call6.v0.ref, main_call6.cst.ref, main_call6.v1.ref, main_call6.v2.ref, main_call6.v3.ref]
theorem q5_writes : (q5 : List (HloOp τ sig (Elt F))).Forall fun op => op.writes ⊆ (q5_W.map (Proc.devRef (τ := τ) .tc)).toFinset :=
  ⟨one_in_list (y := main_call6.v0.ref) (by decide),
    one_in_list (y := main_call6.cst.ref) (by decide),
    one_in_list (y := main_call6.v1.ref) (by decide),
    one_in_list (y := main_call6.v2.ref) (by decide),
    one_in_list (y := main_call6.v3.ref) (by decide)⟩
/-- A buffer they do not write keeps its contents. -/
theorem q5_keep (V : Valuation τ sig (Elt F)) (r : Ref sig .tc) (h : r ∉ q5_W) :
    after q5 V (Proc.devRef .tc r) = V (Proc.devRef .tc r) :=
  after_of_writes_sub q5 V q5_writes h

/-- Operations 36 … 40 of the window. -/
abbrev q6 : List (HloOp τ sig (Elt F)) :=
  [
    StableHlo.nullary main_cst_35 (constant S_ .f32 0x2B8CBCCC#32),
    StableHlo.unary main_cst_35 main_v175 (broadcastInDim S40000x1 ![] bcast_S_S40000x1 : (⟨S_, .f32⟩ : BufTy).Contents (Elt F) → (⟨S40000x1, .f32⟩ : BufTy).Contents (Elt F)),
    StableHlo.binary main_v174 main_v175 main_v176 (maximumf : (⟨S40000x1, .f32⟩ : BufTy).Contents (Elt F) → (⟨S40000x1, .f32⟩ : BufTy).Contents (Elt F) → (⟨S40000x1, .f32⟩ : BufTy).Contents (Elt F)),
    StableHlo.unary main_v176 main_v177 (broadcastInDim S40000x128 ![0, 1] bcast_S40000x1_S40000x128_0_1 : (⟨S40000x1, .f32⟩ : BufTy).Contents (Elt F) → (⟨S40000x128, .f32⟩ : BufTy).Contents (Elt F)),
    StableHlo.binary main_v173 main_v177 main_v178 (Host.divf : (⟨S40000x128, .f32⟩ : BufTy).Contents (Elt F) → (⟨S40000x128, .f32⟩ : BufTy).Contents (Elt F) → (⟨S40000x128, .f32⟩ : BufTy).Contents (Elt F)) ]
/-- The buffers they write, in order. -/
abbrev q6_W : List (Ref sig .tc) := [main_cst_35, main_v175, main_v176, main_v177, main_v178]
theorem q6_writes : (q6 : List (HloOp τ sig (Elt F))).Forall fun op => op.writes ⊆ (q6_W.map (Proc.devRef (τ := τ) .tc)).toFinset :=
  ⟨one_in_list (y := main_cst_35) (by decide),
    one_in_list (y := main_v175) (by decide),
    one_in_list (y := main_v176) (by decide),
    one_in_list (y := main_v177) (by decide),
    one_in_list (y := main_v178) (by decide)⟩
/-- A buffer they do not write keeps its contents. -/
theorem q6_keep (V : Valuation τ sig (Elt F)) (r : Ref sig .tc) (h : r ∉ q6_W) :
    after q6 V (Proc.devRef .tc r) = V (Proc.devRef .tc r) :=
  after_of_writes_sub q6 V q6_writes h

/-- The window is its seven steps in order. -/
theorem ops_part3_split : (ops_part3 : List (HloOp τ sig (Elt F))) = q0 ++ (q1 ++ (q2 ++ (q3 ++ (q4 ++ (q5 ++ q6))))) := by
  chain_rfl

/-! ## Each step evaluated, from any contents -/

section Steps
variable (V : Valuation τ sig (Elt Ideal))

/-- The third branch's affine normalisation, from the centred and scaled array, the variance and the constant. -/
theorem q0_v153 : (after q0 V (Proc.devRef .tc main_v153) : FVec Ideal S40000x128 .f32) = addf (mulf (V (Proc.devRef .tc main_v144) : FVec Ideal S40000x128 .f32) (spread (Host.rsqrt (addf (V (Proc.devRef .tc main_v138) : FVec Ideal S128 .f32) (V (Proc.devRef .tc main_v145) : FVec Ideal S128 .f32))))) (spread (V (Proc.devRef .tc main_arg13) : FVec Ideal S128 .f32)) := by
  host_eval
  rfl
/-- The first branch's PReLU. -/
theorem q1_v159 : (after q1 V (Proc.devRef .tc main_v159) : FVec Ideal S40000x128 .f32) = preluR (V (Proc.devRef .tc main_v115) : FVec Ideal S40000x128 .f32) (V (Proc.devRef .tc main_arg14) : FVec Ideal S1 .f32) := by
  host_eval
  rfl
/-- The second branch's. -/
theorem q2_v165 : (after q2 V (Proc.devRef .tc main_v165) : FVec Ideal S40000x128 .f32) = preluR (V (Proc.devRef .tc main_v134) : FVec Ideal S40000x128 .f32) (V (Proc.devRef .tc main_arg14) : FVec Ideal S1 .f32) := by
  host_eval
  rfl
/-- The third branch's. -/
theorem q3_v171 : (after q3 V (Proc.devRef .tc main_v171) : FVec Ideal S40000x128 .f32) = preluR (V (Proc.devRef .tc main_v153) : FVec Ideal S40000x128 .f32) (V (Proc.devRef .tc main_arg14) : FVec Ideal S1 .f32) := by
  host_eval
  rfl
/-- The three branches side by side, -/
theorem q4_v172 : (after q4 V (Proc.devRef .tc main_v172) : FVec Ideal S40000x384 .f32) = concatenate S40000x384 1 [⟨S40000x128, (V (Proc.devRef .tc main_v159) : FVec Ideal S40000x128 .f32)⟩, ⟨S40000x128, (V (Proc.devRef .tc main_v165) : FVec Ideal S40000x128 .f32)⟩, ⟨S40000x128, (V (Proc.devRef .tc main_v171) : FVec Ideal S40000x128 .f32)⟩] concatenates_S40000x128_S40000x128_S40000x128_S40000x384_d1 := by
  host_eval
  rfl
/-- and their product with the output weights. -/
theorem q4_v173 : (after q4 V (Proc.devRef .tc main_v173) : FVec Ideal S40000x128 .f32) = embR (V (Proc.devRef .tc main_v159) : FVec Ideal S40000x128 .f32) (V (Proc.devRef .tc main_v165) : FVec Ideal S40000x128 .f32) (V (Proc.devRef .tc main_v171) : FVec Ideal S40000x128 .f32) (V (Proc.devRef .tc main_arg15) : FVec Ideal S384x128 .f32) := by
  host_eval
  rfl
/-- The rows' Euclidean norms, a column. -/
theorem q5_v174 : (after q5 V (Proc.devRef .tc main_v174) : FVec Ideal S40000x1 .f32) = (Host.sqrt (broadcastInDim S40000x1 ![0] bcast_S40000_S40000x1_0 (Host.reduceAdd (mulf (V (Proc.devRef .tc main_v173) : FVec Ideal S40000x128 .f32) (V (Proc.devRef .tc main_v173) : FVec Ideal S40000x128 .f32)) (constant S_ .f32 0x00000000#32) reducesTo_S40000x128_S40000_d1 h_S_)) : FVec Ideal S40000x1 .f32) := by
  host_eval
  rfl
/-- Each row of the product divided by the larger of its norm and the constant. -/
theorem q6_v178 : (after q6 V (Proc.devRef .tc main_v178) : FVec Ideal S40000x128 .f32) = (Host.divf (V (Proc.devRef .tc main_v173) : FVec Ideal S40000x128 .f32) (broadcastInDim S40000x128 ![0, 1] bcast_S40000x1_S40000x128_0_1 (maximumf (V (Proc.devRef .tc main_v174) : FVec Ideal S40000x1 .f32) (broadcastInDim S40000x1 ![] bcast_S_S40000x1 (constant S_ .f32 0x2B8CBCCC#32)))) : FVec Ideal S40000x128 .f32) := by
  host_eval
end Steps

/-! ## The window's stages -/

set_option maxHeartbeats 4000000 in
/-- The fourth window: the normalised third branch, the three PReLUs, the branches side by side, the product with
    the output weights, the rows' norms and the quotient. -/
theorem val4_stages (W : Valuation τ sig (Elt Ideal)) :
    (val4 W (Proc.devRef .tc main_v153) : FVec Ideal S40000x128 .f32) = bnR (val2 W (Proc.devRef .tc main_v96) : FVec Ideal S40000x128 .f32) (W (Proc.devRef .tc main_arg12) : FVec Ideal S128 .f32) (W (Proc.devRef .tc main_arg13) : FVec Ideal S128 .f32)
    ∧ (val4 W (Proc.devRef .tc main_v159) : FVec Ideal S40000x128 .f32) = preluR (val3 W (Proc.devRef .tc main_v115) : FVec Ideal S40000x128 .f32) (W (Proc.devRef .tc main_arg14) : FVec Ideal S1 .f32)
    ∧ (val4 W (Proc.devRef .tc main_v165) : FVec Ideal S40000x128 .f32) = preluR (val3 W (Proc.devRef .tc main_v134) : FVec Ideal S40000x128 .f32) (W (Proc.devRef .tc main_arg14) : FVec Ideal S1 .f32)
    ∧ (val4 W (Proc.devRef .tc main_v171) : FVec Ideal S40000x128 .f32) = preluR (val4 W (Proc.devRef .tc main_v153) : FVec Ideal S40000x128 .f32) (W (Proc.devRef .tc main_arg14) : FVec Ideal S1 .f32)
    ∧ (val4 W (Proc.devRef .tc main_v172) : FVec Ideal S40000x384 .f32) = concatenate S40000x384 1 [⟨S40000x128, (val4 W (Proc.devRef .tc main_v159) : FVec Ideal S40000x128 .f32)⟩, ⟨S40000x128, (val4 W (Proc.devRef .tc main_v165) : FVec Ideal S40000x128 .f32)⟩, ⟨S40000x128, (val4 W (Proc.devRef .tc main_v171) : FVec Ideal S40000x128 .f32)⟩] concatenates_S40000x128_S40000x128_S40000x128_S40000x384_d1
    ∧ (val4 W (Proc.devRef .tc main_v173) : FVec Ideal S40000x128 .f32) = embR (val4 W (Proc.devRef .tc main_v159) : FVec Ideal S40000x128 .f32) (val4 W (Proc.devRef .tc main_v165) : FVec Ideal S40000x128 .f32) (val4 W (Proc.devRef .tc main_v171) : FVec Ideal S40000x128 .f32) (W (Proc.devRef .tc main_arg15) : FVec Ideal S384x128 .f32)
    ∧ (val4 W (Proc.devRef .tc main_v174) : FVec Ideal S40000x1 .f32) = (Host.sqrt (broadcastInDim S40000x1 ![0] bcast_S40000_S40000x1_0 (Host.reduceAdd (mulf (val4 W (Proc.devRef .tc main_v173) : FVec Ideal S40000x128 .f32) (val4 W (Proc.devRef .tc main_v173) : FVec Ideal S40000x128 .f32)) (constant S_ .f32 0x00000000#32) reducesTo_S40000x128_S40000_d1 h_S_)) : FVec Ideal S40000x1 .f32)
    ∧ (val4 W (Proc.devRef .tc main_v178) : FVec Ideal S40000x128 .f32) = normR (val4 W (Proc.devRef .tc main_v173) : FVec Ideal S40000x128 .f32) := by
  have e : val4 W = after q6 (after q5 (after q4 (after q3 (after q2 (after q1 (after q0 (val3 W))))))) := by
    unfold val4
    rw [ops_part3_split]
    simp only [after_append]
  rw [e]
  refine ⟨?_, ?_, ?_, ?_, ?_, ?_, ?_, ?_⟩
  · rw [q6_keep _ main_v153 (by decide),
      q5_keep _ main_v153 (by decide),
      q4_keep _ main_v153 (by decide),
      q3_keep _ main_v153 (by decide),
      q2_keep _ main_v153 (by decide),
      q1_keep _ main_v153 (by decide),
      q0_v153,
      (val3_stages W).2.2.1,
      (val3_stages W).2.2.2.1,
      (val3_stages W).2.2.2.2,
      val3_keep W main_arg13 (by decide),
      val2_keep W main_arg13 (by decide),
      val1_keep W main_arg13 (by decide)]
    rfl
  · rw [q6_keep _ main_v159 (by decide),
      q5_keep _ main_v159 (by decide),
      q4_keep _ main_v159 (by decide),
      q3_keep _ main_v159 (by decide),
      q2_keep _ main_v159 (by decide),
      q1_v159,
      q0_keep _ main_v115 (by decide),
      q0_keep _ main_arg14 (by decide),
      val3_keep W main_arg14 (by decide),
      val2_keep W main_arg14 (by decide),
      val1_keep W main_arg14 (by decide)]
  · rw [q6_keep _ main_v165 (by decide),
      q5_keep _ main_v165 (by decide),
      q4_keep _ main_v165 (by decide),
      q3_keep _ main_v165 (by decide),
      q2_v165,
      q1_keep _ main_v134 (by decide),
      q0_keep _ main_v134 (by decide),
      q1_keep _ main_arg14 (by decide),
      q0_keep _ main_arg14 (by decide),
      val3_keep W main_arg14 (by decide),
      val2_keep W main_arg14 (by decide),
      val1_keep W main_arg14 (by decide)]
  · rw [q6_keep _ main_v171 (by decide),
      q5_keep _ main_v171 (by decide),
      q4_keep _ main_v171 (by decide),
      q3_v171,
      q6_keep _ main_v153 (by decide),
      q5_keep _ main_v153 (by decide),
      q4_keep _ main_v153 (by decide),
      q3_keep _ main_v153 (by decide),
      q2_keep _ main_v153 (by decide),
      q1_keep _ main_v153 (by decide),
      q2_keep _ main_arg14 (by decide),
      q1_keep _ main_arg14 (by decide),
      q0_keep _ main_arg14 (by decide),
      val3_keep W main_arg14 (by decide),
      val2_keep W main_arg14 (by decide),
      val1_keep W main_arg14 (by decide)]
  · rw [q6_keep _ main_v172 (by decide),
      q5_keep _ main_v172 (by decide),
      q4_v172,
      q6_keep _ main_v159 (by decide),
      q5_keep _ main_v159 (by decide),
      q4_keep _ main_v159 (by decide),
      q3_keep _ main_v159 (by decide),
      q2_keep _ main_v159 (by decide),
      q6_keep _ main_v165 (by decide),
      q5_keep _ main_v165 (by decide),
      q4_keep _ main_v165 (by decide),
      q3_keep _ main_v165 (by decide),
      q6_keep _ main_v171 (by decide),
      q5_keep _ main_v171 (by decide),
      q4_keep _ main_v171 (by decide)]
  · rw [q6_keep _ main_v173 (by decide),
      q5_keep _ main_v173 (by decide),
      q4_v173,
      q6_keep _ main_v159 (by decide),
      q5_keep _ main_v159 (by decide),
      q4_keep _ main_v159 (by decide),
      q3_keep _ main_v159 (by decide),
      q2_keep _ main_v159 (by decide),
      q6_keep _ main_v165 (by decide),
      q5_keep _ main_v165 (by decide),
      q4_keep _ main_v165 (by decide),
      q3_keep _ main_v165 (by decide),
      q6_keep _ main_v171 (by decide),
      q5_keep _ main_v171 (by decide),
      q4_keep _ main_v171 (by decide),
      q3_keep _ main_arg15 (by decide),
      q2_keep _ main_arg15 (by decide),
      q1_keep _ main_arg15 (by decide),
      q0_keep _ main_arg15 (by decide),
      val3_keep W main_arg15 (by decide),
      val2_keep W main_arg15 (by decide),
      val1_keep W main_arg15 (by decide)]
  · rw [q6_keep _ main_v174 (by decide),
      q5_v174,
      q6_keep _ main_v173 (by decide),
      q5_keep _ main_v173 (by decide)]
  · rw [q6_v178,
      q6_keep _ main_v173 (by decide),
      q5_keep _ main_v173 (by decide),
      q5_v174]
    rfl

end Cert.ReferenceIdeal.Hand

end
-- ==== Proof.RefEval.lean ====
/- The reference program's result, stage by stage.
   The line of 284 operations computes, in order: three projections of the features; on the second and the third a
   two-step sparse recurrence (each step gathers source rows, scales them by the edge weights and adds them into the
   destination rows); per branch the column mean and variance, the affine normalisation built from them and a
   PReLU; the three branches side by side times the output weights; and the quotient of each row by the larger of
   its Euclidean norm and a constant. Each stage buffer is written once, so at the end of the line it holds what its
   window left in it: a function of the argument contents and of the earlier stages' buffers. Composed, they give
   the result as one function of the sixteen arguments. -/
import proofs.«110036_j83382495085286_1_alg».proof.Proof.RefEval4
import proofs.«110036_j83382495085286_1_alg».proof.Proof.RefTail

set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The stages, at the end of the line

Each stage buffer is written once and never again, so at the end of the line it holds what its window left in it. -/

/-- The first projection of the features. -/
theorem after_main_v0 (W : Valuation τ sig (Elt F)) :
    (after ops W (Proc.devRef .tc main_v0) : FVec F S40000x128 .f32) = Host.dotGeneral dot_S40000x128_S128x128_S40000x128_1_0_0_1_n_n none (W (Proc.devRef .tc main_arg0) : FVec F S40000x128 .f32) (W (Proc.devRef .tc main_arg5) : FVec F S128x128 .f32) := by
  rw [after_ops_eq1 W main_v0 (by decide) (by decide) (by decide)]
  exact (val1_stages W).1
/-- The second projection. -/
theorem after_main_v1 (W : Valuation τ sig (Elt F)) :
    (after ops W (Proc.devRef .tc main_v1) : FVec F S40000x128 .f32) = Host.dotGeneral dot_S40000x128_S128x128_S40000x128_1_0_0_1_n_n none (W (Proc.devRef .tc main_arg0) : FVec F S40000x128 .f32) (W (Proc.devRef .tc main_arg6) : FVec F S128x128 .f32) := by
  rw [after_ops_eq1 W main_v1 (by decide) (by decide) (by decide)]
  exact (val1_stages W).2.1
/-- The third projection. -/
theorem after_main_v2 (W : Valuation τ sig (Elt F)) :
    (after ops W (Proc.devRef .tc main_v2) : FVec F S40000x128 .f32) = Host.dotGeneral dot_S40000x128_S128x128_S40000x128_1_0_0_1_n_n none (W (Proc.devRef .tc main_arg0) : FVec F S40000x128 .f32) (W (Proc.devRef .tc main_arg7) : FVec F S128x128 .f32) := by
  rw [after_ops_eq1 W main_v2 (by decide) (by decide) (by decide)]
  exact (val1_stages W).2.2.1
/-- The first step of the recurrence on the second projection. -/
theorem after_main_v24 (W : Valuation τ sig (Elt F)) :
    (after ops W (Proc.devRef .tc main_v24) : FVec F S40000x128 .f32) = jac1 (after ops W (Proc.devRef .tc main_v1) : FVec F S40000x128 .f32) (W (Proc.devRef .tc main_arg1) : IVec S2x640000 32) (W (Proc.devRef .tc main_arg2) : FVec F S640000 .f32) := by
  rw [after_ops_eq1 W main_v24 (by decide) (by decide) (by decide), after_ops_eq1 W main_v1 (by decide) (by decide) (by decide)]
  exact (val1_stages W).2.2.2.1
/-- Its second step. -/
theorem after_main_v49 (W : Valuation τ sig (Elt F)) :
    (after ops W (Proc.devRef .tc main_v49) : FVec F S40000x128 .f32) = jac2 (after ops W (Proc.devRef .tc main_v24) : FVec F S40000x128 .f32) (after ops W (Proc.devRef .tc main_v1) : FVec F S40000x128 .f32) (W (Proc.devRef .tc main_arg1) : IVec S2x640000 32) (W (Proc.devRef .tc main_arg2) : FVec F S640000 .f32) := by
  rw [after_ops_eq2 W main_v49 (by decide) (by decide), after_ops_eq1 W main_v24 (by decide) (by decide) (by decide), after_ops_eq1 W main_v1 (by decide) (by decide) (by decide)]
  exact (val2_stages W).1
/-- The first step of the recurrence on the third projection. -/
theorem after_main_v71 (W : Valuation τ sig (Elt F)) :
    (after ops W (Proc.devRef .tc main_v71) : FVec F S40000x128 .f32) = jac1 (after ops W (Proc.devRef .tc main_v2) : FVec F S40000x128 .f32) (W (Proc.devRef .tc main_arg3) : IVec S2x640000 32) (W (Proc.devRef .tc main_arg4) : FVec F S640000 .f32) := by
  rw [after_ops_eq2 W main_v71 (by decide) (by decide), after_ops_eq1 W main_v2 (by decide) (by decide) (by decide)]
  exact (val2_stages W).2.1
/-- Its second step. -/
theorem after_main_v96 (W : Valuation τ sig (Elt F)) :
    (after ops W (Proc.devRef .tc main_v96) : FVec F S40000x128 .f32) = jac2 (after ops W (Proc.devRef .tc main_v71) : FVec F S40000x128 .f32) (after ops W (Proc.devRef .tc main_v2) : FVec F S40000x128 .f32) (W (Proc.devRef .tc main_arg3) : IVec S2x640000 32) (W (Proc.devRef .tc main_arg4) : FVec F S640000 .f32) := by
  rw [after_ops_eq2 W main_v96 (by decide) (by decide), after_ops_eq2 W main_v71 (by decide) (by decide), after_ops_eq1 W main_v2 (by decide) (by decide) (by decide)]
  exact (val2_stages W).2.2.1
/-- The first branch normalised. -/
theorem after_main_v115 (W : Valuation τ sig (Elt Ideal)) :
    (after ops W (Proc.devRef .tc main_v115) : FVec Ideal S40000x128 .f32) = bnR (after ops W (Proc.devRef .tc main_v0) : FVec Ideal S40000x128 .f32) (W (Proc.devRef .tc main_arg8) : FVec Ideal S128 .f32) (W (Proc.devRef .tc main_arg9) : FVec Ideal S128 .f32) := by
  rw [after_ops_eq3 W main_v115 (by decide), after_ops_eq1 W main_v0 (by decide) (by decide) (by decide)]
  exact (val3_stages W).1
/-- The second branch normalised. -/
theorem after_main_v134 (W : Valuation τ sig (Elt Ideal)) :
    (after ops W (Proc.devRef .tc main_v134) : FVec Ideal S40000x128 .f32) = bnR (after ops W (Proc.devRef .tc main_v49) : FVec Ideal S40000x128 .f32) (W (Proc.devRef .tc main_arg10) : FVec Ideal S128 .f32) (W (Proc.devRef .tc main_arg11) : FVec Ideal S128 .f32) := by
  rw [after_ops_eq3 W main_v134 (by decide), after_ops_eq2 W main_v49 (by decide) (by decide)]
  exact (val3_stages W).2.1
/-- The third branch normalised. -/
theorem after_main_v153 (W : Valuation τ sig (Elt Ideal)) :
    (after ops W (Proc.devRef .tc main_v153) : FVec Ideal S40000x128 .f32) = bnR (after ops W (Proc.devRef .tc main_v96) : FVec Ideal S40000x128 .f32) (W (Proc.devRef .tc main_arg12) : FVec Ideal S128 .f32) (W (Proc.devRef .tc main_arg13) : FVec Ideal S128 .f32) := by
  rw [after_ops_eq4 W main_v153, after_ops_eq2 W main_v96 (by decide) (by decide)]
  exact (val4_stages W).1
/-- The first branch's PReLU. -/
theorem after_main_v159 (W : Valuation τ sig (Elt Ideal)) :
    (after ops W (Proc.devRef .tc main_v159) : FVec Ideal S40000x128 .f32) = preluR (after ops W (Proc.devRef .tc main_v115) : FVec Ideal S40000x128 .f32) (W (Proc.devRef .tc main_arg14) : FVec Ideal S1 .f32) := by
  rw [after_ops_eq4 W main_v159, after_ops_eq3 W main_v115 (by decide)]
  exact (val4_stages W).2.1
/-- The second branch's PReLU. -/
theorem after_main_v165 (W : Valuation τ sig (Elt Ideal)) :
    (after ops W (Proc.devRef .tc main_v165) : FVec Ideal S40000x128 .f32) = preluR (after ops W (Proc.devRef .tc main_v134) : FVec Ideal S40000x128 .f32) (W (Proc.devRef .tc main_arg14) : FVec Ideal S1 .f32) := by
  rw [after_ops_eq4 W main_v165, after_ops_eq3 W main_v134 (by decide)]
  exact (val4_stages W).2.2.1
/-- The third branch's PReLU. -/
theorem after_main_v171 (W : Valuation τ sig (Elt Ideal)) :
    (after ops W (Proc.devRef .tc main_v171) : FVec Ideal S40000x128 .f32) = preluR (after ops W (Proc.devRef .tc main_v153) : FVec Ideal S40000x128 .f32) (W (Proc.devRef .tc main_arg14) : FVec Ideal S1 .f32) := by
  rw [after_ops_eq4 W main_v171, after_ops_eq4 W main_v153]
  exact (val4_stages W).2.2.2.1
/-- The three branches side by side. -/
theorem after_main_v172 (W : Valuation τ sig (Elt Ideal)) :
    (after ops W (Proc.devRef .tc main_v172) : FVec Ideal S40000x384 .f32) = concatenate S40000x384 1 [⟨S40000x128, (after ops W (Proc.devRef .tc main_v159) : FVec Ideal S40000x128 .f32)⟩, ⟨S40000x128, (after ops W (Proc.devRef .tc main_v165) : FVec Ideal S40000x128 .f32)⟩, ⟨S40000x128, (after ops W (Proc.devRef .tc main_v171) : FVec Ideal S40000x128 .f32)⟩] concatenates_S40000x128_S40000x128_S40000x128_S40000x384_d1 := by
  rw [after_ops_eq4 W main_v172, after_ops_eq4 W main_v159, after_ops_eq4 W main_v165, after_ops_eq4 W main_v171]
  exact (val4_stages W).2.2.2.2.1
/-- Their product with the output weights. -/
theorem after_main_v173 (W : Valuation τ sig (Elt Ideal)) :
    (after ops W (Proc.devRef .tc main_v173) : FVec Ideal S40000x128 .f32) = embR (after ops W (Proc.devRef .tc main_v159) : FVec Ideal S40000x128 .f32) (after ops W (Proc.devRef .tc main_v165) : FVec Ideal S40000x128 .f32) (after ops W (Proc.devRef .tc main_v171) : FVec Ideal S40000x128 .f32) (W (Proc.devRef .tc main_arg15) : FVec Ideal S384x128 .f32) := by
  rw [after_ops_eq4 W main_v173, after_ops_eq4 W main_v159, after_ops_eq4 W main_v165, after_ops_eq4 W main_v171]
  exact (val4_stages W).2.2.2.2.2.1
/-- The rows' Euclidean norms, a column. -/
theorem after_main_v174 (W : Valuation τ sig (Elt Ideal)) :
    (after ops W (Proc.devRef .tc main_v174) : FVec Ideal S40000x1 .f32) = (Host.sqrt (broadcastInDim S40000x1 ![0] bcast_S40000_S40000x1_0 (Host.reduceAdd (mulf (after ops W (Proc.devRef .tc main_v173) : FVec Ideal S40000x128 .f32) (after ops W (Proc.devRef .tc main_v173) : FVec Ideal S40000x128 .f32)) (constant S_ .f32 0x00000000#32) reducesTo_S40000x128_S40000_d1 h_S_)) : FVec Ideal S40000x1 .f32) := by
  rw [after_ops_eq4 W main_v174, after_ops_eq4 W main_v173]
  exact (val4_stages W).2.2.2.2.2.2.1
/-- The result: each row of the product divided by the larger of its norm and the constant. -/
theorem after_main_v178 (W : Valuation τ sig (Elt Ideal)) :
    (after ops W (Proc.devRef .tc main_v178) : FVec Ideal S40000x128 .f32) = normR (after ops W (Proc.devRef .tc main_v173) : FVec Ideal S40000x128 .f32) := by
  rw [after_ops_eq4 W main_v178, after_ops_eq4 W main_v173]
  exact (val4_stages W).2.2.2.2.2.2.2

/-! ## The result as one function of the arguments -/

/-- The reference's result from its sixteen arguments: the projections, the recurrence on the second and third, the
    three normalised branches through PReLU, their product with the output weights, row-normalised. -/
def refOutTerm (a0 : FVec Ideal S40000x128 .f32) (a1 : IVec S2x640000 32) (a2 : FVec Ideal S640000 .f32) (a3 : IVec S2x640000 32) (a4 : FVec Ideal S640000 .f32)
    (a5 a6 a7 : FVec Ideal S128x128 .f32) (a8 a9 a10 a11 a12 a13 : FVec Ideal S128 .f32) (a14 : FVec Ideal S1 .f32) (a15 : FVec Ideal S384x128 .f32) :
    FVec Ideal S40000x128 .f32 :=
  let X0 := Host.dotGeneral dot_S40000x128_S128x128_S40000x128_1_0_0_1_n_n none a0 a5
  let D1 := Host.dotGeneral dot_S40000x128_S128x128_S40000x128_1_0_0_1_n_n none a0 a6
  let D2 := Host.dotGeneral dot_S40000x128_S128x128_S40000x128_1_0_0_1_n_n none a0 a7
  let X1 := jac2 (jac1 D1 a1 a2) D1 a1 a2
  let X2 := jac2 (jac1 D2 a3 a4) D2 a3 a4
  normR (embR (preluR (bnR X0 a8 a9) a14) (preluR (bnR X1 a10 a11) a14) (preluR (bnR X2 a12 a13) a14) a15)

/-- At the end of the line the result buffer holds that function of the argument buffers' launch contents. -/
theorem after_main_v178_eq (W : Valuation τ sig (Elt Ideal)) :
    (after ops W (Proc.devRef .tc main_v178) : FVec Ideal S40000x128 .f32) = refOutTerm (W (Proc.devRef .tc main_arg0) : FVec Ideal S40000x128 .f32) (W (Proc.devRef .tc main_arg1) : IVec S2x640000 32) (W (Proc.devRef .tc main_arg2) : FVec Ideal S640000 .f32) (W (Proc.devRef .tc main_arg3) : IVec S2x640000 32) (W (Proc.devRef .tc main_arg4) : FVec Ideal S640000 .f32) (W (Proc.devRef .tc main_arg5) : FVec Ideal S128x128 .f32) (W (Proc.devRef .tc main_arg6) : FVec Ideal S128x128 .f32) (W (Proc.devRef .tc main_arg7) : FVec Ideal S128x128 .f32) (W (Proc.devRef .tc main_arg8) : FVec Ideal S128 .f32) (W (Proc.devRef .tc main_arg9) : FVec Ideal S128 .f32) (W (Proc.devRef .tc main_arg10) : FVec Ideal S128 .f32) (W (Proc.devRef .tc main_arg11) : FVec Ideal S128 .f32) (W (Proc.devRef .tc main_arg12) : FVec Ideal S128 .f32) (W (Proc.devRef .tc main_arg13) : FVec Ideal S128 .f32) (W (Proc.devRef .tc main_arg14) : FVec Ideal S1 .f32) (W (Proc.devRef .tc main_arg15) : FVec Ideal S384x128 .f32) := by
  rw [after_main_v178, after_main_v173, after_main_v159, after_main_v165, after_main_v171, after_main_v115, after_main_v134,
    after_main_v153, after_main_v49, after_main_v96, after_main_v24, after_main_v71, after_main_v0, after_main_v1, after_main_v2]
  rfl

/-- The same at the contents a run is launched from. -/
theorem ref_out (m : (ℓ : Loc nD τ sig) → Buf (Elt Ideal) ℓ) (c : Dev nD) :
    (after ops (launchContents m c) (Proc.devRef .tc main_v178) : FVec Ideal S40000x128 .f32)
      = refOutTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  after_main_v178_eq (launchContents m c)

end Cert.ReferenceIdeal.Hand

end
-- ==== Proof.RefOut.lean ====
/-
  The reference's result as the pure tail of its three branches.

  The reference projects the features three times, runs the second and the third projection through a two-step
  sparse recurrence, applies batch-norm and PReLU to each of the three arrays with its own scale and shift and
  the shared slope, lays the three side by side, multiplies by the output weights and normalises the rows. Each
  projection is a matrix product, each branch is the pure branch, and the last operations are the pure tail of
  the branches side by side; whatever the recurrence computes enters only as the array the branch is applied to.
-/
import proofs.«110036_j83382495085286_1_alg».proof.Proof.RefEval
import proofs.«110036_j83382495085286_1_alg».proof.Proof.RefTail
import proofs.«110036_j83382495085286_1_alg».proof.Proof.Slope

set_option maxRecDepth 8192

noncomputable section

open scoped BigOperators

namespace Cert.ReferenceIdeal.Hand

open Cert.ReferenceIdeal Cert.ReferenceIdeal.Facts₀ Cert.ReferenceIdeal.Facts Cert.Spec
open Idealize.ShloMosaic Idealize.ShloMosaic.ValueIdx Idealize.ShloMosaic.TcCoe Idealize.SL.Sem Idealize.ShloMosaic.StableHlo

/-- The reference's last operations on three branches — each a projection of the features, the second and the
    third passed through maps J1, J2 first — are the pure tail of the pure branches of the matrix products. -/
theorem refOut_pure (a0 : FVec Ideal S40000x128 .f32) (a5 a6 a7 : FVec Ideal S128x128 .f32)
    (J1 J2 : FVec Ideal S40000x128 .f32 → FVec Ideal S40000x128 .f32)
    (a8 a9 a10 a11 a12 a13 : FVec Ideal S128 .f32) (a14 : FVec Ideal S1 .f32) (a15 : FVec Ideal S384x128 .f32) :
    normR (embR
        (preluR (bnR (Host.dotGeneral dot_S40000x128_S128x128_S40000x128_1_0_0_1_n_n none a0 a5) a8 a9) a14)
        (preluR (bnR (J1 (Host.dotGeneral dot_S40000x128_S128x128_S40000x128_1_0_0_1_n_n none a0 a6)) a10 a11) a14)
        (preluR (bnR (J2 (Host.dotGeneral dot_S40000x128_S128x128_S40000x128_1_0_0_1_n_n none a0 a7)) a12 a13) a14)
        a15)
      = refTail ![mm a0 a5, J1 (mm a0 a6), J2 (mm a0 a7)] ![a8, a10, a12] ![a9, a11, a13] (slope a14) a15 dnT nanT := by
  rw [proj_eq a0 a5, proj_eq a0 a6, proj_eq a0 a7, tailR_eq, refTail_eq_tailP,
    branch_eq (mm a0 a5) a8 a9 a14 (slope a14) rfl, branch_eq (J1 (mm a0 a6)) a10 a11 a14 (slope a14) rfl,
    branch_eq (J2 (mm a0 a7)) a12 a13 a14 (slope a14) rfl]
  refine congrArg (fun f => tailP (catC f) a15) ?_
  funext s
  fin_cases s <;> rfl

/-- The reference's function of its sixteen arguments is the pure tail of the pure branches of the first
    projection and of the recurrence applied to the second and the third. -/
theorem refOutTerm_eq (a0 : FVec Ideal S40000x128 .f32) (a1 : IVec S2x640000 32) (a2 : FVec Ideal S640000 .f32)
    (a3 : IVec S2x640000 32) (a4 : FVec Ideal S640000 .f32) (a5 a6 a7 : FVec Ideal S128x128 .f32)
    (a8 a9 a10 a11 a12 a13 : FVec Ideal S128 .f32) (a14 : FVec Ideal S1 .f32) (a15 : FVec Ideal S384x128 .f32) :
    refOutTerm a0 a1 a2 a3 a4 a5 a6 a7 a8 a9 a10 a11 a12 a13 a14 a15
      = refTail
          ![mm a0 a5,
            jac2 (F := Ideal) (jac1 (F := Ideal) (mm a0 a6) a1 a2) (mm a0 a6) a1 a2,
            jac2 (F := Ideal) (jac1 (F := Ideal) (mm a0 a7) a3 a4) (mm a0 a7) a3 a4]
          ![a8, a10, a12] ![a9, a11, a13] (slope a14) a15 dnT nanT :=
  refOut_pure a0 a5 a6 a7 (fun D => jac2 (jac1 D a1 a2) D a1 a2) (fun D => jac2 (jac1 D a3 a4) D a3 a4)
    a8 a9 a10 a11 a12 a13 a14 a15

/-- After the reference's run from contents m, the result buffer on core c holds that pure function of the
    argument buffers' contents. -/
theorem rOut_eq (m : (ℓ : Loc nD τ sig) → Buf (Elt Ideal) ℓ) (c : Dev nD) :
    (StableHlo.after ops (launchContents m c) (Proc.devRef .tc main_v178) : FVec Ideal S40000x128 .f32)
      = refTail
          ![mm (m ((c.tc : Thread nD τ).loc main_arg0) : FVec Ideal S40000x128 .f32) (m ((c.tc : Thread nD τ).loc main_arg5) : FVec Ideal S128x128 .f32),
            jac2 (F := Ideal) (jac1 (F := Ideal) (mm (m ((c.tc : Thread nD τ).loc main_arg0) : FVec Ideal S40000x128 .f32) (m ((c.tc : Thread nD τ).loc main_arg6) : FVec Ideal S128x128 .f32)) (m ((c.tc : Thread nD τ).loc main_arg1) : IVec S2x640000 32) (m ((c.tc : Thread nD τ).loc main_arg2) : FVec Ideal S640000 .f32)) (mm (m ((c.tc : Thread nD τ).loc main_arg0) : FVec Ideal S40000x128 .f32) (m ((c.tc : Thread nD τ).loc main_arg6) : FVec Ideal S128x128 .f32)) (m ((c.tc : Thread nD τ).loc main_arg1) : IVec S2x640000 32) (m ((c.tc : Thread nD τ).loc main_arg2) : FVec Ideal S640000 .f32),
            jac2 (F := Ideal) (jac1 (F := Ideal) (mm (m ((c.tc : Thread nD τ).loc main_arg0) : FVec Ideal S40000x128 .f32) (m ((c.tc : Thread nD τ).loc main_arg7) : FVec Ideal S128x128 .f32)) (m ((c.tc : Thread nD τ).loc main_arg3) : IVec S2x640000 32) (m ((c.tc : Thread nD τ).loc main_arg4) : FVec Ideal S640000 .f32)) (mm (m ((c.tc : Thread nD τ).loc main_arg0) : FVec Ideal S40000x128 .f32) (m ((c.tc : Thread nD τ).loc main_arg7) : FVec Ideal S128x128 .f32)) (m ((c.tc : Thread nD τ).loc main_arg3) : IVec S2x640000 32) (m ((c.tc : Thread nD τ).loc main_arg4) : FVec Ideal S640000 .f32)]
          ![(m ((c.tc : Thread nD τ).loc main_arg8) : FVec Ideal S128 .f32), (m ((c.tc : Thread nD τ).loc main_arg10) : FVec Ideal S128 .f32), (m ((c.tc : Thread nD τ).loc main_arg12) : FVec Ideal S128 .f32)] ![(m ((c.tc : Thread nD τ).loc main_arg9) : FVec Ideal S128 .f32), (m ((c.tc : Thread nD τ).loc main_arg11) : FVec Ideal S128 .f32), (m ((c.tc : Thread nD τ).loc main_arg13) : FVec Ideal S128 .f32)] (slope (m ((c.tc : Thread nD τ).loc main_arg14) : FVec Ideal S1 .f32)) (m ((c.tc : Thread nD τ).loc main_arg15) : FVec Ideal S384x128 .f32) dnT nanT :=
  (ref_out m c).trans (refOutTerm_eq _ _ _ _ _ _ _ _ _ _ _ _ _ _ _ _)

end Cert.ReferenceIdeal.Hand

end
-- ==== Proof.lean ====
/-
  The five claims of this certificate.

  The kernel's program computes, in a first launch, the product of the features with the three weight matrices laid
  side by side; on the host, the sparse Jacobi recurrence on the second and third column blocks, the column
  statistics of the three blocks laid side by side again; and in a second launch batch-norm, PReLU, the product
  with the last weight matrix and the row normalisation.  The reference computes three separate products, the
  same recurrence, batch-norm and PReLU block by block, lays the blocks side by side, multiplies and normalises.

  Frames: each program runs to the end without a fault and leaves its sixteen arguments as they were — for the two
  kernel programs through both launches and the host operations around them, for the reference through its host
  operations alone.  The idealisation rewrote nothing, so that claim is trivial.  Values: on the extended reals
  both results are one pure function of the arguments (the reference's tail applied to the three products, two of
  them through the recurrence): the column blocks of a product against concatenated weights are the products
  against each weight; the statistics of a column of the concatenation are those of the same column of its block;
  so the activations the two programs multiply by the last weights agree entry by entry, and the only other
  difference is a sum of squares started from an explicit zero.  No step needs the inputs to be finite.
-/
import proofs.«110036_j83382495085286_1_alg».proof.Defs
import proofs.«110036_j83382495085286_1_alg».proof.Proof.Gen.Kernel
import proofs.«110036_j83382495085286_1_alg».proof.Proof.Gen.KernelIdeal
import proofs.«110036_j83382495085286_1_alg».proof.Proof.Gen.ReferenceIdeal
import proofs.«110036_j83382495085286_1_alg».proof.Proof.Gen.Pre_finite_inputs
import proofs.«110036_j83382495085286_1_alg».proof.Proof.KRun
import proofs.«110036_j83382495085286_1_alg».proof.Proof.KIRun
import proofs.«110036_j83382495085286_1_alg».proof.Proof.KIOut
import proofs.«110036_j83382495085286_1_alg».proof.Proof.RefRun
import proofs.«110036_j83382495085286_1_alg».proof.Proof.RefEval
import proofs.«110036_j83382495085286_1_alg».proof.Proof.RefOut
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_kernel : Cert.frame_Kernel := fun m ρ _ => Cert.Kernel.Hand.frame m ρ

/-- So does its idealisation. -/
theorem frame_kernelIdeal : Cert.frame_KernelIdeal := fun m ρ _ => Cert.KernelIdeal.Hand.frame m ρ

/-- So does the reference. -/
theorem frame_referenceIdeal : Cert.frame_ReferenceIdeal := fun m ρ _ => Cert.ReferenceIdeal.Hand.frame m ρ

/-- The idealisation rewrote no operation. -/
theorem preserves : Cert.preserves_Kernel_KernelIdeal := trivial

/-- On the extended reals the two programs, run from memories that agree on the arguments, end with the same
    result: each side's result is the same pure function of the arguments. -/
theorem algebraic : Cert.algebraic_KernelIdeal_ReferenceIdeal := by
  intro m ρ m' ρ' _ hagree
  refine ⟨fun c => (Cert.KernelIdeal.Hand.dat1 (F := Ideal) (Cert.KernelIdeal.Hand.V5 m ρ) c).arrAt 7 Cert.KernelIdeal.cfg1.N,
    Cert.KernelIdeal.Hand.run_main (F := Ideal) m ρ, ?_⟩
  refine (θ_run Cert.ReferenceIdeal.defs _ _).mono (fun r h c => ⟨(h c).1.trans ?_, (h c).2⟩)
    (Cert.ReferenceIdeal.Hand.run_val (F := Ideal) m' ρ')
  show _ = (Cert.KernelIdeal.Hand.dat1 (F := Ideal) (Cert.KernelIdeal.Hand.V5 m ρ) c).arrAt 7 Cert.KernelIdeal.cfg1.N
  rw [Cert.ReferenceIdeal.Hand.rOut_eq m' c, Cert.KernelIdeal.Hand.kOut_eq m ρ c]
  obtain ⟨h0, h1, h2, h3, h4, h5, h6, h7, h8, h9, h10, h11, h12, h13, h14, h15⟩ := hagree c
  rw [h0, h1, h2, h3, h4, h5, h6, h7, h8, h9, h10, h11, h12, h13, h14, h15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
